-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024x20 : Shape := ⟨2, ![1024, 20]⟩
abbrev S1000x128 : Shape := ⟨2, ![1000, 128]⟩
abbrev S_ : Shape := ⟨0, ![]⟩

class Facts : Prop where
  bcast_S_S1000x128 : S_.BroadcastsInDim S1000x128 (![] : Fin 0 → Fin S1000x128.rank)
  reducesTo_S1000x128_S_d0_1 : S1000x128.ReducesTo [0, 1] S_
  h_S_ : 0 < S_.numel
  bcast_S_S1024x20 : S_.BroadcastsInDim S1024x20 (![] : Fin 0 → Fin S1024x20.rank)
  reducesTo_S1024x20_S_d0_1 : S1024x20.ReducesTo [0, 1] S_

variable [Facts]

def fn {F : FTy → Type} [FloatOps F] (main_arg0 : IVec S1024x20 32) (main_arg1 : FVec F S1000x128 .f32) : IVec S_ 1 :=
  let main_v0 : FVec F S1000x128 .f32 := Host.absf main_arg1
  let main_cst : FVec F S_ .f32 := constant S_ .f32 0x7F800000#32
  let main_v1 : FVec F S1000x128 .f32 := broadcastInDim S1000x128 ![] bcast_S_S1000x128 main_cst
  let main_v2 : IVec S1000x128 1 := cmpf .olt main_v0 main_v1
  let main_c : IVec S_ 1 := constantI S_ 1 1#1
  let main_v3 : IVec S_ 1 := (fun x v => Host.reduce IntOp.andi x v reducesTo_S1000x128_S_d0_1 h_S_) main_v2 main_c
  let main_c_0 : IVec S_ 32 := constantI S_ 32 0#32
  let main_v4 : IVec S1024x20 32 := broadcastInDim S1024x20 ![] bcast_S_S1024x20 main_c_0
  let main_v5 : IVec S1024x20 1 := cmpi .sge main_arg0 main_v4
  let main_c_1 : IVec S_ 32 := constantI S_ 32 999#32
  let main_v6 : IVec S1024x20 32 := broadcastInDim S1024x20 ![] bcast_S_S1024x20 main_c_1
  let main_v7 : IVec S1024x20 1 := cmpi .sle main_arg0 main_v6
  let main_v8 : IVec S1024x20 1 := andi main_v5 main_v7
  let main_c_2 : IVec S_ 1 := constantI S_ 1 1#1
  let main_v9 : IVec S_ 1 := (fun x v => Host.reduce IntOp.andi x v reducesTo_S1024x20_S_d0_1 h_S_) main_v8 main_c_2
  let main_v10 : IVec S_ 1 := andi main_v3 main_v9
  main_v10
-- ==== Kernel.lean ====
abbrev S1024x20 : Shape := ⟨2, ![1024, 20]⟩
abbrev S1000x128 : Shape := ⟨2, ![1000, 128]⟩
abbrev S20x1024 : Shape := ⟨2, ![20, 1024]⟩
abbrev S20x1024x128 : Shape := ⟨3, ![20, 1024, 128]⟩
abbrev S20x128 : Shape := ⟨2, ![20, 128]⟩
abbrev S20x32x128 : Shape := ⟨3, ![20, 32, 128]⟩
abbrev S_ : Shape := ⟨0, ![]⟩
abbrev S64x128 : Shape := ⟨2, ![64, 128]⟩
abbrev S40x128 : Shape := ⟨2, ![40, 128]⟩
abbrev S1x32x128 : Shape := ⟨3, ![1, 32, 128]⟩
abbrev S32x128 : Shape := ⟨2, ![32, 128]⟩
abbrev S1x32 : Shape := ⟨2, ![1, 32]⟩
abbrev S32 : Shape := ⟨1, ![32]⟩
abbrev S2x32x128 : Shape := ⟨3, ![2, 32, 128]⟩
abbrev S1024x20x128 : Shape := ⟨3, ![1024, 20, 128]⟩

abbrev nBuf : Table → Nat
  | .hbm => 5
  | .shared => 1
  | .local .scVector .vmem => 2
  | _ => 0

abbrev bufTy : (tb : Table) → Fin (nBuf tb) → BufTy
  | .hbm, ⟨0, _⟩ => ⟨S1024x20, .i32⟩
  | .hbm, ⟨1, _⟩ => ⟨S1000x128, .f32⟩
  | .hbm, ⟨2, _⟩ => ⟨S20x1024, .i32⟩
  | .hbm, ⟨3, _⟩ => ⟨S20x1024x128, .f32⟩
  | .hbm, ⟨4, _⟩ => ⟨S1024x20x128, .f32⟩
  | .shared, ⟨0, _⟩ => ⟨S1000x128, .f32⟩
  | .local .scVector .vmem, ⟨0, _⟩ => ⟨S20x128, .i32⟩
  | .local .scVector .vmem, ⟨1, _⟩ => ⟨S20x32x128, .f32⟩
  | _, _ => ⟨S1024x20, .i32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 24 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | _ => false

abbrev sig : RefSig :=
  ofTables nBuf rfl bufTy 5 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch2 : Ref sig .scVector := ⟨.shared, 0, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c0_i32_11 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v1 c4_i32
  let c0_i32_3 : BitVec 32 := 0#32
  let v16 : BitVec 1 := Scalar.cmpi .ne v15 c0_i32_3
  let v17 : BitVec 1 := Scalar.andi v14 v16
  let v3 : BitVec 32 := Scalar.divsi v1 c4_i32
  let c1_i32 : BitVec 32 := 1#32
  let v18 : BitVec 32 := Scalar.subi v3 c1_i32
  let v19 : BitVec 32 := Scalar.select v17 v18 v3
  let c128_i32 : BitVec 32 := 128#32
  let v20 : BitVec 32 := Scalar.muli v19 c128_i32
  ![0, v20.toNat]
def k0_cond1 (i : grid0.Coords) : BitVec 1 :=
  let arg1 : BitVec 32 := BitVec.ofNat 32 (i 1).val
  let c15_i32 : BitVec 32 := 15#32
  let v34 : BitVec 1 := Scalar.cmpi .slt arg1 c15_i32
  let v35 : BitVec 32 := Scalar.extui v34
  let c0_i32_13 : BitVec 32 := 0#32
  let v36 : BitVec 1 := Scalar.cmpi .ne v35 c0_i32_13
  v36

def k0_off2 (i : grid0.Coords) : Fin 2 → Nat :=
  let arg1 : BitVec 32 := BitVec.ofNat 32 (i 1).val
  let c64_i32_443 : BitVec 32 := 64#32
  let v323 : BitVec 32 := Scalar.muli arg1 c64_i32_443
  let c0_i32_444_r0 : BitVec 32 := 0#32
  ![v323.toNat, 0]
def k0_off3 (i : grid0.Coords) : Fin 2 → Nat :=
  let c0_i32_18 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v21 : BitVec 1 := Scalar.cmpi .eq c4_i32_4 c0_i32_5
  let c1_i32_6 : BitVec 32 := 1#32
  let v22 : BitVec 32 := Scalar.select v21 c1_i32_6 c4_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c32_i32_10 : BitVec 32 := 32#32
  let v31 : BitVec 32 := Scalar.muli v30 c32_i32_10
  ![0, v31.toNat]
def k0_off4 (i : grid0.Coords) : Fin 2 → Nat :=
  let c1_i32_24 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v21 : BitVec 1 := Scalar.cmpi .eq c4_i32_4 c0_i32_5
  let c1_i32_6 : BitVec 32 := 1#32
  let v22 : BitVec 32 := Scalar.select v21 c1_i32_6 c4_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c32_i32_10 : BitVec 32 := 32#32
  let v31 : BitVec 32 := Scalar.muli v30 c32_i32_10
  ![1, v31.toNat]
def k0_off5 (i : grid0.Coords) : Fin 2 → Nat :=
  let c2_i32_30 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v21 : BitVec 1 := Scalar.cmpi .eq c4_i32_4 c0_i32_5
  let c1_i32_6 : BitVec 32 := 1#32
  let v22 : BitVec 32 := Scalar.select v21 c1_i32_6 c4_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c32_i32_10 : BitVec 32 := 32#32
  let v31 : BitVec 32 := Scalar.muli v30 c32_i32_10
  ![2, v31.toNat]
def k0_off6 (i : grid0.Coords) : Fin 2 → Nat :=
  let c3_i32 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v21 : BitVec 1 := Scalar.cmpi .eq c4_i32_4 c0_i32_5
  let c1_i32_6 : BitVec 32 := 1#32
  let v22 : BitVec 32 := Scalar.select v21 c1_i32_6 c4_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c32_i32_10 : BitVec 32 := 32#32
  let v31 : BitVec 32 := Scalar.muli v30 c32_i32_10
  ![3, v31.toNat]
def k0_off7 (i : grid0.Coords) : Fin 2 → Nat :=
  let c4_i32_41 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v21 : BitVec 1 := Scalar.cmpi .eq c4_i32_4 c0_i32_5
  let c1_i32_6 : BitVec 32 := 1#32
  let v22 : BitVec 32 := Scalar.select v21 c1_i32_6 c4_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c32_i32_10 : BitVec 32 := 32#32
  let v31 : BitVec 32 := Scalar.muli v30 c32_i32_10
  ![4, v31.toNat]
def k0_off8 (i : grid0.Coords) : Fin 2 → Nat :=
  let c5_i32 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v21 : BitVec 1 := Scalar.cmpi .eq c4_i32_4 c0_i32_5
  let c1_i32_6 : BitVec 32 := 1#32
  let v22 : BitVec 32 := Scalar.select v21 c1_i32_6 c4_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c32_i32_10 : BitVec 32 := 32#32
  let v31 : BitVec 32 := Scalar.muli v30 c32_i32_10
  ![5, v31.toNat]
def k0_off9 (i : grid0.Coords) : Fin 2 → Nat :=
  let c6_i32 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v21 : BitVec 1 := Scalar.cmpi .eq c4_i32_4 c0_i32_5
  let c1_i32_6 : BitVec 32 := 1#32
  let v22 : BitVec 32 := Scalar.select v21 c1_i32_6 c4_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c32_i32_10 : BitVec 32 := 32#32
  let v31 : BitVec 32 := Scalar.muli v30 c32_i32_10
  ![6, v31.toNat]
def k0_off10 (i : grid0.Coords) : Fin 2 → Nat :=
  let c7_i32 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v21 : BitVec 1 := Scalar.cmpi .eq c4_i32_4 c0_i32_5
  let c1_i32_6 : BitVec 32 := 1#32
  let v22 : BitVec 32 := Scalar.select v21 c1_i32_6 c4_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c32_i32_10 : BitVec 32 := 32#32
  let v31 : BitVec 32 := Scalar.muli v30 c32_i32_10
  ![7, v31.toNat]
def k0_off11 (i : grid0.Coords) : Fin 2 → Nat :=
  let c8_i32 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v21 : BitVec 1 := Scalar.cmpi .eq c4_i32_4 c0_i32_5
  let c1_i32_6 : BitVec 32 := 1#32
  let v22 : BitVec 32 := Scalar.select v21 c1_i32_6 c4_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c32_i32_10 : BitVec 32 := 32#32
  let v31 : BitVec 32 := Scalar.muli v30 c32_i32_10
  ![8, v31.toNat]
def k0_off12 (i : grid0.Coords) : Fin 2 → Nat :=
  let c9_i32 : BitVec 32 := 9#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v21 : BitVec 1 := Scalar.cmpi .eq c4_i32_4 c0_i32_5
  let c1_i32_6 : BitVec 32 := 1#32
  let v22 : BitVec 32 := Scalar.select v21 c1_i32_6 c4_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c32_i32_10 : BitVec 32 := 32#32
  let v31 : BitVec 32 := Scalar.muli v30 c32_i32_10
  ![9, v31.toNat]
def k0_off13 (i : grid0.Coords) : Fin 2 → Nat :=
  let c10_i32 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v21 : BitVec 1 := Scalar.cmpi .eq c4_i32_4 c0_i32_5
  let c1_i32_6 : BitVec 32 := 1#32
  let v22 : BitVec 32 := Scalar.select v21 c1_i32_6 c4_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c32_i32_10 : BitVec 32 := 32#32
  let v31 : BitVec 32 := Scalar.muli v30 c32_i32_10
  ![10, v31.toNat]
def k0_off14 (i : grid0.Coords) : Fin 2 → Nat :=
  let c11_i32 : BitVec 32 := 11#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v21 : BitVec 1 := Scalar.cmpi .eq c4_i32_4 c0_i32_5
  let c1_i32_6 : BitVec 32 := 1#32
  let v22 : BitVec 32 := Scalar.select v21 c1_i32_6 c4_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c32_i32_10 : BitVec 32 := 32#32
  let v31 : BitVec 32 := Scalar.muli v30 c32_i32_10
  ![11, v31.toNat]
def k0_off15 (i : grid0.Coords) : Fin 2 → Nat :=
  let c12_i32 : BitVec 32 := 12#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v21 : BitVec 1 := Scalar.cmpi .eq c4_i32_4 c0_i32_5
  let c1_i32_6 : BitVec 32 := 1#32
  let v22 : BitVec 32 := Scalar.select v21 c1_i32_6 c4_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c32_i32_10 : BitVec 32 := 32#32
  let v31 : BitVec 32 := Scalar.muli v30 c32_i32_10
  ![12, v31.toNat]
def k0_off16 (i : grid0.Coords) : Fin 2 → Nat :=
  let c13_i32 : BitVec 32 := 13#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v21 : BitVec 1 := Scalar.cmpi .eq c4_i32_4 c0_i32_5
  let c1_i32_6 : BitVec 32 := 1#32
  let v22 : BitVec 32 := Scalar.select v21 c1_i32_6 c4_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c32_i32_10 : BitVec 32 := 32#32
  let v31 : BitVec 32 := Scalar.muli v30 c32_i32_10
  ![13, v31.toNat]
def k0_off17 (i : grid0.Coords) : Fin 2 → Nat :=
  let c14_i32 : BitVec 32 := 14#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v21 : BitVec 1 := Scalar.cmpi .eq c4_i32_4 c0_i32_5
  let c1_i32_6 : BitVec 32 := 1#32
  let v22 : BitVec 32 := Scalar.select v21 c1_i32_6 c4_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c32_i32_10 : BitVec 32 := 32#32
  let v31 : BitVec 32 := Scalar.muli v30 c32_i32_10
  ![14, v31.toNat]
def k0_off18 (i : grid0.Coords) : Fin 2 → Nat :=
  let c15_i32_97 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v21 : BitVec 1 := Scalar.cmpi .eq c4_i32_4 c0_i32_5
  let c1_i32_6 : BitVec 32 := 1#32
  let v22 : BitVec 32 := Scalar.select v21 c1_i32_6 c4_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c32_i32_10 : BitVec 32 := 32#32
  let v31 : BitVec 32 := Scalar.muli v30 c32_i32_10
  ![15, v31.toNat]
def k0_off19 (i : grid0.Coords) : Fin 2 → Nat :=
  let c16_i32 : BitVec 32 := 16#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v21 : BitVec 1 := Scalar.cmpi .eq c4_i32_4 c0_i32_5
  let c1_i32_6 : BitVec 32 := 1#32
  let v22 : BitVec 32 := Scalar.select v21 c1_i32_6 c4_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c32_i32_10 : BitVec 32 := 32#32
  let v31 : BitVec 32 := Scalar.muli v30 c32_i32_10
  ![16, v31.toNat]
def k0_off20 (i : grid0.Coords) : Fin 2 → Nat :=
  let c17_i32 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v21 : BitVec 1 := Scalar.cmpi .eq c4_i32_4 c0_i32_5
  let c1_i32_6 : BitVec 32 := 1#32
  let v22 : BitVec 32 := Scalar.select v21 c1_i32_6 c4_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c32_i32_10 : BitVec 32 := 32#32
  let v31 : BitVec 32 := Scalar.muli v30 c32_i32_10
  ![17, v31.toNat]
def k0_off21 (i : grid0.Coords) : Fin 2 → Nat :=
  let c18_i32 : BitVec 32 := 18#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v21 : BitVec 1 := Scalar.cmpi .eq c4_i32_4 c0_i32_5
  let c1_i32_6 : BitVec 32 := 1#32
  let v22 : BitVec 32 := Scalar.select v21 c1_i32_6 c4_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c32_i32_10 : BitVec 32 := 32#32
  let v31 : BitVec 32 := Scalar.muli v30 c32_i32_10
  ![18, v31.toNat]
def k0_off22 (i : grid0.Coords) : Fin 2 → Nat :=
  let c19_i32 : BitVec 32 := 19#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v21 : BitVec 1 := Scalar.cmpi .eq c4_i32_4 c0_i32_5
  let c1_i32_6 : BitVec 32 := 1#32
  let v22 : BitVec 32 := Scalar.select v21 c1_i32_6 c4_i32_4
  let v23 : BitVec 32 := Scalar.remsi v1 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let c32_i32_10 : BitVec 32 := 32#32
  let v31 : BitVec 32 := Scalar.muli v30 c32_i32_10
  ![19, v31.toNat]
def k0_off23 (i : grid0.Coords) : Fin 3 → Nat :=
  let c0_i32_138 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_139 : BitVec 32 := 0#32
  ![0, v2.toNat, 0]
def k0_off24 (i : grid0.Coords) : Fin 3 → Nat :=
  let c2_i32_160 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_161 : BitVec 32 := 0#32
  ![2, v2.toNat, 0]
def k0_off25 (i : grid0.Coords) : Fin 3 → Nat :=
  let c4_i32_182 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_183 : BitVec 32 := 0#32
  ![4, v2.toNat, 0]
def k0_off26 (i : grid0.Coords) : Fin 3 → Nat :=
  let c6_i32_204 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_205 : BitVec 32 := 0#32
  ![6, v2.toNat, 0]
def k0_off27 (i : grid0.Coords) : Fin 3 → Nat :=
  let c8_i32_226 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_227 : BitVec 32 := 0#32
  ![8, v2.toNat, 0]
def k0_off28 (i : grid0.Coords) : Fin 3 → Nat :=
  let c10_i32_248 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_249 : BitVec 32 := 0#32
  ![10, v2.toNat, 0]
def k0_off29 (i : grid0.Coords) : Fin 3 → Nat :=
  let c12_i32_270 : BitVec 32 := 12#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_271 : BitVec 32 := 0#32
  ![12, v2.toNat, 0]
def k0_off30 (i : grid0.Coords) : Fin 3 → Nat :=
  let c14_i32_292 : BitVec 32 := 14#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_293 : BitVec 32 := 0#32
  ![14, v2.toNat, 0]
def k0_off31 (i : grid0.Coords) : Fin 3 → Nat :=
  let c16_i32_314 : BitVec 32 := 16#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_315 : BitVec 32 := 0#32
  ![16, v2.toNat, 0]
def k0_off32 (i : grid0.Coords) : Fin 3 → Nat :=
  let c18_i32_336 : BitVec 32 := 18#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_337 : BitVec 32 := 0#32
  ![18, v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S1024x20_S20x1024_1_0 : S1024x20.Transposes [1, 0] S20x1024
  inb_S1000x128_S40x128_960_0 : ∀ a, (![960, 0] : Fin 2 → Nat) a + S40x128.size a ≤ S1000x128.size a
  inb_S20x32x128_S1x32x128_0_0_0 : ∀ a, (![0, 0, 0] : Fin 3 → Nat) a + S1x32x128.size a ≤ S20x32x128.size a
  squeezes_S1x32x128_S32x128 : S1x32x128.Squeezes S32x128
  squeezes_S1x32_S32 : S1x32.Squeezes S32
  inb_S1000x128_S1000x128_0_0 : ∀ a, (![0, 0] : Fin 2 → Nat) a + S1000x128.size a ≤ S1000x128.size a
  gathers_S1000x128_S32x128 : S1000x128.Gathers 0 S32x128
  inb_S20x32x128_S1x32x128_1_0_0 : ∀ a, (![1, 0, 0] : Fin 3 → Nat) a + S1x32x128.size a ≤ S20x32x128.size a
  inb_S20x32x128_S1x32x128_2_0_0 : ∀ a, (![2, 0, 0] : Fin 3 → Nat) a + S1x32x128.size a ≤ S20x32x128.size a
  inb_S20x32x128_S1x32x128_3_0_0 : ∀ a, (![3, 0, 0] : Fin 3 → Nat) a + S1x32x128.size a ≤ S20x32x128.size a
  inb_S20x32x128_S1x32x128_4_0_0 : ∀ a, (![4, 0, 0] : Fin 3 → Nat) a + S1x32x128.size a ≤ S20x32x128.size a
  inb_S20x32x128_S1x32x128_5_0_0 : ∀ a, (![5, 0, 0] : Fin 3 → Nat) a + S1x32x128.size a ≤ S20x32x128.size a
  inb_S20x32x128_S1x32x128_6_0_0 : ∀ a, (![6, 0, 0] : Fin 3 → Nat) a + S1x32x128.size a ≤ S20x32x128.size a
  inb_S20x32x128_S1x32x128_7_0_0 : ∀ a, (![7, 0, 0] : Fin 3 → Nat) a + S1x32x128.size a ≤ S20x32x128.size a
  inb_S20x32x128_S1x32x128_8_0_0 : ∀ a, (![8, 0, 0] : Fin 3 → Nat) a + S1x32x128.size a ≤ S20x32x128.size a
  inb_S20x32x128_S1x32x128_9_0_0 : ∀ a, (![9, 0, 0] : Fin 3 → Nat) a + S1x32x128.size a ≤ S20x32x128.size a
  inb_S20x32x128_S1x32x128_10_0_0 : ∀ a, (![10, 0, 0] : Fin 3 → Nat) a + S1x32x128.size a ≤ S20x32x128.size a
  inb_S20x32x128_S1x32x128_11_0_0 : ∀ a, (![11, 0, 0] : Fin 3 → Nat) a + S1x32x128.size a ≤ S20x32x128.size a
  inb_S20x32x128_S1x32x128_12_0_0 : ∀ a, (![12, 0, 0] : Fin 3 → Nat) a + S1x32x128.size a ≤ S20x32x128.size a
  inb_S20x32x128_S1x32x128_13_0_0 : ∀ a, (![13, 0, 0] : Fin 3 → Nat) a + S1x32x128.size a ≤ S20x32x128.size a
  inb_S20x32x128_S1x32x128_14_0_0 : ∀ a, (![14, 0, 0] : Fin 3 → Nat) a + S1x32x128.size a ≤ S20x32x128.size a
  inb_S20x32x128_S1x32x128_15_0_0 : ∀ a, (![15, 0, 0] : Fin 3 → Nat) a + S1x32x128.size a ≤ S20x32x128.size a
  inb_S20x32x128_S1x32x128_16_0_0 : ∀ a, (![16, 0, 0] : Fin 3 → Nat) a + S1x32x128.size a ≤ S20x32x128.size a
  inb_S20x32x128_S1x32x128_17_0_0 : ∀ a, (![17, 0, 0] : Fin 3 → Nat) a + S1x32x128.size a ≤ S20x32x128.size a
  inb_S20x32x128_S1x32x128_18_0_0 : ∀ a, (![18, 0, 0] : Fin 3 → Nat) a + S1x32x128.size a ≤ S20x32x128.size a
  inb_S20x32x128_S1x32x128_19_0_0 : ∀ a, (![19, 0, 0] : Fin 3 → Nat) a + S1x32x128.size a ≤ S20x32x128.size a
  inb_S20x32x128_S2x32x128_0_0_0 : ∀ a, (![0, 0, 0] : Fin 3 → Nat) a + S2x32x128.size a ≤ S20x32x128.size a
  inb_S20x32x128_S2x32x128_2_0_0 : ∀ a, (![2, 0, 0] : Fin 3 → Nat) a + S2x32x128.size a ≤ S20x32x128.size a
  inb_S20x32x128_S2x32x128_4_0_0 : ∀ a, (![4, 0, 0] : Fin 3 → Nat) a + S2x32x128.size a ≤ S20x32x128.size a
  inb_S20x32x128_S2x32x128_6_0_0 : ∀ a, (![6, 0, 0] : Fin 3 → Nat) a + S2x32x128.size a ≤ S20x32x128.size a
  inb_S20x32x128_S2x32x128_8_0_0 : ∀ a, (![8, 0, 0] : Fin 3 → Nat) a + S2x32x128.size a ≤ S20x32x128.size a
  inb_S20x32x128_S2x32x128_10_0_0 : ∀ a, (![10, 0, 0] : Fin 3 → Nat) a + S2x32x128.size a ≤ S20x32x128.size a
  inb_S20x32x128_S2x32x128_12_0_0 : ∀ a, (![12, 0, 0] : Fin 3 → Nat) a + S2x32x128.size a ≤ S20x32x128.size a
  inb_S20x32x128_S2x32x128_14_0_0 : ∀ a, (![14, 0, 0] : Fin 3 → Nat) a + S2x32x128.size a ≤ S20x32x128.size a
  inb_S20x32x128_S2x32x128_16_0_0 : ∀ a, (![16, 0, 0] : Fin 3 → Nat) a + S2x32x128.size a ≤ S20x32x128.size a
  inb_S20x32x128_S2x32x128_18_0_0 : ∀ a, (![18, 0, 0] : Fin 3 → Nat) a + S2x32x128.size a ≤ S20x32x128.size a
  transposes_S20x1024x128_S1024x20x128_1_0_2 : S20x1024x128.Transposes [1, 0, 2] S1024x20x128
  hcc0_scratch3 : 0 + S_.numel ≤ 24
  hcc0_scratch4 : 1 + S_.numel ≤ 24
  hcc0_scratch5 : 2 + S_.numel ≤ 24
  hcc0_scratch6 : 3 + S_.numel ≤ 24
  hcc0_scratch7 : 4 + S_.numel ≤ 24
  hcc0_scratch8 : 5 + S_.numel ≤ 24
  hcc0_scratch9 : 6 + S_.numel ≤ 24
  hcc0_scratch10 : 7 + S_.numel ≤ 24
  hcc0_scratch11 : 8 + S_.numel ≤ 24
  hcc0_scratch12 : 9 + S_.numel ≤ 24
  hcc0_scratch13 : 10 + S_.numel ≤ 24
  hcc0_scratch14 : 11 + S_.numel ≤ 24
  hcc0_scratch15 : 12 + S_.numel ≤ 24
  hcc0_scratch16 : 13 + S_.numel ≤ 24
  hcc0_scratch17 : 14 + S_.numel ≤ 24
  hcc0_scratch18 : 15 + S_.numel ≤ 24
  hcc0_scratch19 : 16 + S_.numel ≤ 24
  hcc0_scratch20 : 17 + S_.numel ≤ 24
  hcc0_scratch21 : 18 + S_.numel ≤ 24
  hcc0_scratch22 : 19 + S_.numel ≤ 24
  hcc0_scratch23 : 20 + S_.numel ≤ 24
  hcc0_scratch24 : 21 + S_.numel ≤ 24
  hcc0_scoped0 : 22 + S_.numel ≤ 24
  hcc0_scoped1 : 23 + S_.numel ≤ 24
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S20x128.size a ≤ S20x1024.size a
  k0_off2_inb : ∀ i : grid0.Coords, ∀ (k0_h1 : k0_cond1 i = 1#1), ∀ a, (k0_off2 i) a + S64x128.size a ≤ S1000x128.size a
  k0_off3_inb : ∀ i : grid0.Coords, ∀ a, (k0_off3 i) a + S1x32.size a ≤ S20x128.size a
  k0_off4_inb : ∀ i : grid0.Coords, ∀ a, (k0_off4 i) a + S1x32.size a ≤ S20x128.size a
  k0_off5_inb : ∀ i : grid0.Coords, ∀ a, (k0_off5 i) a + S1x32.size a ≤ S20x128.size a
  k0_off6_inb : ∀ i : grid0.Coords, ∀ a, (k0_off6 i) a + S1x32.size a ≤ S20x128.size a
  k0_off7_inb : ∀ i : grid0.Coords, ∀ a, (k0_off7 i) a + S1x32.size a ≤ S20x128.size a
  k0_off8_inb : ∀ i : grid0.Coords, ∀ a, (k0_off8 i) a + S1x32.size a ≤ S20x128.size a
  k0_off9_inb : ∀ i : grid0.Coords, ∀ a, (k0_off9 i) a + S1x32.size a ≤ S20x128.size a
  k0_off10_inb : ∀ i : grid0.Coords, ∀ a, (k0_off10 i) a + S1x32.size a ≤ S20x128.size a
  k0_off11_inb : ∀ i : grid0.Coords, ∀ a, (k0_off11 i) a + S1x32.size a ≤ S20x128.size a
  k0_off12_inb : ∀ i : grid0.Coords, ∀ a, (k0_off12 i) a + S1x32.size a ≤ S20x128.size a
  k0_off13_inb : ∀ i : grid0.Coords, ∀ a, (k0_off13 i) a + S1x32.size a ≤ S20x128.size a
  k0_off14_inb : ∀ i : grid0.Coords, ∀ a, (k0_off14 i) a + S1x32.size a ≤ S20x128.size a
  k0_off15_inb : ∀ i : grid0.Coords, ∀ a, (k0_off15 i) a + S1x32.size a ≤ S20x128.size a
  k0_off16_inb : ∀ i : grid0.Coords, ∀ a, (k0_off16 i) a + S1x32.size a ≤ S20x128.size a
  k0_off17_inb : ∀ i : grid0.Coords, ∀ a, (k0_off17 i) a + S1x32.size a ≤ S20x128.size a
  k0_off18_inb : ∀ i : grid0.Coords, ∀ a, (k0_off18 i) a + S1x32.size a ≤ S20x128.size a
  k0_off19_inb : ∀ i : grid0.Coords, ∀ a, (k0_off19 i) a + S1x32.size a ≤ S20x128.size a
  k0_off20_inb : ∀ i : grid0.Coords, ∀ a, (k0_off20 i) a + S1x32.size a ≤ S20x128.size a
  k0_off21_inb : ∀ i : grid0.Coords, ∀ a, (k0_off21 i) a + S1x32.size a ≤ S20x128.size a
  k0_off22_inb : ∀ i : grid0.Coords, ∀ a, (k0_off22 i) a + S1x32.size a ≤ S20x128.size a
  k0_off23_inb : ∀ i : grid0.Coords, ∀ a, (k0_off23 i) a + S2x32x128.size a ≤ S20x1024x128.size a
  k0_off24_inb : ∀ i : grid0.Coords, ∀ a, (k0_off24 i) a + S2x32x128.size a ≤ S20x1024x128.size a
  k0_off25_inb : ∀ i : grid0.Coords, ∀ a, (k0_off25 i) a + S2x32x128.size a ≤ S20x1024x128.size a
  k0_off26_inb : ∀ i : grid0.Coords, ∀ a, (k0_off26 i) a + S2x32x128.size a ≤ S20x1024x128.size a
  k0_off27_inb : ∀ i : grid0.Coords, ∀ a, (k0_off27 i) a + S2x32x128.size a ≤ S20x1024x128.size a
  k0_off28_inb : ∀ i : grid0.Coords, ∀ a, (k0_off28 i) a + S2x32x128.size a ≤ S20x1024x128.size a
  k0_off29_inb : ∀ i : grid0.Coords, ∀ a, (k0_off29 i) a + S2x32x128.size a ≤ S20x1024x128.size a
  k0_off30_inb : ∀ i : grid0.Coords, ∀ a, (k0_off30 i) a + S2x32x128.size a ≤ S20x1024x128.size a
  k0_off31_inb : ∀ i : grid0.Coords, ∀ a, (k0_off31 i) a + S2x32x128.size a ≤ S20x1024x128.size a
  k0_off32_inb : ∀ i : grid0.Coords, ∀ a, (k0_off32 i) a + S2x32x128.size a ≤ S20x1024x128.size a

variable [Facts₀]

abbrev cc0_scratch3 : DmaSems sig S_ := SemArray.consecutive 0 S_ hcc0_scratch3
abbrev cc0_scratch4 : DmaSems sig S_ := SemArray.consecutive 1 S_ hcc0_scratch4
abbrev cc0_scratch5 : DmaSems sig S_ := SemArray.consecutive 2 S_ hcc0_scratch5
abbrev cc0_scratch6 : DmaSems sig S_ := SemArray.consecutive 3 S_ hcc0_scratch6
abbrev cc0_scratch7 : DmaSems sig S_ := SemArray.consecutive 4 S_ hcc0_scratch7
abbrev cc0_scratch8 : DmaSems sig S_ := SemArray.consecutive 5 S_ hcc0_scratch8
abbrev cc0_scratch9 : DmaSems sig S_ := SemArray.consecutive 6 S_ hcc0_scratch9
abbrev cc0_scratch10 : DmaSems sig S_ := SemArray.consecutive 7 S_ hcc0_scratch10
abbrev cc0_scratch11 : DmaSems sig S_ := SemArray.consecutive 8 S_ hcc0_scratch11
abbrev cc0_scratch12 : DmaSems sig S_ := SemArray.consecutive 9 S_ hcc0_scratch12
abbrev cc0_scratch13 : DmaSems sig S_ := SemArray.consecutive 10 S_ hcc0_scratch13
abbrev cc0_scratch14 : DmaSems sig S_ := SemArray.consecutive 11 S_ hcc0_scratch14
abbrev cc0_scratch15 : DmaSems sig S_ := SemArray.consecutive 12 S_ hcc0_scratch15
abbrev cc0_scratch16 : DmaSems sig S_ := SemArray.consecutive 13 S_ hcc0_scratch16
abbrev cc0_scratch17 : DmaSems sig S_ := SemArray.consecutive 14 S_ hcc0_scratch17
abbrev cc0_scratch18 : DmaSems sig S_ := SemArray.consecutive 15 S_ hcc0_scratch18
abbrev cc0_scratch19 : DmaSems sig S_ := SemArray.consecutive 16 S_ hcc0_scratch19
abbrev cc0_scratch20 : DmaSems sig S_ := SemArray.consecutive 17 S_ hcc0_scratch20
abbrev cc0_scratch21 : DmaSems sig S_ := SemArray.consecutive 18 S_ hcc0_scratch21
abbrev cc0_scratch22 : DmaSems sig S_ := SemArray.consecutive 19 S_ hcc0_scratch22
abbrev cc0_scratch23 : DmaSems sig S_ := SemArray.consecutive 20 S_ hcc0_scratch23
abbrev cc0_scratch24 : DmaSems sig S_ := SemArray.consecutive 21 S_ hcc0_scratch24
abbrev cc0_scoped0 : DmaSems sig S_ := SemArray.consecutive 22 S_ hcc0_scoped0
abbrev cc0_scoped1 : DmaSems sig S_ := SemArray.consecutive 23 S_ hcc0_scoped1

class Facts : Prop extends Facts₀ where

variable [Facts]
-- ==== ReferenceIdeal.lean ====
abbrev S1024x20 : Shape := ⟨2, ![1024, 20]⟩
abbrev S1000x128 : Shape := ⟨2, ![1000, 128]⟩
abbrev S1024x20x1 : Shape := ⟨3, ![1024, 20, 1]⟩
abbrev S1x1x1000 : Shape := ⟨3, ![1, 1, 1000]⟩
abbrev S1024x20x1000 : Shape := ⟨3, ![1024, 20, 1000]⟩
abbrev S1024x20x128 : Shape := ⟨3, ![1024, 20, 128]⟩

abbrev nBuf : Space → Nat
  | .hbm => 9
  | .vmem => 0
  | .smem => 0
  | _ => 0

abbrev bufTy : (tb : Table) → Fin (tcTables nBuf tb) → BufTy
  | .hbm, ⟨0, _⟩ => ⟨S1024x20, .i32⟩
  | .hbm, ⟨1, _⟩ => ⟨S1000x128, .f32⟩
  | .hbm, ⟨2, _⟩ => ⟨S1024x20x1, .i32⟩
  | .hbm, ⟨3, _⟩ => ⟨S1x1x1000, .i32⟩
  | .hbm, ⟨4, _⟩ => ⟨S1024x20x1000, .i32⟩
  | .hbm, ⟨5, _⟩ => ⟨S1024x20x1000, .i32⟩
  | .hbm, ⟨6, _⟩ => ⟨S1024x20x1000, .i1⟩
  | .hbm, ⟨7, _⟩ => ⟨S1024x20x1000, .f32⟩
  | .hbm, ⟨8, _⟩ => ⟨S1024x20x128, .f32⟩
  | _, _ => ⟨S1024x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_v0 : Ref sig .tc := ⟨.hbm, 7, rfl⟩
abbrev main_v1 : Ref sig .tc := ⟨.hbm, 8, rfl⟩

abbrev nD : Nat := 1
abbrev τ : Topo := Topo.v7x

variable {F : FTy → Type} [FloatOps F]

class Facts₀ : Prop where
  bcast_S1024x20_S1024x20x1_0_1 : S1024x20.BroadcastsInDim S1024x20x1 (![0, 1] : Fin 2 → Fin S1024x20x1.rank)
  bcast_S1024x20x1_S1024x20x1000_0_1_2 : S1024x20x1.BroadcastsInDim S1024x20x1000 (![0, 1, 2] : Fin 3 → Fin S1024x20x1000.rank)
  bcast_S1x1x1000_S1024x20x1000_0_1_2 : S1x1x1000.BroadcastsInDim S1024x20x1000 (![0, 1, 2] : Fin 3 → Fin S1024x20x1000.rank)
  dot_S1024x20x1000_S1000x128_S1024x20x128_2_0_01_1_n_n_wf : DotDims.WF S1024x20x1000 S1000x128 S1024x20x128 [2] [0] [0, 1] [1] [] []

variable [Facts₀]

def dot_S1024x20x1000_S1000x128_S1024x20x128_2_0_01_1_n_n : DotDims S1024x20x1000 S1000x128 S1024x20x128 where
  lhsContracting := [2]
  rhsContracting := [0]
  lhsNonContracting := [0, 1]
  rhsNonContracting := [1]
  lhsBatch := []
  rhsBatch := []
  wf := dot_S1024x20x1000_S1000x128_S1024x20x128_2_0_01_1_n_n_wf

class Facts : Prop extends Facts₀ where

variable [Facts]
-- ==== Proof.ProtocolI.lean ====
/-
  The embedding lookup's protocol on the two SparseCores: what each vector subcore is handed, what it hands back, and what
  the subcore barrier carries.

  The kernel gathers rows of the table W : [1000, 128] at the indices xT : [20, 1024] (the transposed index array) into
  out : [20, 1024, 128], out[j, b, :] = W[xT[j, b], :]. Each of the 32 vector subcores (SparseCore c, subcore s, worker
  number 2 s + c) owns the 32 columns b ∈ [64 s + 32 c, 64 s + 32 c + 32) of out, in ten blocks of two index rows each.
  The table is first staged into each SparseCore's shared vector memory: subcore s < 15 copies rows [64 s, 64 s + 64),
  subcore 15 rows [960, 1000); the subcores of a SparseCore then meet at the barrier, where each hands every other a
  read share of the rows it staged, so that after the barrier every subcore holds a read share of the WHOLE staged
  table, at the contents of W.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.ValueIdx
import proofs.«206460_g62371515072547_cont_9to1_m_307_33_alg».proof.Proof.Gen.KernelIdeal
import proofs.«206460_g62371515072547_cont_9to1_m_307_33_alg».proof.Proof.Gen.KernelIdeal.Skeleton

noncomputable section

namespace Cert.Lookup.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
/-- The SparseCore of the call's core number c. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the barrier cells' rounds, the transfers' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- The barrier cells' rounds: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The launch memory, the arrays and what they hold -/

variable (m : (ℓ : Loc nD τ sig) → Buf (Elt F) ℓ) (ρ : Dev nD → PrngReg)

/-- The index array x : [1024, 20], the table W, the transposed indices xT : [20, 1024], the kernel's result
    out : [20, 1024, 128] and the program's result [1024, 20, 128], as the TensorCore names them. -/
abbrev aLoc (d : Dev nD) : Loc nD τ sig := (SparseCore.T d).loc main_arg0
abbrev wLoc (d : Dev nD) : Loc nD τ sig := (SparseCore.T d).loc main_arg1
abbrev xtLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

/-- SparseCore c's staged table, as every subcore of it addresses it. -/
abbrev shRef (c : Fin τ.nSC) : DevRef τ sig := ⟨.shared, ⟨0, by decide⟩, c⟩
abbrev shLoc (d : Dev nD) (c : Fin τ.nSC) : Loc nD τ sig := (d, shRef c)

variable [FloatOps F]

/-- The transposed indices: xT[j, b] = x[b, j]. -/
def XT (d : Dev nD) : Buf (Elt F) (xtLoc d) :=
  (transpose S20x1024 [1, 0] (m (aLoc d)) transposes_S1024x20_S20x1024_1_0 : (⟨S20x1024, .i32⟩ : BufTy).Contents (Elt F))
/-- The table. -/
abbrev Wm (d : Dev nD) : Buf (Elt F) (wLoc d) := m (wLoc d)
/-- The staged table holds the table. -/
def Wsh (d : Dev nD) (c : Fin τ.nSC) : Buf (Elt F) (shLoc d c) := (m (wLoc d) : (⟨S1000x128, .f32⟩ : BufTy).Contents (Elt F))

/-- The row a 32-bit index word names, read modulo the table's height (under the precondition the word is below 1000 and
    the reading is exact). -/
def rowIx (w : BitVec 32) : Fin 1000 := ⟨w.toNat % 1000, Nat.mod_lt _ (by decide)⟩

/-- What the kernel leaves in out: out[j, b, e] = W[xT[j, b], e]. -/
def OUT (d : Dev nD) : Buf (Elt F) (oLoc d) :=
  ((fun i => (m (wLoc d) : (⟨S1000x128, .f32⟩ : BufTy).Contents (Elt F))
      (ValueIdx.ix2 (rowIx ((XT m d : (⟨S20x1024, .i32⟩ : BufTy).Contents (Elt F)) (ValueIdx.ix2 (i 0) (i 1)))) (i 2)))
    : (⟨S20x1024x128, .f32⟩ : BufTy).Contents (Elt F))

/-! ## The pieces: rows of the staged table per subcore, blocks of out per subcore -/

/-- The rows of the table subcore s stages: 64 from 64 s, the last subcore the remaining 40. -/
def pieceRect (s : Fin 16) : Rect S1000x128 :=
  Rect.unit (s := S1000x128) ![64 * s.val, 0] ![if s.val < 15 then 64 else 40, 128] (by revert s; decide)
abbrev pieceSet (s : Fin 16) : Finset S1000x128.Idx := (pieceRect s).set

/-- Block k of the columns of out that subcore s of SparseCore c owns: index rows 2 k and 2 k + 1, columns from
    64 s + 32 c, every lane. -/
def oRect (c : Fin 2) (s : Fin 16) (k : Fin 10) : Rect S20x1024x128 :=
  Rect.unit (s := S20x1024x128) ![2 * k.val, 64 * s.val + 32 * c.val, 0] ![2, 32, 128] (by revert c s k; decide)
abbrev oSet (c : Fin 2) (s : Fin 16) (k : Fin 10) : Finset S20x1024x128.Idx := (oRect c s k).set

/-! ## The barrier cells -/

theorem nSub_eq : τ.nSub = 16 := rfl
theorem nSC_eq : τ.nSC = 2 := rfl

/-- Subcore (c, j)'s barrier semaphore of device d. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- A read share of the rows subcore n staged, at the table's contents: the share numbered by the receiving subcore j. -/
abbrev shPiecePts (d : Dev nD) (c : Fin τ.nSC) (n j : Fin 16) : sProp 𝕄 :=
  shLoc d c ↦[pieceSet n]{shareTok fullShare 16 j} Wsh m d c

/-- What the duty named n in subcore j's round hands over: subcore n's staged rows, at j's read share. -/
def bPay (g : GSem nD τ sig) (n : ℕ) : sProp 𝕄 :=
  match g with
  | ((d, .scVector c j), _) => if h : n < 16 then shPiecePts m d c ⟨n, h⟩ (Fin.cast nSub_eq j) else iprop(emp)
  | _ => iprop(emp)

/-- The barrier cells' schedule: one round on each, of one unit duty per subcore (named by its number). -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

theorem bRd_duties₀ (d : Dev nD) (c : Fin τ.nSC) (j : Fin τ.nSub) : (bRd (F := F) m).duties (bcell d c j) 0 = (Finset.univ : Finset (Fin τ.nSub)).image Fin.val := by
  simp [bRd, isBar]
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
theorem bRd_expect (d : Dev nD) (c : Fin τ.nSC) (j : Fin τ.nSub) : 0 + grid0.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What a subcore owes for the barrier: a unit on every subcore's cell of its SparseCore, at the call's index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- Subcore (c, i)'s barrier kit: every cell's invariant of its SparseCore and that each has reached round 0, its duty
    token in every subcore's round 0, its own position at the origin of round 0, and the credit for the sixteen units
    of its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) m) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What the handshakes carry -/

/-- SparseCore c's read shares of the two read-only arrays, and subcore i's of those. -/
abbrev qC (c : Fin 2) : PosShare TreeShare := shareTok fullShare 2 c
abbrev qT (c : Fin 2) (i : Fin 16) : PosShare TreeShare := shareTok (qC c) 16 i

/-- The ten blocks of out subcore (c, s) owns, at contents f. -/
abbrev oBlocks (d : Dev nD) (c : Fin 2) (s : Fin 16) (f : Buf (Elt F) (oLoc d)) : sProp 𝕄 :=
  bigSep Finset.univ fun k : Fin 10 => oLoc d ↦[oSet c s k]{fullShare} f

abbrev cC (c : Fin ((K (F := F)).nCore 0)) : Fin 2 := Fin.cast nCore_zero c
abbrev sC (i : Fin ((K (F := F)).nSub 0)) : Fin 16 := Fin.cast nSub_zero i

/-- The one call takes, per SparseCore, a read share of xT and of W and that SparseCore's columns of out; each task its
    read shares, its ten blocks of out and its rows of the staged table (at whatever they hold), and brings back the
    blocks written, its read share of the whole staged table and what it kept of its own rows, at the table's
    contents; each task's proof consumes its barrier kit; each subcore owes its arrivals. -/
def P : (K (F := F)).Pay (nD := nD) (Val := Elt F) (Name := ℕ) (U := UU) where
  st := fun q d c => match q with
    | 0 => iprop((xtLoc d ↦{qC (cC c)} XT m d) ∗ (wLoc d ↦{qC (cC c)} Wm m d)
        ∗ (bigSep Finset.univ fun s : Fin 16 => oBlocks d (cC c) s (m (oLoc d))))
  dn := fun q d c => match q with
    | 0 => iprop((xtLoc d ↦{qC (cC c)} XT m d) ∗ (wLoc d ↦{qC (cC c)} Wm m d)
        ∗ (bigSep Finset.univ fun s : Fin 16 => oBlocks d (cC c) s (OUT m d)))
  go := fun q d c i => match q with
    | 0 => iprop((xtLoc d ↦{qT (cC c) (sC i)} XT m d) ∗ (wLoc d ↦{qT (cC c) (sC i)} Wm m d)
        ∗ oBlocks d (cC c) (sC i) (m (oLoc d)) ∗ ∃ f, shLoc d (coreOf c) ↦[pieceSet (sC i)]{fullShare} f)
  td := fun q d c i => match q with
    | 0 => iprop((xtLoc d ↦{qT (cC c) (sC i)} XT m d) ∗ (wLoc d ↦{qT (cC c) (sC i)} Wm m d)
        ∗ oBlocks d (cC c) (sC i) (OUT m d)
        ∗ (shLoc d (coreOf c) ↦{shareTok fullShare 16 (sC i)} Wsh m d (coreOf c))
        ∗ (shLoc d (coreOf c) ↦[pieceSet (sC i)]{shareDrop fullShare 16} Wsh m d (coreOf c)))
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance P_storable : (P (F := F) m).IsStorable where
  st q d c := match q with | 0 => by unfold P; dsimp only; infer_instance
  dn q d c := match q with | 0 => by unfold P; dsimp only; infer_instance
  go q d c i := match q with | 0 => by unfold P; dsimp only; infer_instance
  td q d c i := match q with | 0 => by unfold P; dsimp only; infer_instance

end Cert.Lookup.KernelIdeal

end
-- ==== Proof.HostOps.lean ====
import Idealize.ShloMosaic.Lib.ValueIdx
import Idealize.ShloMosaic.Lib.ValueLayout

/-!
# The host's two transposes, read at an index

The kernel program transposes the index array `x : [1024, 20]` to `[20, 1024]` before the lookup and transposes the
gathered rows `y : [20, 1024, 128]` back to `[1024, 20, 128]` after it (permutation `[1, 0, 2]`: the first two axes
swapped, the last kept). Read at an index given by its coordinates, each is the operand at the index with the first two
coordinates exchanged: `xᵀ[j, b] = x[b, j]` and `yᵀ[b, j, e] = y[j, b, e]`. Both hold for any element type and
for any witness of the shape relation.
-/

namespace Cert.Lookup.HostOps

open Idealize.ShloMosaic Idealize.ShloMosaic.ValueIdx

variable {α : Type}

/-- A rank-3 array with its first two axes swapped (permutation `[1, 0, 2]`) reads, at `(i, j, e)`, the operand at
    `(j, i, e)`. -/
theorem transpose_ix3_102_apply {a b c : ℕ} (y : (⟨3, ![a, b, c]⟩ : Shape).Idx → α)
    (h : (⟨3, ![a, b, c]⟩ : Shape).Transposes [1, 0, 2] ⟨3, ![b, a, c]⟩) (i : Fin b) (j : Fin a) (e : Fin c) :
    transpose ⟨3, ![b, a, c]⟩ [1, 0, 2] y h (ix3 i j e) = y (ix3 j i e) :=
  transpose_apply _ y h _ _ fun d => match d with | ⟨0, _⟩ => rfl | ⟨1, _⟩ => rfl | ⟨2, _⟩ => rfl

/-- The index array transposed: `xᵀ[j, b] = x[b, j]` for `j < 20`, `b < 1024`. -/
theorem transpose_idx_apply (x : (⟨2, ![1024, 20]⟩ : Shape).Idx → α)
    (h : (⟨2, ![1024, 20]⟩ : Shape).Transposes [1, 0] ⟨2, ![20, 1024]⟩) (j : Fin 20) (b : Fin 1024) :
    transpose ⟨2, ![20, 1024]⟩ [1, 0] x h (ix2 j b) = x (ix2 b j) :=
  transpose_ix2_apply x h j b

/-- The gathered rows transposed back: `yᵀ[b, j, e] = y[j, b, e]` for `b < 1024`, `j < 20`, `e < 128`. -/
theorem transpose_rows_apply (y : (⟨3, ![20, 1024, 128]⟩ : Shape).Idx → α)
    (h : (⟨3, ![20, 1024, 128]⟩ : Shape).Transposes [1, 0, 2] ⟨3, ![1024, 20, 128]⟩)
    (b : Fin 1024) (j : Fin 20) (e : Fin 128) :
    transpose ⟨3, ![1024, 20, 128]⟩ [1, 0, 2] y h (ix3 b j e) = y (ix3 j b e) :=
  transpose_ix3_102_apply y h b j e

/-- The index array transposed, at any index `i` of the result: the operand at `(i 1, i 0)`. -/
theorem transpose_idx_apply' (x : (⟨2, ![1024, 20]⟩ : Shape).Idx → α)
    (h : (⟨2, ![1024, 20]⟩ : Shape).Transposes [1, 0] ⟨2, ![20, 1024]⟩) (i : (⟨2, ![20, 1024]⟩ : Shape).Idx) :
    transpose ⟨2, ![20, 1024]⟩ [1, 0] x h i = x (ix2 (n0 := 1024) (n1 := 20) (i 1) (i 0)) :=
  transpose_apply _ x h _ _ fun d => match d with | ⟨0, _⟩ => rfl | ⟨1, _⟩ => rfl

/-- The gathered rows transposed back, at any index `i` of the result: the operand at `(i 1, i 0, i 2)`. -/
theorem transpose_rows_apply' (y : (⟨3, ![20, 1024, 128]⟩ : Shape).Idx → α)
    (h : (⟨3, ![20, 1024, 128]⟩ : Shape).Transposes [1, 0, 2] ⟨3, ![1024, 20, 128]⟩)
    (i : (⟨3, ![1024, 20, 128]⟩ : Shape).Idx) :
    transpose ⟨3, ![1024, 20, 128]⟩ [1, 0, 2] y h i = y (ix3 (n0 := 20) (n1 := 1024) (n2 := 128) (i 1) (i 0) (i 2)) :=
  transpose_apply _ y h _ _ fun d => match d with | ⟨0, _⟩ => rfl | ⟨1, _⟩ => rfl | ⟨2, _⟩ => rfl

end Cert.Lookup.HostOps
-- ==== Proof.ValI.lean ====
/-
  The pieces of the arrays one vector subcore touches, as the kernel slices them, and what they hold after each of its
  transfers: the rows of the table it stages hold the table's rows; the index scratch holds its block of the transposed
  indices, every word a row number below 1000.
-/
import proofs.«206460_g62371515072547_cont_9to1_m_307_33_alg».proof.Proof.ProtocolI
import Idealize.ShloMosaic.Lib.Writes
import proofs.«206460_g62371515072547_cont_9to1_m_307_33_alg».proof.Proof.HostOps

noncomputable section

namespace Cert.Lookup.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

variable (m : (ℓ : Loc nD τ sig) → Buf (Elt F) ℓ)

local notation "xtV" => (Memref.whole Cert.KernelIdeal.main_v0_scv : Memref Cert.KernelIdeal.sig Kind.scVector Space.hbm Cert.KernelIdeal.S20x1024 EltTy.i32)
local notation "wV" => (Memref.whole Cert.KernelIdeal.main_arg1_scv : Memref Cert.KernelIdeal.sig Kind.scVector Space.hbm Cert.KernelIdeal.S1000x128 EltTy.f32)
local notation "oV" => (Memref.whole Cert.KernelIdeal.main_v1_scv : Memref Cert.KernelIdeal.sig Kind.scVector Space.hbm Cert.KernelIdeal.S20x1024x128 EltTy.f32)
local notation "ixV" => (Memref.whole Cert.KernelIdeal.cc0_scratch0 : Memref Cert.KernelIdeal.sig Kind.scVector Space.vmem Cert.KernelIdeal.S20x128 EltTy.i32)
local notation "rwV" => (Memref.whole Cert.KernelIdeal.cc0_scratch1 : Memref Cert.KernelIdeal.sig Kind.scVector Space.vmem Cert.KernelIdeal.S20x32x128 EltTy.f32)
local notation "shV" => (Memref.whole Cert.KernelIdeal.cc0_scratch2 : Memref Cert.KernelIdeal.sig Kind.scVector Space.shared Cert.KernelIdeal.S1000x128 EltTy.f32)

variable [FloatOps F]

/-- Row j of the row scratch, as a gather's destination; rows 2 k and 2 k + 1 together, as a copy's source. -/
abbrev rowK0 : Memref sig .scVector .vmem S32x128 .f32 :=
  ((rwV).slice (Rect.unit (s := S20x32x128) ![0, 0, 0] S1x32x128.size inb_S20x32x128_S1x32x128_0_0_0) (fun _ => rfl)).squeeze S32x128 squeezes_S1x32x128_S32x128
abbrev rowK1 : Memref sig .scVector .vmem S32x128 .f32 :=
  ((rwV).slice (Rect.unit (s := S20x32x128) ![1, 0, 0] S1x32x128.size inb_S20x32x128_S1x32x128_1_0_0) (fun _ => rfl)).squeeze S32x128 squeezes_S1x32x128_S32x128
abbrev rowK2 : Memref sig .scVector .vmem S32x128 .f32 :=
  ((rwV).slice (Rect.unit (s := S20x32x128) ![2, 0, 0] S1x32x128.size inb_S20x32x128_S1x32x128_2_0_0) (fun _ => rfl)).squeeze S32x128 squeezes_S1x32x128_S32x128
abbrev rowK3 : Memref sig .scVector .vmem S32x128 .f32 :=
  ((rwV).slice (Rect.unit (s := S20x32x128) ![3, 0, 0] S1x32x128.size inb_S20x32x128_S1x32x128_3_0_0) (fun _ => rfl)).squeeze S32x128 squeezes_S1x32x128_S32x128
abbrev rowK4 : Memref sig .scVector .vmem S32x128 .f32 :=
  ((rwV).slice (Rect.unit (s := S20x32x128) ![4, 0, 0] S1x32x128.size inb_S20x32x128_S1x32x128_4_0_0) (fun _ => rfl)).squeeze S32x128 squeezes_S1x32x128_S32x128
abbrev rowK5 : Memref sig .scVector .vmem S32x128 .f32 :=
  ((rwV).slice (Rect.unit (s := S20x32x128) ![5, 0, 0] S1x32x128.size inb_S20x32x128_S1x32x128_5_0_0) (fun _ => rfl)).squeeze S32x128 squeezes_S1x32x128_S32x128
abbrev rowK6 : Memref sig .scVector .vmem S32x128 .f32 :=
  ((rwV).slice (Rect.unit (s := S20x32x128) ![6, 0, 0] S1x32x128.size inb_S20x32x128_S1x32x128_6_0_0) (fun _ => rfl)).squeeze S32x128 squeezes_S1x32x128_S32x128
abbrev rowK7 : Memref sig .scVector .vmem S32x128 .f32 :=
  ((rwV).slice (Rect.unit (s := S20x32x128) ![7, 0, 0] S1x32x128.size inb_S20x32x128_S1x32x128_7_0_0) (fun _ => rfl)).squeeze S32x128 squeezes_S1x32x128_S32x128
abbrev rowK8 : Memref sig .scVector .vmem S32x128 .f32 :=
  ((rwV).slice (Rect.unit (s := S20x32x128) ![8, 0, 0] S1x32x128.size inb_S20x32x128_S1x32x128_8_0_0) (fun _ => rfl)).squeeze S32x128 squeezes_S1x32x128_S32x128
abbrev rowK9 : Memref sig .scVector .vmem S32x128 .f32 :=
  ((rwV).slice (Rect.unit (s := S20x32x128) ![9, 0, 0] S1x32x128.size inb_S20x32x128_S1x32x128_9_0_0) (fun _ => rfl)).squeeze S32x128 squeezes_S1x32x128_S32x128
abbrev rowK10 : Memref sig .scVector .vmem S32x128 .f32 :=
  ((rwV).slice (Rect.unit (s := S20x32x128) ![10, 0, 0] S1x32x128.size inb_S20x32x128_S1x32x128_10_0_0) (fun _ => rfl)).squeeze S32x128 squeezes_S1x32x128_S32x128
abbrev rowK11 : Memref sig .scVector .vmem S32x128 .f32 :=
  ((rwV).slice (Rect.unit (s := S20x32x128) ![11, 0, 0] S1x32x128.size inb_S20x32x128_S1x32x128_11_0_0) (fun _ => rfl)).squeeze S32x128 squeezes_S1x32x128_S32x128
abbrev rowK12 : Memref sig .scVector .vmem S32x128 .f32 :=
  ((rwV).slice (Rect.unit (s := S20x32x128) ![12, 0, 0] S1x32x128.size inb_S20x32x128_S1x32x128_12_0_0) (fun _ => rfl)).squeeze S32x128 squeezes_S1x32x128_S32x128
abbrev rowK13 : Memref sig .scVector .vmem S32x128 .f32 :=
  ((rwV).slice (Rect.unit (s := S20x32x128) ![13, 0, 0] S1x32x128.size inb_S20x32x128_S1x32x128_13_0_0) (fun _ => rfl)).squeeze S32x128 squeezes_S1x32x128_S32x128
abbrev rowK14 : Memref sig .scVector .vmem S32x128 .f32 :=
  ((rwV).slice (Rect.unit (s := S20x32x128) ![14, 0, 0] S1x32x128.size inb_S20x32x128_S1x32x128_14_0_0) (fun _ => rfl)).squeeze S32x128 squeezes_S1x32x128_S32x128
abbrev rowK15 : Memref sig .scVector .vmem S32x128 .f32 :=
  ((rwV).slice (Rect.unit (s := S20x32x128) ![15, 0, 0] S1x32x128.size inb_S20x32x128_S1x32x128_15_0_0) (fun _ => rfl)).squeeze S32x128 squeezes_S1x32x128_S32x128
abbrev rowK16 : Memref sig .scVector .vmem S32x128 .f32 :=
  ((rwV).slice (Rect.unit (s := S20x32x128) ![16, 0, 0] S1x32x128.size inb_S20x32x128_S1x32x128_16_0_0) (fun _ => rfl)).squeeze S32x128 squeezes_S1x32x128_S32x128
abbrev rowK17 : Memref sig .scVector .vmem S32x128 .f32 :=
  ((rwV).slice (Rect.unit (s := S20x32x128) ![17, 0, 0] S1x32x128.size inb_S20x32x128_S1x32x128_17_0_0) (fun _ => rfl)).squeeze S32x128 squeezes_S1x32x128_S32x128
abbrev rowK18 : Memref sig .scVector .vmem S32x128 .f32 :=
  ((rwV).slice (Rect.unit (s := S20x32x128) ![18, 0, 0] S1x32x128.size inb_S20x32x128_S1x32x128_18_0_0) (fun _ => rfl)).squeeze S32x128 squeezes_S1x32x128_S32x128
abbrev rowK19 : Memref sig .scVector .vmem S32x128 .f32 :=
  ((rwV).slice (Rect.unit (s := S20x32x128) ![19, 0, 0] S1x32x128.size inb_S20x32x128_S1x32x128_19_0_0) (fun _ => rfl)).squeeze S32x128 squeezes_S1x32x128_S32x128
abbrev pairK0 : Memref sig .scVector .vmem S2x32x128 .f32 :=
  (rwV).slice (Rect.unit (s := S20x32x128) ![0, 0, 0] S2x32x128.size inb_S20x32x128_S2x32x128_0_0_0) (fun _ => rfl)
abbrev pairK1 : Memref sig .scVector .vmem S2x32x128 .f32 :=
  (rwV).slice (Rect.unit (s := S20x32x128) ![2, 0, 0] S2x32x128.size inb_S20x32x128_S2x32x128_2_0_0) (fun _ => rfl)
abbrev pairK2 : Memref sig .scVector .vmem S2x32x128 .f32 :=
  (rwV).slice (Rect.unit (s := S20x32x128) ![4, 0, 0] S2x32x128.size inb_S20x32x128_S2x32x128_4_0_0) (fun _ => rfl)
abbrev pairK3 : Memref sig .scVector .vmem S2x32x128 .f32 :=
  (rwV).slice (Rect.unit (s := S20x32x128) ![6, 0, 0] S2x32x128.size inb_S20x32x128_S2x32x128_6_0_0) (fun _ => rfl)
abbrev pairK4 : Memref sig .scVector .vmem S2x32x128 .f32 :=
  (rwV).slice (Rect.unit (s := S20x32x128) ![8, 0, 0] S2x32x128.size inb_S20x32x128_S2x32x128_8_0_0) (fun _ => rfl)
abbrev pairK5 : Memref sig .scVector .vmem S2x32x128 .f32 :=
  (rwV).slice (Rect.unit (s := S20x32x128) ![10, 0, 0] S2x32x128.size inb_S20x32x128_S2x32x128_10_0_0) (fun _ => rfl)
abbrev pairK6 : Memref sig .scVector .vmem S2x32x128 .f32 :=
  (rwV).slice (Rect.unit (s := S20x32x128) ![12, 0, 0] S2x32x128.size inb_S20x32x128_S2x32x128_12_0_0) (fun _ => rfl)
abbrev pairK7 : Memref sig .scVector .vmem S2x32x128 .f32 :=
  (rwV).slice (Rect.unit (s := S20x32x128) ![14, 0, 0] S2x32x128.size inb_S20x32x128_S2x32x128_14_0_0) (fun _ => rfl)
abbrev pairK8 : Memref sig .scVector .vmem S2x32x128 .f32 :=
  (rwV).slice (Rect.unit (s := S20x32x128) ![16, 0, 0] S2x32x128.size inb_S20x32x128_S2x32x128_16_0_0) (fun _ => rfl)
abbrev pairK9 : Memref sig .scVector .vmem S2x32x128 .f32 :=
  (rwV).slice (Rect.unit (s := S20x32x128) ![18, 0, 0] S2x32x128.size inb_S20x32x128_S2x32x128_18_0_0) (fun _ => rfl)
/-- The staged table whole, as a gather's source. -/
abbrev shSrcK : Memref sig .scVector .shared S1000x128 .f32 :=
  (shV).slice (Rect.unit (s := S1000x128) ![0, 0] S1000x128.size inb_S1000x128_S1000x128_0_0) (fun _ => rfl)

/-- The precondition, as the lookup needs it: every index word names a row of the table. -/
def PreOK : Prop := ∀ (d : Dev nD) (j : S1024x20.Idx), ((m (aLoc d) : (⟨S1024x20, .i32⟩ : BufTy).Contents (Elt F)) j).toNat < 1000

/-- Every transposed index word names a row of the table. -/
theorem XT_lt (hpre : PreOK m) (d : Dev nD) (i : S20x1024.Idx) :
    ((XT m d : (⟨S20x1024, .i32⟩ : BufTy).Contents (Elt F)) i).toNat < 1000 := by
  unfold XT
  rw [Cert.Lookup.HostOps.transpose_idx_apply']
  exact hpre d _

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev cL (L : grid0.Coords) : Fin 2 := Fin.cast bound_zero (L 0)
abbrev jL (L : grid0.Coords) : Fin 16 := Fin.cast bound_one (L 1)

/-- Column q of the subcore's 32 columns of the result: 64 s + 32 c + q. -/
def colIx (L : grid0.Coords) (q : Fin 32) : Fin 1024 :=
  ⟨64 * (L 1).val + 32 * (L 0).val + q.val, by
    have h1 : (L 1).val < 16 := (L 1).isLt
    have h0 : (L 0).val < 2 := (L 0).isLt
    have hq := q.isLt
    omega⟩

/-- What the row scratch holds once every gather has landed: entry (j, q, e) is the result's entry (j, 64 s + 32 c + q, e). -/
def ROWS (L : grid0.Coords) : Buf (Elt F) ((V d (cV L) (jV L)).loc cc0_scratch1) :=
  ((fun i => (OUT m d : (⟨S20x1024x128, .f32⟩ : BufTy).Contents (Elt F)) (ValueIdx.ix3 (i 0) (colIx L (i 1)) (i 2)))
    : (⟨S20x32x128, .f32⟩ : BufTy).Contents (Elt F))

omit [FloatOps F] in
theorem cond1_iff : ∀ L : grid0.Coords, k0_cond1 L = 1#1 ↔ (L 1).val < 15 := by decide +kernel

/-- The rows a subcore below the last stages, as the kernel slices them. -/
abbrev shPieceK (L : grid0.Coords) (h : k0_cond1 L = 1#1) : Memref sig .scVector .shared S64x128 .f32 :=
  (shV).slice (Rect.unit (s := S1000x128) (k0_off2 L) S64x128.size (k0_off2_inb L h)) (fun _ => rfl)
abbrev wPieceK (L : grid0.Coords) (h : k0_cond1 L = 1#1) : Memref sig .scVector .hbm S64x128 .f32 :=
  (wV).slice (Rect.unit (s := S1000x128) (k0_off2 L) S64x128.size (k0_off2_inb L h)) (fun _ => rfl)

omit [FloatOps F] in
theorem set_shPieceK (h : k0_cond1 L = 1#1) : (shPieceK L h).view.set = pieceSet (jL L) := by
  refine (View.set_slice_whole (cc0_scratch2 : Ref sig .scVector) _).trans ?_
  have hlt : (L 1).val < 15 := (cond1_iff L).mp h
  ext i
  unfold pieceSet pieceRect
  rw [Rect.mem_set_unit, Rect.mem_set_unit, k0_off2_eq]
  refine forall_congr' fun a => ?_
  match a with
  | 0 => simp [hlt]
  | 1 => simp

omit [FloatOps F] in
theorem pts_shPieceK (h : k0_cond1 L = 1#1) (f : Buf (Elt F) (shLoc d (cV L))) :
    ((shPieceK L h).view.loc (V d (cV L) (jV L)) ↦[(shPieceK L h).view.set]{fullShare} f : sProp 𝕄) = shLoc d (cV L) ↦[pieceSet (jL L)]{fullShare} f := by
  rw [set_shPieceK]; rfl

omit [FloatOps F] in
theorem pts_xtV (q : PosShare TreeShare) (f : Buf (Elt F) (xtLoc d)) :
    ((xtV).view.loc (V d (cV L) (jV L)) ↦{q} f : sProp 𝕄) = xtLoc d ↦{q} f := rfl
omit [FloatOps F] in
theorem pts_wV (q : PosShare TreeShare) (f : Buf (Elt F) (wLoc d)) :
    ((wV).view.loc (V d (cV L) (jV L)) ↦{q} f : sProp 𝕄) = wLoc d ↦{q} f := rfl
omit [FloatOps F] in
theorem pts_ixV (f : Buf (Elt F) ((V d (cV L) (jV L)).loc cc0_scratch0)) :
    ((ixV).view.loc (V d (cV L) (jV L)) ↦{fullShare} f : sProp 𝕄) = (V d (cV L) (jV L)).loc cc0_scratch0 ↦{fullShare} f := rfl
omit [FloatOps F] in
theorem pts_rwV (f : Buf (Elt F) ((V d (cV L) (jV L)).loc cc0_scratch1)) :
    ((rwV).view.loc (V d (cV L) (jV L)) ↦{fullShare} f : sProp 𝕄) = (V d (cV L) (jV L)).loc cc0_scratch1 ↦{fullShare} f := rfl

abbrev oB0 (L : grid0.Coords) : Memref sig .scVector .hbm S2x32x128 .f32 :=
  (oV).slice (Rect.unit (s := S20x1024x128) (k0_off23 L) S2x32x128.size (k0_off23_inb L)) (fun _ => rfl)
omit [FloatOps F] in
theorem set_oB0 : (oB0 L).view.set = oSet (cL L) (jL L) 0 := by
  refine (View.set_slice_whole (main_v1_scv : Ref sig .scVector) _).trans ?_
  ext i
  unfold oSet oRect
  rw [Rect.mem_set_unit, Rect.mem_set_unit, k0_off23_eq]
  refine forall_congr' fun a => ?_
  match a with
  | 0 => simp
  | 1 => simp
  | 2 => simp
omit [FloatOps F] in
theorem pts_oB0 (f : Buf (Elt F) (oLoc d)) :
    ((oB0 L).view.loc (V d (cV L) (jV L)) ↦[(oB0 L).view.set]{fullShare} f : sProp 𝕄) = oLoc d ↦[oSet (cL L) (jL L) 0]{fullShare} f := by
  rw [set_oB0]

abbrev oB1 (L : grid0.Coords) : Memref sig .scVector .hbm S2x32x128 .f32 :=
  (oV).slice (Rect.unit (s := S20x1024x128) (k0_off24 L) S2x32x128.size (k0_off24_inb L)) (fun _ => rfl)
omit [FloatOps F] in
theorem set_oB1 : (oB1 L).view.set = oSet (cL L) (jL L) 1 := by
  refine (View.set_slice_whole (main_v1_scv : Ref sig .scVector) _).trans ?_
  ext i
  unfold oSet oRect
  rw [Rect.mem_set_unit, Rect.mem_set_unit, k0_off24_eq]
  refine forall_congr' fun a => ?_
  match a with
  | 0 => simp
  | 1 => simp
  | 2 => simp
omit [FloatOps F] in
theorem pts_oB1 (f : Buf (Elt F) (oLoc d)) :
    ((oB1 L).view.loc (V d (cV L) (jV L)) ↦[(oB1 L).view.set]{fullShare} f : sProp 𝕄) = oLoc d ↦[oSet (cL L) (jL L) 1]{fullShare} f := by
  rw [set_oB1]

abbrev oB2 (L : grid0.Coords) : Memref sig .scVector .hbm S2x32x128 .f32 :=
  (oV).slice (Rect.unit (s := S20x1024x128) (k0_off25 L) S2x32x128.size (k0_off25_inb L)) (fun _ => rfl)
omit [FloatOps F] in
theorem set_oB2 : (oB2 L).view.set = oSet (cL L) (jL L) 2 := by
  refine (View.set_slice_whole (main_v1_scv : Ref sig .scVector) _).trans ?_
  ext i
  unfold oSet oRect
  rw [Rect.mem_set_unit, Rect.mem_set_unit, k0_off25_eq]
  refine forall_congr' fun a => ?_
  match a with
  | 0 => simp
  | 1 => simp
  | 2 => simp
omit [FloatOps F] in
theorem pts_oB2 (f : Buf (Elt F) (oLoc d)) :
    ((oB2 L).view.loc (V d (cV L) (jV L)) ↦[(oB2 L).view.set]{fullShare} f : sProp 𝕄) = oLoc d ↦[oSet (cL L) (jL L) 2]{fullShare} f := by
  rw [set_oB2]

abbrev oB3 (L : grid0.Coords) : Memref sig .scVector .hbm S2x32x128 .f32 :=
  (oV).slice (Rect.unit (s := S20x1024x128) (k0_off26 L) S2x32x128.size (k0_off26_inb L)) (fun _ => rfl)
omit [FloatOps F] in
theorem set_oB3 : (oB3 L).view.set = oSet (cL L) (jL L) 3 := by
  refine (View.set_slice_whole (main_v1_scv : Ref sig .scVector) _).trans ?_
  ext i
  unfold oSet oRect
  rw [Rect.mem_set_unit, Rect.mem_set_unit, k0_off26_eq]
  refine forall_congr' fun a => ?_
  match a with
  | 0 => simp
  | 1 => simp
  | 2 => simp
omit [FloatOps F] in
theorem pts_oB3 (f : Buf (Elt F) (oLoc d)) :
    ((oB3 L).view.loc (V d (cV L) (jV L)) ↦[(oB3 L).view.set]{fullShare} f : sProp 𝕄) = oLoc d ↦[oSet (cL L) (jL L) 3]{fullShare} f := by
  rw [set_oB3]

abbrev oB4 (L : grid0.Coords) : Memref sig .scVector .hbm S2x32x128 .f32 :=
  (oV).slice (Rect.unit (s := S20x1024x128) (k0_off27 L) S2x32x128.size (k0_off27_inb L)) (fun _ => rfl)
omit [FloatOps F] in
theorem set_oB4 : (oB4 L).view.set = oSet (cL L) (jL L) 4 := by
  refine (View.set_slice_whole (main_v1_scv : Ref sig .scVector) _).trans ?_
  ext i
  unfold oSet oRect
  rw [Rect.mem_set_unit, Rect.mem_set_unit, k0_off27_eq]
  refine forall_congr' fun a => ?_
  match a with
  | 0 => simp
  | 1 => simp
  | 2 => simp
omit [FloatOps F] in
theorem pts_oB4 (f : Buf (Elt F) (oLoc d)) :
    ((oB4 L).view.loc (V d (cV L) (jV L)) ↦[(oB4 L).view.set]{fullShare} f : sProp 𝕄) = oLoc d ↦[oSet (cL L) (jL L) 4]{fullShare} f := by
  rw [set_oB4]

abbrev oB5 (L : grid0.Coords) : Memref sig .scVector .hbm S2x32x128 .f32 :=
  (oV).slice (Rect.unit (s := S20x1024x128) (k0_off28 L) S2x32x128.size (k0_off28_inb L)) (fun _ => rfl)
omit [FloatOps F] in
theorem set_oB5 : (oB5 L).view.set = oSet (cL L) (jL L) 5 := by
  refine (View.set_slice_whole (main_v1_scv : Ref sig .scVector) _).trans ?_
  ext i
  unfold oSet oRect
  rw [Rect.mem_set_unit, Rect.mem_set_unit, k0_off28_eq]
  refine forall_congr' fun a => ?_
  match a with
  | 0 => simp
  | 1 => simp
  | 2 => simp
omit [FloatOps F] in
theorem pts_oB5 (f : Buf (Elt F) (oLoc d)) :
    ((oB5 L).view.loc (V d (cV L) (jV L)) ↦[(oB5 L).view.set]{fullShare} f : sProp 𝕄) = oLoc d ↦[oSet (cL L) (jL L) 5]{fullShare} f := by
  rw [set_oB5]

abbrev oB6 (L : grid0.Coords) : Memref sig .scVector .hbm S2x32x128 .f32 :=
  (oV).slice (Rect.unit (s := S20x1024x128) (k0_off29 L) S2x32x128.size (k0_off29_inb L)) (fun _ => rfl)
omit [FloatOps F] in
theorem set_oB6 : (oB6 L).view.set = oSet (cL L) (jL L) 6 := by
  refine (View.set_slice_whole (main_v1_scv : Ref sig .scVector) _).trans ?_
  ext i
  unfold oSet oRect
  rw [Rect.mem_set_unit, Rect.mem_set_unit, k0_off29_eq]
  refine forall_congr' fun a => ?_
  match a with
  | 0 => simp
  | 1 => simp
  | 2 => simp
omit [FloatOps F] in
theorem pts_oB6 (f : Buf (Elt F) (oLoc d)) :
    ((oB6 L).view.loc (V d (cV L) (jV L)) ↦[(oB6 L).view.set]{fullShare} f : sProp 𝕄) = oLoc d ↦[oSet (cL L) (jL L) 6]{fullShare} f := by
  rw [set_oB6]

abbrev oB7 (L : grid0.Coords) : Memref sig .scVector .hbm S2x32x128 .f32 :=
  (oV).slice (Rect.unit (s := S20x1024x128) (k0_off30 L) S2x32x128.size (k0_off30_inb L)) (fun _ => rfl)
omit [FloatOps F] in
theorem set_oB7 : (oB7 L).view.set = oSet (cL L) (jL L) 7 := by
  refine (View.set_slice_whole (main_v1_scv : Ref sig .scVector) _).trans ?_
  ext i
  unfold oSet oRect
  rw [Rect.mem_set_unit, Rect.mem_set_unit, k0_off30_eq]
  refine forall_congr' fun a => ?_
  match a with
  | 0 => simp
  | 1 => simp
  | 2 => simp
omit [FloatOps F] in
theorem pts_oB7 (f : Buf (Elt F) (oLoc d)) :
    ((oB7 L).view.loc (V d (cV L) (jV L)) ↦[(oB7 L).view.set]{fullShare} f : sProp 𝕄) = oLoc d ↦[oSet (cL L) (jL L) 7]{fullShare} f := by
  rw [set_oB7]

abbrev oB8 (L : grid0.Coords) : Memref sig .scVector .hbm S2x32x128 .f32 :=
  (oV).slice (Rect.unit (s := S20x1024x128) (k0_off31 L) S2x32x128.size (k0_off31_inb L)) (fun _ => rfl)
omit [FloatOps F] in
theorem set_oB8 : (oB8 L).view.set = oSet (cL L) (jL L) 8 := by
  refine (View.set_slice_whole (main_v1_scv : Ref sig .scVector) _).trans ?_
  ext i
  unfold oSet oRect
  rw [Rect.mem_set_unit, Rect.mem_set_unit, k0_off31_eq]
  refine forall_congr' fun a => ?_
  match a with
  | 0 => simp
  | 1 => simp
  | 2 => simp
omit [FloatOps F] in
theorem pts_oB8 (f : Buf (Elt F) (oLoc d)) :
    ((oB8 L).view.loc (V d (cV L) (jV L)) ↦[(oB8 L).view.set]{fullShare} f : sProp 𝕄) = oLoc d ↦[oSet (cL L) (jL L) 8]{fullShare} f := by
  rw [set_oB8]

abbrev oB9 (L : grid0.Coords) : Memref sig .scVector .hbm S2x32x128 .f32 :=
  (oV).slice (Rect.unit (s := S20x1024x128) (k0_off32 L) S2x32x128.size (k0_off32_inb L)) (fun _ => rfl)
omit [FloatOps F] in
theorem set_oB9 : (oB9 L).view.set = oSet (cL L) (jL L) 9 := by
  refine (View.set_slice_whole (main_v1_scv : Ref sig .scVector) _).trans ?_
  ext i
  unfold oSet oRect
  rw [Rect.mem_set_unit, Rect.mem_set_unit, k0_off32_eq]
  refine forall_congr' fun a => ?_
  match a with
  | 0 => simp
  | 1 => simp
  | 2 => simp
omit [FloatOps F] in
theorem pts_oB9 (f : Buf (Elt F) (oLoc d)) :
    ((oB9 L).view.loc (V d (cV L) (jV L)) ↦[(oB9 L).view.set]{fullShare} f : sProp 𝕄) = oLoc d ↦[oSet (cL L) (jL L) 9]{fullShare} f := by
  rw [set_oB9]

/-- The rows the last subcore stages, as the kernel slices them. -/
abbrev sh40K : Memref sig .scVector .shared S40x128 .f32 :=
  (shV).slice (Rect.unit (s := S1000x128) ![960, 0] S40x128.size inb_S1000x128_S40x128_960_0) (fun _ => rfl)
abbrev w40K : Memref sig .scVector .hbm S40x128 .f32 :=
  (wV).slice (Rect.unit (s := S1000x128) ![960, 0] S40x128.size inb_S1000x128_S40x128_960_0) (fun _ => rfl)

omit [FloatOps F] in
theorem set_sh40K (h : (L 1).val = 15) : (sh40K).view.set = pieceSet (jL L) := by
  refine (View.set_slice_whole (cc0_scratch2 : Ref sig .scVector) _).trans ?_
  have hj : jL L = 15 := Fin.ext h
  rw [hj]
  rfl

omit [FloatOps F] in
theorem pts_sh40K (h : (L 1).val = 15) (f : Buf (Elt F) (shLoc d (cV L))) :
    ((sh40K).view.loc (V d (cV L) (jV L)) ↦[(sh40K).view.set]{fullShare} f : sProp 𝕄) = shLoc d (cV L) ↦[pieceSet (jL L)]{fullShare} f := by
  rw [set_sh40K L h]; rfl

/-- The block of the transposed indices the subcore fetches: all twenty rows, 128 columns from 128 * (worker / 4). -/
abbrev xtBlockK (L : grid0.Coords) : Memref sig .scVector .hbm S20x128 .i32 :=
  (xtV).slice (Rect.unit (s := S20x1024) (k0_off1 L) S20x128.size (k0_off1_inb L)) (fun _ => rfl)

abbrev idxRowK0 (L : grid0.Coords) : Memref sig .scVector .vmem S32 .i32 :=
  ((ixV).slice (Rect.unit (s := S20x128) (k0_off3 L) S1x32.size (k0_off3_inb L)) (fun _ => rfl)).squeeze S32 squeezes_S1x32_S32
theorem idx_inb0 (hpre : PreOK m) (g : Buf (Elt F) ((V d (cV L) (jV L)).loc cc0_scratch0)) (x : S32.Idx) :
    ((idxRowK0 L).view.read (Elt F) (View.write (Elt F) (ixV).view g (ReadAs.same.apply ((xtBlockK L).view.read (Elt F) (XT m d))) Finset.univ) x).toNat
      < S1000x128.size gathers_S1000x128_S32x128.axis := by
  have e : View.write (Elt F) (ixV).view g (ReadAs.same.apply ((xtBlockK L).view.read (Elt F) (XT m d))) Finset.univ
      = ReadAs.same.apply ((xtBlockK L).view.read (Elt F) (XT m d)) := View.write_whole_univ _ _ _
  rw [e, View.read_apply, cast_eq]
  exact XT_lt m hpre d _

abbrev idxRowK1 (L : grid0.Coords) : Memref sig .scVector .vmem S32 .i32 :=
  ((ixV).slice (Rect.unit (s := S20x128) (k0_off4 L) S1x32.size (k0_off4_inb L)) (fun _ => rfl)).squeeze S32 squeezes_S1x32_S32
theorem idx_inb1 (hpre : PreOK m) (g : Buf (Elt F) ((V d (cV L) (jV L)).loc cc0_scratch0)) (x : S32.Idx) :
    ((idxRowK1 L).view.read (Elt F) (View.write (Elt F) (ixV).view g (ReadAs.same.apply ((xtBlockK L).view.read (Elt F) (XT m d))) Finset.univ) x).toNat
      < S1000x128.size gathers_S1000x128_S32x128.axis := by
  have e : View.write (Elt F) (ixV).view g (ReadAs.same.apply ((xtBlockK L).view.read (Elt F) (XT m d))) Finset.univ
      = ReadAs.same.apply ((xtBlockK L).view.read (Elt F) (XT m d)) := View.write_whole_univ _ _ _
  rw [e, View.read_apply, cast_eq]
  exact XT_lt m hpre d _

abbrev idxRowK2 (L : grid0.Coords) : Memref sig .scVector .vmem S32 .i32 :=
  ((ixV).slice (Rect.unit (s := S20x128) (k0_off5 L) S1x32.size (k0_off5_inb L)) (fun _ => rfl)).squeeze S32 squeezes_S1x32_S32
theorem idx_inb2 (hpre : PreOK m) (g : Buf (Elt F) ((V d (cV L) (jV L)).loc cc0_scratch0)) (x : S32.Idx) :
    ((idxRowK2 L).view.read (Elt F) (View.write (Elt F) (ixV).view g (ReadAs.same.apply ((xtBlockK L).view.read (Elt F) (XT m d))) Finset.univ) x).toNat
      < S1000x128.size gathers_S1000x128_S32x128.axis := by
  have e : View.write (Elt F) (ixV).view g (ReadAs.same.apply ((xtBlockK L).view.read (Elt F) (XT m d))) Finset.univ
      = ReadAs.same.apply ((xtBlockK L).view.read (Elt F) (XT m d)) := View.write_whole_univ _ _ _
  rw [e, View.read_apply, cast_eq]
  exact XT_lt m hpre d _

abbrev idxRowK3 (L : grid0.Coords) : Memref sig .scVector .vmem S32 .i32 :=
  ((ixV).slice (Rect.unit (s := S20x128) (k0_off6 L) S1x32.size (k0_off6_inb L)) (fun _ => rfl)).squeeze S32 squeezes_S1x32_S32
theorem idx_inb3 (hpre : PreOK m) (g : Buf (Elt F) ((V d (cV L) (jV L)).loc cc0_scratch0)) (x : S32.Idx) :
    ((idxRowK3 L).view.read (Elt F) (View.write (Elt F) (ixV).view g (ReadAs.same.apply ((xtBlockK L).view.read (Elt F) (XT m d))) Finset.univ) x).toNat
      < S1000x128.size gathers_S1000x128_S32x128.axis := by
  have e : View.write (Elt F) (ixV).view g (ReadAs.same.apply ((xtBlockK L).view.read (Elt F) (XT m d))) Finset.univ
      = ReadAs.same.apply ((xtBlockK L).view.read (Elt F) (XT m d)) := View.write_whole_univ _ _ _
  rw [e, View.read_apply, cast_eq]
  exact XT_lt m hpre d _

abbrev idxRowK4 (L : grid0.Coords) : Memref sig .scVector .vmem S32 .i32 :=
  ((ixV).slice (Rect.unit (s := S20x128) (k0_off7 L) S1x32.size (k0_off7_inb L)) (fun _ => rfl)).squeeze S32 squeezes_S1x32_S32
theorem idx_inb4 (hpre : PreOK m) (g : Buf (Elt F) ((V d (cV L) (jV L)).loc cc0_scratch0)) (x : S32.Idx) :
    ((idxRowK4 L).view.read (Elt F) (View.write (Elt F) (ixV).view g (ReadAs.same.apply ((xtBlockK L).view.read (Elt F) (XT m d))) Finset.univ) x).toNat
      < S1000x128.size gathers_S1000x128_S32x128.axis := by
  have e : View.write (Elt F) (ixV).view g (ReadAs.same.apply ((xtBlockK L).view.read (Elt F) (XT m d))) Finset.univ
      = ReadAs.same.apply ((xtBlockK L).view.read (Elt F) (XT m d)) := View.write_whole_univ _ _ _
  rw [e, View.read_apply, cast_eq]
  exact XT_lt m hpre d _

abbrev idxRowK5 (L : grid0.Coords) : Memref sig .scVector .vmem S32 .i32 :=
  ((ixV).slice (Rect.unit (s := S20x128) (k0_off8 L) S1x32.size (k0_off8_inb L)) (fun _ => rfl)).squeeze S32 squeezes_S1x32_S32
theorem idx_inb5 (hpre : PreOK m) (g : Buf (Elt F) ((V d (cV L) (jV L)).loc cc0_scratch0)) (x : S32.Idx) :
    ((idxRowK5 L).view.read (Elt F) (View.write (Elt F) (ixV).view g (ReadAs.same.apply ((xtBlockK L).view.read (Elt F) (XT m d))) Finset.univ) x).toNat
      < S1000x128.size gathers_S1000x128_S32x128.axis := by
  have e : View.write (Elt F) (ixV).view g (ReadAs.same.apply ((xtBlockK L).view.read (Elt F) (XT m d))) Finset.univ
      = ReadAs.same.apply ((xtBlockK L).view.read (Elt F) (XT m d)) := View.write_whole_univ _ _ _
  rw [e, View.read_apply, cast_eq]
  exact XT_lt m hpre d _

abbrev idxRowK6 (L : grid0.Coords) : Memref sig .scVector .vmem S32 .i32 :=
  ((ixV).slice (Rect.unit (s := S20x128) (k0_off9 L) S1x32.size (k0_off9_inb L)) (fun _ => rfl)).squeeze S32 squeezes_S1x32_S32
theorem idx_inb6 (hpre : PreOK m) (g : Buf (Elt F) ((V d (cV L) (jV L)).loc cc0_scratch0)) (x : S32.Idx) :
    ((idxRowK6 L).view.read (Elt F) (View.write (Elt F) (ixV).view g (ReadAs.same.apply ((xtBlockK L).view.read (Elt F) (XT m d))) Finset.univ) x).toNat
      < S1000x128.size gathers_S1000x128_S32x128.axis := by
  have e : View.write (Elt F) (ixV).view g (ReadAs.same.apply ((xtBlockK L).view.read (Elt F) (XT m d))) Finset.univ
      = ReadAs.same.apply ((xtBlockK L).view.read (Elt F) (XT m d)) := View.write_whole_univ _ _ _
  rw [e, View.read_apply, cast_eq]
  exact XT_lt m hpre d _

abbrev idxRowK7 (L : grid0.Coords) : Memref sig .scVector .vmem S32 .i32 :=
  ((ixV).slice (Rect.unit (s := S20x128) (k0_off10 L) S1x32.size (k0_off10_inb L)) (fun _ => rfl)).squeeze S32 squeezes_S1x32_S32
theorem idx_inb7 (hpre : PreOK m) (g : Buf (Elt F) ((V d (cV L) (jV L)).loc cc0_scratch0)) (x : S32.Idx) :
    ((idxRowK7 L).view.read (Elt F) (View.write (Elt F) (ixV).view g (ReadAs.same.apply ((xtBlockK L).view.read (Elt F) (XT m d))) Finset.univ) x).toNat
      < S1000x128.size gathers_S1000x128_S32x128.axis := by
  have e : View.write (Elt F) (ixV).view g (ReadAs.same.apply ((xtBlockK L).view.read (Elt F) (XT m d))) Finset.univ
      = ReadAs.same.apply ((xtBlockK L).view.read (Elt F) (XT m d)) := View.write_whole_univ _ _ _
  rw [e, View.read_apply, cast_eq]
  exact XT_lt m hpre d _

abbrev idxRowK8 (L : grid0.Coords) : Memref sig .scVector .vmem S32 .i32 :=
  ((ixV).slice (Rect.unit (s := S20x128) (k0_off11 L) S1x32.size (k0_off11_inb L)) (fun _ => rfl)).squeeze S32 squeezes_S1x32_S32
theorem idx_inb8 (hpre : PreOK m) (g : Buf (Elt F) ((V d (cV L) (jV L)).loc cc0_scratch0)) (x : S32.Idx) :
    ((idxRowK8 L).view.read (Elt F) (View.write (Elt F) (ixV).view g (ReadAs.same.apply ((xtBlockK L).view.read (Elt F) (XT m d))) Finset.univ) x).toNat
      < S1000x128.size gathers_S1000x128_S32x128.axis := by
  have e : View.write (Elt F) (ixV).view g (ReadAs.same.apply ((xtBlockK L).view.read (Elt F) (XT m d))) Finset.univ
      = ReadAs.same.apply ((xtBlockK L).view.read (Elt F) (XT m d)) := View.write_whole_univ _ _ _
  rw [e, View.read_apply, cast_eq]
  exact XT_lt m hpre d _

abbrev idxRowK9 (L : grid0.Coords) : Memref sig .scVector .vmem S32 .i32 :=
  ((ixV).slice (Rect.unit (s := S20x128) (k0_off12 L) S1x32.size (k0_off12_inb L)) (fun _ => rfl)).squeeze S32 squeezes_S1x32_S32
theorem idx_inb9 (hpre : PreOK m) (g : Buf (Elt F) ((V d (cV L) (jV L)).loc cc0_scratch0)) (x : S32.Idx) :
    ((idxRowK9 L).view.read (Elt F) (View.write (Elt F) (ixV).view g (ReadAs.same.apply ((xtBlockK L).view.read (Elt F) (XT m d))) Finset.univ) x).toNat
      < S1000x128.size gathers_S1000x128_S32x128.axis := by
  have e : View.write (Elt F) (ixV).view g (ReadAs.same.apply ((xtBlockK L).view.read (Elt F) (XT m d))) Finset.univ
      = ReadAs.same.apply ((xtBlockK L).view.read (Elt F) (XT m d)) := View.write_whole_univ _ _ _
  rw [e, View.read_apply, cast_eq]
  exact XT_lt m hpre d _

abbrev idxRowK10 (L : grid0.Coords) : Memref sig .scVector .vmem S32 .i32 :=
  ((ixV).slice (Rect.unit (s := S20x128) (k0_off13 L) S1x32.size (k0_off13_inb L)) (fun _ => rfl)).squeeze S32 squeezes_S1x32_S32
theorem idx_inb10 (hpre : PreOK m) (g : Buf (Elt F) ((V d (cV L) (jV L)).loc cc0_scratch0)) (x : S32.Idx) :
    ((idxRowK10 L).view.read (Elt F) (View.write (Elt F) (ixV).view g (ReadAs.same.apply ((xtBlockK L).view.read (Elt F) (XT m d))) Finset.univ) x).toNat
      < S1000x128.size gathers_S1000x128_S32x128.axis := by
  have e : View.write (Elt F) (ixV).view g (ReadAs.same.apply ((xtBlockK L).view.read (Elt F) (XT m d))) Finset.univ
      = ReadAs.same.apply ((xtBlockK L).view.read (Elt F) (XT m d)) := View.write_whole_univ _ _ _
  rw [e, View.read_apply, cast_eq]
  exact XT_lt m hpre d _

abbrev idxRowK11 (L : grid0.Coords) : Memref sig .scVector .vmem S32 .i32 :=
  ((ixV).slice (Rect.unit (s := S20x128) (k0_off14 L) S1x32.size (k0_off14_inb L)) (fun _ => rfl)).squeeze S32 squeezes_S1x32_S32
theorem idx_inb11 (hpre : PreOK m) (g : Buf (Elt F) ((V d (cV L) (jV L)).loc cc0_scratch0)) (x : S32.Idx) :
    ((idxRowK11 L).view.read (Elt F) (View.write (Elt F) (ixV).view g (ReadAs.same.apply ((xtBlockK L).view.read (Elt F) (XT m d))) Finset.univ) x).toNat
      < S1000x128.size gathers_S1000x128_S32x128.axis := by
  have e : View.write (Elt F) (ixV).view g (ReadAs.same.apply ((xtBlockK L).view.read (Elt F) (XT m d))) Finset.univ
      = ReadAs.same.apply ((xtBlockK L).view.read (Elt F) (XT m d)) := View.write_whole_univ _ _ _
  rw [e, View.read_apply, cast_eq]
  exact XT_lt m hpre d _

abbrev idxRowK12 (L : grid0.Coords) : Memref sig .scVector .vmem S32 .i32 :=
  ((ixV).slice (Rect.unit (s := S20x128) (k0_off15 L) S1x32.size (k0_off15_inb L)) (fun _ => rfl)).squeeze S32 squeezes_S1x32_S32
theorem idx_inb12 (hpre : PreOK m) (g : Buf (Elt F) ((V d (cV L) (jV L)).loc cc0_scratch0)) (x : S32.Idx) :
    ((idxRowK12 L).view.read (Elt F) (View.write (Elt F) (ixV).view g (ReadAs.same.apply ((xtBlockK L).view.read (Elt F) (XT m d))) Finset.univ) x).toNat
      < S1000x128.size gathers_S1000x128_S32x128.axis := by
  have e : View.write (Elt F) (ixV).view g (ReadAs.same.apply ((xtBlockK L).view.read (Elt F) (XT m d))) Finset.univ
      = ReadAs.same.apply ((xtBlockK L).view.read (Elt F) (XT m d)) := View.write_whole_univ _ _ _
  rw [e, View.read_apply, cast_eq]
  exact XT_lt m hpre d _

abbrev idxRowK13 (L : grid0.Coords) : Memref sig .scVector .vmem S32 .i32 :=
  ((ixV).slice (Rect.unit (s := S20x128) (k0_off16 L) S1x32.size (k0_off16_inb L)) (fun _ => rfl)).squeeze S32 squeezes_S1x32_S32
theorem idx_inb13 (hpre : PreOK m) (g : Buf (Elt F) ((V d (cV L) (jV L)).loc cc0_scratch0)) (x : S32.Idx) :
    ((idxRowK13 L).view.read (Elt F) (View.write (Elt F) (ixV).view g (ReadAs.same.apply ((xtBlockK L).view.read (Elt F) (XT m d))) Finset.univ) x).toNat
      < S1000x128.size gathers_S1000x128_S32x128.axis := by
  have e : View.write (Elt F) (ixV).view g (ReadAs.same.apply ((xtBlockK L).view.read (Elt F) (XT m d))) Finset.univ
      = ReadAs.same.apply ((xtBlockK L).view.read (Elt F) (XT m d)) := View.write_whole_univ _ _ _
  rw [e, View.read_apply, cast_eq]
  exact XT_lt m hpre d _

abbrev idxRowK14 (L : grid0.Coords) : Memref sig .scVector .vmem S32 .i32 :=
  ((ixV).slice (Rect.unit (s := S20x128) (k0_off17 L) S1x32.size (k0_off17_inb L)) (fun _ => rfl)).squeeze S32 squeezes_S1x32_S32
theorem idx_inb14 (hpre : PreOK m) (g : Buf (Elt F) ((V d (cV L) (jV L)).loc cc0_scratch0)) (x : S32.Idx) :
    ((idxRowK14 L).view.read (Elt F) (View.write (Elt F) (ixV).view g (ReadAs.same.apply ((xtBlockK L).view.read (Elt F) (XT m d))) Finset.univ) x).toNat
      < S1000x128.size gathers_S1000x128_S32x128.axis := by
  have e : View.write (Elt F) (ixV).view g (ReadAs.same.apply ((xtBlockK L).view.read (Elt F) (XT m d))) Finset.univ
      = ReadAs.same.apply ((xtBlockK L).view.read (Elt F) (XT m d)) := View.write_whole_univ _ _ _
  rw [e, View.read_apply, cast_eq]
  exact XT_lt m hpre d _

abbrev idxRowK15 (L : grid0.Coords) : Memref sig .scVector .vmem S32 .i32 :=
  ((ixV).slice (Rect.unit (s := S20x128) (k0_off18 L) S1x32.size (k0_off18_inb L)) (fun _ => rfl)).squeeze S32 squeezes_S1x32_S32
theorem idx_inb15 (hpre : PreOK m) (g : Buf (Elt F) ((V d (cV L) (jV L)).loc cc0_scratch0)) (x : S32.Idx) :
    ((idxRowK15 L).view.read (Elt F) (View.write (Elt F) (ixV).view g (ReadAs.same.apply ((xtBlockK L).view.read (Elt F) (XT m d))) Finset.univ) x).toNat
      < S1000x128.size gathers_S1000x128_S32x128.axis := by
  have e : View.write (Elt F) (ixV).view g (ReadAs.same.apply ((xtBlockK L).view.read (Elt F) (XT m d))) Finset.univ
      = ReadAs.same.apply ((xtBlockK L).view.read (Elt F) (XT m d)) := View.write_whole_univ _ _ _
  rw [e, View.read_apply, cast_eq]
  exact XT_lt m hpre d _

abbrev idxRowK16 (L : grid0.Coords) : Memref sig .scVector .vmem S32 .i32 :=
  ((ixV).slice (Rect.unit (s := S20x128) (k0_off19 L) S1x32.size (k0_off19_inb L)) (fun _ => rfl)).squeeze S32 squeezes_S1x32_S32
theorem idx_inb16 (hpre : PreOK m) (g : Buf (Elt F) ((V d (cV L) (jV L)).loc cc0_scratch0)) (x : S32.Idx) :
    ((idxRowK16 L).view.read (Elt F) (View.write (Elt F) (ixV).view g (ReadAs.same.apply ((xtBlockK L).view.read (Elt F) (XT m d))) Finset.univ) x).toNat
      < S1000x128.size gathers_S1000x128_S32x128.axis := by
  have e : View.write (Elt F) (ixV).view g (ReadAs.same.apply ((xtBlockK L).view.read (Elt F) (XT m d))) Finset.univ
      = ReadAs.same.apply ((xtBlockK L).view.read (Elt F) (XT m d)) := View.write_whole_univ _ _ _
  rw [e, View.read_apply, cast_eq]
  exact XT_lt m hpre d _

abbrev idxRowK17 (L : grid0.Coords) : Memref sig .scVector .vmem S32 .i32 :=
  ((ixV).slice (Rect.unit (s := S20x128) (k0_off20 L) S1x32.size (k0_off20_inb L)) (fun _ => rfl)).squeeze S32 squeezes_S1x32_S32
theorem idx_inb17 (hpre : PreOK m) (g : Buf (Elt F) ((V d (cV L) (jV L)).loc cc0_scratch0)) (x : S32.Idx) :
    ((idxRowK17 L).view.read (Elt F) (View.write (Elt F) (ixV).view g (ReadAs.same.apply ((xtBlockK L).view.read (Elt F) (XT m d))) Finset.univ) x).toNat
      < S1000x128.size gathers_S1000x128_S32x128.axis := by
  have e : View.write (Elt F) (ixV).view g (ReadAs.same.apply ((xtBlockK L).view.read (Elt F) (XT m d))) Finset.univ
      = ReadAs.same.apply ((xtBlockK L).view.read (Elt F) (XT m d)) := View.write_whole_univ _ _ _
  rw [e, View.read_apply, cast_eq]
  exact XT_lt m hpre d _

abbrev idxRowK18 (L : grid0.Coords) : Memref sig .scVector .vmem S32 .i32 :=
  ((ixV).slice (Rect.unit (s := S20x128) (k0_off21 L) S1x32.size (k0_off21_inb L)) (fun _ => rfl)).squeeze S32 squeezes_S1x32_S32
theorem idx_inb18 (hpre : PreOK m) (g : Buf (Elt F) ((V d (cV L) (jV L)).loc cc0_scratch0)) (x : S32.Idx) :
    ((idxRowK18 L).view.read (Elt F) (View.write (Elt F) (ixV).view g (ReadAs.same.apply ((xtBlockK L).view.read (Elt F) (XT m d))) Finset.univ) x).toNat
      < S1000x128.size gathers_S1000x128_S32x128.axis := by
  have e : View.write (Elt F) (ixV).view g (ReadAs.same.apply ((xtBlockK L).view.read (Elt F) (XT m d))) Finset.univ
      = ReadAs.same.apply ((xtBlockK L).view.read (Elt F) (XT m d)) := View.write_whole_univ _ _ _
  rw [e, View.read_apply, cast_eq]
  exact XT_lt m hpre d _

abbrev idxRowK19 (L : grid0.Coords) : Memref sig .scVector .vmem S32 .i32 :=
  ((ixV).slice (Rect.unit (s := S20x128) (k0_off22 L) S1x32.size (k0_off22_inb L)) (fun _ => rfl)).squeeze S32 squeezes_S1x32_S32
theorem idx_inb19 (hpre : PreOK m) (g : Buf (Elt F) ((V d (cV L) (jV L)).loc cc0_scratch0)) (x : S32.Idx) :
    ((idxRowK19 L).view.read (Elt F) (View.write (Elt F) (ixV).view g (ReadAs.same.apply ((xtBlockK L).view.read (Elt F) (XT m d))) Finset.univ) x).toNat
      < S1000x128.size gathers_S1000x128_S32x128.axis := by
  have e : View.write (Elt F) (ixV).view g (ReadAs.same.apply ((xtBlockK L).view.read (Elt F) (XT m d))) Finset.univ
      = ReadAs.same.apply ((xtBlockK L).view.read (Elt F) (XT m d)) := View.write_whole_univ _ _ _
  rw [e, View.read_apply, cast_eq]
  exact XT_lt m hpre d _

/-- The rows of the table the subcore stages hold the table's rows. -/
theorem staged_eq (h : k0_cond1 L = 1#1) (fsh : Buf (Elt F) (shLoc d (cV L))) (pay : S64x128.Idx → Elt F .f32)
    (hpay : pay = ReadAs.same.apply ((wPieceK L h).view.read (Elt F) (m (wLoc d)))) :
    ∀ i ∈ pieceSet (jL L), (shPieceK L h).view.writes (Elt F) fsh [⟨Rect.whole S64x128, pay⟩] i = Wsh m d (cV L) i := by
  subst hpay
  intro i hi
  rw [← set_shPieceK L h] at hi
  obtain ⟨x, -, rfl⟩ := Finset.mem_map.mp hi
  have e := View.read_writes_cons_emb (shPieceK L h).view fsh (Rect.whole S64x128) (ReadAs.same.apply ((wPieceK L h).view.read (Elt F) (m (wLoc d)))) [] x
  rw [Rect.emb_whole_apply, View.read_apply] at e
  rw [cast_eq] at e
  exact e.trans rfl

/-- The rows of the table the last subcore stages hold the table's rows. -/
theorem staged_eq40 (h : (L 1).val = 15) (fsh : Buf (Elt F) (shLoc d (cV L))) (pay : S40x128.Idx → Elt F .f32)
    (hpay : pay = ReadAs.same.apply ((w40K).view.read (Elt F) (m (wLoc d)))) :
    ∀ i ∈ pieceSet (jL L), (sh40K).view.writes (Elt F) fsh [⟨Rect.whole S40x128, pay⟩] i = Wsh m d (cV L) i := by
  subst hpay
  intro i hi
  rw [← set_sh40K L h] at hi
  obtain ⟨x, -, rfl⟩ := Finset.mem_map.mp hi
  have e := View.read_writes_cons_emb (sh40K).view fsh (Rect.whole S40x128) (ReadAs.same.apply ((w40K).view.read (Elt F) (m (wLoc d)))) [] x
  rw [Rect.emb_whole_apply, View.read_apply] at e
  rw [cast_eq] at e
  exact e.trans rfl

end Tile

end Cert.Lookup.KernelIdeal

end
-- ==== Proof.GeomI.lean ====
/-
  The geometry of the lookup's hand-outs: the sixteen row ranges of the staged table (64 rows each from 64 s, the last
  one the remaining 40) are pairwise disjoint and cover the table's 1000 rows; the 2 * 16 * 10 blocks of the result
  (two index rows from 2 k, the 32 columns from 64 s + 32 c, every lane) are pairwise disjoint and cover [20, 1024, 128].
  Hence a points-to of the whole staged table is the separating conjunction of its sixteen pieces, and one of the whole
  result that of its blocks, at any share and any contents.
-/
import proofs.«206460_g62371515072547_cont_9to1_m_307_33_alg».proof.Proof.ProtocolI

noncomputable section

namespace Cert.Lookup.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

/-! ## The staged table's row ranges -/

/-- Two different subcores stage disjoint row ranges: the ranges are separated along the row axis. -/
theorem pieces_disjoint' (i j : Fin 16) (h : i ≠ j) : Disjoint (pieceSet i) (pieceSet j) := by
  have hv : i.val ≠ j.val := fun e => h (Fin.ext e)
  have hi := i.isLt
  have hj := j.isLt
  show Disjoint (pieceRect i).set (pieceRect j).set
  unfold pieceRect
  refine Rect.unit_disjoint (s := S1000x128) (0 : Fin 2) ?_
  show 64 * i.val + (if i.val < 15 then 64 else 40) ≤ 64 * j.val ∨ 64 * j.val + (if j.val < 15 then 64 else 40) ≤ 64 * i.val
  split_ifs <;> omega

/-- The same, in the form a separating conjunction over the family asks. -/
theorem pieces_disjoint : ∀ i ∈ (Finset.univ : Finset (Fin 16)), ∀ j ∈ (Finset.univ : Finset (Fin 16)), i ≠ j →
    Disjoint (pieceSet i) (pieceSet j) := fun i _ j _ h => pieces_disjoint' i j h

/-- Row r < 960 lies in range r / 64, a later row in the last range: the ranges cover the table. -/
theorem pieces_cover : (Finset.univ : Finset (Fin 16)).biUnion pieceSet = Finset.univ := by
  ext r
  simp only [Finset.mem_biUnion, Finset.mem_univ, true_and, iff_true]
  have h0 : (r 0).val < 1000 := (r 0).isLt
  have h1 : (r 1).val < 128 := (r 1).isLt
  by_cases hr : (r 0).val < 960
  · refine ⟨⟨(r 0).val / 64, by omega⟩, ?_⟩
    show r ∈ (pieceRect _).set
    unfold pieceRect
    rw [Rect.mem_set_unit]
    intro a
    match a with
    | ⟨0, _⟩ =>
      show 64 * ((r 0).val / 64) ≤ (r 0).val ∧ (r 0).val < 64 * ((r 0).val / 64) + (if (r 0).val / 64 < 15 then 64 else 40)
      rw [if_pos (by omega)]; omega
    | ⟨1, _⟩ => show 0 ≤ (r 1).val ∧ (r 1).val < 0 + 128; omega
  · refine ⟨⟨15, by decide⟩, ?_⟩
    show r ∈ (pieceRect _).set
    unfold pieceRect
    rw [Rect.mem_set_unit]
    intro a
    match a with
    | ⟨0, _⟩ =>
      show 64 * 15 ≤ (r 0).val ∧ (r 0).val < 64 * 15 + (if (15 : ℕ) < 15 then 64 else 40)
      rw [if_neg (by decide)]; omega
    | ⟨1, _⟩ => show 0 ≤ (r 1).val ∧ (r 1).val < 0 + 128; omega

/-! ## The result's blocks -/

/-- A block's name: SparseCore, subcore, block number. -/
abbrev CSK : Type := Fin 2 × Fin 16 × Fin 10
abbrev oSet₃ (t : CSK) : Finset S20x1024x128.Idx := oSet t.1 t.2.1 t.2.2

/-- Two different blocks are disjoint: different block numbers are separated along the index-row axis, and equal
    block numbers with different (SparseCore, subcore) along the column axis, the column offsets 64 s + 32 c being
    distinct multiples of 32. -/
theorem blocks_disjoint' (t t' : CSK) (h : t ≠ t') : Disjoint (oSet₃ t) (oSet₃ t') := by
  obtain ⟨c, s, k⟩ := t
  obtain ⟨c', s', k'⟩ := t'
  have hc := c.isLt
  have hc' := c'.isLt
  have hs := s.isLt
  have hs' := s'.isLt
  show Disjoint (oRect c s k).set (oRect c' s' k').set
  unfold oRect
  by_cases hk : k.val = k'.val
  · have hcs : ¬ (c.val = c'.val ∧ s.val = s'.val) := fun e =>
      h (by rw [Fin.ext e.1, Fin.ext e.2, Fin.ext hk])
    refine Rect.unit_disjoint (s := S20x1024x128) (1 : Fin 3) ?_
    show 64 * s.val + 32 * c.val + 32 ≤ 64 * s'.val + 32 * c'.val ∨ 64 * s'.val + 32 * c'.val + 32 ≤ 64 * s.val + 32 * c.val
    omega
  · refine Rect.unit_disjoint (s := S20x1024x128) (0 : Fin 3) ?_
    show 2 * k.val + 2 ≤ 2 * k'.val ∨ 2 * k'.val + 2 ≤ 2 * k.val
    omega

theorem blocks_disjoint : ∀ t ∈ (Finset.univ : Finset CSK), ∀ t' ∈ (Finset.univ : Finset CSK), t ≠ t' →
    Disjoint (oSet₃ t) (oSet₃ t') := fun t _ t' _ h => blocks_disjoint' t t' h

/-- The element (j, b, e) lies in block j / 2 of subcore b / 64 of SparseCore (b % 64) / 32: the blocks cover the result. -/
theorem blocks_cover : (Finset.univ : Finset CSK).biUnion oSet₃ = Finset.univ := by
  ext i
  simp only [Finset.mem_biUnion, Finset.mem_univ, true_and, iff_true]
  have h0 : (i 0).val < 20 := (i 0).isLt
  have h1 : (i 1).val < 1024 := (i 1).isLt
  have h2 : (i 2).val < 128 := (i 2).isLt
  refine ⟨(⟨(i 1).val % 64 / 32, by omega⟩, ⟨(i 1).val / 64, by omega⟩, ⟨(i 0).val / 2, by omega⟩), ?_⟩
  show i ∈ (oRect _ _ _).set
  unfold oRect
  rw [Rect.mem_set_unit]
  intro a
  match a with
  | ⟨0, _⟩ => show 2 * ((i 0).val / 2) ≤ (i 0).val ∧ (i 0).val < 2 * ((i 0).val / 2) + 2; omega
  | ⟨1, _⟩ =>
    show 64 * ((i 1).val / 64) + 32 * ((i 1).val % 64 / 32) ≤ (i 1).val
      ∧ (i 1).val < 64 * ((i 1).val / 64) + 32 * ((i 1).val % 64 / 32) + 32
    omega
  | ⟨2, _⟩ => show 0 ≤ (i 2).val ∧ (i 2).val < 0 + 128; omega

/-! ## The points-to splits -/

/-- The whole staged table, at any share and contents, is its sixteen row ranges. -/
theorem shPts_pieces (d : Dev nD) (c : Fin τ.nSC) (q : PosShare TreeShare) (f : Buf (Elt F) (shLoc d c)) :
    (shLoc d c ↦{q} f : sProp 𝕄) = bigSep Finset.univ fun n : Fin 16 => shLoc d c ↦[pieceSet n]{q} f := by
  rw [← pointsTo_biUnion Finset.univ (ℓ := shLoc d c) pieceSet pieces_disjoint, pieces_cover]; try rfl

/-- The whole result, at any share and contents, is its blocks, named by (SparseCore, subcore, block number). -/
theorem oPts_blocks₃ (d : Dev nD) (q : PosShare TreeShare) (f : Buf (Elt F) (oLoc d)) :
    (oLoc d ↦{q} f : sProp 𝕄) = bigSep Finset.univ fun t : CSK => oLoc d ↦[oSet₃ t]{q} f := by
  rw [← pointsTo_biUnion Finset.univ (ℓ := oLoc d) oSet₃ blocks_disjoint, blocks_cover]; try rfl

/-- The same with the three names nested: per SparseCore, per subcore, per block. -/
theorem oPts_blocks_q (d : Dev nD) (q : PosShare TreeShare) (f : Buf (Elt F) (oLoc d)) :
    (oLoc d ↦{q} f : sProp 𝕄)
      = bigSep Finset.univ fun c : Fin 2 => bigSep Finset.univ fun s : Fin 16 => bigSep Finset.univ fun k : Fin 10 =>
          oLoc d ↦[oSet c s k]{q} f := by
  rw [oPts_blocks₃, bigSep_univ_prod]
  refine bigSep_congr fun c _ => ?_
  rw [bigSep_univ_prod]

/-- The whole result owned outright is every subcore's ten blocks. -/
theorem oPts_blocks (d : Dev nD) (f : Buf (Elt F) (oLoc d)) :
    (oLoc d ↦{fullShare} f : sProp 𝕄)
      = bigSep Finset.univ fun c : Fin 2 => bigSep Finset.univ fun s : Fin 16 => oBlocks d c s f :=
  oPts_blocks_q d fullShare f

end Cert.Lookup.KernelIdeal

end
-- ==== Proof.RowsI.lean ====
/-
  The row scratch of a vector subcore, [20, 32, 128]: written row by row (twenty gathers, destination row j) and read
  two rows at a time (ten copies, source rows 2 k and 2 k + 1). The one-row and two-row slices themselves are defined,
  as the kernel spells them, in the module imported here.

  Row j's elements are those whose first coordinate is j; the two-row slice k's are those whose first coordinate is 2 k or
  2 k + 1. So a two-row slice is the disjoint union of its two rows, and the ten two-row slices are pairwise disjoint and
  cover the scratch. Hence two rows held at one contents are the two-row slice at that contents, and the ten two-row
  slices at one contents are the whole scratch; and the whole scratch, at any share and contents, is its twenty rows.
-/
import proofs.«206460_g62371515072547_cont_9to1_m_307_33_alg».proof.Proof.ValI

noncomputable section

namespace Cert.Lookup.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

local notation "rwV" => (Memref.whole Cert.KernelIdeal.cc0_scratch1 : Memref Cert.KernelIdeal.sig Kind.scVector Space.vmem Cert.KernelIdeal.S20x32x128 EltTy.f32)

/-! ## Their elements -/

/-- Row j of the scratch: the elements whose first coordinate is j. -/
def rowSet (j : Fin 20) : Finset S20x32x128.Idx :=
  (Rect.unit (s := S20x32x128) ![j.val, 0, 0] ![1, 32, 128] (by revert j; decide)).set
/-- Rows 2 k and 2 k + 1 of the scratch. -/
def pairSet (k : Fin 10) : Finset S20x32x128.Idx :=
  (Rect.unit (s := S20x32x128) ![2 * k.val, 0, 0] ![2, 32, 128] (by revert k; decide)).set

/-- A range of whole rows holds an element exactly when its first coordinate is in the range. -/
theorem mem_rows (o n : ℕ) (inb : ∀ a, (![o, 0, 0] : Fin 3 → ℕ) a + (![n, 32, 128] : Fin 3 → ℕ) a ≤ S20x32x128.size a)
    (i : S20x32x128.Idx) :
    i ∈ (Rect.unit (s := S20x32x128) ![o, 0, 0] ![n, 32, 128] inb).set ↔ o ≤ (i 0).val ∧ (i 0).val < o + n := by
  rw [Rect.mem_set_unit]
  constructor
  · intro h; exact h 0
  · intro h a
    have h1 : (i 1).val < 32 := (i 1).isLt
    have h2 : (i 2).val < 128 := (i 2).isLt
    match a with
    | ⟨0, _⟩ => exact h
    | ⟨1, _⟩ => show 0 ≤ (i 1).val ∧ (i 1).val < 0 + 32; omega
    | ⟨2, _⟩ => show 0 ≤ (i 2).val ∧ (i 2).val < 0 + 128; omega

theorem mem_rowSet (j : Fin 20) (i : S20x32x128.Idx) : i ∈ rowSet j ↔ (i 0).val = j.val := by
  unfold rowSet; rw [mem_rows]; omega
theorem mem_pairSet (k : Fin 10) (i : S20x32x128.Idx) : i ∈ pairSet k ↔ (i 0).val = 2 * k.val ∨ (i 0).val = 2 * k.val + 1 := by
  unfold pairSet; rw [mem_rows]; omega

/-- Different rows are disjoint. -/
theorem rows_disjoint' (i j : Fin 20) (h : i ≠ j) : Disjoint (rowSet i) (rowSet j) := by
  rw [Finset.disjoint_left]
  intro x hi hj
  rw [mem_rowSet] at hi hj
  exact h (Fin.ext (hi.symm.trans hj))
theorem rows_disjoint : ∀ i ∈ (Finset.univ : Finset (Fin 20)), ∀ j ∈ (Finset.univ : Finset (Fin 20)), i ≠ j →
    Disjoint (rowSet i) (rowSet j) := fun i _ j _ h => rows_disjoint' i j h

/-- A two-row slice is its two rows. -/
theorem pairSet_eq (k : Fin 10) (a b : Fin 20) (ha : a.val = 2 * k.val) (hb : b.val = 2 * k.val + 1) :
    pairSet k = rowSet a ∪ rowSet b := by
  ext i
  rw [Finset.mem_union, mem_pairSet, mem_rowSet, mem_rowSet, ha, hb]

/-- Different two-row slices are disjoint, and the ten cover the scratch. -/
theorem pairs_disjoint : ∀ k ∈ (Finset.univ : Finset (Fin 10)), ∀ k' ∈ (Finset.univ : Finset (Fin 10)), k ≠ k' →
    Disjoint (pairSet k) (pairSet k') := fun k _ k' _ h => by
  rw [Finset.disjoint_left]
  intro x hk hk'
  rw [mem_pairSet] at hk hk'
  exact h (Fin.ext (by omega))
theorem pairs_cover : (Finset.univ : Finset (Fin 10)).biUnion pairSet = Finset.univ := by
  ext i
  simp only [Finset.mem_biUnion, Finset.mem_univ, true_and, iff_true]
  have h0 : (i 0).val < 20 := (i 0).isLt
  exact ⟨⟨(i 0).val / 2, by omega⟩, (mem_pairSet _ i).mpr (by show (i 0).val = 2 * ((i 0).val / 2) ∨ (i 0).val = 2 * ((i 0).val / 2) + 1; omega)⟩

/-- A squeezed one-row slice of the scratch, as the kernel spells it, has row j's elements. -/
theorem set_row (j : ℕ) (hj : j < 20) (inb : ∀ a, (![j, 0, 0] : Fin 3 → ℕ) a + S1x32x128.size a ≤ S20x32x128.size a) :
    (((rwV).slice (Rect.unit (s := S20x32x128) ![j, 0, 0] S1x32x128.size inb) (fun _ => rfl)).squeeze S32x128 squeezes_S1x32x128_S32x128).view.set
      = rowSet ⟨j, hj⟩ := by
  show (((rwV).view.slice (Rect.unit (s := S20x32x128) ![j, 0, 0] S1x32x128.size inb)).reshape S32x128 squeezes_S1x32x128_S32x128.numel_eq).set = _
  rw [View.set_reshape]
  exact View.set_slice_whole (cc0_scratch1 : Ref sig .scVector) _
/-- A two-row slice of the scratch, as the kernel spells it, has rows 2 k and 2 k + 1's elements. -/
theorem set_pair (k : ℕ) (hk : k < 10) (inb : ∀ a, (![2 * k, 0, 0] : Fin 3 → ℕ) a + S2x32x128.size a ≤ S20x32x128.size a) :
    ((rwV).slice (Rect.unit (s := S20x32x128) ![2 * k, 0, 0] S2x32x128.size inb) (fun _ => rfl)).view.set = pairSet ⟨k, hk⟩ :=
  View.set_slice_whole (cc0_scratch1 : Ref sig .scVector) _

theorem set_rowK0 : (rowK0).view.set = rowSet 0 := set_row 0 (by decide) _
theorem set_rowK1 : (rowK1).view.set = rowSet 1 := set_row 1 (by decide) _
theorem set_rowK2 : (rowK2).view.set = rowSet 2 := set_row 2 (by decide) _
theorem set_rowK3 : (rowK3).view.set = rowSet 3 := set_row 3 (by decide) _
theorem set_rowK4 : (rowK4).view.set = rowSet 4 := set_row 4 (by decide) _
theorem set_rowK5 : (rowK5).view.set = rowSet 5 := set_row 5 (by decide) _
theorem set_rowK6 : (rowK6).view.set = rowSet 6 := set_row 6 (by decide) _
theorem set_rowK7 : (rowK7).view.set = rowSet 7 := set_row 7 (by decide) _
theorem set_rowK8 : (rowK8).view.set = rowSet 8 := set_row 8 (by decide) _
theorem set_rowK9 : (rowK9).view.set = rowSet 9 := set_row 9 (by decide) _
theorem set_rowK10 : (rowK10).view.set = rowSet 10 := set_row 10 (by decide) _
theorem set_rowK11 : (rowK11).view.set = rowSet 11 := set_row 11 (by decide) _
theorem set_rowK12 : (rowK12).view.set = rowSet 12 := set_row 12 (by decide) _
theorem set_rowK13 : (rowK13).view.set = rowSet 13 := set_row 13 (by decide) _
theorem set_rowK14 : (rowK14).view.set = rowSet 14 := set_row 14 (by decide) _
theorem set_rowK15 : (rowK15).view.set = rowSet 15 := set_row 15 (by decide) _
theorem set_rowK16 : (rowK16).view.set = rowSet 16 := set_row 16 (by decide) _
theorem set_rowK17 : (rowK17).view.set = rowSet 17 := set_row 17 (by decide) _
theorem set_rowK18 : (rowK18).view.set = rowSet 18 := set_row 18 (by decide) _
theorem set_rowK19 : (rowK19).view.set = rowSet 19 := set_row 19 (by decide) _

theorem set_pairK0 : (pairK0).view.set = pairSet 0 := set_pair 0 (by decide) _
theorem set_pairK1 : (pairK1).view.set = pairSet 1 := set_pair 1 (by decide) _
theorem set_pairK2 : (pairK2).view.set = pairSet 2 := set_pair 2 (by decide) _
theorem set_pairK3 : (pairK3).view.set = pairSet 3 := set_pair 3 (by decide) _
theorem set_pairK4 : (pairK4).view.set = pairSet 4 := set_pair 4 (by decide) _
theorem set_pairK5 : (pairK5).view.set = pairSet 5 := set_pair 5 (by decide) _
theorem set_pairK6 : (pairK6).view.set = pairSet 6 := set_pair 6 (by decide) _
theorem set_pairK7 : (pairK7).view.set = pairSet 7 := set_pair 7 (by decide) _
theorem set_pairK8 : (pairK8).view.set = pairSet 8 := set_pair 8 (by decide) _
theorem set_pairK9 : (pairK9).view.set = pairSet 9 := set_pair 9 (by decide) _

theorem row_disj0 : Disjoint (rowK0).view.set (rowK1).view.set := by
  rw [set_rowK0, set_rowK1]; exact rows_disjoint' _ _ (by decide)
theorem row_disj1 : Disjoint (rowK2).view.set (rowK3).view.set := by
  rw [set_rowK2, set_rowK3]; exact rows_disjoint' _ _ (by decide)
theorem row_disj2 : Disjoint (rowK4).view.set (rowK5).view.set := by
  rw [set_rowK4, set_rowK5]; exact rows_disjoint' _ _ (by decide)
theorem row_disj3 : Disjoint (rowK6).view.set (rowK7).view.set := by
  rw [set_rowK6, set_rowK7]; exact rows_disjoint' _ _ (by decide)
theorem row_disj4 : Disjoint (rowK8).view.set (rowK9).view.set := by
  rw [set_rowK8, set_rowK9]; exact rows_disjoint' _ _ (by decide)
theorem row_disj5 : Disjoint (rowK10).view.set (rowK11).view.set := by
  rw [set_rowK10, set_rowK11]; exact rows_disjoint' _ _ (by decide)
theorem row_disj6 : Disjoint (rowK12).view.set (rowK13).view.set := by
  rw [set_rowK12, set_rowK13]; exact rows_disjoint' _ _ (by decide)
theorem row_disj7 : Disjoint (rowK14).view.set (rowK15).view.set := by
  rw [set_rowK14, set_rowK15]; exact rows_disjoint' _ _ (by decide)
theorem row_disj8 : Disjoint (rowK16).view.set (rowK17).view.set := by
  rw [set_rowK16, set_rowK17]; exact rows_disjoint' _ _ (by decide)
theorem row_disj9 : Disjoint (rowK18).view.set (rowK19).view.set := by
  rw [set_rowK18, set_rowK19]; exact rows_disjoint' _ _ (by decide)

/-! ## The joins -/

section Tile

variable (d : Dev nD) (L : grid0.Coords)

/-- Two rows at one contents are their two-row slice at that contents (over the element sets). -/
theorem pair_join_sets (k : Fin 10) (a b : Fin 20) (ha : a.val = 2 * k.val) (hb : b.val = 2 * k.val + 1)
    (q : PosShare TreeShare) (f : Buf (Elt F) ((V d (cV L) (jV L)).loc cc0_scratch1)) :
    iprop(((V d (cV L) (jV L)).loc cc0_scratch1 ↦[rowSet a]{q} f) ∗ ((V d (cV L) (jV L)).loc cc0_scratch1 ↦[rowSet b]{q} f))
      ⊢ ((V d (cV L) (jV L)).loc cc0_scratch1 ↦[pairSet k]{q} f : sProp 𝕄) := by
  rw [pairSet_eq k a b ha hb]
  exact (pointsTo_union (rows_disjoint' a b (fun e => by rw [e] at ha; omega))).2

theorem pair_join0 (f : Buf (Elt F) ((V d (cV L) (jV L)).loc cc0_scratch1)) :
    iprop(((rowK0).view.loc (V d (cV L) (jV L)) ↦[(rowK0).view.set]{fullShare} f)
        ∗ ((rowK1).view.loc (V d (cV L) (jV L)) ↦[(rowK1).view.set]{fullShare} f))
      ⊢ ((pairK0).view.loc (V d (cV L) (jV L)) ↦[(pairK0).view.set]{fullShare} f : sProp 𝕄) := by
  rw [set_rowK0, set_rowK1, set_pairK0]
  exact pair_join_sets d L 0 0 1 (by decide) (by decide) fullShare f
theorem pair_join1 (f : Buf (Elt F) ((V d (cV L) (jV L)).loc cc0_scratch1)) :
    iprop(((rowK2).view.loc (V d (cV L) (jV L)) ↦[(rowK2).view.set]{fullShare} f)
        ∗ ((rowK3).view.loc (V d (cV L) (jV L)) ↦[(rowK3).view.set]{fullShare} f))
      ⊢ ((pairK1).view.loc (V d (cV L) (jV L)) ↦[(pairK1).view.set]{fullShare} f : sProp 𝕄) := by
  rw [set_rowK2, set_rowK3, set_pairK1]
  exact pair_join_sets d L 1 2 3 (by decide) (by decide) fullShare f
theorem pair_join2 (f : Buf (Elt F) ((V d (cV L) (jV L)).loc cc0_scratch1)) :
    iprop(((rowK4).view.loc (V d (cV L) (jV L)) ↦[(rowK4).view.set]{fullShare} f)
        ∗ ((rowK5).view.loc (V d (cV L) (jV L)) ↦[(rowK5).view.set]{fullShare} f))
      ⊢ ((pairK2).view.loc (V d (cV L) (jV L)) ↦[(pairK2).view.set]{fullShare} f : sProp 𝕄) := by
  rw [set_rowK4, set_rowK5, set_pairK2]
  exact pair_join_sets d L 2 4 5 (by decide) (by decide) fullShare f
theorem pair_join3 (f : Buf (Elt F) ((V d (cV L) (jV L)).loc cc0_scratch1)) :
    iprop(((rowK6).view.loc (V d (cV L) (jV L)) ↦[(rowK6).view.set]{fullShare} f)
        ∗ ((rowK7).view.loc (V d (cV L) (jV L)) ↦[(rowK7).view.set]{fullShare} f))
      ⊢ ((pairK3).view.loc (V d (cV L) (jV L)) ↦[(pairK3).view.set]{fullShare} f : sProp 𝕄) := by
  rw [set_rowK6, set_rowK7, set_pairK3]
  exact pair_join_sets d L 3 6 7 (by decide) (by decide) fullShare f
theorem pair_join4 (f : Buf (Elt F) ((V d (cV L) (jV L)).loc cc0_scratch1)) :
    iprop(((rowK8).view.loc (V d (cV L) (jV L)) ↦[(rowK8).view.set]{fullShare} f)
        ∗ ((rowK9).view.loc (V d (cV L) (jV L)) ↦[(rowK9).view.set]{fullShare} f))
      ⊢ ((pairK4).view.loc (V d (cV L) (jV L)) ↦[(pairK4).view.set]{fullShare} f : sProp 𝕄) := by
  rw [set_rowK8, set_rowK9, set_pairK4]
  exact pair_join_sets d L 4 8 9 (by decide) (by decide) fullShare f
theorem pair_join5 (f : Buf (Elt F) ((V d (cV L) (jV L)).loc cc0_scratch1)) :
    iprop(((rowK10).view.loc (V d (cV L) (jV L)) ↦[(rowK10).view.set]{fullShare} f)
        ∗ ((rowK11).view.loc (V d (cV L) (jV L)) ↦[(rowK11).view.set]{fullShare} f))
      ⊢ ((pairK5).view.loc (V d (cV L) (jV L)) ↦[(pairK5).view.set]{fullShare} f : sProp 𝕄) := by
  rw [set_rowK10, set_rowK11, set_pairK5]
  exact pair_join_sets d L 5 10 11 (by decide) (by decide) fullShare f
theorem pair_join6 (f : Buf (Elt F) ((V d (cV L) (jV L)).loc cc0_scratch1)) :
    iprop(((rowK12).view.loc (V d (cV L) (jV L)) ↦[(rowK12).view.set]{fullShare} f)
        ∗ ((rowK13).view.loc (V d (cV L) (jV L)) ↦[(rowK13).view.set]{fullShare} f))
      ⊢ ((pairK6).view.loc (V d (cV L) (jV L)) ↦[(pairK6).view.set]{fullShare} f : sProp 𝕄) := by
  rw [set_rowK12, set_rowK13, set_pairK6]
  exact pair_join_sets d L 6 12 13 (by decide) (by decide) fullShare f
theorem pair_join7 (f : Buf (Elt F) ((V d (cV L) (jV L)).loc cc0_scratch1)) :
    iprop(((rowK14).view.loc (V d (cV L) (jV L)) ↦[(rowK14).view.set]{fullShare} f)
        ∗ ((rowK15).view.loc (V d (cV L) (jV L)) ↦[(rowK15).view.set]{fullShare} f))
      ⊢ ((pairK7).view.loc (V d (cV L) (jV L)) ↦[(pairK7).view.set]{fullShare} f : sProp 𝕄) := by
  rw [set_rowK14, set_rowK15, set_pairK7]
  exact pair_join_sets d L 7 14 15 (by decide) (by decide) fullShare f
theorem pair_join8 (f : Buf (Elt F) ((V d (cV L) (jV L)).loc cc0_scratch1)) :
    iprop(((rowK16).view.loc (V d (cV L) (jV L)) ↦[(rowK16).view.set]{fullShare} f)
        ∗ ((rowK17).view.loc (V d (cV L) (jV L)) ↦[(rowK17).view.set]{fullShare} f))
      ⊢ ((pairK8).view.loc (V d (cV L) (jV L)) ↦[(pairK8).view.set]{fullShare} f : sProp 𝕄) := by
  rw [set_rowK16, set_rowK17, set_pairK8]
  exact pair_join_sets d L 8 16 17 (by decide) (by decide) fullShare f
theorem pair_join9 (f : Buf (Elt F) ((V d (cV L) (jV L)).loc cc0_scratch1)) :
    iprop(((rowK18).view.loc (V d (cV L) (jV L)) ↦[(rowK18).view.set]{fullShare} f)
        ∗ ((rowK19).view.loc (V d (cV L) (jV L)) ↦[(rowK19).view.set]{fullShare} f))
      ⊢ ((pairK9).view.loc (V d (cV L) (jV L)) ↦[(pairK9).view.set]{fullShare} f : sProp 𝕄) := by
  rw [set_rowK18, set_rowK19, set_pairK9]
  exact pair_join_sets d L 9 18 19 (by decide) (by decide) fullShare f

/-- The ten two-row slices at one contents are the whole scratch at that contents. -/
theorem rows_whole (f : Buf (Elt F) ((V d (cV L) (jV L)).loc cc0_scratch1)) :
    iprop(((pairK0).view.loc (V d (cV L) (jV L)) ↦[(pairK0).view.set]{fullShare} f)
        ∗ ((pairK1).view.loc (V d (cV L) (jV L)) ↦[(pairK1).view.set]{fullShare} f)
        ∗ ((pairK2).view.loc (V d (cV L) (jV L)) ↦[(pairK2).view.set]{fullShare} f)
        ∗ ((pairK3).view.loc (V d (cV L) (jV L)) ↦[(pairK3).view.set]{fullShare} f)
        ∗ ((pairK4).view.loc (V d (cV L) (jV L)) ↦[(pairK4).view.set]{fullShare} f)
        ∗ ((pairK5).view.loc (V d (cV L) (jV L)) ↦[(pairK5).view.set]{fullShare} f)
        ∗ ((pairK6).view.loc (V d (cV L) (jV L)) ↦[(pairK6).view.set]{fullShare} f)
        ∗ ((pairK7).view.loc (V d (cV L) (jV L)) ↦[(pairK7).view.set]{fullShare} f)
        ∗ ((pairK8).view.loc (V d (cV L) (jV L)) ↦[(pairK8).view.set]{fullShare} f)
        ∗ ((pairK9).view.loc (V d (cV L) (jV L)) ↦[(pairK9).view.set]{fullShare} f))
      ⊢ ((V d (cV L) (jV L)).loc cc0_scratch1 ↦{fullShare} f : sProp 𝕄) := by
  rw [set_pairK0, set_pairK1, set_pairK2, set_pairK3, set_pairK4, set_pairK5, set_pairK6, set_pairK7, set_pairK8, set_pairK9]
  refine BI.Entails.trans ?_ (Entails.of_eq (show (bigSep Finset.univ fun k : Fin 10 => ((V d (cV L) (jV L)).loc cc0_scratch1 ↦[pairSet k]{fullShare} f : sProp 𝕄))
      = ((V d (cV L) (jV L)).loc cc0_scratch1 ↦{fullShare} f) from by
    rw [← pointsTo_biUnion Finset.univ (ℓ := (V d (cV L) (jV L)).loc cc0_scratch1) pairSet pairs_disjoint, pairs_cover]; try rfl))
  rw [show (Finset.univ : Finset (Fin 10)) = {0, 1, 2, 3, 4, 5, 6, 7, 8, 9} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  exact BI.Entails.refl _

/-- The twenty rows cover the scratch. -/
theorem rows_cover : (Finset.univ : Finset (Fin 20)).biUnion rowSet = Finset.univ := by
  ext i
  simp only [Finset.mem_biUnion, Finset.mem_univ, true_and, iff_true]
  have h0 : (i 0).val < 20 := (i 0).isLt
  exact ⟨⟨(i 0).val, h0⟩, (mem_rowSet _ i).mpr rfl⟩

set_option maxHeartbeats 1000000 in
/-- A separating conjunction over twenty indices, written out. -/
theorem rows_fin20 (Φ : Fin 20 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19) := by
  rw [show (Finset.univ : Finset (Fin 20)) = {0, 1, 2, 3, 4, 5, 6, 7, 8, 9, 10, 11, 12, 13, 14, 15, 16, 17, 18, 19} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- The whole scratch, at any share and contents, is its twenty rows. -/
theorem rw_rows (q : PosShare TreeShare) (f : Buf (Elt F) ((V d (cV L) (jV L)).loc cc0_scratch1)) :
    ((V d (cV L) (jV L)).loc cc0_scratch1 ↦{q} f : sProp 𝕄)
      = bigSep Finset.univ fun j : Fin 20 => (V d (cV L) (jV L)).loc cc0_scratch1 ↦[rowSet j]{q} f := by
  rw [← pointsTo_biUnion Finset.univ (ℓ := (V d (cV L) (jV L)).loc cc0_scratch1) rowSet rows_disjoint, rows_cover]; try rfl

/-- A row's slice, as the kernel spells it, is the scratch on that row's elements. -/
theorem pts_rowK0 (q : PosShare TreeShare) (f : Buf (Elt F) ((V d (cV L) (jV L)).loc cc0_scratch1)) :
    ((rowK0).view.loc (V d (cV L) (jV L)) ↦[(rowK0).view.set]{q} f : sProp 𝕄) = ((V d (cV L) (jV L)).loc cc0_scratch1 ↦[rowSet 0]{q} f) := by
  rw [set_rowK0] <;> rfl
theorem pts_rowK1 (q : PosShare TreeShare) (f : Buf (Elt F) ((V d (cV L) (jV L)).loc cc0_scratch1)) :
    ((rowK1).view.loc (V d (cV L) (jV L)) ↦[(rowK1).view.set]{q} f : sProp 𝕄) = ((V d (cV L) (jV L)).loc cc0_scratch1 ↦[rowSet 1]{q} f) := by
  rw [set_rowK1] <;> rfl
theorem pts_rowK2 (q : PosShare TreeShare) (f : Buf (Elt F) ((V d (cV L) (jV L)).loc cc0_scratch1)) :
    ((rowK2).view.loc (V d (cV L) (jV L)) ↦[(rowK2).view.set]{q} f : sProp 𝕄) = ((V d (cV L) (jV L)).loc cc0_scratch1 ↦[rowSet 2]{q} f) := by
  rw [set_rowK2] <;> rfl
theorem pts_rowK3 (q : PosShare TreeShare) (f : Buf (Elt F) ((V d (cV L) (jV L)).loc cc0_scratch1)) :
    ((rowK3).view.loc (V d (cV L) (jV L)) ↦[(rowK3).view.set]{q} f : sProp 𝕄) = ((V d (cV L) (jV L)).loc cc0_scratch1 ↦[rowSet 3]{q} f) := by
  rw [set_rowK3] <;> rfl
theorem pts_rowK4 (q : PosShare TreeShare) (f : Buf (Elt F) ((V d (cV L) (jV L)).loc cc0_scratch1)) :
    ((rowK4).view.loc (V d (cV L) (jV L)) ↦[(rowK4).view.set]{q} f : sProp 𝕄) = ((V d (cV L) (jV L)).loc cc0_scratch1 ↦[rowSet 4]{q} f) := by
  rw [set_rowK4] <;> rfl
theorem pts_rowK5 (q : PosShare TreeShare) (f : Buf (Elt F) ((V d (cV L) (jV L)).loc cc0_scratch1)) :
    ((rowK5).view.loc (V d (cV L) (jV L)) ↦[(rowK5).view.set]{q} f : sProp 𝕄) = ((V d (cV L) (jV L)).loc cc0_scratch1 ↦[rowSet 5]{q} f) := by
  rw [set_rowK5] <;> rfl
theorem pts_rowK6 (q : PosShare TreeShare) (f : Buf (Elt F) ((V d (cV L) (jV L)).loc cc0_scratch1)) :
    ((rowK6).view.loc (V d (cV L) (jV L)) ↦[(rowK6).view.set]{q} f : sProp 𝕄) = ((V d (cV L) (jV L)).loc cc0_scratch1 ↦[rowSet 6]{q} f) := by
  rw [set_rowK6] <;> rfl
theorem pts_rowK7 (q : PosShare TreeShare) (f : Buf (Elt F) ((V d (cV L) (jV L)).loc cc0_scratch1)) :
    ((rowK7).view.loc (V d (cV L) (jV L)) ↦[(rowK7).view.set]{q} f : sProp 𝕄) = ((V d (cV L) (jV L)).loc cc0_scratch1 ↦[rowSet 7]{q} f) := by
  rw [set_rowK7] <;> rfl
theorem pts_rowK8 (q : PosShare TreeShare) (f : Buf (Elt F) ((V d (cV L) (jV L)).loc cc0_scratch1)) :
    ((rowK8).view.loc (V d (cV L) (jV L)) ↦[(rowK8).view.set]{q} f : sProp 𝕄) = ((V d (cV L) (jV L)).loc cc0_scratch1 ↦[rowSet 8]{q} f) := by
  rw [set_rowK8] <;> rfl
theorem pts_rowK9 (q : PosShare TreeShare) (f : Buf (Elt F) ((V d (cV L) (jV L)).loc cc0_scratch1)) :
    ((rowK9).view.loc (V d (cV L) (jV L)) ↦[(rowK9).view.set]{q} f : sProp 𝕄) = ((V d (cV L) (jV L)).loc cc0_scratch1 ↦[rowSet 9]{q} f) := by
  rw [set_rowK9] <;> rfl
theorem pts_rowK10 (q : PosShare TreeShare) (f : Buf (Elt F) ((V d (cV L) (jV L)).loc cc0_scratch1)) :
    ((rowK10).view.loc (V d (cV L) (jV L)) ↦[(rowK10).view.set]{q} f : sProp 𝕄) = ((V d (cV L) (jV L)).loc cc0_scratch1 ↦[rowSet 10]{q} f) := by
  rw [set_rowK10] <;> rfl
theorem pts_rowK11 (q : PosShare TreeShare) (f : Buf (Elt F) ((V d (cV L) (jV L)).loc cc0_scratch1)) :
    ((rowK11).view.loc (V d (cV L) (jV L)) ↦[(rowK11).view.set]{q} f : sProp 𝕄) = ((V d (cV L) (jV L)).loc cc0_scratch1 ↦[rowSet 11]{q} f) := by
  rw [set_rowK11] <;> rfl
theorem pts_rowK12 (q : PosShare TreeShare) (f : Buf (Elt F) ((V d (cV L) (jV L)).loc cc0_scratch1)) :
    ((rowK12).view.loc (V d (cV L) (jV L)) ↦[(rowK12).view.set]{q} f : sProp 𝕄) = ((V d (cV L) (jV L)).loc cc0_scratch1 ↦[rowSet 12]{q} f) := by
  rw [set_rowK12] <;> rfl
theorem pts_rowK13 (q : PosShare TreeShare) (f : Buf (Elt F) ((V d (cV L) (jV L)).loc cc0_scratch1)) :
    ((rowK13).view.loc (V d (cV L) (jV L)) ↦[(rowK13).view.set]{q} f : sProp 𝕄) = ((V d (cV L) (jV L)).loc cc0_scratch1 ↦[rowSet 13]{q} f) := by
  rw [set_rowK13] <;> rfl
theorem pts_rowK14 (q : PosShare TreeShare) (f : Buf (Elt F) ((V d (cV L) (jV L)).loc cc0_scratch1)) :
    ((rowK14).view.loc (V d (cV L) (jV L)) ↦[(rowK14).view.set]{q} f : sProp 𝕄) = ((V d (cV L) (jV L)).loc cc0_scratch1 ↦[rowSet 14]{q} f) := by
  rw [set_rowK14] <;> rfl
theorem pts_rowK15 (q : PosShare TreeShare) (f : Buf (Elt F) ((V d (cV L) (jV L)).loc cc0_scratch1)) :
    ((rowK15).view.loc (V d (cV L) (jV L)) ↦[(rowK15).view.set]{q} f : sProp 𝕄) = ((V d (cV L) (jV L)).loc cc0_scratch1 ↦[rowSet 15]{q} f) := by
  rw [set_rowK15] <;> rfl
theorem pts_rowK16 (q : PosShare TreeShare) (f : Buf (Elt F) ((V d (cV L) (jV L)).loc cc0_scratch1)) :
    ((rowK16).view.loc (V d (cV L) (jV L)) ↦[(rowK16).view.set]{q} f : sProp 𝕄) = ((V d (cV L) (jV L)).loc cc0_scratch1 ↦[rowSet 16]{q} f) := by
  rw [set_rowK16] <;> rfl
theorem pts_rowK17 (q : PosShare TreeShare) (f : Buf (Elt F) ((V d (cV L) (jV L)).loc cc0_scratch1)) :
    ((rowK17).view.loc (V d (cV L) (jV L)) ↦[(rowK17).view.set]{q} f : sProp 𝕄) = ((V d (cV L) (jV L)).loc cc0_scratch1 ↦[rowSet 17]{q} f) := by
  rw [set_rowK17] <;> rfl
theorem pts_rowK18 (q : PosShare TreeShare) (f : Buf (Elt F) ((V d (cV L) (jV L)).loc cc0_scratch1)) :
    ((rowK18).view.loc (V d (cV L) (jV L)) ↦[(rowK18).view.set]{q} f : sProp 𝕄) = ((V d (cV L) (jV L)).loc cc0_scratch1 ↦[rowSet 18]{q} f) := by
  rw [set_rowK18] <;> rfl
theorem pts_rowK19 (q : PosShare TreeShare) (f : Buf (Elt F) ((V d (cV L) (jV L)).loc cc0_scratch1)) :
    ((rowK19).view.loc (V d (cV L) (jV L)) ↦[(rowK19).view.set]{q} f : sProp 𝕄) = ((V d (cV L) (jV L)).loc cc0_scratch1 ↦[rowSet 19]{q} f) := by
  rw [set_rowK19] <;> rfl

end Tile

end Cert.Lookup.KernelIdeal

end
-- ==== Proof.OffI.lean ====
/-
  Closed forms of the printed offset functions of the lookup's body, over the 32 grid points L (L 0 the SparseCore,
  L 1 the subcore; the worker number is w = 2 (L 1) + (L 0)).

  The index block a subcore copies starts at column 128 ⌊w / 4⌋ of the transposed index array; within that block its
  own 32 columns start at 32 (w mod 4), in each of the twenty index rows; together these are the columns from
  64 (L 1) + 32 (L 0). The second conditional of the body holds exactly on the last subcore.
-/
import proofs.«206460_g62371515072547_cont_9to1_m_307_33_alg».proof.Proof.Gen.KernelIdeal

set_option Elab.async false

namespace Cert.Lookup.KernelIdeal

open Cert.KernelIdeal Cert.KernelIdeal.Gen Idealize.ShloMosaic

/-- The index block: all twenty rows, 128 columns from 128 ⌊w / 4⌋. -/
theorem k0_off1_cf : ∀ L : grid0.Coords, k0_off1 L = ![0, 128 * ((2 * (L 1).val + (L 0).val) / 4)] := by decide +kernel

/-- Index row 0 of the block: 32 columns from 32 (w mod 4). -/
theorem k0_off3_cf : ∀ L : grid0.Coords, k0_off3 L = ![0, 32 * ((2 * (L 1).val + (L 0).val) % 4)] := by decide +kernel
/-- Index row 1 of the block: 32 columns from 32 (w mod 4). -/
theorem k0_off4_cf : ∀ L : grid0.Coords, k0_off4 L = ![1, 32 * ((2 * (L 1).val + (L 0).val) % 4)] := by decide +kernel
/-- Index row 2 of the block: 32 columns from 32 (w mod 4). -/
theorem k0_off5_cf : ∀ L : grid0.Coords, k0_off5 L = ![2, 32 * ((2 * (L 1).val + (L 0).val) % 4)] := by decide +kernel
/-- Index row 3 of the block: 32 columns from 32 (w mod 4). -/
theorem k0_off6_cf : ∀ L : grid0.Coords, k0_off6 L = ![3, 32 * ((2 * (L 1).val + (L 0).val) % 4)] := by decide +kernel
/-- Index row 4 of the block: 32 columns from 32 (w mod 4). -/
theorem k0_off7_cf : ∀ L : grid0.Coords, k0_off7 L = ![4, 32 * ((2 * (L 1).val + (L 0).val) % 4)] := by decide +kernel
/-- Index row 5 of the block: 32 columns from 32 (w mod 4). -/
theorem k0_off8_cf : ∀ L : grid0.Coords, k0_off8 L = ![5, 32 * ((2 * (L 1).val + (L 0).val) % 4)] := by decide +kernel
/-- Index row 6 of the block: 32 columns from 32 (w mod 4). -/
theorem k0_off9_cf : ∀ L : grid0.Coords, k0_off9 L = ![6, 32 * ((2 * (L 1).val + (L 0).val) % 4)] := by decide +kernel
/-- Index row 7 of the block: 32 columns from 32 (w mod 4). -/
theorem k0_off10_cf : ∀ L : grid0.Coords, k0_off10 L = ![7, 32 * ((2 * (L 1).val + (L 0).val) % 4)] := by decide +kernel
/-- Index row 8 of the block: 32 columns from 32 (w mod 4). -/
theorem k0_off11_cf : ∀ L : grid0.Coords, k0_off11 L = ![8, 32 * ((2 * (L 1).val + (L 0).val) % 4)] := by decide +kernel
/-- Index row 9 of the block: 32 columns from 32 (w mod 4). -/
theorem k0_off12_cf : ∀ L : grid0.Coords, k0_off12 L = ![9, 32 * ((2 * (L 1).val + (L 0).val) % 4)] := by decide +kernel
/-- Index row 10 of the block: 32 columns from 32 (w mod 4). -/
theorem k0_off13_cf : ∀ L : grid0.Coords, k0_off13 L = ![10, 32 * ((2 * (L 1).val + (L 0).val) % 4)] := by decide +kernel
/-- Index row 11 of the block: 32 columns from 32 (w mod 4). -/
theorem k0_off14_cf : ∀ L : grid0.Coords, k0_off14 L = ![11, 32 * ((2 * (L 1).val + (L 0).val) % 4)] := by decide +kernel
/-- Index row 12 of the block: 32 columns from 32 (w mod 4). -/
theorem k0_off15_cf : ∀ L : grid0.Coords, k0_off15 L = ![12, 32 * ((2 * (L 1).val + (L 0).val) % 4)] := by decide +kernel
/-- Index row 13 of the block: 32 columns from 32 (w mod 4). -/
theorem k0_off16_cf : ∀ L : grid0.Coords, k0_off16 L = ![13, 32 * ((2 * (L 1).val + (L 0).val) % 4)] := by decide +kernel
/-- Index row 14 of the block: 32 columns from 32 (w mod 4). -/
theorem k0_off17_cf : ∀ L : grid0.Coords, k0_off17 L = ![14, 32 * ((2 * (L 1).val + (L 0).val) % 4)] := by decide +kernel
/-- Index row 15 of the block: 32 columns from 32 (w mod 4). -/
theorem k0_off18_cf : ∀ L : grid0.Coords, k0_off18 L = ![15, 32 * ((2 * (L 1).val + (L 0).val) % 4)] := by decide +kernel
/-- Index row 16 of the block: 32 columns from 32 (w mod 4). -/
theorem k0_off19_cf : ∀ L : grid0.Coords, k0_off19 L = ![16, 32 * ((2 * (L 1).val + (L 0).val) % 4)] := by decide +kernel
/-- Index row 17 of the block: 32 columns from 32 (w mod 4). -/
theorem k0_off20_cf : ∀ L : grid0.Coords, k0_off20 L = ![17, 32 * ((2 * (L 1).val + (L 0).val) % 4)] := by decide +kernel
/-- Index row 18 of the block: 32 columns from 32 (w mod 4). -/
theorem k0_off21_cf : ∀ L : grid0.Coords, k0_off21 L = ![18, 32 * ((2 * (L 1).val + (L 0).val) % 4)] := by decide +kernel
/-- Index row 19 of the block: 32 columns from 32 (w mod 4). -/
theorem k0_off22_cf : ∀ L : grid0.Coords, k0_off22 L = ![19, 32 * ((2 * (L 1).val + (L 0).val) % 4)] := by decide +kernel

/-- The second conditional of the body holds exactly on subcore 15. -/
theorem cond2_iff : ∀ L : grid0.Coords,
    (Scalar.cmpi .ne (Scalar.extui (Scalar.cmpi .eq (BitVec.ofNat 32 (L 1).val) 15#32) : BitVec 32) 0#32 = 1#1) ↔ (L 1).val = 15 := by
  decide +kernel

/-- The block's first column and the offset within it give the subcore's first column of the result. -/
theorem col_eq : ∀ L : grid0.Coords,
    128 * ((2 * (L 1).val + (L 0).val) / 4) + 32 * ((2 * (L 1).val + (L 0).val) % 4) = 64 * (L 1).val + 32 * (L 0).val := by
  intro L
  omega

end Cert.Lookup.KernelIdeal
-- ==== Proof.ValsI.lean ====
/-
  What a vector subcore's transfers leave behind, element by element.

  A gather into row j of the row scratch: entry (q, e) of the gathered block is the staged table at (r, e), where r is
  the number held by word (j, 32 (w mod 4) + q) of the index scratch (w = 2 (L 1) + (L 0) the worker number); the index
  scratch holds the block of the transposed indices from column 128 ⌊w / 4⌋, so that word is the transposed index word
  (j, 64 (L 1) + 32 (L 0) + q), below 1000 under the precondition; the staged table holds the table. Hence the row
  scratch holds, at (j, q, e), the result's entry (j, 64 (L 1) + 32 (L 0) + q, e).

  A copy of rows 2 k, 2 k + 1 of the row scratch into block k of the subcore's columns of the result: element (r, q, e)
  goes to (2 k + r, 64 (L 1) + 32 (L 0) + q, e), and holds the result's entry there.
-/
import proofs.«206460_g62371515072547_cont_9to1_m_307_33_alg».proof.Proof.ValI
import proofs.«206460_g62371515072547_cont_9to1_m_307_33_alg».proof.Proof.OffI
import Idealize.ShloMosaic.Lib.SparseCore.Stream
import Idealize.ShloMosaic.Lib.Writes

noncomputable section

namespace Cert.Lookup.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

variable (m : (ℓ : Loc nD τ sig) → Buf (Elt F) ℓ)

local notation "xtV" => (Memref.whole Cert.KernelIdeal.main_v0_scv : Memref Cert.KernelIdeal.sig Kind.scVector Space.hbm Cert.KernelIdeal.S20x1024 EltTy.i32)
local notation "wV" => (Memref.whole Cert.KernelIdeal.main_arg1_scv : Memref Cert.KernelIdeal.sig Kind.scVector Space.hbm Cert.KernelIdeal.S1000x128 EltTy.f32)
local notation "oV" => (Memref.whole Cert.KernelIdeal.main_v1_scv : Memref Cert.KernelIdeal.sig Kind.scVector Space.hbm Cert.KernelIdeal.S20x1024x128 EltTy.f32)
local notation "ixV" => (Memref.whole Cert.KernelIdeal.cc0_scratch0 : Memref Cert.KernelIdeal.sig Kind.scVector Space.vmem Cert.KernelIdeal.S20x128 EltTy.i32)
local notation "rwV" => (Memref.whole Cert.KernelIdeal.cc0_scratch1 : Memref Cert.KernelIdeal.sig Kind.scVector Space.vmem Cert.KernelIdeal.S20x32x128 EltTy.f32)
local notation "shV" => (Memref.whole Cert.KernelIdeal.cc0_scratch2 : Memref Cert.KernelIdeal.sig Kind.scVector Space.shared Cert.KernelIdeal.S1000x128 EltTy.f32)

variable [FloatOps F]

section Tile

variable (d : Dev nD) (L : grid0.Coords)

omit [FloatOps F] in
/-- A unit-stride rectangle places an index at its offsets plus the index. -/
theorem unit_emb_val {s : Shape} (off size : Fin s.rank → ℕ) (inb : ∀ a, off a + size a ≤ s.size a)
    (j : (Rect.unit off size inb).shape.Idx) (a : Fin s.rank) :
    ((Rect.unit off size inb).emb j a : ℕ) = off a + (j a : ℕ) := by
  rw [Rect.emb_apply]
  show off a + 1 * _ = _
  rw [Nat.one_mul]

omit [FloatOps F] in
/-- Where a row of the row scratch, squeezed to 32 × 128, places its element (q, e): at (row, q, e). -/
theorem rowK_emb (off : Fin 3 → ℕ) (hinb : ∀ a, off a + S1x32x128.size a ≤ S20x32x128.size a) (x : S32x128.Idx) :
    (((rwV).slice (Rect.unit (s := S20x32x128) off S1x32x128.size hinb) (fun _ => rfl)).squeeze S32x128 squeezes_S1x32x128_S32x128).view.emb x
      = (Rect.unit (s := S20x32x128) off S1x32x128.size hinb).emb (Fin.cons ⟨0, Nat.one_pos⟩ x) := by
  show (Rect.unit (s := S20x32x128) off S1x32x128.size hinb).emb (Shape.reshapeEquiv squeezes_S1x32x128_S32x128.numel_eq x) = _
  rw [Shape.reshapeEquiv_cons_one (n := 2) (d := ![32, 128]) squeezes_S1x32x128_S32x128.numel_eq x]

omit [FloatOps F] in
/-- Where a row of the index scratch, squeezed to 32 words, places its word q: at (row, first column + q). -/
theorem idxRowK_emb (off : Fin 2 → ℕ) (hinb : ∀ a, off a + S1x32.size a ≤ S20x128.size a) (y : S32.Idx) :
    (((ixV).slice (Rect.unit (s := S20x128) off S1x32.size hinb) (fun _ => rfl)).squeeze S32 squeezes_S1x32_S32).view.emb y
      = (Rect.unit (s := S20x128) off S1x32.size hinb).emb (Fin.cons ⟨0, Nat.one_pos⟩ y) := by
  show (Rect.unit (s := S20x128) off S1x32.size hinb).emb (Shape.reshapeEquiv squeezes_S1x32_S32.numel_eq y) = _
  rw [Shape.reshapeEquiv_cons_one (n := 1) (d := ![32]) squeezes_S1x32_S32.numel_eq y]

omit [FloatOps F] in
/-- The staged table taken whole places every index at itself. -/
theorem shSrcK_emb (I : S1000x128.Idx) : (shSrcK).view.emb I = I := by
  funext b
  apply Fin.ext
  show ((Rect.unit (s := S1000x128) ![0, 0] S1000x128.size inb_S1000x128_S1000x128_0_0).emb I b : ℕ) = _
  rw [unit_emb_val]
  match b with
  | ⟨0, _⟩ => exact Nat.zero_add _
  | ⟨1, _⟩ => exact Nat.zero_add _

omit [FloatOps F] in
/-- Word k of a list of 32 words in row-major order is the word at index k. -/
theorem rowMajor32_symm_val (k : Fin S32.numel) : ((S32.rowMajor.symm k) 0 : ℕ) = k.val := by
  have h := Shape.rowMajor_val_one (d := ![32]) (S32.rowMajor.symm k)
  rw [← h]
  exact congrArg Fin.val (S32.rowMajor.apply_symm_apply k)

/-- A gather's landing, for any index row j: the gathered rows are the subcore's rows of the result for index row j.
    Entry (q, e) of the payload is the staged table at (r, e), r the number the word (j, 32 (w mod 4) + q) of the index
    scratch holds; that word is the transposed index word (j, 64 (L 1) + 32 (L 0) + q), a row number below 1000. -/
theorem gather_val_gen (j : ℕ) (offI : Fin 2 → ℕ) (hI : ∀ a, offI a + S1x32.size a ≤ S20x128.size a)
    (hcf : offI = ![j, 32 * ((2 * (L 1).val + (L 0).val) % 4)])
    (hR : ∀ a, (![j, 0, 0] : Fin 3 → ℕ) a + S1x32x128.size a ≤ S20x32x128.size a)
    (hpre : PreOK m) (fi : Buf (Elt F) ((V d (cV L) (jV L)).loc cc0_scratch0)) (g : Buf (Elt F) ((V d (cV L) (jV L)).loc cc0_scratch1))
    (hin : ∀ (g : Buf (Elt F) ((V d (cV L) (jV L)).loc cc0_scratch0)) (x : S32.Idx),
      ((((ixV).slice (Rect.unit (s := S20x128) offI S1x32.size hI) (fun _ => rfl)).squeeze S32 squeezes_S1x32_S32).view.read (Elt F) (View.write (Elt F) (ixV).view g (ReadAs.same.apply ((xtBlockK L).view.read (Elt F) (XT m d))) Finset.univ) x).toNat < S1000x128.size gathers_S1000x128_S32x128.axis)
    (hn : S32.numel = S32x128.size gathers_S1000x128_S32x128.axis') :
    ∀ i ∈ (((rwV).slice (Rect.unit (s := S20x32x128) ![j, 0, 0] S1x32x128.size hR) (fun _ => rfl)).squeeze S32x128 squeezes_S1x32x128_S32x128).view.set, View.write (Elt F) (((rwV).slice (Rect.unit (s := S20x32x128) ![j, 0, 0] S1x32x128.size hR) (fun _ => rfl)).squeeze S32x128 squeezes_S1x32x128_S32x128).view g
        (SparseCore.gatherPayload gathers_S1000x128_S32x128 ((shSrcK).view.read (Elt F) (Wsh m d (cV L)))
          (SparseCore.rows ((((ixV).slice (Rect.unit (s := S20x128) offI S1x32.size hI) (fun _ => rfl)).squeeze S32 squeezes_S1x32_S32).view.read (Elt F) (View.write (Elt F) (ixV).view fi (ReadAs.same.apply ((xtBlockK L).view.read (Elt F) (XT m d))) Finset.univ)) hn (hin fi)))
        Finset.univ i = ROWS m d L i := by
  intro i hi
  obtain ⟨x, -, rfl⟩ := Finset.mem_map.mp hi
  rw [View.write_emb_of_mem _ _ (Finset.mem_univ x), cast_eq]
  unfold SparseCore.gatherPayload
  rw [View.read_apply, cast_eq, shSrcK_emb, rowK_emb]
  show (m (wLoc d) : (⟨S1000x128, .f32⟩ : BufTy).Contents (Elt F)) _ = (m (wLoc d) : (⟨S1000x128, .f32⟩ : BufTy).Contents (Elt F)) _
  refine congrArg _ ?_
  have e : View.write (Elt F) (ixV).view fi (ReadAs.same.apply ((xtBlockK L).view.read (Elt F) (XT m d))) Finset.univ = (ReadAs.same.apply ((xtBlockK L).view.read (Elt F) (XT m d))) := View.write_whole_univ _ _ _
  have hword : ∀ y : S32.Idx, (((ixV).slice (Rect.unit (s := S20x128) offI S1x32.size hI) (fun _ => rfl)).squeeze S32 squeezes_S1x32_S32).view.read (Elt F) (View.write (Elt F) (ixV).view fi (ReadAs.same.apply ((xtBlockK L).view.read (Elt F) (XT m d))) Finset.univ) y
      = (XT m d : (⟨S20x1024, .i32⟩ : BufTy).Contents (Elt F)) ((xtBlockK L).view.emb ((((ixV).slice (Rect.unit (s := S20x128) offI S1x32.size hI) (fun _ => rfl)).squeeze S32 squeezes_S1x32_S32).view.emb y)) := by
    intro y
    rw [e, View.read_apply, cast_eq]
    rfl
  have hI12 : (xtBlockK L).view.emb ((((ixV).slice (Rect.unit (s := S20x128) offI S1x32.size hI) (fun _ => rfl)).squeeze S32 squeezes_S1x32_S32).view.emb (S32.rowMajor.symm ((x gathers_S1000x128_S32x128.axis').cast hn.symm)))
      = ValueIdx.ix2 (((Rect.unit (s := S20x32x128) ![j, 0, 0] S1x32x128.size hR).emb (Fin.cons ⟨0, Nat.one_pos⟩ x)) 0) (colIx L (((Rect.unit (s := S20x32x128) ![j, 0, 0] S1x32x128.size hR).emb (Fin.cons ⟨0, Nat.one_pos⟩ x)) 1)) := by
    rw [idxRowK_emb]
    refine funext fun (a : Fin 2) => Fin.ext ?_
    show ((Rect.unit (s := S20x1024) (k0_off1 L) S20x128.size (k0_off1_inb L)).emb _ a : ℕ) = _
    rw [unit_emb_val, unit_emb_val, k0_off1_cf, congrFun hcf a]
    match a with
    | ⟨0, _⟩ =>
      show 0 + (j + 0) = ((((Rect.unit (s := S20x32x128) ![j, 0, 0] S1x32x128.size hR).emb (Fin.cons ⟨0, Nat.one_pos⟩ x)) 0 : Fin 20) : ℕ)
      rw [unit_emb_val]
      show 0 + (j + 0) = j + 0
      omega
    | ⟨1, _⟩ =>
      show 128 * ((2 * (L 1).val + (L 0).val) / 4) + (32 * ((2 * (L 1).val + (L 0).val) % 4) + ((S32.rowMajor.symm ((x gathers_S1000x128_S32x128.axis').cast hn.symm)) 0 : ℕ))
        = 64 * (L 1).val + 32 * (L 0).val + ((((Rect.unit (s := S20x32x128) ![j, 0, 0] S1x32x128.size hR).emb (Fin.cons ⟨0, Nat.one_pos⟩ x)) 1 : Fin 32) : ℕ)
      rw [rowMajor32_symm_val, unit_emb_val]
      have hc := col_eq L
      show _ = 64 * (L 1).val + 32 * (L 0).val + (0 + (x 0).val)
      show 128 * ((2 * (L 1).val + (L 0).val) / 4) + (32 * ((2 * (L 1).val + (L 0).val) % 4) + (x 0).val) = _
      omega
  refine funext fun (b : Fin 2) => Fin.ext ?_
  match b with
  | ⟨0, _⟩ =>
    show ((((ixV).slice (Rect.unit (s := S20x128) offI S1x32.size hI) (fun _ => rfl)).squeeze S32 squeezes_S1x32_S32).view.read (Elt F) (View.write (Elt F) (ixV).view fi (ReadAs.same.apply ((xtBlockK L).view.read (Elt F) (XT m d))) Finset.univ)
        (S32.rowMajor.symm ((x gathers_S1000x128_S32x128.axis').cast hn.symm))).toNat
      = ((XT m d : (⟨S20x1024, .i32⟩ : BufTy).Contents (Elt F)) (ValueIdx.ix2 (((Rect.unit (s := S20x32x128) ![j, 0, 0] S1x32x128.size hR).emb (Fin.cons ⟨0, Nat.one_pos⟩ x)) 0) (colIx L (((Rect.unit (s := S20x32x128) ![j, 0, 0] S1x32x128.size hR).emb (Fin.cons ⟨0, Nat.one_pos⟩ x)) 1)))).toNat % 1000
    rw [hword, hI12]
    exact (Nat.mod_eq_of_lt (XT_lt m hpre d _)).symm
  | ⟨1, _⟩ =>
    show (x 1 : ℕ) = ((((Rect.unit (s := S20x32x128) ![j, 0, 0] S1x32x128.size hR).emb (Fin.cons ⟨0, Nat.one_pos⟩ x)) 2 : Fin 128) : ℕ)
    rw [unit_emb_val]
    exact (Nat.zero_add _).symm

theorem gather_val0 (hpre : PreOK m) (fi : Buf (Elt F) ((V d (cV L) (jV L)).loc cc0_scratch0)) (g : Buf (Elt F) ((V d (cV L) (jV L)).loc cc0_scratch1))
    (hin : ∀ (g : Buf (Elt F) ((V d (cV L) (jV L)).loc cc0_scratch0)) (x : S32.Idx), ((idxRowK0 L).view.read (Elt F) (View.write (Elt F) (ixV).view g (ReadAs.same.apply ((xtBlockK L).view.read (Elt F) (XT m d))) Finset.univ) x).toNat < S1000x128.size gathers_S1000x128_S32x128.axis)
    (hn : S32.numel = S32x128.size gathers_S1000x128_S32x128.axis') :
    ∀ i ∈ (rowK0).view.set, View.write (Elt F) (rowK0).view g
        (SparseCore.gatherPayload gathers_S1000x128_S32x128 ((shSrcK).view.read (Elt F) (Wsh m d (cV L)))
          (SparseCore.rows ((idxRowK0 L).view.read (Elt F) (View.write (Elt F) (ixV).view fi (ReadAs.same.apply ((xtBlockK L).view.read (Elt F) (XT m d))) Finset.univ)) hn (hin fi)))
        Finset.univ i = ROWS m d L i :=
  gather_val_gen m d L 0 (k0_off3 L) (k0_off3_inb L) (k0_off3_cf L) inb_S20x32x128_S1x32x128_0_0_0 hpre fi g hin hn

theorem gather_val1 (hpre : PreOK m) (fi : Buf (Elt F) ((V d (cV L) (jV L)).loc cc0_scratch0)) (g : Buf (Elt F) ((V d (cV L) (jV L)).loc cc0_scratch1))
    (hin : ∀ (g : Buf (Elt F) ((V d (cV L) (jV L)).loc cc0_scratch0)) (x : S32.Idx), ((idxRowK1 L).view.read (Elt F) (View.write (Elt F) (ixV).view g (ReadAs.same.apply ((xtBlockK L).view.read (Elt F) (XT m d))) Finset.univ) x).toNat < S1000x128.size gathers_S1000x128_S32x128.axis)
    (hn : S32.numel = S32x128.size gathers_S1000x128_S32x128.axis') :
    ∀ i ∈ (rowK1).view.set, View.write (Elt F) (rowK1).view g
        (SparseCore.gatherPayload gathers_S1000x128_S32x128 ((shSrcK).view.read (Elt F) (Wsh m d (cV L)))
          (SparseCore.rows ((idxRowK1 L).view.read (Elt F) (View.write (Elt F) (ixV).view fi (ReadAs.same.apply ((xtBlockK L).view.read (Elt F) (XT m d))) Finset.univ)) hn (hin fi)))
        Finset.univ i = ROWS m d L i :=
  gather_val_gen m d L 1 (k0_off4 L) (k0_off4_inb L) (k0_off4_cf L) inb_S20x32x128_S1x32x128_1_0_0 hpre fi g hin hn

theorem gather_val2 (hpre : PreOK m) (fi : Buf (Elt F) ((V d (cV L) (jV L)).loc cc0_scratch0)) (g : Buf (Elt F) ((V d (cV L) (jV L)).loc cc0_scratch1))
    (hin : ∀ (g : Buf (Elt F) ((V d (cV L) (jV L)).loc cc0_scratch0)) (x : S32.Idx), ((idxRowK2 L).view.read (Elt F) (View.write (Elt F) (ixV).view g (ReadAs.same.apply ((xtBlockK L).view.read (Elt F) (XT m d))) Finset.univ) x).toNat < S1000x128.size gathers_S1000x128_S32x128.axis)
    (hn : S32.numel = S32x128.size gathers_S1000x128_S32x128.axis') :
    ∀ i ∈ (rowK2).view.set, View.write (Elt F) (rowK2).view g
        (SparseCore.gatherPayload gathers_S1000x128_S32x128 ((shSrcK).view.read (Elt F) (Wsh m d (cV L)))
          (SparseCore.rows ((idxRowK2 L).view.read (Elt F) (View.write (Elt F) (ixV).view fi (ReadAs.same.apply ((xtBlockK L).view.read (Elt F) (XT m d))) Finset.univ)) hn (hin fi)))
        Finset.univ i = ROWS m d L i :=
  gather_val_gen m d L 2 (k0_off5 L) (k0_off5_inb L) (k0_off5_cf L) inb_S20x32x128_S1x32x128_2_0_0 hpre fi g hin hn

theorem gather_val3 (hpre : PreOK m) (fi : Buf (Elt F) ((V d (cV L) (jV L)).loc cc0_scratch0)) (g : Buf (Elt F) ((V d (cV L) (jV L)).loc cc0_scratch1))
    (hin : ∀ (g : Buf (Elt F) ((V d (cV L) (jV L)).loc cc0_scratch0)) (x : S32.Idx), ((idxRowK3 L).view.read (Elt F) (View.write (Elt F) (ixV).view g (ReadAs.same.apply ((xtBlockK L).view.read (Elt F) (XT m d))) Finset.univ) x).toNat < S1000x128.size gathers_S1000x128_S32x128.axis)
    (hn : S32.numel = S32x128.size gathers_S1000x128_S32x128.axis') :
    ∀ i ∈ (rowK3).view.set, View.write (Elt F) (rowK3).view g
        (SparseCore.gatherPayload gathers_S1000x128_S32x128 ((shSrcK).view.read (Elt F) (Wsh m d (cV L)))
          (SparseCore.rows ((idxRowK3 L).view.read (Elt F) (View.write (Elt F) (ixV).view fi (ReadAs.same.apply ((xtBlockK L).view.read (Elt F) (XT m d))) Finset.univ)) hn (hin fi)))
        Finset.univ i = ROWS m d L i :=
  gather_val_gen m d L 3 (k0_off6 L) (k0_off6_inb L) (k0_off6_cf L) inb_S20x32x128_S1x32x128_3_0_0 hpre fi g hin hn

theorem gather_val4 (hpre : PreOK m) (fi : Buf (Elt F) ((V d (cV L) (jV L)).loc cc0_scratch0)) (g : Buf (Elt F) ((V d (cV L) (jV L)).loc cc0_scratch1))
    (hin : ∀ (g : Buf (Elt F) ((V d (cV L) (jV L)).loc cc0_scratch0)) (x : S32.Idx), ((idxRowK4 L).view.read (Elt F) (View.write (Elt F) (ixV).view g (ReadAs.same.apply ((xtBlockK L).view.read (Elt F) (XT m d))) Finset.univ) x).toNat < S1000x128.size gathers_S1000x128_S32x128.axis)
    (hn : S32.numel = S32x128.size gathers_S1000x128_S32x128.axis') :
    ∀ i ∈ (rowK4).view.set, View.write (Elt F) (rowK4).view g
        (SparseCore.gatherPayload gathers_S1000x128_S32x128 ((shSrcK).view.read (Elt F) (Wsh m d (cV L)))
          (SparseCore.rows ((idxRowK4 L).view.read (Elt F) (View.write (Elt F) (ixV).view fi (ReadAs.same.apply ((xtBlockK L).view.read (Elt F) (XT m d))) Finset.univ)) hn (hin fi)))
        Finset.univ i = ROWS m d L i :=
  gather_val_gen m d L 4 (k0_off7 L) (k0_off7_inb L) (k0_off7_cf L) inb_S20x32x128_S1x32x128_4_0_0 hpre fi g hin hn

theorem gather_val5 (hpre : PreOK m) (fi : Buf (Elt F) ((V d (cV L) (jV L)).loc cc0_scratch0)) (g : Buf (Elt F) ((V d (cV L) (jV L)).loc cc0_scratch1))
    (hin : ∀ (g : Buf (Elt F) ((V d (cV L) (jV L)).loc cc0_scratch0)) (x : S32.Idx), ((idxRowK5 L).view.read (Elt F) (View.write (Elt F) (ixV).view g (ReadAs.same.apply ((xtBlockK L).view.read (Elt F) (XT m d))) Finset.univ) x).toNat < S1000x128.size gathers_S1000x128_S32x128.axis)
    (hn : S32.numel = S32x128.size gathers_S1000x128_S32x128.axis') :
    ∀ i ∈ (rowK5).view.set, View.write (Elt F) (rowK5).view g
        (SparseCore.gatherPayload gathers_S1000x128_S32x128 ((shSrcK).view.read (Elt F) (Wsh m d (cV L)))
          (SparseCore.rows ((idxRowK5 L).view.read (Elt F) (View.write (Elt F) (ixV).view fi (ReadAs.same.apply ((xtBlockK L).view.read (Elt F) (XT m d))) Finset.univ)) hn (hin fi)))
        Finset.univ i = ROWS m d L i :=
  gather_val_gen m d L 5 (k0_off8 L) (k0_off8_inb L) (k0_off8_cf L) inb_S20x32x128_S1x32x128_5_0_0 hpre fi g hin hn

theorem gather_val6 (hpre : PreOK m) (fi : Buf (Elt F) ((V d (cV L) (jV L)).loc cc0_scratch0)) (g : Buf (Elt F) ((V d (cV L) (jV L)).loc cc0_scratch1))
    (hin : ∀ (g : Buf (Elt F) ((V d (cV L) (jV L)).loc cc0_scratch0)) (x : S32.Idx), ((idxRowK6 L).view.read (Elt F) (View.write (Elt F) (ixV).view g (ReadAs.same.apply ((xtBlockK L).view.read (Elt F) (XT m d))) Finset.univ) x).toNat < S1000x128.size gathers_S1000x128_S32x128.axis)
    (hn : S32.numel = S32x128.size gathers_S1000x128_S32x128.axis') :
    ∀ i ∈ (rowK6).view.set, View.write (Elt F) (rowK6).view g
        (SparseCore.gatherPayload gathers_S1000x128_S32x128 ((shSrcK).view.read (Elt F) (Wsh m d (cV L)))
          (SparseCore.rows ((idxRowK6 L).view.read (Elt F) (View.write (Elt F) (ixV).view fi (ReadAs.same.apply ((xtBlockK L).view.read (Elt F) (XT m d))) Finset.univ)) hn (hin fi)))
        Finset.univ i = ROWS m d L i :=
  gather_val_gen m d L 6 (k0_off9 L) (k0_off9_inb L) (k0_off9_cf L) inb_S20x32x128_S1x32x128_6_0_0 hpre fi g hin hn

theorem gather_val7 (hpre : PreOK m) (fi : Buf (Elt F) ((V d (cV L) (jV L)).loc cc0_scratch0)) (g : Buf (Elt F) ((V d (cV L) (jV L)).loc cc0_scratch1))
    (hin : ∀ (g : Buf (Elt F) ((V d (cV L) (jV L)).loc cc0_scratch0)) (x : S32.Idx), ((idxRowK7 L).view.read (Elt F) (View.write (Elt F) (ixV).view g (ReadAs.same.apply ((xtBlockK L).view.read (Elt F) (XT m d))) Finset.univ) x).toNat < S1000x128.size gathers_S1000x128_S32x128.axis)
    (hn : S32.numel = S32x128.size gathers_S1000x128_S32x128.axis') :
    ∀ i ∈ (rowK7).view.set, View.write (Elt F) (rowK7).view g
        (SparseCore.gatherPayload gathers_S1000x128_S32x128 ((shSrcK).view.read (Elt F) (Wsh m d (cV L)))
          (SparseCore.rows ((idxRowK7 L).view.read (Elt F) (View.write (Elt F) (ixV).view fi (ReadAs.same.apply ((xtBlockK L).view.read (Elt F) (XT m d))) Finset.univ)) hn (hin fi)))
        Finset.univ i = ROWS m d L i :=
  gather_val_gen m d L 7 (k0_off10 L) (k0_off10_inb L) (k0_off10_cf L) inb_S20x32x128_S1x32x128_7_0_0 hpre fi g hin hn

theorem gather_val8 (hpre : PreOK m) (fi : Buf (Elt F) ((V d (cV L) (jV L)).loc cc0_scratch0)) (g : Buf (Elt F) ((V d (cV L) (jV L)).loc cc0_scratch1))
    (hin : ∀ (g : Buf (Elt F) ((V d (cV L) (jV L)).loc cc0_scratch0)) (x : S32.Idx), ((idxRowK8 L).view.read (Elt F) (View.write (Elt F) (ixV).view g (ReadAs.same.apply ((xtBlockK L).view.read (Elt F) (XT m d))) Finset.univ) x).toNat < S1000x128.size gathers_S1000x128_S32x128.axis)
    (hn : S32.numel = S32x128.size gathers_S1000x128_S32x128.axis') :
    ∀ i ∈ (rowK8).view.set, View.write (Elt F) (rowK8).view g
        (SparseCore.gatherPayload gathers_S1000x128_S32x128 ((shSrcK).view.read (Elt F) (Wsh m d (cV L)))
          (SparseCore.rows ((idxRowK8 L).view.read (Elt F) (View.write (Elt F) (ixV).view fi (ReadAs.same.apply ((xtBlockK L).view.read (Elt F) (XT m d))) Finset.univ)) hn (hin fi)))
        Finset.univ i = ROWS m d L i :=
  gather_val_gen m d L 8 (k0_off11 L) (k0_off11_inb L) (k0_off11_cf L) inb_S20x32x128_S1x32x128_8_0_0 hpre fi g hin hn

theorem gather_val9 (hpre : PreOK m) (fi : Buf (Elt F) ((V d (cV L) (jV L)).loc cc0_scratch0)) (g : Buf (Elt F) ((V d (cV L) (jV L)).loc cc0_scratch1))
    (hin : ∀ (g : Buf (Elt F) ((V d (cV L) (jV L)).loc cc0_scratch0)) (x : S32.Idx), ((idxRowK9 L).view.read (Elt F) (View.write (Elt F) (ixV).view g (ReadAs.same.apply ((xtBlockK L).view.read (Elt F) (XT m d))) Finset.univ) x).toNat < S1000x128.size gathers_S1000x128_S32x128.axis)
    (hn : S32.numel = S32x128.size gathers_S1000x128_S32x128.axis') :
    ∀ i ∈ (rowK9).view.set, View.write (Elt F) (rowK9).view g
        (SparseCore.gatherPayload gathers_S1000x128_S32x128 ((shSrcK).view.read (Elt F) (Wsh m d (cV L)))
          (SparseCore.rows ((idxRowK9 L).view.read (Elt F) (View.write (Elt F) (ixV).view fi (ReadAs.same.apply ((xtBlockK L).view.read (Elt F) (XT m d))) Finset.univ)) hn (hin fi)))
        Finset.univ i = ROWS m d L i :=
  gather_val_gen m d L 9 (k0_off12 L) (k0_off12_inb L) (k0_off12_cf L) inb_S20x32x128_S1x32x128_9_0_0 hpre fi g hin hn

theorem gather_val10 (hpre : PreOK m) (fi : Buf (Elt F) ((V d (cV L) (jV L)).loc cc0_scratch0)) (g : Buf (Elt F) ((V d (cV L) (jV L)).loc cc0_scratch1))
    (hin : ∀ (g : Buf (Elt F) ((V d (cV L) (jV L)).loc cc0_scratch0)) (x : S32.Idx), ((idxRowK10 L).view.read (Elt F) (View.write (Elt F) (ixV).view g (ReadAs.same.apply ((xtBlockK L).view.read (Elt F) (XT m d))) Finset.univ) x).toNat < S1000x128.size gathers_S1000x128_S32x128.axis)
    (hn : S32.numel = S32x128.size gathers_S1000x128_S32x128.axis') :
    ∀ i ∈ (rowK10).view.set, View.write (Elt F) (rowK10).view g
        (SparseCore.gatherPayload gathers_S1000x128_S32x128 ((shSrcK).view.read (Elt F) (Wsh m d (cV L)))
          (SparseCore.rows ((idxRowK10 L).view.read (Elt F) (View.write (Elt F) (ixV).view fi (ReadAs.same.apply ((xtBlockK L).view.read (Elt F) (XT m d))) Finset.univ)) hn (hin fi)))
        Finset.univ i = ROWS m d L i :=
  gather_val_gen m d L 10 (k0_off13 L) (k0_off13_inb L) (k0_off13_cf L) inb_S20x32x128_S1x32x128_10_0_0 hpre fi g hin hn

theorem gather_val11 (hpre : PreOK m) (fi : Buf (Elt F) ((V d (cV L) (jV L)).loc cc0_scratch0)) (g : Buf (Elt F) ((V d (cV L) (jV L)).loc cc0_scratch1))
    (hin : ∀ (g : Buf (Elt F) ((V d (cV L) (jV L)).loc cc0_scratch0)) (x : S32.Idx), ((idxRowK11 L).view.read (Elt F) (View.write (Elt F) (ixV).view g (ReadAs.same.apply ((xtBlockK L).view.read (Elt F) (XT m d))) Finset.univ) x).toNat < S1000x128.size gathers_S1000x128_S32x128.axis)
    (hn : S32.numel = S32x128.size gathers_S1000x128_S32x128.axis') :
    ∀ i ∈ (rowK11).view.set, View.write (Elt F) (rowK11).view g
        (SparseCore.gatherPayload gathers_S1000x128_S32x128 ((shSrcK).view.read (Elt F) (Wsh m d (cV L)))
          (SparseCore.rows ((idxRowK11 L).view.read (Elt F) (View.write (Elt F) (ixV).view fi (ReadAs.same.apply ((xtBlockK L).view.read (Elt F) (XT m d))) Finset.univ)) hn (hin fi)))
        Finset.univ i = ROWS m d L i :=
  gather_val_gen m d L 11 (k0_off14 L) (k0_off14_inb L) (k0_off14_cf L) inb_S20x32x128_S1x32x128_11_0_0 hpre fi g hin hn

theorem gather_val12 (hpre : PreOK m) (fi : Buf (Elt F) ((V d (cV L) (jV L)).loc cc0_scratch0)) (g : Buf (Elt F) ((V d (cV L) (jV L)).loc cc0_scratch1))
    (hin : ∀ (g : Buf (Elt F) ((V d (cV L) (jV L)).loc cc0_scratch0)) (x : S32.Idx), ((idxRowK12 L).view.read (Elt F) (View.write (Elt F) (ixV).view g (ReadAs.same.apply ((xtBlockK L).view.read (Elt F) (XT m d))) Finset.univ) x).toNat < S1000x128.size gathers_S1000x128_S32x128.axis)
    (hn : S32.numel = S32x128.size gathers_S1000x128_S32x128.axis') :
    ∀ i ∈ (rowK12).view.set, View.write (Elt F) (rowK12).view g
        (SparseCore.gatherPayload gathers_S1000x128_S32x128 ((shSrcK).view.read (Elt F) (Wsh m d (cV L)))
          (SparseCore.rows ((idxRowK12 L).view.read (Elt F) (View.write (Elt F) (ixV).view fi (ReadAs.same.apply ((xtBlockK L).view.read (Elt F) (XT m d))) Finset.univ)) hn (hin fi)))
        Finset.univ i = ROWS m d L i :=
  gather_val_gen m d L 12 (k0_off15 L) (k0_off15_inb L) (k0_off15_cf L) inb_S20x32x128_S1x32x128_12_0_0 hpre fi g hin hn

theorem gather_val13 (hpre : PreOK m) (fi : Buf (Elt F) ((V d (cV L) (jV L)).loc cc0_scratch0)) (g : Buf (Elt F) ((V d (cV L) (jV L)).loc cc0_scratch1))
    (hin : ∀ (g : Buf (Elt F) ((V d (cV L) (jV L)).loc cc0_scratch0)) (x : S32.Idx), ((idxRowK13 L).view.read (Elt F) (View.write (Elt F) (ixV).view g (ReadAs.same.apply ((xtBlockK L).view.read (Elt F) (XT m d))) Finset.univ) x).toNat < S1000x128.size gathers_S1000x128_S32x128.axis)
    (hn : S32.numel = S32x128.size gathers_S1000x128_S32x128.axis') :
    ∀ i ∈ (rowK13).view.set, View.write (Elt F) (rowK13).view g
        (SparseCore.gatherPayload gathers_S1000x128_S32x128 ((shSrcK).view.read (Elt F) (Wsh m d (cV L)))
          (SparseCore.rows ((idxRowK13 L).view.read (Elt F) (View.write (Elt F) (ixV).view fi (ReadAs.same.apply ((xtBlockK L).view.read (Elt F) (XT m d))) Finset.univ)) hn (hin fi)))
        Finset.univ i = ROWS m d L i :=
  gather_val_gen m d L 13 (k0_off16 L) (k0_off16_inb L) (k0_off16_cf L) inb_S20x32x128_S1x32x128_13_0_0 hpre fi g hin hn

theorem gather_val14 (hpre : PreOK m) (fi : Buf (Elt F) ((V d (cV L) (jV L)).loc cc0_scratch0)) (g : Buf (Elt F) ((V d (cV L) (jV L)).loc cc0_scratch1))
    (hin : ∀ (g : Buf (Elt F) ((V d (cV L) (jV L)).loc cc0_scratch0)) (x : S32.Idx), ((idxRowK14 L).view.read (Elt F) (View.write (Elt F) (ixV).view g (ReadAs.same.apply ((xtBlockK L).view.read (Elt F) (XT m d))) Finset.univ) x).toNat < S1000x128.size gathers_S1000x128_S32x128.axis)
    (hn : S32.numel = S32x128.size gathers_S1000x128_S32x128.axis') :
    ∀ i ∈ (rowK14).view.set, View.write (Elt F) (rowK14).view g
        (SparseCore.gatherPayload gathers_S1000x128_S32x128 ((shSrcK).view.read (Elt F) (Wsh m d (cV L)))
          (SparseCore.rows ((idxRowK14 L).view.read (Elt F) (View.write (Elt F) (ixV).view fi (ReadAs.same.apply ((xtBlockK L).view.read (Elt F) (XT m d))) Finset.univ)) hn (hin fi)))
        Finset.univ i = ROWS m d L i :=
  gather_val_gen m d L 14 (k0_off17 L) (k0_off17_inb L) (k0_off17_cf L) inb_S20x32x128_S1x32x128_14_0_0 hpre fi g hin hn

theorem gather_val15 (hpre : PreOK m) (fi : Buf (Elt F) ((V d (cV L) (jV L)).loc cc0_scratch0)) (g : Buf (Elt F) ((V d (cV L) (jV L)).loc cc0_scratch1))
    (hin : ∀ (g : Buf (Elt F) ((V d (cV L) (jV L)).loc cc0_scratch0)) (x : S32.Idx), ((idxRowK15 L).view.read (Elt F) (View.write (Elt F) (ixV).view g (ReadAs.same.apply ((xtBlockK L).view.read (Elt F) (XT m d))) Finset.univ) x).toNat < S1000x128.size gathers_S1000x128_S32x128.axis)
    (hn : S32.numel = S32x128.size gathers_S1000x128_S32x128.axis') :
    ∀ i ∈ (rowK15).view.set, View.write (Elt F) (rowK15).view g
        (SparseCore.gatherPayload gathers_S1000x128_S32x128 ((shSrcK).view.read (Elt F) (Wsh m d (cV L)))
          (SparseCore.rows ((idxRowK15 L).view.read (Elt F) (View.write (Elt F) (ixV).view fi (ReadAs.same.apply ((xtBlockK L).view.read (Elt F) (XT m d))) Finset.univ)) hn (hin fi)))
        Finset.univ i = ROWS m d L i :=
  gather_val_gen m d L 15 (k0_off18 L) (k0_off18_inb L) (k0_off18_cf L) inb_S20x32x128_S1x32x128_15_0_0 hpre fi g hin hn

theorem gather_val16 (hpre : PreOK m) (fi : Buf (Elt F) ((V d (cV L) (jV L)).loc cc0_scratch0)) (g : Buf (Elt F) ((V d (cV L) (jV L)).loc cc0_scratch1))
    (hin : ∀ (g : Buf (Elt F) ((V d (cV L) (jV L)).loc cc0_scratch0)) (x : S32.Idx), ((idxRowK16 L).view.read (Elt F) (View.write (Elt F) (ixV).view g (ReadAs.same.apply ((xtBlockK L).view.read (Elt F) (XT m d))) Finset.univ) x).toNat < S1000x128.size gathers_S1000x128_S32x128.axis)
    (hn : S32.numel = S32x128.size gathers_S1000x128_S32x128.axis') :
    ∀ i ∈ (rowK16).view.set, View.write (Elt F) (rowK16).view g
        (SparseCore.gatherPayload gathers_S1000x128_S32x128 ((shSrcK).view.read (Elt F) (Wsh m d (cV L)))
          (SparseCore.rows ((idxRowK16 L).view.read (Elt F) (View.write (Elt F) (ixV).view fi (ReadAs.same.apply ((xtBlockK L).view.read (Elt F) (XT m d))) Finset.univ)) hn (hin fi)))
        Finset.univ i = ROWS m d L i :=
  gather_val_gen m d L 16 (k0_off19 L) (k0_off19_inb L) (k0_off19_cf L) inb_S20x32x128_S1x32x128_16_0_0 hpre fi g hin hn

theorem gather_val17 (hpre : PreOK m) (fi : Buf (Elt F) ((V d (cV L) (jV L)).loc cc0_scratch0)) (g : Buf (Elt F) ((V d (cV L) (jV L)).loc cc0_scratch1))
    (hin : ∀ (g : Buf (Elt F) ((V d (cV L) (jV L)).loc cc0_scratch0)) (x : S32.Idx), ((idxRowK17 L).view.read (Elt F) (View.write (Elt F) (ixV).view g (ReadAs.same.apply ((xtBlockK L).view.read (Elt F) (XT m d))) Finset.univ) x).toNat < S1000x128.size gathers_S1000x128_S32x128.axis)
    (hn : S32.numel = S32x128.size gathers_S1000x128_S32x128.axis') :
    ∀ i ∈ (rowK17).view.set, View.write (Elt F) (rowK17).view g
        (SparseCore.gatherPayload gathers_S1000x128_S32x128 ((shSrcK).view.read (Elt F) (Wsh m d (cV L)))
          (SparseCore.rows ((idxRowK17 L).view.read (Elt F) (View.write (Elt F) (ixV).view fi (ReadAs.same.apply ((xtBlockK L).view.read (Elt F) (XT m d))) Finset.univ)) hn (hin fi)))
        Finset.univ i = ROWS m d L i :=
  gather_val_gen m d L 17 (k0_off20 L) (k0_off20_inb L) (k0_off20_cf L) inb_S20x32x128_S1x32x128_17_0_0 hpre fi g hin hn

theorem gather_val18 (hpre : PreOK m) (fi : Buf (Elt F) ((V d (cV L) (jV L)).loc cc0_scratch0)) (g : Buf (Elt F) ((V d (cV L) (jV L)).loc cc0_scratch1))
    (hin : ∀ (g : Buf (Elt F) ((V d (cV L) (jV L)).loc cc0_scratch0)) (x : S32.Idx), ((idxRowK18 L).view.read (Elt F) (View.write (Elt F) (ixV).view g (ReadAs.same.apply ((xtBlockK L).view.read (Elt F) (XT m d))) Finset.univ) x).toNat < S1000x128.size gathers_S1000x128_S32x128.axis)
    (hn : S32.numel = S32x128.size gathers_S1000x128_S32x128.axis') :
    ∀ i ∈ (rowK18).view.set, View.write (Elt F) (rowK18).view g
        (SparseCore.gatherPayload gathers_S1000x128_S32x128 ((shSrcK).view.read (Elt F) (Wsh m d (cV L)))
          (SparseCore.rows ((idxRowK18 L).view.read (Elt F) (View.write (Elt F) (ixV).view fi (ReadAs.same.apply ((xtBlockK L).view.read (Elt F) (XT m d))) Finset.univ)) hn (hin fi)))
        Finset.univ i = ROWS m d L i :=
  gather_val_gen m d L 18 (k0_off21 L) (k0_off21_inb L) (k0_off21_cf L) inb_S20x32x128_S1x32x128_18_0_0 hpre fi g hin hn

theorem gather_val19 (hpre : PreOK m) (fi : Buf (Elt F) ((V d (cV L) (jV L)).loc cc0_scratch0)) (g : Buf (Elt F) ((V d (cV L) (jV L)).loc cc0_scratch1))
    (hin : ∀ (g : Buf (Elt F) ((V d (cV L) (jV L)).loc cc0_scratch0)) (x : S32.Idx), ((idxRowK19 L).view.read (Elt F) (View.write (Elt F) (ixV).view g (ReadAs.same.apply ((xtBlockK L).view.read (Elt F) (XT m d))) Finset.univ) x).toNat < S1000x128.size gathers_S1000x128_S32x128.axis)
    (hn : S32.numel = S32x128.size gathers_S1000x128_S32x128.axis') :
    ∀ i ∈ (rowK19).view.set, View.write (Elt F) (rowK19).view g
        (SparseCore.gatherPayload gathers_S1000x128_S32x128 ((shSrcK).view.read (Elt F) (Wsh m d (cV L)))
          (SparseCore.rows ((idxRowK19 L).view.read (Elt F) (View.write (Elt F) (ixV).view fi (ReadAs.same.apply ((xtBlockK L).view.read (Elt F) (XT m d))) Finset.univ)) hn (hin fi)))
        Finset.univ i = ROWS m d L i :=
  gather_val_gen m d L 19 (k0_off22 L) (k0_off22_inb L) (k0_off22_cf L) inb_S20x32x128_S1x32x128_19_0_0 hpre fi g hin hn

/-- A copy-out's landing, for any pair of index rows 2 k, 2 k + 1 (k2 = 2 k): the block of the result written from the
    pair holds the result. Element (r, q, e) of the pair is the row scratch's (k2 + r, q, e), the result's entry
    (k2 + r, 64 (L 1) + 32 (L 0) + q, e), which is where the block places its element (r, q, e). -/
theorem out_val_gen (k2 : ℕ) (offO : Fin 3 → ℕ) (hO : ∀ a, offO a + S2x32x128.size a ≤ S20x1024x128.size a)
    (hcf : offO = ![k2, 64 * (L 1).val + 32 * (L 0).val, 0])
    (hP : ∀ a, (![k2, 0, 0] : Fin 3 → ℕ) a + S2x32x128.size a ≤ S20x32x128.size a) :
    ∀ i ∈ ((oV).slice (Rect.unit (s := S20x1024x128) offO S2x32x128.size hO) (fun _ => rfl)).view.set, ((oV).slice (Rect.unit (s := S20x1024x128) offO S2x32x128.size hO) (fun _ => rfl)).view.writes (Elt F) (m (oLoc d))
        [⟨Rect.whole S2x32x128, ReadAs.same.apply (((rwV).slice (Rect.unit (s := S20x32x128) ![k2, 0, 0] S2x32x128.size hP) (fun _ => rfl)).view.read (Elt F) (ROWS m d L))⟩] i = OUT m d i := by
  intro i hi
  obtain ⟨x, -, rfl⟩ := Finset.mem_map.mp hi
  have e := View.read_writes_cons_emb ((oV).slice (Rect.unit (s := S20x1024x128) offO S2x32x128.size hO) (fun _ => rfl)).view (m (oLoc d)) (Rect.whole S2x32x128)
    (ReadAs.same.apply (((rwV).slice (Rect.unit (s := S20x32x128) ![k2, 0, 0] S2x32x128.size hP) (fun _ => rfl)).view.read (Elt F) (ROWS m d L))) [] x
  rw [Rect.emb_whole_apply S2x32x128 x, View.read_apply] at e
  rw [cast_eq] at e
  refine e.trans ?_
  show (OUT m d : (⟨S20x1024x128, .f32⟩ : BufTy).Contents (Elt F)) (ValueIdx.ix3 (((rwV).slice (Rect.unit (s := S20x32x128) ![k2, 0, 0] S2x32x128.size hP) (fun _ => rfl)).view.emb x 0) (colIx L (((rwV).slice (Rect.unit (s := S20x32x128) ![k2, 0, 0] S2x32x128.size hP) (fun _ => rfl)).view.emb x 1)) (((rwV).slice (Rect.unit (s := S20x32x128) ![k2, 0, 0] S2x32x128.size hP) (fun _ => rfl)).view.emb x 2))
    = (OUT m d : (⟨S20x1024x128, .f32⟩ : BufTy).Contents (Elt F)) (((oV).slice (Rect.unit (s := S20x1024x128) offO S2x32x128.size hO) (fun _ => rfl)).view.emb x)
  refine congrArg _ ?_
  refine funext fun (a : Fin 3) => Fin.ext ?_
  show _ = ((Rect.unit (s := S20x1024x128) offO S2x32x128.size hO).emb x a : ℕ)
  rw [unit_emb_val, congrFun hcf a]
  match a with
  | ⟨0, _⟩ =>
    show ((Rect.unit (s := S20x32x128) ![k2, 0, 0] S2x32x128.size hP).emb x 0 : ℕ) = k2 + (x 0 : ℕ)
    rw [unit_emb_val]
    rfl
  | ⟨1, _⟩ =>
    show 64 * (L 1).val + 32 * (L 0).val + ((Rect.unit (s := S20x32x128) ![k2, 0, 0] S2x32x128.size hP).emb x 1 : ℕ)
      = 64 * (L 1).val + 32 * (L 0).val + (x 1 : ℕ)
    rw [unit_emb_val]
    show _ + (0 + (x 1 : ℕ)) = _
    rw [Nat.zero_add]
  | ⟨2, _⟩ =>
    show ((Rect.unit (s := S20x32x128) ![k2, 0, 0] S2x32x128.size hP).emb x 2 : ℕ) = 0 + (x 2 : ℕ)
    rw [unit_emb_val]
    rfl

theorem out_val0 : ∀ i ∈ oSet (cL L) (jL L) 0, (oB0 L).view.writes (Elt F) (m (oLoc d)) [⟨Rect.whole S2x32x128, ReadAs.same.apply ((pairK0).view.read (Elt F) (ROWS m d L))⟩] i = OUT m d i := by
  intro i hi
  rw [← set_oB0 L] at hi
  exact out_val_gen m d L 0 (k0_off23 L) (k0_off23_inb L) (k0_off23_eq L) inb_S20x32x128_S2x32x128_0_0_0 i hi

theorem out_val1 : ∀ i ∈ oSet (cL L) (jL L) 1, (oB1 L).view.writes (Elt F) (m (oLoc d)) [⟨Rect.whole S2x32x128, ReadAs.same.apply ((pairK1).view.read (Elt F) (ROWS m d L))⟩] i = OUT m d i := by
  intro i hi
  rw [← set_oB1 L] at hi
  exact out_val_gen m d L 2 (k0_off24 L) (k0_off24_inb L) (k0_off24_eq L) inb_S20x32x128_S2x32x128_2_0_0 i hi

theorem out_val2 : ∀ i ∈ oSet (cL L) (jL L) 2, (oB2 L).view.writes (Elt F) (m (oLoc d)) [⟨Rect.whole S2x32x128, ReadAs.same.apply ((pairK2).view.read (Elt F) (ROWS m d L))⟩] i = OUT m d i := by
  intro i hi
  rw [← set_oB2 L] at hi
  exact out_val_gen m d L 4 (k0_off25 L) (k0_off25_inb L) (k0_off25_eq L) inb_S20x32x128_S2x32x128_4_0_0 i hi

theorem out_val3 : ∀ i ∈ oSet (cL L) (jL L) 3, (oB3 L).view.writes (Elt F) (m (oLoc d)) [⟨Rect.whole S2x32x128, ReadAs.same.apply ((pairK3).view.read (Elt F) (ROWS m d L))⟩] i = OUT m d i := by
  intro i hi
  rw [← set_oB3 L] at hi
  exact out_val_gen m d L 6 (k0_off26 L) (k0_off26_inb L) (k0_off26_eq L) inb_S20x32x128_S2x32x128_6_0_0 i hi

theorem out_val4 : ∀ i ∈ oSet (cL L) (jL L) 4, (oB4 L).view.writes (Elt F) (m (oLoc d)) [⟨Rect.whole S2x32x128, ReadAs.same.apply ((pairK4).view.read (Elt F) (ROWS m d L))⟩] i = OUT m d i := by
  intro i hi
  rw [← set_oB4 L] at hi
  exact out_val_gen m d L 8 (k0_off27 L) (k0_off27_inb L) (k0_off27_eq L) inb_S20x32x128_S2x32x128_8_0_0 i hi

theorem out_val5 : ∀ i ∈ oSet (cL L) (jL L) 5, (oB5 L).view.writes (Elt F) (m (oLoc d)) [⟨Rect.whole S2x32x128, ReadAs.same.apply ((pairK5).view.read (Elt F) (ROWS m d L))⟩] i = OUT m d i := by
  intro i hi
  rw [← set_oB5 L] at hi
  exact out_val_gen m d L 10 (k0_off28 L) (k0_off28_inb L) (k0_off28_eq L) inb_S20x32x128_S2x32x128_10_0_0 i hi

theorem out_val6 : ∀ i ∈ oSet (cL L) (jL L) 6, (oB6 L).view.writes (Elt F) (m (oLoc d)) [⟨Rect.whole S2x32x128, ReadAs.same.apply ((pairK6).view.read (Elt F) (ROWS m d L))⟩] i = OUT m d i := by
  intro i hi
  rw [← set_oB6 L] at hi
  exact out_val_gen m d L 12 (k0_off29 L) (k0_off29_inb L) (k0_off29_eq L) inb_S20x32x128_S2x32x128_12_0_0 i hi

theorem out_val7 : ∀ i ∈ oSet (cL L) (jL L) 7, (oB7 L).view.writes (Elt F) (m (oLoc d)) [⟨Rect.whole S2x32x128, ReadAs.same.apply ((pairK7).view.read (Elt F) (ROWS m d L))⟩] i = OUT m d i := by
  intro i hi
  rw [← set_oB7 L] at hi
  exact out_val_gen m d L 14 (k0_off30 L) (k0_off30_inb L) (k0_off30_eq L) inb_S20x32x128_S2x32x128_14_0_0 i hi

theorem out_val8 : ∀ i ∈ oSet (cL L) (jL L) 8, (oB8 L).view.writes (Elt F) (m (oLoc d)) [⟨Rect.whole S2x32x128, ReadAs.same.apply ((pairK8).view.read (Elt F) (ROWS m d L))⟩] i = OUT m d i := by
  intro i hi
  rw [← set_oB8 L] at hi
  exact out_val_gen m d L 16 (k0_off31 L) (k0_off31_inb L) (k0_off31_eq L) inb_S20x32x128_S2x32x128_16_0_0 i hi

theorem out_val9 : ∀ i ∈ oSet (cL L) (jL L) 9, (oB9 L).view.writes (Elt F) (m (oLoc d)) [⟨Rect.whole S2x32x128, ReadAs.same.apply ((pairK9).view.read (Elt F) (ROWS m d L))⟩] i = OUT m d i := by
  intro i hi
  rw [← set_oB9 L] at hi
  exact out_val_gen m d L 18 (k0_off32 L) (k0_off32_inb L) (k0_off32_eq L) inb_S20x32x128_S2x32x128_18_0_0 i hi

end Tile

end Cert.Lookup.KernelIdeal

end
-- ==== Proof.TileI.lean ====
/-
  One vector subcore's task of the embedding lookup: it fetches its block of the transposed indices, stages its rows of
  the table into the SparseCore's shared memory, meets the other subcores at the barrier (handing each a read share of
  the rows it staged and receiving theirs), gathers the twenty index rows' table rows into its row scratch and copies
  them out, two index rows at a time, into its columns of the result.
-/
import proofs.«206460_g62371515072547_cont_9to1_m_307_33_alg».proof.Proof.ValI
import proofs.«206460_g62371515072547_cont_9to1_m_307_33_alg».proof.Proof.GeomI
import proofs.«206460_g62371515072547_cont_9to1_m_307_33_alg».proof.Proof.RowsI
import proofs.«206460_g62371515072547_cont_9to1_m_307_33_alg».proof.Proof.ValsI
import Idealize.ShloMosaic.Lib.Batch
import Idealize.ShloMosaic.Lib.Exec.Geometry

noncomputable section

namespace Cert.Lookup.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

variable (m : (ℓ : Loc nD τ sig) → Buf (Elt F) ℓ)

local notation "xtV" => (Memref.whole Cert.KernelIdeal.main_v0_scv : Memref Cert.KernelIdeal.sig Kind.scVector Space.hbm Cert.KernelIdeal.S20x1024 EltTy.i32)
local notation "wV" => (Memref.whole Cert.KernelIdeal.main_arg1_scv : Memref Cert.KernelIdeal.sig Kind.scVector Space.hbm Cert.KernelIdeal.S1000x128 EltTy.f32)
local notation "oV" => (Memref.whole Cert.KernelIdeal.main_v1_scv : Memref Cert.KernelIdeal.sig Kind.scVector Space.hbm Cert.KernelIdeal.S20x1024x128 EltTy.f32)
local notation "ixV" => (Memref.whole Cert.KernelIdeal.cc0_scratch0 : Memref Cert.KernelIdeal.sig Kind.scVector Space.vmem Cert.KernelIdeal.S20x128 EltTy.i32)
local notation "rwV" => (Memref.whole Cert.KernelIdeal.cc0_scratch1 : Memref Cert.KernelIdeal.sig Kind.scVector Space.vmem Cert.KernelIdeal.S20x32x128 EltTy.f32)
local notation "shV" => (Memref.whole Cert.KernelIdeal.cc0_scratch2 : Memref Cert.KernelIdeal.sig Kind.scVector Space.shared Cert.KernelIdeal.S1000x128 EltTy.f32)

variable [FloatOps F]

omit [FloatOps F] in
theorem bigSep_fin24 (Φ : Fin 24 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23) := by
  rw [show (Finset.univ : Finset (Fin 24)) = {0, 1, 2, 3, 4, 5, 6, 7, 8, 9, 10, 11, 12, 13, 14, 15, 16, 17, 18, 19, 20, 21, 22, 23} from by decide,
    bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide),
    bigSep_singleton]
  rfl

omit [FloatOps F] in
theorem bigSep_fin10 (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) := by
  rw [show (Finset.univ : Finset (Fin 10)) = {0, 1, 2, 3, 4, 5, 6, 7, 8, 9} from by decide,
    bigSep_insert (by decide), bigSep_insert (by decide), bigSep_insert (by decide), bigSep_insert (by decide), bigSep_insert (by decide), bigSep_insert (by decide), bigSep_insert (by decide), bigSep_insert (by decide), bigSep_insert (by decide),
    bigSep_singleton]
  rfl

omit [FloatOps F] in
theorem bigSep_fin20 (Φ : Fin 20 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19) := by
  rw [show (Finset.univ : Finset (Fin 20)) = {0, 1, 2, 3, 4, 5, 6, 7, 8, 9, 10, 11, 12, 13, 14, 15, 16, 17, 18, 19} from by decide,
    bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide),
    bigSep_singleton]
  rfl
section Tile

variable (d : Dev nD) (L : grid0.Coords)

/-- The subcore's DMA semaphores. -/
abbrev dcell (i : Fin 24) : GSem nD τ sig := (V d (cV L) (jV L), .dma i)

omit [FloatOps F] in
theorem ownCells_V : ownCells (V d (cV L) (jV L)) = (Finset.univ : Finset (Fin 24)).image (dcell d L) := by
  ext g
  rcases g with ⟨thr, sm⟩
  simp only [mem_ownCells, Finset.mem_image, Finset.mem_univ, true_and]
  constructor
  · rintro ⟨rfl, h⟩
    cases sm with
    | reg s =>
      have h' : (SemLoc.reg s : SemLoc sig).isScoped .scVector = true := h
      exact absurd h' (by clear h h'; revert s; decide)
    | dma s => exact ⟨s, rfl⟩
  · rintro ⟨i, hi⟩
    obtain ⟨rfl, rfl⟩ := Prod.mk.inj hi
    refine ⟨rfl, ?_⟩
    show (SemLoc.dma i : SemLoc sig).isScoped .scVector = true
    clear hi; revert i; decide

omit [FloatOps F] in
theorem ownSems0_V : (ownSems0 (V d (cV L) (jV L)) : sProp 𝕄) = bigSep Finset.univ fun i : Fin 24 => semVal (dcell d L i) 0 := by
  unfold SparseCore.Cfg.ownSems0
  rw [ownCells_V, SparseCore.bigSep_image_of_injOn (fun a _ b _ e => SemLoc.dma.inj (Prod.mk.inj e).2)]

abbrev ixRef : DevRef τ sig := (Proc.scVector (cV L) (jV L)).devRef cc0_scratch0
abbrev rwRef : DevRef τ sig := (Proc.scVector (cV L) (jV L)).devRef cc0_scratch1

omit [FloatOps F] in
/-- The subcore's own buffers are its index scratch and its row scratch. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase (ixRef L)).erase (rwRef L))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := ixRef L) rfl),
    SparseCore.bigSep_erase' (Finset.mem_erase.mpr ⟨(by intro e; cases e), SparseCore.Cfg.mem_ownRefs_of_owner (p := Proc.scVector (cV L) (jV L)) (b := rwRef L) rfl⟩)]

omit [FloatOps F] in
theorem pts_shV (q : PosShare TreeShare) (f : Buf (Elt F) (shLoc d (cV L))) :
    ((shV).view.loc (V d (cV L) (jV L)) ↦{q} f : sProp 𝕄) = shLoc d (cV L) ↦{q} f := rfl

/-- What copy-out k delivers: block k of the subcore's columns of the result written with rows 2 k, 2 k + 1 of the row
    scratch, and those rows back. -/
def deliv : Fin 10 → sProp 𝕄
  | ⟨0, _⟩ => iprop(((oB0 L).view.loc (V d (cV L) (jV L)) ↦[(oB0 L).view.set]{fullShare}
        (oB0 L).view.writes (Elt F) (m (oLoc d)) [⟨Rect.whole S2x32x128, ReadAs.same.apply ((pairK0).view.read (Elt F) (ROWS m d L))⟩])
      ∗ ((pairK0).view.loc (V d (cV L) (jV L)) ↦[(pairK0).view.set]{fullShare} ROWS m d L))
  | ⟨1, _⟩ => iprop(((oB1 L).view.loc (V d (cV L) (jV L)) ↦[(oB1 L).view.set]{fullShare}
        (oB1 L).view.writes (Elt F) (m (oLoc d)) [⟨Rect.whole S2x32x128, ReadAs.same.apply ((pairK1).view.read (Elt F) (ROWS m d L))⟩])
      ∗ ((pairK1).view.loc (V d (cV L) (jV L)) ↦[(pairK1).view.set]{fullShare} ROWS m d L))
  | ⟨2, _⟩ => iprop(((oB2 L).view.loc (V d (cV L) (jV L)) ↦[(oB2 L).view.set]{fullShare}
        (oB2 L).view.writes (Elt F) (m (oLoc d)) [⟨Rect.whole S2x32x128, ReadAs.same.apply ((pairK2).view.read (Elt F) (ROWS m d L))⟩])
      ∗ ((pairK2).view.loc (V d (cV L) (jV L)) ↦[(pairK2).view.set]{fullShare} ROWS m d L))
  | ⟨3, _⟩ => iprop(((oB3 L).view.loc (V d (cV L) (jV L)) ↦[(oB3 L).view.set]{fullShare}
        (oB3 L).view.writes (Elt F) (m (oLoc d)) [⟨Rect.whole S2x32x128, ReadAs.same.apply ((pairK3).view.read (Elt F) (ROWS m d L))⟩])
      ∗ ((pairK3).view.loc (V d (cV L) (jV L)) ↦[(pairK3).view.set]{fullShare} ROWS m d L))
  | ⟨4, _⟩ => iprop(((oB4 L).view.loc (V d (cV L) (jV L)) ↦[(oB4 L).view.set]{fullShare}
        (oB4 L).view.writes (Elt F) (m (oLoc d)) [⟨Rect.whole S2x32x128, ReadAs.same.apply ((pairK4).view.read (Elt F) (ROWS m d L))⟩])
      ∗ ((pairK4).view.loc (V d (cV L) (jV L)) ↦[(pairK4).view.set]{fullShare} ROWS m d L))
  | ⟨5, _⟩ => iprop(((oB5 L).view.loc (V d (cV L) (jV L)) ↦[(oB5 L).view.set]{fullShare}
        (oB5 L).view.writes (Elt F) (m (oLoc d)) [⟨Rect.whole S2x32x128, ReadAs.same.apply ((pairK5).view.read (Elt F) (ROWS m d L))⟩])
      ∗ ((pairK5).view.loc (V d (cV L) (jV L)) ↦[(pairK5).view.set]{fullShare} ROWS m d L))
  | ⟨6, _⟩ => iprop(((oB6 L).view.loc (V d (cV L) (jV L)) ↦[(oB6 L).view.set]{fullShare}
        (oB6 L).view.writes (Elt F) (m (oLoc d)) [⟨Rect.whole S2x32x128, ReadAs.same.apply ((pairK6).view.read (Elt F) (ROWS m d L))⟩])
      ∗ ((pairK6).view.loc (V d (cV L) (jV L)) ↦[(pairK6).view.set]{fullShare} ROWS m d L))
  | ⟨7, _⟩ => iprop(((oB7 L).view.loc (V d (cV L) (jV L)) ↦[(oB7 L).view.set]{fullShare}
        (oB7 L).view.writes (Elt F) (m (oLoc d)) [⟨Rect.whole S2x32x128, ReadAs.same.apply ((pairK7).view.read (Elt F) (ROWS m d L))⟩])
      ∗ ((pairK7).view.loc (V d (cV L) (jV L)) ↦[(pairK7).view.set]{fullShare} ROWS m d L))
  | ⟨8, _⟩ => iprop(((oB8 L).view.loc (V d (cV L) (jV L)) ↦[(oB8 L).view.set]{fullShare}
        (oB8 L).view.writes (Elt F) (m (oLoc d)) [⟨Rect.whole S2x32x128, ReadAs.same.apply ((pairK8).view.read (Elt F) (ROWS m d L))⟩])
      ∗ ((pairK8).view.loc (V d (cV L) (jV L)) ↦[(pairK8).view.set]{fullShare} ROWS m d L))
  | ⟨9, _⟩ => iprop(((oB9 L).view.loc (V d (cV L) (jV L)) ↦[(oB9 L).view.set]{fullShare}
        (oB9 L).view.writes (Elt F) (m (oLoc d)) [⟨Rect.whole S2x32x128, ReadAs.same.apply ((pairK9).view.read (Elt F) (ROWS m d L))⟩])
      ∗ ((pairK9).view.loc (V d (cV L) (jV L)) ↦[(pairK9).view.set]{fullShare} ROWS m d L))

instance deliv_storable (t : Fin 10) : BI.Storable (upEmb : UEmb _ 𝕄) (deliv m d L t) := by
  match t with
  | ⟨0, _⟩ => unfold deliv; infer_instance
  | ⟨1, _⟩ => unfold deliv; infer_instance
  | ⟨2, _⟩ => unfold deliv; infer_instance
  | ⟨3, _⟩ => unfold deliv; infer_instance
  | ⟨4, _⟩ => unfold deliv; infer_instance
  | ⟨5, _⟩ => unfold deliv; infer_instance
  | ⟨6, _⟩ => unfold deliv; infer_instance
  | ⟨7, _⟩ => unfold deliv; infer_instance
  | ⟨8, _⟩ => unfold deliv; infer_instance
  | ⟨9, _⟩ => unfold deliv; infer_instance

/-- Before the barrier: the subcore's staged rows, one read share per subcore of the SparseCore, are what its duties
    hand over. -/
theorem pays_intro :
    (bigSep Finset.univ fun j : Fin 16 => shLoc d (cV L) ↦[pieceSet (jL L)]{shareTok fullShare 16 j} Wsh m d (cV L) : sProp 𝕄)
      ⊢ bigSep Finset.univ fun j : Fin (grid0.bound 1) => (bRd (F := F) m).payload (bcell d (cV L) (j.castLE hsub0)) 0 (jV L).val := by
  refine Entails.of_eq (bigSep_congr fun j _ => ?_)
  show _ = bPay m (bcell d (cV L) (j.castLE hsub0)) (jV L).val
  unfold bPay; dsimp only
  rw [dif_pos (jV L).isLt]
  rfl

/-- After it: what its own round collected is its read share of every subcore's staged rows, that is of the whole
    staged table. -/
theorem pays_elim :
    (bigSep ((bRd (F := F) m).duties (bcell d (cV L) (jV L)) 0 \ ∅) fun n => (bRd (F := F) m).payload (bcell d (cV L) (jV L)) 0 n)
      ⊢ (shLoc d (cV L) ↦{shareTok fullShare 16 (jL L)} Wsh m d (cV L) : sProp 𝕄) := by
  rw [Finset.sdiff_empty, bRd_duties₀, SparseCore.bigSep_image_of_injOn (fun a _ b _ e => Fin.val_injective e), shPts_pieces]
  refine Entails.of_eq (bigSep_congr fun n _ => ?_)
  show bPay m (bcell d (cV L) (jV L)) n.val = _
  unfold bPay; dsimp only
  rw [dif_pos n.isLt]
  rfl

set_option maxRecDepth 100000 in
set_option maxHeartbeats 4000000 in
/-- The task on vector subcore (L 0, L 1) of device d, a subcore below the last (it stages 64 rows of the table). -/
theorem tile_bodyA (hF : (K (F := F)).Facts) (hpre : PreOK m) (hA : k0_cond1 L = 1#1)
    (hB : ¬ (Scalar.cmpi .ne (Scalar.extui (Scalar.cmpi .eq (BitVec.ofNat 32 (L 1).val) 15#32) : BitVec 32) 0#32 = 1#1))
    (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ ((xtLoc d ↦{qT (cL L) (jL L)} XT m d) ∗ (wLoc d ↦{qT (cL L) (jL L)} Wm m d)
            ∗ oBlocks d (cL L) (jL L) (m (oLoc d)) ∗ ∃ f, shLoc d (cV L) ↦[pieceSet (jL L)]{fullShare} f)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0_emb_kernel L xtV (Memref.isWhole_whole _) wV (Memref.isWhole_whole _) oV (Memref.isWhole_whole _)
            ixV (Memref.isWhole_whole _) rwV (Memref.isWhole_whole _) shV (Memref.isWhole_whole _)
            cc0_scratch3 cc0_scratch4 cc0_scratch5 cc0_scratch6 cc0_scratch7 cc0_scratch8 cc0_scratch9 cc0_scratch10 cc0_scratch11 cc0_scratch12
            cc0_scratch13 cc0_scratch14 cc0_scratch15 cc0_scratch16 cc0_scratch17 cc0_scratch18 cc0_scratch19 cc0_scratch20 cc0_scratch21 cc0_scratch22
            cc0_scratch23 cc0_scratch24 cc0_scoped0 cc0_scoped1)
          fun _ => iprop(((xtLoc d ↦{qT (cL L) (jL L)} XT m d) ∗ (wLoc d ↦{qT (cL L) (jL L)} Wm m d)
            ∗ oBlocks d (cL L) (jL L) (OUT m d)
            ∗ (shLoc d (cV L) ↦{shareTok fullShare 16 (jL L)} Wsh m d (cV L))
            ∗ (shLoc d (cV L) ↦[pieceSet (jL L)]{shareDrop fullShare 16} Wsh m d (cV L)))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  simp only [cc0_emb_kernel_eq_skeleton]; unfold cc0_emb_kernel_skel
  rw [(K (F := F)).scopedBufs_V hF d (cV L) (jV L), SparseCore.Cfg.scopedSems0_V (Val := Elt F) d (cV L) (jV L), ownSems0_V, ownBufs_V,
    bigSep_fin24]
  unfold bkit oBlocks
  rw [bigSep_fin10, bigSep_fin10]
  iintro ⟨#Hlv, ⟨⟨%κ, #Hinv⟩, Htoks, #Hrch, Hat, Hcred⟩, ⟨Hxt, Hw, ⟨Ho0, Ho1, Ho2, Ho3, Ho4, Ho5, Ho6, Ho7, Ho8, Ho9⟩, %fsh, Hsh⟩, ⟨⟨%fi, Hix⟩, ⟨%fr, Hrw⟩, Hbufs⟩,
    ⟨Hs0, Hs1, Hs2, Hs3, Hs4, Hs5, Hs6, Hs7, Hs8, Hs9, Hs10, Hs11, Hs12, Hs13, Hs14, Hs15, Hs16, Hs17, Hs18, Hs19, Hs20, Hs21, Hs22, Hs23⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := (V d (cV L) (jV L))) hO') $$ Hlv
  ihave Hxt' := (Entails.of_eq (pts_xtV (F := F) d L _ _).symm) $$ Hxt
  ihave Hw' := (Entails.of_eq (pts_wV (F := F) d L _ _).symm) $$ Hw
  ihave Hix' := (Entails.of_eq (pts_ixV (F := F) d L _).symm) $$ Hix
  ihave Hsh' := (Entails.of_eq (pts_shPieceK (F := F) d L hA _).symm) $$ Hsh
  ihave Ho0' := (Entails.of_eq (pts_oB0 (F := F) d L _).symm) $$ Ho0
  ihave Ho1' := (Entails.of_eq (pts_oB1 (F := F) d L _).symm) $$ Ho1
  ihave Ho2' := (Entails.of_eq (pts_oB2 (F := F) d L _).symm) $$ Ho2
  ihave Ho3' := (Entails.of_eq (pts_oB3 (F := F) d L _).symm) $$ Ho3
  ihave Ho4' := (Entails.of_eq (pts_oB4 (F := F) d L _).symm) $$ Ho4
  ihave Ho5' := (Entails.of_eq (pts_oB5 (F := F) d L _).symm) $$ Ho5
  ihave Ho6' := (Entails.of_eq (pts_oB6 (F := F) d L _).symm) $$ Ho6
  ihave Ho7' := (Entails.of_eq (pts_oB7 (F := F) d L _).symm) $$ Ho7
  ihave Ho8' := (Entails.of_eq (pts_oB8 (F := F) d L _).symm) $$ Ho8
  ihave Ho9' := (Entails.of_eq (pts_oB9 (F := F) d L _).symm) $$ Ho9
  -- the index block fetched; the subcore's rows of the table staged and waited for
  sl_exec
  -- the staged rows hold the table's rows; one read share of them per subcore
  ihave Hsh1 := (Entails.of_eq (pts_shPieceK (F := F) d L hA _)) $$ Hsh'
  ihave Hsh2 := (Entails.of_eq (pointsTo_congr (q := fullShare) (staged_eq m d L hA fsh _ rfl))) $$ Hsh1
  ihave Hsh3 := (Transfers.pointsTo_toks_split fullShare 16) $$ Hsh2
  icases Hsh3 with ⟨Hkeep, Hgive⟩
  ihave Hpays := (pays_intro (F := F) m d L) $$ Hgive
  ihave Hmw2 := (show levAts (K (F := F)).L (K (F := F)).lev ⊢ Transfers.MayWaits (V d (cV L) (jV L)) (default : HIx 1) O from
    (K (F := F)).mayWaits_none (thr := (V d (cV L) (jV L))) hO) $$ Hlv
  -- the barrier
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := (V d (cV L) (jV L))) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Htab := (pays_elim (F := F) m d L) $$ Hgot
  -- one read token of the staged table per gather in flight; the row scratch row by row
  ihave Htab2 := (Transfers.pointsTo_toks_split (shareTok fullShare 16 (jL L)) 20) $$ Htab
  icases Htab2 with ⟨Htrem, Htoks20⟩
  ihave Htoks20' := (Entails.of_eq (bigSep_fin20 _)) $$ Htoks20
  icases Htoks20' with ⟨Ht0, Ht1, Ht2, Ht3, Ht4, Ht5, Ht6, Ht7, Ht8, Ht9, Ht10, Ht11, Ht12, Ht13, Ht14, Ht15, Ht16, Ht17, Ht18, Ht19⟩
  ihave Ht0' := (Entails.of_eq (pts_shV (F := F) d L _ _).symm) $$ Ht0
  ihave Ht1' := (Entails.of_eq (pts_shV (F := F) d L _ _).symm) $$ Ht1
  ihave Ht2' := (Entails.of_eq (pts_shV (F := F) d L _ _).symm) $$ Ht2
  ihave Ht3' := (Entails.of_eq (pts_shV (F := F) d L _ _).symm) $$ Ht3
  ihave Ht4' := (Entails.of_eq (pts_shV (F := F) d L _ _).symm) $$ Ht4
  ihave Ht5' := (Entails.of_eq (pts_shV (F := F) d L _ _).symm) $$ Ht5
  ihave Ht6' := (Entails.of_eq (pts_shV (F := F) d L _ _).symm) $$ Ht6
  ihave Ht7' := (Entails.of_eq (pts_shV (F := F) d L _ _).symm) $$ Ht7
  ihave Ht8' := (Entails.of_eq (pts_shV (F := F) d L _ _).symm) $$ Ht8
  ihave Ht9' := (Entails.of_eq (pts_shV (F := F) d L _ _).symm) $$ Ht9
  ihave Ht10' := (Entails.of_eq (pts_shV (F := F) d L _ _).symm) $$ Ht10
  ihave Ht11' := (Entails.of_eq (pts_shV (F := F) d L _ _).symm) $$ Ht11
  ihave Ht12' := (Entails.of_eq (pts_shV (F := F) d L _ _).symm) $$ Ht12
  ihave Ht13' := (Entails.of_eq (pts_shV (F := F) d L _ _).symm) $$ Ht13
  ihave Ht14' := (Entails.of_eq (pts_shV (F := F) d L _ _).symm) $$ Ht14
  ihave Ht15' := (Entails.of_eq (pts_shV (F := F) d L _ _).symm) $$ Ht15
  ihave Ht16' := (Entails.of_eq (pts_shV (F := F) d L _ _).symm) $$ Ht16
  ihave Ht17' := (Entails.of_eq (pts_shV (F := F) d L _ _).symm) $$ Ht17
  ihave Ht18' := (Entails.of_eq (pts_shV (F := F) d L _ _).symm) $$ Ht18
  ihave Ht19' := (Entails.of_eq (pts_shV (F := F) d L _ _).symm) $$ Ht19
  ihave Hrw1 := (Entails.of_eq (rw_rows (F := F) d L fullShare fr)) $$ Hrw
  ihave Hrw2 := (Entails.of_eq (bigSep_fin20 _)) $$ Hrw1
  icases Hrw2 with ⟨Hq0, Hq1, Hq2, Hq3, Hq4, Hq5, Hq6, Hq7, Hq8, Hq9, Hq10, Hq11, Hq12, Hq13, Hq14, Hq15, Hq16, Hq17, Hq18, Hq19⟩
  ihave Hrow0 := (Entails.of_eq (pts_rowK0 (F := F) d L fullShare fr).symm) $$ Hq0
  ihave Hrow1 := (Entails.of_eq (pts_rowK1 (F := F) d L fullShare fr).symm) $$ Hq1
  ihave Hrow2 := (Entails.of_eq (pts_rowK2 (F := F) d L fullShare fr).symm) $$ Hq2
  ihave Hrow3 := (Entails.of_eq (pts_rowK3 (F := F) d L fullShare fr).symm) $$ Hq3
  ihave Hrow4 := (Entails.of_eq (pts_rowK4 (F := F) d L fullShare fr).symm) $$ Hq4
  ihave Hrow5 := (Entails.of_eq (pts_rowK5 (F := F) d L fullShare fr).symm) $$ Hq5
  ihave Hrow6 := (Entails.of_eq (pts_rowK6 (F := F) d L fullShare fr).symm) $$ Hq6
  ihave Hrow7 := (Entails.of_eq (pts_rowK7 (F := F) d L fullShare fr).symm) $$ Hq7
  ihave Hrow8 := (Entails.of_eq (pts_rowK8 (F := F) d L fullShare fr).symm) $$ Hq8
  ihave Hrow9 := (Entails.of_eq (pts_rowK9 (F := F) d L fullShare fr).symm) $$ Hq9
  ihave Hrow10 := (Entails.of_eq (pts_rowK10 (F := F) d L fullShare fr).symm) $$ Hq10
  ihave Hrow11 := (Entails.of_eq (pts_rowK11 (F := F) d L fullShare fr).symm) $$ Hq11
  ihave Hrow12 := (Entails.of_eq (pts_rowK12 (F := F) d L fullShare fr).symm) $$ Hq12
  ihave Hrow13 := (Entails.of_eq (pts_rowK13 (F := F) d L fullShare fr).symm) $$ Hq13
  ihave Hrow14 := (Entails.of_eq (pts_rowK14 (F := F) d L fullShare fr).symm) $$ Hq14
  ihave Hrow15 := (Entails.of_eq (pts_rowK15 (F := F) d L fullShare fr).symm) $$ Hq15
  ihave Hrow16 := (Entails.of_eq (pts_rowK16 (F := F) d L fullShare fr).symm) $$ Hq16
  ihave Hrow17 := (Entails.of_eq (pts_rowK17 (F := F) d L fullShare fr).symm) $$ Hq17
  ihave Hrow18 := (Entails.of_eq (pts_rowK18 (F := F) d L fullShare fr).symm) $$ Hq18
  ihave Hrow19 := (Entails.of_eq (pts_rowK19 (F := F) d L fullShare fr).symm) $$ Hq19
  have hin0 := idx_inb0 m d L hpre
  have hin1 := idx_inb1 m d L hpre
  have hin2 := idx_inb2 m d L hpre
  have hin3 := idx_inb3 m d L hpre
  have hin4 := idx_inb4 m d L hpre
  have hin5 := idx_inb5 m d L hpre
  have hin6 := idx_inb6 m d L hpre
  have hin7 := idx_inb7 m d L hpre
  have hin8 := idx_inb8 m d L hpre
  have hin9 := idx_inb9 m d L hpre
  have hin10 := idx_inb10 m d L hpre
  have hin11 := idx_inb11 m d L hpre
  have hin12 := idx_inb12 m d L hpre
  have hin13 := idx_inb13 m d L hpre
  have hin14 := idx_inb14 m d L hpre
  have hin15 := idx_inb15 m d L hpre
  have hin16 := idx_inb16 m d L hpre
  have hin17 := idx_inb17 m d L hpre
  have hin18 := idx_inb18 m d L hpre
  have hin19 := idx_inb19 m d L hpre
  ihave Hs20' := (Entails.of_eq (show (semVal (dcell d L 20) 0 : sProp 𝕄) = semVal (V d (cV L) (jV L), SemLoc.dma (SemArray.sem cc0_scratch23)) 0 from rfl)) $$ Hs20
  imod (Transfers.batch_alloc' (Lvl := ℕ) countersEmb (V d (cV L) (jV L)) (default : HIx 1) 262144 (deliv m d L) (sm := .dma cc0_scratch23.sem) (E := Set.univ)) $$ Hs20' with HB
  -- the twenty gathers issued, the first two waited for
  sl_exec
  -- rows 0, 1 hold the result's entries; together they are copy-out 0's source
  ihave Hr0 := (Entails.of_eq (pointsTo_congr (ℓ := (rowK0).view.loc (V d (cV L) (jV L))) (I := (rowK0).view.set) (q := fullShare)
      (f := (rowK0).view.writes (Elt F) fr [⟨Rect.whole S32x128, tile_bodyA.sl.gather0 m d L fi hin0⟩]) (g := ROWS m d L)
      (fun i hi => (congrFun (View.write_univ_eq_writes_whole (rowK0).view fr [] _).symm i).trans (gather_val0 m d L hpre fi fr hin0 _ i hi)))) $$ Hrow0
  ihave Hr1 := (Entails.of_eq (pointsTo_congr (ℓ := (rowK1).view.loc (V d (cV L) (jV L))) (I := (rowK1).view.set) (q := fullShare)
      (f := (rowK1).view.writes (Elt F) fr [⟨Rect.whole S32x128, tile_bodyA.sl.gather1 m d L fi hin1⟩]) (g := ROWS m d L)
      (fun i hi => (congrFun (View.write_univ_eq_writes_whole (rowK1).view fr [] _).symm i).trans (gather_val1 m d L hpre fi fr hin1 _ i hi)))) $$ Hrow1
  ihave Hp0 := (pair_join0 (F := F) d L (ROWS m d L)) $$ [Hr0 Hr1]
  · isplitl [Hr0] <;> iassumption
  sl_exec
  -- rows 2, 3 hold the result's entries; together they are copy-out 1's source
  ihave Hr2 := (Entails.of_eq (pointsTo_congr (ℓ := (rowK2).view.loc (V d (cV L) (jV L))) (I := (rowK2).view.set) (q := fullShare)
      (f := (rowK2).view.writes (Elt F) fr [⟨Rect.whole S32x128, tile_bodyA.sl.gather2 m d L fi hin2⟩]) (g := ROWS m d L)
      (fun i hi => (congrFun (View.write_univ_eq_writes_whole (rowK2).view fr [] _).symm i).trans (gather_val2 m d L hpre fi fr hin2 _ i hi)))) $$ Hrow2
  ihave Hr3 := (Entails.of_eq (pointsTo_congr (ℓ := (rowK3).view.loc (V d (cV L) (jV L))) (I := (rowK3).view.set) (q := fullShare)
      (f := (rowK3).view.writes (Elt F) fr [⟨Rect.whole S32x128, tile_bodyA.sl.gather3 m d L fi hin3⟩]) (g := ROWS m d L)
      (fun i hi => (congrFun (View.write_univ_eq_writes_whole (rowK3).view fr [] _).symm i).trans (gather_val3 m d L hpre fi fr hin3 _ i hi)))) $$ Hrow3
  ihave Hp1 := (pair_join1 (F := F) d L (ROWS m d L)) $$ [Hr2 Hr3]
  · isplitl [Hr2] <;> iassumption
  sl_exec
  -- rows 4, 5 hold the result's entries; together they are copy-out 2's source
  ihave Hr4 := (Entails.of_eq (pointsTo_congr (ℓ := (rowK4).view.loc (V d (cV L) (jV L))) (I := (rowK4).view.set) (q := fullShare)
      (f := (rowK4).view.writes (Elt F) fr [⟨Rect.whole S32x128, tile_bodyA.sl.gather4 m d L fi hin4⟩]) (g := ROWS m d L)
      (fun i hi => (congrFun (View.write_univ_eq_writes_whole (rowK4).view fr [] _).symm i).trans (gather_val4 m d L hpre fi fr hin4 _ i hi)))) $$ Hrow4
  ihave Hr5 := (Entails.of_eq (pointsTo_congr (ℓ := (rowK5).view.loc (V d (cV L) (jV L))) (I := (rowK5).view.set) (q := fullShare)
      (f := (rowK5).view.writes (Elt F) fr [⟨Rect.whole S32x128, tile_bodyA.sl.gather5 m d L fi hin5⟩]) (g := ROWS m d L)
      (fun i hi => (congrFun (View.write_univ_eq_writes_whole (rowK5).view fr [] _).symm i).trans (gather_val5 m d L hpre fi fr hin5 _ i hi)))) $$ Hrow5
  ihave Hp2 := (pair_join2 (F := F) d L (ROWS m d L)) $$ [Hr4 Hr5]
  · isplitl [Hr4] <;> iassumption
  sl_exec
  -- rows 6, 7 hold the result's entries; together they are copy-out 3's source
  ihave Hr6 := (Entails.of_eq (pointsTo_congr (ℓ := (rowK6).view.loc (V d (cV L) (jV L))) (I := (rowK6).view.set) (q := fullShare)
      (f := (rowK6).view.writes (Elt F) fr [⟨Rect.whole S32x128, tile_bodyA.sl.gather6 m d L fi hin6⟩]) (g := ROWS m d L)
      (fun i hi => (congrFun (View.write_univ_eq_writes_whole (rowK6).view fr [] _).symm i).trans (gather_val6 m d L hpre fi fr hin6 _ i hi)))) $$ Hrow6
  ihave Hr7 := (Entails.of_eq (pointsTo_congr (ℓ := (rowK7).view.loc (V d (cV L) (jV L))) (I := (rowK7).view.set) (q := fullShare)
      (f := (rowK7).view.writes (Elt F) fr [⟨Rect.whole S32x128, tile_bodyA.sl.gather7 m d L fi hin7⟩]) (g := ROWS m d L)
      (fun i hi => (congrFun (View.write_univ_eq_writes_whole (rowK7).view fr [] _).symm i).trans (gather_val7 m d L hpre fi fr hin7 _ i hi)))) $$ Hrow7
  ihave Hp3 := (pair_join3 (F := F) d L (ROWS m d L)) $$ [Hr6 Hr7]
  · isplitl [Hr6] <;> iassumption
  sl_exec
  -- rows 8, 9 hold the result's entries; together they are copy-out 4's source
  ihave Hr8 := (Entails.of_eq (pointsTo_congr (ℓ := (rowK8).view.loc (V d (cV L) (jV L))) (I := (rowK8).view.set) (q := fullShare)
      (f := (rowK8).view.writes (Elt F) fr [⟨Rect.whole S32x128, tile_bodyA.sl.gather8 m d L fi hin8⟩]) (g := ROWS m d L)
      (fun i hi => (congrFun (View.write_univ_eq_writes_whole (rowK8).view fr [] _).symm i).trans (gather_val8 m d L hpre fi fr hin8 _ i hi)))) $$ Hrow8
  ihave Hr9 := (Entails.of_eq (pointsTo_congr (ℓ := (rowK9).view.loc (V d (cV L) (jV L))) (I := (rowK9).view.set) (q := fullShare)
      (f := (rowK9).view.writes (Elt F) fr [⟨Rect.whole S32x128, tile_bodyA.sl.gather9 m d L fi hin9⟩]) (g := ROWS m d L)
      (fun i hi => (congrFun (View.write_univ_eq_writes_whole (rowK9).view fr [] _).symm i).trans (gather_val9 m d L hpre fi fr hin9 _ i hi)))) $$ Hrow9
  ihave Hp4 := (pair_join4 (F := F) d L (ROWS m d L)) $$ [Hr8 Hr9]
  · isplitl [Hr8] <;> iassumption
  sl_exec
  -- rows 10, 11 hold the result's entries; together they are copy-out 5's source
  ihave Hr10 := (Entails.of_eq (pointsTo_congr (ℓ := (rowK10).view.loc (V d (cV L) (jV L))) (I := (rowK10).view.set) (q := fullShare)
      (f := (rowK10).view.writes (Elt F) fr [⟨Rect.whole S32x128, tile_bodyA.sl.gather10 m d L fi hin10⟩]) (g := ROWS m d L)
      (fun i hi => (congrFun (View.write_univ_eq_writes_whole (rowK10).view fr [] _).symm i).trans (gather_val10 m d L hpre fi fr hin10 _ i hi)))) $$ Hrow10
  ihave Hr11 := (Entails.of_eq (pointsTo_congr (ℓ := (rowK11).view.loc (V d (cV L) (jV L))) (I := (rowK11).view.set) (q := fullShare)
      (f := (rowK11).view.writes (Elt F) fr [⟨Rect.whole S32x128, tile_bodyA.sl.gather11 m d L fi hin11⟩]) (g := ROWS m d L)
      (fun i hi => (congrFun (View.write_univ_eq_writes_whole (rowK11).view fr [] _).symm i).trans (gather_val11 m d L hpre fi fr hin11 _ i hi)))) $$ Hrow11
  ihave Hp5 := (pair_join5 (F := F) d L (ROWS m d L)) $$ [Hr10 Hr11]
  · isplitl [Hr10] <;> iassumption
  sl_exec
  -- rows 12, 13 hold the result's entries; together they are copy-out 6's source
  ihave Hr12 := (Entails.of_eq (pointsTo_congr (ℓ := (rowK12).view.loc (V d (cV L) (jV L))) (I := (rowK12).view.set) (q := fullShare)
      (f := (rowK12).view.writes (Elt F) fr [⟨Rect.whole S32x128, tile_bodyA.sl.gather12 m d L fi hin12⟩]) (g := ROWS m d L)
      (fun i hi => (congrFun (View.write_univ_eq_writes_whole (rowK12).view fr [] _).symm i).trans (gather_val12 m d L hpre fi fr hin12 _ i hi)))) $$ Hrow12
  ihave Hr13 := (Entails.of_eq (pointsTo_congr (ℓ := (rowK13).view.loc (V d (cV L) (jV L))) (I := (rowK13).view.set) (q := fullShare)
      (f := (rowK13).view.writes (Elt F) fr [⟨Rect.whole S32x128, tile_bodyA.sl.gather13 m d L fi hin13⟩]) (g := ROWS m d L)
      (fun i hi => (congrFun (View.write_univ_eq_writes_whole (rowK13).view fr [] _).symm i).trans (gather_val13 m d L hpre fi fr hin13 _ i hi)))) $$ Hrow13
  ihave Hp6 := (pair_join6 (F := F) d L (ROWS m d L)) $$ [Hr12 Hr13]
  · isplitl [Hr12] <;> iassumption
  sl_exec
  -- rows 14, 15 hold the result's entries; together they are copy-out 7's source
  ihave Hr14 := (Entails.of_eq (pointsTo_congr (ℓ := (rowK14).view.loc (V d (cV L) (jV L))) (I := (rowK14).view.set) (q := fullShare)
      (f := (rowK14).view.writes (Elt F) fr [⟨Rect.whole S32x128, tile_bodyA.sl.gather14 m d L fi hin14⟩]) (g := ROWS m d L)
      (fun i hi => (congrFun (View.write_univ_eq_writes_whole (rowK14).view fr [] _).symm i).trans (gather_val14 m d L hpre fi fr hin14 _ i hi)))) $$ Hrow14
  ihave Hr15 := (Entails.of_eq (pointsTo_congr (ℓ := (rowK15).view.loc (V d (cV L) (jV L))) (I := (rowK15).view.set) (q := fullShare)
      (f := (rowK15).view.writes (Elt F) fr [⟨Rect.whole S32x128, tile_bodyA.sl.gather15 m d L fi hin15⟩]) (g := ROWS m d L)
      (fun i hi => (congrFun (View.write_univ_eq_writes_whole (rowK15).view fr [] _).symm i).trans (gather_val15 m d L hpre fi fr hin15 _ i hi)))) $$ Hrow15
  ihave Hp7 := (pair_join7 (F := F) d L (ROWS m d L)) $$ [Hr14 Hr15]
  · isplitl [Hr14] <;> iassumption
  sl_exec
  -- rows 16, 17 hold the result's entries; together they are copy-out 8's source
  ihave Hr16 := (Entails.of_eq (pointsTo_congr (ℓ := (rowK16).view.loc (V d (cV L) (jV L))) (I := (rowK16).view.set) (q := fullShare)
      (f := (rowK16).view.writes (Elt F) fr [⟨Rect.whole S32x128, tile_bodyA.sl.gather16 m d L fi hin16⟩]) (g := ROWS m d L)
      (fun i hi => (congrFun (View.write_univ_eq_writes_whole (rowK16).view fr [] _).symm i).trans (gather_val16 m d L hpre fi fr hin16 _ i hi)))) $$ Hrow16
  ihave Hr17 := (Entails.of_eq (pointsTo_congr (ℓ := (rowK17).view.loc (V d (cV L) (jV L))) (I := (rowK17).view.set) (q := fullShare)
      (f := (rowK17).view.writes (Elt F) fr [⟨Rect.whole S32x128, tile_bodyA.sl.gather17 m d L fi hin17⟩]) (g := ROWS m d L)
      (fun i hi => (congrFun (View.write_univ_eq_writes_whole (rowK17).view fr [] _).symm i).trans (gather_val17 m d L hpre fi fr hin17 _ i hi)))) $$ Hrow17
  ihave Hp8 := (pair_join8 (F := F) d L (ROWS m d L)) $$ [Hr16 Hr17]
  · isplitl [Hr16] <;> iassumption
  sl_exec
  -- rows 18, 19 hold the result's entries; together they are copy-out 9's source
  ihave Hr18 := (Entails.of_eq (pointsTo_congr (ℓ := (rowK18).view.loc (V d (cV L) (jV L))) (I := (rowK18).view.set) (q := fullShare)
      (f := (rowK18).view.writes (Elt F) fr [⟨Rect.whole S32x128, tile_bodyA.sl.gather18 m d L fi hin18⟩]) (g := ROWS m d L)
      (fun i hi => (congrFun (View.write_univ_eq_writes_whole (rowK18).view fr [] _).symm i).trans (gather_val18 m d L hpre fi fr hin18 _ i hi)))) $$ Hrow18
  ihave Hr19 := (Entails.of_eq (pointsTo_congr (ℓ := (rowK19).view.loc (V d (cV L) (jV L))) (I := (rowK19).view.set) (q := fullShare)
      (f := (rowK19).view.writes (Elt F) fr [⟨Rect.whole S32x128, tile_bodyA.sl.gather19 m d L fi hin19⟩]) (g := ROWS m d L)
      (fun i hi => (congrFun (View.write_univ_eq_writes_whole (rowK19).view fr [] _).symm i).trans (gather_val19 m d L hpre fi fr hin19 _ i hi)))) $$ Hrow19
  ihave Hp9 := (pair_join9 (F := F) d L (ROWS m d L)) $$ [Hr18 Hr19]
  · isplitl [Hr18] <;> iassumption
  sl_exec
  sl_step
  -- the blocks of the result hold the result
  ihave Hd0 := (Entails.of_eq (pts_oB0 (F := F) d L _)) $$ HB_dst0
  ihave Hf0 := (Entails.of_eq (pointsTo_congr (q := fullShare) (out_val0 m d L))) $$ Hd0
  ihave Hd1 := (Entails.of_eq (pts_oB1 (F := F) d L _)) $$ HB_dst1
  ihave Hf1 := (Entails.of_eq (pointsTo_congr (q := fullShare) (out_val1 m d L))) $$ Hd1
  ihave Hd2 := (Entails.of_eq (pts_oB2 (F := F) d L _)) $$ HB_dst2
  ihave Hf2 := (Entails.of_eq (pointsTo_congr (q := fullShare) (out_val2 m d L))) $$ Hd2
  ihave Hd3 := (Entails.of_eq (pts_oB3 (F := F) d L _)) $$ HB_dst3
  ihave Hf3 := (Entails.of_eq (pointsTo_congr (q := fullShare) (out_val3 m d L))) $$ Hd3
  ihave Hd4 := (Entails.of_eq (pts_oB4 (F := F) d L _)) $$ HB_dst4
  ihave Hf4 := (Entails.of_eq (pointsTo_congr (q := fullShare) (out_val4 m d L))) $$ Hd4
  ihave Hd5 := (Entails.of_eq (pts_oB5 (F := F) d L _)) $$ HB_dst5
  ihave Hf5 := (Entails.of_eq (pointsTo_congr (q := fullShare) (out_val5 m d L))) $$ Hd5
  ihave Hd6 := (Entails.of_eq (pts_oB6 (F := F) d L _)) $$ HB_dst6
  ihave Hf6 := (Entails.of_eq (pointsTo_congr (q := fullShare) (out_val6 m d L))) $$ Hd6
  ihave Hd7 := (Entails.of_eq (pts_oB7 (F := F) d L _)) $$ HB_dst7
  ihave Hf7 := (Entails.of_eq (pointsTo_congr (q := fullShare) (out_val7 m d L))) $$ Hd7
  ihave Hd8 := (Entails.of_eq (pts_oB8 (F := F) d L _)) $$ HB_dst8
  ihave Hf8 := (Entails.of_eq (pointsTo_congr (q := fullShare) (out_val8 m d L))) $$ Hd8
  ihave Hd9 := (Entails.of_eq (pts_oB9 (F := F) d L _)) $$ HB_dst9
  ihave Hf9 := (Entails.of_eq (pointsTo_congr (q := fullShare) (out_val9 m d L))) $$ Hd9
  isplitl [Hxt' Hw' Hf0 Hf1 Hf2 Hf3 Hf4 Hf5 Hf6 Hf7 Hf8 Hf9 Ht0' Ht1' Ht2' Ht3' Ht4' Ht5' Ht6' Ht7' Ht8' Ht9' Ht10' Ht11' Ht12' Ht13' Ht14' Ht15' Ht16' Ht17' Ht18' Ht19' Htrem Hkeep]
  · isplitl [Hxt']; · iapply (Entails.of_eq (pts_xtV (F := F) d L _ _)); iexact Hxt'
    isplitl [Hw']; · iapply (Entails.of_eq (pts_wV (F := F) d L _ _)); iexact Hw'
    isplitl [Hf0 Hf1 Hf2 Hf3 Hf4 Hf5 Hf6 Hf7 Hf8 Hf9]
    · isplitl [Hf0]; · iexact Hf0
      isplitl [Hf1]; · iexact Hf1
      isplitl [Hf2]; · iexact Hf2
      isplitl [Hf3]; · iexact Hf3
      isplitl [Hf4]; · iexact Hf4
      isplitl [Hf5]; · iexact Hf5
      isplitl [Hf6]; · iexact Hf6
      isplitl [Hf7]; · iexact Hf7
      isplitl [Hf8]; · iexact Hf8
      iexact Hf9
    isplitl [Ht0' Ht1' Ht2' Ht3' Ht4' Ht5' Ht6' Ht7' Ht8' Ht9' Ht10' Ht11' Ht12' Ht13' Ht14' Ht15' Ht16' Ht17' Ht18' Ht19' Htrem]
    · iapply (Transfers.pointsTo_toks_join (shareTok fullShare 16 (jL L)) 20)
      isplitl [Htrem]; · iexact Htrem
      iapply (Entails.of_eq (bigSep_fin20 _).symm)
      isplitl [Ht0']; · iapply (Entails.of_eq (pts_shV (F := F) d L _ _)); iexact Ht0'
      isplitl [Ht1']; · iapply (Entails.of_eq (pts_shV (F := F) d L _ _)); iexact Ht1'
      isplitl [Ht2']; · iapply (Entails.of_eq (pts_shV (F := F) d L _ _)); iexact Ht2'
      isplitl [Ht3']; · iapply (Entails.of_eq (pts_shV (F := F) d L _ _)); iexact Ht3'
      isplitl [Ht4']; · iapply (Entails.of_eq (pts_shV (F := F) d L _ _)); iexact Ht4'
      isplitl [Ht5']; · iapply (Entails.of_eq (pts_shV (F := F) d L _ _)); iexact Ht5'
      isplitl [Ht6']; · iapply (Entails.of_eq (pts_shV (F := F) d L _ _)); iexact Ht6'
      isplitl [Ht7']; · iapply (Entails.of_eq (pts_shV (F := F) d L _ _)); iexact Ht7'
      isplitl [Ht8']; · iapply (Entails.of_eq (pts_shV (F := F) d L _ _)); iexact Ht8'
      isplitl [Ht9']; · iapply (Entails.of_eq (pts_shV (F := F) d L _ _)); iexact Ht9'
      isplitl [Ht10']; · iapply (Entails.of_eq (pts_shV (F := F) d L _ _)); iexact Ht10'
      isplitl [Ht11']; · iapply (Entails.of_eq (pts_shV (F := F) d L _ _)); iexact Ht11'
      isplitl [Ht12']; · iapply (Entails.of_eq (pts_shV (F := F) d L _ _)); iexact Ht12'
      isplitl [Ht13']; · iapply (Entails.of_eq (pts_shV (F := F) d L _ _)); iexact Ht13'
      isplitl [Ht14']; · iapply (Entails.of_eq (pts_shV (F := F) d L _ _)); iexact Ht14'
      isplitl [Ht15']; · iapply (Entails.of_eq (pts_shV (F := F) d L _ _)); iexact Ht15'
      isplitl [Ht16']; · iapply (Entails.of_eq (pts_shV (F := F) d L _ _)); iexact Ht16'
      isplitl [Ht17']; · iapply (Entails.of_eq (pts_shV (F := F) d L _ _)); iexact Ht17'
      isplitl [Ht18']; · iapply (Entails.of_eq (pts_shV (F := F) d L _ _)); iexact Ht18'
      iapply (Entails.of_eq (pts_shV (F := F) d L _ _)); iexact Ht19'
    iexact Hkeep
  isplitl [Hix' HB_src0 HB_src1 HB_src2 HB_src3 HB_src4 HB_src5 HB_src6 HB_src7 HB_src8 HB_src9 Hbufs]
  · isplitl [Hix']; · iexists _; iapply (Entails.of_eq (pts_ixV (F := F) d L _)); iexact Hix'
    isplitl [HB_src0 HB_src1 HB_src2 HB_src3 HB_src4 HB_src5 HB_src6 HB_src7 HB_src8 HB_src9]
    · iexists (ROWS m d L)
      iapply (rows_whole (F := F) d L (ROWS m d L))
      isplitl [HB_src0]; · iexact HB_src0
      isplitl [HB_src1]; · iexact HB_src1
      isplitl [HB_src2]; · iexact HB_src2
      isplitl [HB_src3]; · iexact HB_src3
      isplitl [HB_src4]; · iexact HB_src4
      isplitl [HB_src5]; · iexact HB_src5
      isplitl [HB_src6]; · iexact HB_src6
      isplitl [HB_src7]; · iexact HB_src7
      isplitl [HB_src8]; · iexact HB_src8
      iexact HB_src9
    iexact Hbufs
  isplitl [Hs0 Hs1 Hs2 Hs3 Hs4 Hs5 Hs6 Hs7 Hs8 Hs9 Hs10 Hs11 Hs12 Hs13 Hs14 Hs15 Hs16 Hs17 Hs18 Hs19 HB Hs21 Hs22 Hs23]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    isplitl [Hs15]; · iexact Hs15
    isplitl [Hs16]; · iexact Hs16
    isplitl [Hs17]; · iexact Hs17
    isplitl [Hs18]; · iexact Hs18
    isplitl [Hs19]; · iexact Hs19
    isplitl [HB]; · iexact HB
    isplitl [Hs21]; · iexact Hs21
    isplitl [Hs22]; · iexact Hs22
    iexact Hs23
  iexists _; isplitr
  swap; · iexact HO
  ipureintro; intro p hp
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  exact .inl hp

set_option maxRecDepth 100000 in
set_option maxHeartbeats 4000000 in
/-- The task on vector subcore (L 0, L 1) of device d, the last subcore (it stages the table's last 40 rows). -/
theorem tile_bodyB (hF : (K (F := F)).Facts) (hpre : PreOK m) (hA : ¬ k0_cond1 L = 1#1)
    (hB : Scalar.cmpi .ne (Scalar.extui (Scalar.cmpi .eq (BitVec.ofNat 32 (L 1).val) 15#32) : BitVec 32) 0#32 = 1#1) (hL : (L 1).val = 15)
    (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ ((xtLoc d ↦{qT (cL L) (jL L)} XT m d) ∗ (wLoc d ↦{qT (cL L) (jL L)} Wm m d)
            ∗ oBlocks d (cL L) (jL L) (m (oLoc d)) ∗ ∃ f, shLoc d (cV L) ↦[pieceSet (jL L)]{fullShare} f)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0_emb_kernel L xtV (Memref.isWhole_whole _) wV (Memref.isWhole_whole _) oV (Memref.isWhole_whole _)
            ixV (Memref.isWhole_whole _) rwV (Memref.isWhole_whole _) shV (Memref.isWhole_whole _)
            cc0_scratch3 cc0_scratch4 cc0_scratch5 cc0_scratch6 cc0_scratch7 cc0_scratch8 cc0_scratch9 cc0_scratch10 cc0_scratch11 cc0_scratch12
            cc0_scratch13 cc0_scratch14 cc0_scratch15 cc0_scratch16 cc0_scratch17 cc0_scratch18 cc0_scratch19 cc0_scratch20 cc0_scratch21 cc0_scratch22
            cc0_scratch23 cc0_scratch24 cc0_scoped0 cc0_scoped1)
          fun _ => iprop(((xtLoc d ↦{qT (cL L) (jL L)} XT m d) ∗ (wLoc d ↦{qT (cL L) (jL L)} Wm m d)
            ∗ oBlocks d (cL L) (jL L) (OUT m d)
            ∗ (shLoc d (cV L) ↦{shareTok fullShare 16 (jL L)} Wsh m d (cV L))
            ∗ (shLoc d (cV L) ↦[pieceSet (jL L)]{shareDrop fullShare 16} Wsh m d (cV L)))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  simp only [cc0_emb_kernel_eq_skeleton]; unfold cc0_emb_kernel_skel
  rw [(K (F := F)).scopedBufs_V hF d (cV L) (jV L), SparseCore.Cfg.scopedSems0_V (Val := Elt F) d (cV L) (jV L), ownSems0_V, ownBufs_V,
    bigSep_fin24]
  unfold bkit oBlocks
  rw [bigSep_fin10, bigSep_fin10]
  iintro ⟨#Hlv, ⟨⟨%κ, #Hinv⟩, Htoks, #Hrch, Hat, Hcred⟩, ⟨Hxt, Hw, ⟨Ho0, Ho1, Ho2, Ho3, Ho4, Ho5, Ho6, Ho7, Ho8, Ho9⟩, %fsh, Hsh⟩, ⟨⟨%fi, Hix⟩, ⟨%fr, Hrw⟩, Hbufs⟩,
    ⟨Hs0, Hs1, Hs2, Hs3, Hs4, Hs5, Hs6, Hs7, Hs8, Hs9, Hs10, Hs11, Hs12, Hs13, Hs14, Hs15, Hs16, Hs17, Hs18, Hs19, Hs20, Hs21, Hs22, Hs23⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := (V d (cV L) (jV L))) hO') $$ Hlv
  ihave Hxt' := (Entails.of_eq (pts_xtV (F := F) d L _ _).symm) $$ Hxt
  ihave Hw' := (Entails.of_eq (pts_wV (F := F) d L _ _).symm) $$ Hw
  ihave Hix' := (Entails.of_eq (pts_ixV (F := F) d L _).symm) $$ Hix
  ihave Hsh' := (Entails.of_eq (pts_sh40K (F := F) d L hL _).symm) $$ Hsh
  ihave Ho0' := (Entails.of_eq (pts_oB0 (F := F) d L _).symm) $$ Ho0
  ihave Ho1' := (Entails.of_eq (pts_oB1 (F := F) d L _).symm) $$ Ho1
  ihave Ho2' := (Entails.of_eq (pts_oB2 (F := F) d L _).symm) $$ Ho2
  ihave Ho3' := (Entails.of_eq (pts_oB3 (F := F) d L _).symm) $$ Ho3
  ihave Ho4' := (Entails.of_eq (pts_oB4 (F := F) d L _).symm) $$ Ho4
  ihave Ho5' := (Entails.of_eq (pts_oB5 (F := F) d L _).symm) $$ Ho5
  ihave Ho6' := (Entails.of_eq (pts_oB6 (F := F) d L _).symm) $$ Ho6
  ihave Ho7' := (Entails.of_eq (pts_oB7 (F := F) d L _).symm) $$ Ho7
  ihave Ho8' := (Entails.of_eq (pts_oB8 (F := F) d L _).symm) $$ Ho8
  ihave Ho9' := (Entails.of_eq (pts_oB9 (F := F) d L _).symm) $$ Ho9
  -- the index block fetched; the subcore's rows of the table staged and waited for
  sl_exec
  -- the staged rows hold the table's rows; one read share of them per subcore
  ihave Hsh1 := (Entails.of_eq (pts_sh40K (F := F) d L hL _)) $$ Hsh'
  ihave Hsh2 := (Entails.of_eq (pointsTo_congr (q := fullShare) (staged_eq40 m d L hL fsh _ rfl))) $$ Hsh1
  ihave Hsh3 := (Transfers.pointsTo_toks_split fullShare 16) $$ Hsh2
  icases Hsh3 with ⟨Hkeep, Hgive⟩
  ihave Hpays := (pays_intro (F := F) m d L) $$ Hgive
  ihave Hmw2 := (show levAts (K (F := F)).L (K (F := F)).lev ⊢ Transfers.MayWaits (V d (cV L) (jV L)) (default : HIx 1) O from
    (K (F := F)).mayWaits_none (thr := (V d (cV L) (jV L))) hO) $$ Hlv
  -- the barrier
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := (V d (cV L) (jV L))) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Htab := (pays_elim (F := F) m d L) $$ Hgot
  -- one read token of the staged table per gather in flight; the row scratch row by row
  ihave Htab2 := (Transfers.pointsTo_toks_split (shareTok fullShare 16 (jL L)) 20) $$ Htab
  icases Htab2 with ⟨Htrem, Htoks20⟩
  ihave Htoks20' := (Entails.of_eq (bigSep_fin20 _)) $$ Htoks20
  icases Htoks20' with ⟨Ht0, Ht1, Ht2, Ht3, Ht4, Ht5, Ht6, Ht7, Ht8, Ht9, Ht10, Ht11, Ht12, Ht13, Ht14, Ht15, Ht16, Ht17, Ht18, Ht19⟩
  ihave Ht0' := (Entails.of_eq (pts_shV (F := F) d L _ _).symm) $$ Ht0
  ihave Ht1' := (Entails.of_eq (pts_shV (F := F) d L _ _).symm) $$ Ht1
  ihave Ht2' := (Entails.of_eq (pts_shV (F := F) d L _ _).symm) $$ Ht2
  ihave Ht3' := (Entails.of_eq (pts_shV (F := F) d L _ _).symm) $$ Ht3
  ihave Ht4' := (Entails.of_eq (pts_shV (F := F) d L _ _).symm) $$ Ht4
  ihave Ht5' := (Entails.of_eq (pts_shV (F := F) d L _ _).symm) $$ Ht5
  ihave Ht6' := (Entails.of_eq (pts_shV (F := F) d L _ _).symm) $$ Ht6
  ihave Ht7' := (Entails.of_eq (pts_shV (F := F) d L _ _).symm) $$ Ht7
  ihave Ht8' := (Entails.of_eq (pts_shV (F := F) d L _ _).symm) $$ Ht8
  ihave Ht9' := (Entails.of_eq (pts_shV (F := F) d L _ _).symm) $$ Ht9
  ihave Ht10' := (Entails.of_eq (pts_shV (F := F) d L _ _).symm) $$ Ht10
  ihave Ht11' := (Entails.of_eq (pts_shV (F := F) d L _ _).symm) $$ Ht11
  ihave Ht12' := (Entails.of_eq (pts_shV (F := F) d L _ _).symm) $$ Ht12
  ihave Ht13' := (Entails.of_eq (pts_shV (F := F) d L _ _).symm) $$ Ht13
  ihave Ht14' := (Entails.of_eq (pts_shV (F := F) d L _ _).symm) $$ Ht14
  ihave Ht15' := (Entails.of_eq (pts_shV (F := F) d L _ _).symm) $$ Ht15
  ihave Ht16' := (Entails.of_eq (pts_shV (F := F) d L _ _).symm) $$ Ht16
  ihave Ht17' := (Entails.of_eq (pts_shV (F := F) d L _ _).symm) $$ Ht17
  ihave Ht18' := (Entails.of_eq (pts_shV (F := F) d L _ _).symm) $$ Ht18
  ihave Ht19' := (Entails.of_eq (pts_shV (F := F) d L _ _).symm) $$ Ht19
  ihave Hrw1 := (Entails.of_eq (rw_rows (F := F) d L fullShare fr)) $$ Hrw
  ihave Hrw2 := (Entails.of_eq (bigSep_fin20 _)) $$ Hrw1
  icases Hrw2 with ⟨Hq0, Hq1, Hq2, Hq3, Hq4, Hq5, Hq6, Hq7, Hq8, Hq9, Hq10, Hq11, Hq12, Hq13, Hq14, Hq15, Hq16, Hq17, Hq18, Hq19⟩
  ihave Hrow0 := (Entails.of_eq (pts_rowK0 (F := F) d L fullShare fr).symm) $$ Hq0
  ihave Hrow1 := (Entails.of_eq (pts_rowK1 (F := F) d L fullShare fr).symm) $$ Hq1
  ihave Hrow2 := (Entails.of_eq (pts_rowK2 (F := F) d L fullShare fr).symm) $$ Hq2
  ihave Hrow3 := (Entails.of_eq (pts_rowK3 (F := F) d L fullShare fr).symm) $$ Hq3
  ihave Hrow4 := (Entails.of_eq (pts_rowK4 (F := F) d L fullShare fr).symm) $$ Hq4
  ihave Hrow5 := (Entails.of_eq (pts_rowK5 (F := F) d L fullShare fr).symm) $$ Hq5
  ihave Hrow6 := (Entails.of_eq (pts_rowK6 (F := F) d L fullShare fr).symm) $$ Hq6
  ihave Hrow7 := (Entails.of_eq (pts_rowK7 (F := F) d L fullShare fr).symm) $$ Hq7
  ihave Hrow8 := (Entails.of_eq (pts_rowK8 (F := F) d L fullShare fr).symm) $$ Hq8
  ihave Hrow9 := (Entails.of_eq (pts_rowK9 (F := F) d L fullShare fr).symm) $$ Hq9
  ihave Hrow10 := (Entails.of_eq (pts_rowK10 (F := F) d L fullShare fr).symm) $$ Hq10
  ihave Hrow11 := (Entails.of_eq (pts_rowK11 (F := F) d L fullShare fr).symm) $$ Hq11
  ihave Hrow12 := (Entails.of_eq (pts_rowK12 (F := F) d L fullShare fr).symm) $$ Hq12
  ihave Hrow13 := (Entails.of_eq (pts_rowK13 (F := F) d L fullShare fr).symm) $$ Hq13
  ihave Hrow14 := (Entails.of_eq (pts_rowK14 (F := F) d L fullShare fr).symm) $$ Hq14
  ihave Hrow15 := (Entails.of_eq (pts_rowK15 (F := F) d L fullShare fr).symm) $$ Hq15
  ihave Hrow16 := (Entails.of_eq (pts_rowK16 (F := F) d L fullShare fr).symm) $$ Hq16
  ihave Hrow17 := (Entails.of_eq (pts_rowK17 (F := F) d L fullShare fr).symm) $$ Hq17
  ihave Hrow18 := (Entails.of_eq (pts_rowK18 (F := F) d L fullShare fr).symm) $$ Hq18
  ihave Hrow19 := (Entails.of_eq (pts_rowK19 (F := F) d L fullShare fr).symm) $$ Hq19
  have hin0 := idx_inb0 m d L hpre
  have hin1 := idx_inb1 m d L hpre
  have hin2 := idx_inb2 m d L hpre
  have hin3 := idx_inb3 m d L hpre
  have hin4 := idx_inb4 m d L hpre
  have hin5 := idx_inb5 m d L hpre
  have hin6 := idx_inb6 m d L hpre
  have hin7 := idx_inb7 m d L hpre
  have hin8 := idx_inb8 m d L hpre
  have hin9 := idx_inb9 m d L hpre
  have hin10 := idx_inb10 m d L hpre
  have hin11 := idx_inb11 m d L hpre
  have hin12 := idx_inb12 m d L hpre
  have hin13 := idx_inb13 m d L hpre
  have hin14 := idx_inb14 m d L hpre
  have hin15 := idx_inb15 m d L hpre
  have hin16 := idx_inb16 m d L hpre
  have hin17 := idx_inb17 m d L hpre
  have hin18 := idx_inb18 m d L hpre
  have hin19 := idx_inb19 m d L hpre
  ihave Hs20' := (Entails.of_eq (show (semVal (dcell d L 20) 0 : sProp 𝕄) = semVal (V d (cV L) (jV L), SemLoc.dma (SemArray.sem cc0_scratch23)) 0 from rfl)) $$ Hs20
  imod (Transfers.batch_alloc' (Lvl := ℕ) countersEmb (V d (cV L) (jV L)) (default : HIx 1) 262144 (deliv m d L) (sm := .dma cc0_scratch23.sem) (E := Set.univ)) $$ Hs20' with HB
  -- the twenty gathers issued, the first two waited for
  sl_exec
  -- rows 0, 1 hold the result's entries; together they are copy-out 0's source
  ihave Hr0 := (Entails.of_eq (pointsTo_congr (ℓ := (rowK0).view.loc (V d (cV L) (jV L))) (I := (rowK0).view.set) (q := fullShare)
      (f := (rowK0).view.writes (Elt F) fr [⟨Rect.whole S32x128, tile_bodyB.sl.gather0 m d L fi hin0⟩]) (g := ROWS m d L)
      (fun i hi => (congrFun (View.write_univ_eq_writes_whole (rowK0).view fr [] _).symm i).trans (gather_val0 m d L hpre fi fr hin0 _ i hi)))) $$ Hrow0
  ihave Hr1 := (Entails.of_eq (pointsTo_congr (ℓ := (rowK1).view.loc (V d (cV L) (jV L))) (I := (rowK1).view.set) (q := fullShare)
      (f := (rowK1).view.writes (Elt F) fr [⟨Rect.whole S32x128, tile_bodyB.sl.gather1 m d L fi hin1⟩]) (g := ROWS m d L)
      (fun i hi => (congrFun (View.write_univ_eq_writes_whole (rowK1).view fr [] _).symm i).trans (gather_val1 m d L hpre fi fr hin1 _ i hi)))) $$ Hrow1
  ihave Hp0 := (pair_join0 (F := F) d L (ROWS m d L)) $$ [Hr0 Hr1]
  · isplitl [Hr0] <;> iassumption
  sl_exec
  -- rows 2, 3 hold the result's entries; together they are copy-out 1's source
  ihave Hr2 := (Entails.of_eq (pointsTo_congr (ℓ := (rowK2).view.loc (V d (cV L) (jV L))) (I := (rowK2).view.set) (q := fullShare)
      (f := (rowK2).view.writes (Elt F) fr [⟨Rect.whole S32x128, tile_bodyB.sl.gather2 m d L fi hin2⟩]) (g := ROWS m d L)
      (fun i hi => (congrFun (View.write_univ_eq_writes_whole (rowK2).view fr [] _).symm i).trans (gather_val2 m d L hpre fi fr hin2 _ i hi)))) $$ Hrow2
  ihave Hr3 := (Entails.of_eq (pointsTo_congr (ℓ := (rowK3).view.loc (V d (cV L) (jV L))) (I := (rowK3).view.set) (q := fullShare)
      (f := (rowK3).view.writes (Elt F) fr [⟨Rect.whole S32x128, tile_bodyB.sl.gather3 m d L fi hin3⟩]) (g := ROWS m d L)
      (fun i hi => (congrFun (View.write_univ_eq_writes_whole (rowK3).view fr [] _).symm i).trans (gather_val3 m d L hpre fi fr hin3 _ i hi)))) $$ Hrow3
  ihave Hp1 := (pair_join1 (F := F) d L (ROWS m d L)) $$ [Hr2 Hr3]
  · isplitl [Hr2] <;> iassumption
  sl_exec
  -- rows 4, 5 hold the result's entries; together they are copy-out 2's source
  ihave Hr4 := (Entails.of_eq (pointsTo_congr (ℓ := (rowK4).view.loc (V d (cV L) (jV L))) (I := (rowK4).view.set) (q := fullShare)
      (f := (rowK4).view.writes (Elt F) fr [⟨Rect.whole S32x128, tile_bodyB.sl.gather4 m d L fi hin4⟩]) (g := ROWS m d L)
      (fun i hi => (congrFun (View.write_univ_eq_writes_whole (rowK4).view fr [] _).symm i).trans (gather_val4 m d L hpre fi fr hin4 _ i hi)))) $$ Hrow4
  ihave Hr5 := (Entails.of_eq (pointsTo_congr (ℓ := (rowK5).view.loc (V d (cV L) (jV L))) (I := (rowK5).view.set) (q := fullShare)
      (f := (rowK5).view.writes (Elt F) fr [⟨Rect.whole S32x128, tile_bodyB.sl.gather5 m d L fi hin5⟩]) (g := ROWS m d L)
      (fun i hi => (congrFun (View.write_univ_eq_writes_whole (rowK5).view fr [] _).symm i).trans (gather_val5 m d L hpre fi fr hin5 _ i hi)))) $$ Hrow5
  ihave Hp2 := (pair_join2 (F := F) d L (ROWS m d L)) $$ [Hr4 Hr5]
  · isplitl [Hr4] <;> iassumption
  sl_exec
  -- rows 6, 7 hold the result's entries; together they are copy-out 3's source
  ihave Hr6 := (Entails.of_eq (pointsTo_congr (ℓ := (rowK6).view.loc (V d (cV L) (jV L))) (I := (rowK6).view.set) (q := fullShare)
      (f := (rowK6).view.writes (Elt F) fr [⟨Rect.whole S32x128, tile_bodyB.sl.gather6 m d L fi hin6⟩]) (g := ROWS m d L)
      (fun i hi => (congrFun (View.write_univ_eq_writes_whole (rowK6).view fr [] _).symm i).trans (gather_val6 m d L hpre fi fr hin6 _ i hi)))) $$ Hrow6
  ihave Hr7 := (Entails.of_eq (pointsTo_congr (ℓ := (rowK7).view.loc (V d (cV L) (jV L))) (I := (rowK7).view.set) (q := fullShare)
      (f := (rowK7).view.writes (Elt F) fr [⟨Rect.whole S32x128, tile_bodyB.sl.gather7 m d L fi hin7⟩]) (g := ROWS m d L)
      (fun i hi => (congrFun (View.write_univ_eq_writes_whole (rowK7).view fr [] _).symm i).trans (gather_val7 m d L hpre fi fr hin7 _ i hi)))) $$ Hrow7
  ihave Hp3 := (pair_join3 (F := F) d L (ROWS m d L)) $$ [Hr6 Hr7]
  · isplitl [Hr6] <;> iassumption
  sl_exec
  -- rows 8, 9 hold the result's entries; together they are copy-out 4's source
  ihave Hr8 := (Entails.of_eq (pointsTo_congr (ℓ := (rowK8).view.loc (V d (cV L) (jV L))) (I := (rowK8).view.set) (q := fullShare)
      (f := (rowK8).view.writes (Elt F) fr [⟨Rect.whole S32x128, tile_bodyB.sl.gather8 m d L fi hin8⟩]) (g := ROWS m d L)
      (fun i hi => (congrFun (View.write_univ_eq_writes_whole (rowK8).view fr [] _).symm i).trans (gather_val8 m d L hpre fi fr hin8 _ i hi)))) $$ Hrow8
  ihave Hr9 := (Entails.of_eq (pointsTo_congr (ℓ := (rowK9).view.loc (V d (cV L) (jV L))) (I := (rowK9).view.set) (q := fullShare)
      (f := (rowK9).view.writes (Elt F) fr [⟨Rect.whole S32x128, tile_bodyB.sl.gather9 m d L fi hin9⟩]) (g := ROWS m d L)
      (fun i hi => (congrFun (View.write_univ_eq_writes_whole (rowK9).view fr [] _).symm i).trans (gather_val9 m d L hpre fi fr hin9 _ i hi)))) $$ Hrow9
  ihave Hp4 := (pair_join4 (F := F) d L (ROWS m d L)) $$ [Hr8 Hr9]
  · isplitl [Hr8] <;> iassumption
  sl_exec
  -- rows 10, 11 hold the result's entries; together they are copy-out 5's source
  ihave Hr10 := (Entails.of_eq (pointsTo_congr (ℓ := (rowK10).view.loc (V d (cV L) (jV L))) (I := (rowK10).view.set) (q := fullShare)
      (f := (rowK10).view.writes (Elt F) fr [⟨Rect.whole S32x128, tile_bodyB.sl.gather10 m d L fi hin10⟩]) (g := ROWS m d L)
      (fun i hi => (congrFun (View.write_univ_eq_writes_whole (rowK10).view fr [] _).symm i).trans (gather_val10 m d L hpre fi fr hin10 _ i hi)))) $$ Hrow10
  ihave Hr11 := (Entails.of_eq (pointsTo_congr (ℓ := (rowK11).view.loc (V d (cV L) (jV L))) (I := (rowK11).view.set) (q := fullShare)
      (f := (rowK11).view.writes (Elt F) fr [⟨Rect.whole S32x128, tile_bodyB.sl.gather11 m d L fi hin11⟩]) (g := ROWS m d L)
      (fun i hi => (congrFun (View.write_univ_eq_writes_whole (rowK11).view fr [] _).symm i).trans (gather_val11 m d L hpre fi fr hin11 _ i hi)))) $$ Hrow11
  ihave Hp5 := (pair_join5 (F := F) d L (ROWS m d L)) $$ [Hr10 Hr11]
  · isplitl [Hr10] <;> iassumption
  sl_exec
  -- rows 12, 13 hold the result's entries; together they are copy-out 6's source
  ihave Hr12 := (Entails.of_eq (pointsTo_congr (ℓ := (rowK12).view.loc (V d (cV L) (jV L))) (I := (rowK12).view.set) (q := fullShare)
      (f := (rowK12).view.writes (Elt F) fr [⟨Rect.whole S32x128, tile_bodyB.sl.gather12 m d L fi hin12⟩]) (g := ROWS m d L)
      (fun i hi => (congrFun (View.write_univ_eq_writes_whole (rowK12).view fr [] _).symm i).trans (gather_val12 m d L hpre fi fr hin12 _ i hi)))) $$ Hrow12
  ihave Hr13 := (Entails.of_eq (pointsTo_congr (ℓ := (rowK13).view.loc (V d (cV L) (jV L))) (I := (rowK13).view.set) (q := fullShare)
      (f := (rowK13).view.writes (Elt F) fr [⟨Rect.whole S32x128, tile_bodyB.sl.gather13 m d L fi hin13⟩]) (g := ROWS m d L)
      (fun i hi => (congrFun (View.write_univ_eq_writes_whole (rowK13).view fr [] _).symm i).trans (gather_val13 m d L hpre fi fr hin13 _ i hi)))) $$ Hrow13
  ihave Hp6 := (pair_join6 (F := F) d L (ROWS m d L)) $$ [Hr12 Hr13]
  · isplitl [Hr12] <;> iassumption
  sl_exec
  -- rows 14, 15 hold the result's entries; together they are copy-out 7's source
  ihave Hr14 := (Entails.of_eq (pointsTo_congr (ℓ := (rowK14).view.loc (V d (cV L) (jV L))) (I := (rowK14).view.set) (q := fullShare)
      (f := (rowK14).view.writes (Elt F) fr [⟨Rect.whole S32x128, tile_bodyB.sl.gather14 m d L fi hin14⟩]) (g := ROWS m d L)
      (fun i hi => (congrFun (View.write_univ_eq_writes_whole (rowK14).view fr [] _).symm i).trans (gather_val14 m d L hpre fi fr hin14 _ i hi)))) $$ Hrow14
  ihave Hr15 := (Entails.of_eq (pointsTo_congr (ℓ := (rowK15).view.loc (V d (cV L) (jV L))) (I := (rowK15).view.set) (q := fullShare)
      (f := (rowK15).view.writes (Elt F) fr [⟨Rect.whole S32x128, tile_bodyB.sl.gather15 m d L fi hin15⟩]) (g := ROWS m d L)
      (fun i hi => (congrFun (View.write_univ_eq_writes_whole (rowK15).view fr [] _).symm i).trans (gather_val15 m d L hpre fi fr hin15 _ i hi)))) $$ Hrow15
  ihave Hp7 := (pair_join7 (F := F) d L (ROWS m d L)) $$ [Hr14 Hr15]
  · isplitl [Hr14] <;> iassumption
  sl_exec
  -- rows 16, 17 hold the result's entries; together they are copy-out 8's source
  ihave Hr16 := (Entails.of_eq (pointsTo_congr (ℓ := (rowK16).view.loc (V d (cV L) (jV L))) (I := (rowK16).view.set) (q := fullShare)
      (f := (rowK16).view.writes (Elt F) fr [⟨Rect.whole S32x128, tile_bodyB.sl.gather16 m d L fi hin16⟩]) (g := ROWS m d L)
      (fun i hi => (congrFun (View.write_univ_eq_writes_whole (rowK16).view fr [] _).symm i).trans (gather_val16 m d L hpre fi fr hin16 _ i hi)))) $$ Hrow16
  ihave Hr17 := (Entails.of_eq (pointsTo_congr (ℓ := (rowK17).view.loc (V d (cV L) (jV L))) (I := (rowK17).view.set) (q := fullShare)
      (f := (rowK17).view.writes (Elt F) fr [⟨Rect.whole S32x128, tile_bodyB.sl.gather17 m d L fi hin17⟩]) (g := ROWS m d L)
      (fun i hi => (congrFun (View.write_univ_eq_writes_whole (rowK17).view fr [] _).symm i).trans (gather_val17 m d L hpre fi fr hin17 _ i hi)))) $$ Hrow17
  ihave Hp8 := (pair_join8 (F := F) d L (ROWS m d L)) $$ [Hr16 Hr17]
  · isplitl [Hr16] <;> iassumption
  sl_exec
  -- rows 18, 19 hold the result's entries; together they are copy-out 9's source
  ihave Hr18 := (Entails.of_eq (pointsTo_congr (ℓ := (rowK18).view.loc (V d (cV L) (jV L))) (I := (rowK18).view.set) (q := fullShare)
      (f := (rowK18).view.writes (Elt F) fr [⟨Rect.whole S32x128, tile_bodyB.sl.gather18 m d L fi hin18⟩]) (g := ROWS m d L)
      (fun i hi => (congrFun (View.write_univ_eq_writes_whole (rowK18).view fr [] _).symm i).trans (gather_val18 m d L hpre fi fr hin18 _ i hi)))) $$ Hrow18
  ihave Hr19 := (Entails.of_eq (pointsTo_congr (ℓ := (rowK19).view.loc (V d (cV L) (jV L))) (I := (rowK19).view.set) (q := fullShare)
      (f := (rowK19).view.writes (Elt F) fr [⟨Rect.whole S32x128, tile_bodyB.sl.gather19 m d L fi hin19⟩]) (g := ROWS m d L)
      (fun i hi => (congrFun (View.write_univ_eq_writes_whole (rowK19).view fr [] _).symm i).trans (gather_val19 m d L hpre fi fr hin19 _ i hi)))) $$ Hrow19
  ihave Hp9 := (pair_join9 (F := F) d L (ROWS m d L)) $$ [Hr18 Hr19]
  · isplitl [Hr18] <;> iassumption
  sl_exec
  sl_step
  -- the blocks of the result hold the result
  ihave Hd0 := (Entails.of_eq (pts_oB0 (F := F) d L _)) $$ HB_dst0
  ihave Hf0 := (Entails.of_eq (pointsTo_congr (q := fullShare) (out_val0 m d L))) $$ Hd0
  ihave Hd1 := (Entails.of_eq (pts_oB1 (F := F) d L _)) $$ HB_dst1
  ihave Hf1 := (Entails.of_eq (pointsTo_congr (q := fullShare) (out_val1 m d L))) $$ Hd1
  ihave Hd2 := (Entails.of_eq (pts_oB2 (F := F) d L _)) $$ HB_dst2
  ihave Hf2 := (Entails.of_eq (pointsTo_congr (q := fullShare) (out_val2 m d L))) $$ Hd2
  ihave Hd3 := (Entails.of_eq (pts_oB3 (F := F) d L _)) $$ HB_dst3
  ihave Hf3 := (Entails.of_eq (pointsTo_congr (q := fullShare) (out_val3 m d L))) $$ Hd3
  ihave Hd4 := (Entails.of_eq (pts_oB4 (F := F) d L _)) $$ HB_dst4
  ihave Hf4 := (Entails.of_eq (pointsTo_congr (q := fullShare) (out_val4 m d L))) $$ Hd4
  ihave Hd5 := (Entails.of_eq (pts_oB5 (F := F) d L _)) $$ HB_dst5
  ihave Hf5 := (Entails.of_eq (pointsTo_congr (q := fullShare) (out_val5 m d L))) $$ Hd5
  ihave Hd6 := (Entails.of_eq (pts_oB6 (F := F) d L _)) $$ HB_dst6
  ihave Hf6 := (Entails.of_eq (pointsTo_congr (q := fullShare) (out_val6 m d L))) $$ Hd6
  ihave Hd7 := (Entails.of_eq (pts_oB7 (F := F) d L _)) $$ HB_dst7
  ihave Hf7 := (Entails.of_eq (pointsTo_congr (q := fullShare) (out_val7 m d L))) $$ Hd7
  ihave Hd8 := (Entails.of_eq (pts_oB8 (F := F) d L _)) $$ HB_dst8
  ihave Hf8 := (Entails.of_eq (pointsTo_congr (q := fullShare) (out_val8 m d L))) $$ Hd8
  ihave Hd9 := (Entails.of_eq (pts_oB9 (F := F) d L _)) $$ HB_dst9
  ihave Hf9 := (Entails.of_eq (pointsTo_congr (q := fullShare) (out_val9 m d L))) $$ Hd9
  isplitl [Hxt' Hw' Hf0 Hf1 Hf2 Hf3 Hf4 Hf5 Hf6 Hf7 Hf8 Hf9 Ht0' Ht1' Ht2' Ht3' Ht4' Ht5' Ht6' Ht7' Ht8' Ht9' Ht10' Ht11' Ht12' Ht13' Ht14' Ht15' Ht16' Ht17' Ht18' Ht19' Htrem Hkeep]
  · isplitl [Hxt']; · iapply (Entails.of_eq (pts_xtV (F := F) d L _ _)); iexact Hxt'
    isplitl [Hw']; · iapply (Entails.of_eq (pts_wV (F := F) d L _ _)); iexact Hw'
    isplitl [Hf0 Hf1 Hf2 Hf3 Hf4 Hf5 Hf6 Hf7 Hf8 Hf9]
    · isplitl [Hf0]; · iexact Hf0
      isplitl [Hf1]; · iexact Hf1
      isplitl [Hf2]; · iexact Hf2
      isplitl [Hf3]; · iexact Hf3
      isplitl [Hf4]; · iexact Hf4
      isplitl [Hf5]; · iexact Hf5
      isplitl [Hf6]; · iexact Hf6
      isplitl [Hf7]; · iexact Hf7
      isplitl [Hf8]; · iexact Hf8
      iexact Hf9
    isplitl [Ht0' Ht1' Ht2' Ht3' Ht4' Ht5' Ht6' Ht7' Ht8' Ht9' Ht10' Ht11' Ht12' Ht13' Ht14' Ht15' Ht16' Ht17' Ht18' Ht19' Htrem]
    · iapply (Transfers.pointsTo_toks_join (shareTok fullShare 16 (jL L)) 20)
      isplitl [Htrem]; · iexact Htrem
      iapply (Entails.of_eq (bigSep_fin20 _).symm)
      isplitl [Ht0']; · iapply (Entails.of_eq (pts_shV (F := F) d L _ _)); iexact Ht0'
      isplitl [Ht1']; · iapply (Entails.of_eq (pts_shV (F := F) d L _ _)); iexact Ht1'
      isplitl [Ht2']; · iapply (Entails.of_eq (pts_shV (F := F) d L _ _)); iexact Ht2'
      isplitl [Ht3']; · iapply (Entails.of_eq (pts_shV (F := F) d L _ _)); iexact Ht3'
      isplitl [Ht4']; · iapply (Entails.of_eq (pts_shV (F := F) d L _ _)); iexact Ht4'
      isplitl [Ht5']; · iapply (Entails.of_eq (pts_shV (F := F) d L _ _)); iexact Ht5'
      isplitl [Ht6']; · iapply (Entails.of_eq (pts_shV (F := F) d L _ _)); iexact Ht6'
      isplitl [Ht7']; · iapply (Entails.of_eq (pts_shV (F := F) d L _ _)); iexact Ht7'
      isplitl [Ht8']; · iapply (Entails.of_eq (pts_shV (F := F) d L _ _)); iexact Ht8'
      isplitl [Ht9']; · iapply (Entails.of_eq (pts_shV (F := F) d L _ _)); iexact Ht9'
      isplitl [Ht10']; · iapply (Entails.of_eq (pts_shV (F := F) d L _ _)); iexact Ht10'
      isplitl [Ht11']; · iapply (Entails.of_eq (pts_shV (F := F) d L _ _)); iexact Ht11'
      isplitl [Ht12']; · iapply (Entails.of_eq (pts_shV (F := F) d L _ _)); iexact Ht12'
      isplitl [Ht13']; · iapply (Entails.of_eq (pts_shV (F := F) d L _ _)); iexact Ht13'
      isplitl [Ht14']; · iapply (Entails.of_eq (pts_shV (F := F) d L _ _)); iexact Ht14'
      isplitl [Ht15']; · iapply (Entails.of_eq (pts_shV (F := F) d L _ _)); iexact Ht15'
      isplitl [Ht16']; · iapply (Entails.of_eq (pts_shV (F := F) d L _ _)); iexact Ht16'
      isplitl [Ht17']; · iapply (Entails.of_eq (pts_shV (F := F) d L _ _)); iexact Ht17'
      isplitl [Ht18']; · iapply (Entails.of_eq (pts_shV (F := F) d L _ _)); iexact Ht18'
      iapply (Entails.of_eq (pts_shV (F := F) d L _ _)); iexact Ht19'
    iexact Hkeep
  isplitl [Hix' HB_src0 HB_src1 HB_src2 HB_src3 HB_src4 HB_src5 HB_src6 HB_src7 HB_src8 HB_src9 Hbufs]
  · isplitl [Hix']; · iexists _; iapply (Entails.of_eq (pts_ixV (F := F) d L _)); iexact Hix'
    isplitl [HB_src0 HB_src1 HB_src2 HB_src3 HB_src4 HB_src5 HB_src6 HB_src7 HB_src8 HB_src9]
    · iexists (ROWS m d L)
      iapply (rows_whole (F := F) d L (ROWS m d L))
      isplitl [HB_src0]; · iexact HB_src0
      isplitl [HB_src1]; · iexact HB_src1
      isplitl [HB_src2]; · iexact HB_src2
      isplitl [HB_src3]; · iexact HB_src3
      isplitl [HB_src4]; · iexact HB_src4
      isplitl [HB_src5]; · iexact HB_src5
      isplitl [HB_src6]; · iexact HB_src6
      isplitl [HB_src7]; · iexact HB_src7
      isplitl [HB_src8]; · iexact HB_src8
      iexact HB_src9
    iexact Hbufs
  isplitl [Hs0 Hs1 Hs2 Hs3 Hs4 Hs5 Hs6 Hs7 Hs8 Hs9 Hs10 Hs11 Hs12 Hs13 Hs14 Hs15 Hs16 Hs17 Hs18 Hs19 HB Hs21 Hs22 Hs23]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    isplitl [Hs15]; · iexact Hs15
    isplitl [Hs16]; · iexact Hs16
    isplitl [Hs17]; · iexact Hs17
    isplitl [Hs18]; · iexact Hs18
    isplitl [Hs19]; · iexact Hs19
    isplitl [HB]; · iexact HB
    isplitl [Hs21]; · iexact Hs21
    isplitl [Hs22]; · iexact Hs22
    iexact Hs23
  iexists _; isplitr
  swap; · iexact HO
  ipureintro; intro p hp
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  exact .inl hp

/-- The task on any vector subcore: the subcores below the last and the last differ only in the rows of the table they stage. -/
theorem tile_body (hF : (K (F := F)).Facts) (hpre : PreOK m)
    (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ ((xtLoc d ↦{qT (cL L) (jL L)} XT m d) ∗ (wLoc d ↦{qT (cL L) (jL L)} Wm m d)
            ∗ oBlocks d (cL L) (jL L) (m (oLoc d)) ∗ ∃ f, shLoc d (cV L) ↦[pieceSet (jL L)]{fullShare} f)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0_emb_kernel L xtV (Memref.isWhole_whole _) wV (Memref.isWhole_whole _) oV (Memref.isWhole_whole _)
            ixV (Memref.isWhole_whole _) rwV (Memref.isWhole_whole _) shV (Memref.isWhole_whole _)
            cc0_scratch3 cc0_scratch4 cc0_scratch5 cc0_scratch6 cc0_scratch7 cc0_scratch8 cc0_scratch9 cc0_scratch10 cc0_scratch11 cc0_scratch12
            cc0_scratch13 cc0_scratch14 cc0_scratch15 cc0_scratch16 cc0_scratch17 cc0_scratch18 cc0_scratch19 cc0_scratch20 cc0_scratch21 cc0_scratch22
            cc0_scratch23 cc0_scratch24 cc0_scoped0 cc0_scoped1)
          fun _ => iprop(((xtLoc d ↦{qT (cL L) (jL L)} XT m d) ∗ (wLoc d ↦{qT (cL L) (jL L)} Wm m d)
            ∗ oBlocks d (cL L) (jL L) (OUT m d)
            ∗ (shLoc d (cV L) ↦{shareTok fullShare 16 (jL L)} Wsh m d (cV L))
            ∗ (shLoc d (cV L) ↦[pieceSet (jL L)]{shareDrop fullShare 16} Wsh m d (cV L)))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  by_cases hA : k0_cond1 L = 1#1
  · have hlt : (L 1).val < 15 := (cond1_iff L).mp hA
    have hB : ¬ (Scalar.cmpi .ne (Scalar.extui (Scalar.cmpi .eq (BitVec.ofNat 32 (L 1).val) 15#32) : BitVec 32) 0#32 = 1#1) :=
      fun h => by have := (cond2_iff L).mp h; omega
    exact tile_bodyA m d L hF hpre hA hB O W hO hOlev
  · have h16 : (L 1).val < 16 := (L 1).isLt
    have hL : (L 1).val = 15 := by
      have := mt (cond1_iff L).mpr hA
      omega
    exact tile_bodyB m d L hF hpre hA ((cond2_iff L).mpr hL) hL O W hO hOlev

end Tile

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_emb_kernel (coordsV c s) xtV (Memref.isWhole_whole _) wV (Memref.isWhole_whole _) oV (Memref.isWhole_whole _)
            ixV (Memref.isWhole_whole _) rwV (Memref.isWhole_whole _) shV (Memref.isWhole_whole _)
            cc0_scratch3 cc0_scratch4 cc0_scratch5 cc0_scratch6 cc0_scratch7 cc0_scratch8 cc0_scratch9 cc0_scratch10 cc0_scratch11 cc0_scratch12
            cc0_scratch13 cc0_scratch14 cc0_scratch15 cc0_scratch16 cc0_scratch17 cc0_scratch18 cc0_scratch19 cc0_scratch20 cc0_scratch21 cc0_scratch22
            cc0_scratch23 cc0_scratch24 cc0_scoped0 cc0_scoped1) ⟨⟩ c s := rfl

set_option maxRecDepth 16384 in
/-- The obligation for the one call: each vector subcore of the grid runs the task. -/
theorem tileObl (hpre : PreOK m) : (K (F := F)).TileObl (D (F := F)) 𝒱 (P m) v₀ 0 := by
  intro d c i O W hO hOlev _
  have hci : ((K (F := F)).core 0 c).val < grid0.bound 0 ∧ ((K (F := F)).sub 0 i).val < grid0.bound 1 := ⟨c.isLt, i.isLt⟩
  rw [show (P m).ox 0 (V d ((K (F := F)).core 0 c) ((K (F := F)).sub 0 i)) = oxV d ((K (F := F)).core 0 c) from rfl,
    show (P m).x 0 (V d ((K (F := F)).core 0 c) ((K (F := F)).sub 0 i)) = bkit m d ((K (F := F)).core 0 c) ((K (F := F)).sub 0 i) from rfl]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) facts hpre O W hO hOlev

end Cert.Lookup.KernelIdeal

end
-- ==== Proof.ProtocolB.lean ====
/-
  The embedding lookup's protocol on the two SparseCores: what each vector subcore is handed, what it hands back, and what
  the subcore barrier carries.

  The kernel gathers rows of the table W : [1000, 128] at the indices xT : [20, 1024] (the transposed index array) into
  out : [20, 1024, 128], out[j, b, :] = W[xT[j, b], :]. Each of the 32 vector subcores (SparseCore c, subcore s, worker
  number 2 s + c) owns the 32 columns b ∈ [64 s + 32 c, 64 s + 32 c + 32) of out, in ten blocks of two index rows each.
  The table is first staged into each SparseCore's shared vector memory: subcore s < 15 copies rows [64 s, 64 s + 64),
  subcore 15 rows [960, 1000); the subcores of a SparseCore then meet at the barrier, where each hands every other a
  read share of the rows it staged, so that after the barrier every subcore holds a read share of the WHOLE staged
  table, at the contents of W.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.ValueIdx
import proofs.«206460_g62371515072547_cont_9to1_m_307_33_alg».proof.Proof.Gen.Kernel
import proofs.«206460_g62371515072547_cont_9to1_m_307_33_alg».proof.Proof.Gen.Kernel.Skeleton

noncomputable section

namespace Cert.Lookup.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
/-- The SparseCore of the call's core number c. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the barrier cells' rounds, the transfers' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- The barrier cells' rounds: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The launch memory, the arrays and what they hold -/

variable (m : (ℓ : Loc nD τ sig) → Buf (Elt F) ℓ) (ρ : Dev nD → PrngReg)

/-- The index array x : [1024, 20], the table W, the transposed indices xT : [20, 1024], the kernel's result
    out : [20, 1024, 128] and the program's result [1024, 20, 128], as the TensorCore names them. -/
abbrev aLoc (d : Dev nD) : Loc nD τ sig := (SparseCore.T d).loc main_arg0
abbrev wLoc (d : Dev nD) : Loc nD τ sig := (SparseCore.T d).loc main_arg1
abbrev xtLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

/-- SparseCore c's staged table, as every subcore of it addresses it. -/
abbrev shRef (c : Fin τ.nSC) : DevRef τ sig := ⟨.shared, ⟨0, by decide⟩, c⟩
abbrev shLoc (d : Dev nD) (c : Fin τ.nSC) : Loc nD τ sig := (d, shRef c)

variable [FloatOps F]

/-- The transposed indices: xT[j, b] = x[b, j]. -/
def XT (d : Dev nD) : Buf (Elt F) (xtLoc d) :=
  (transpose S20x1024 [1, 0] (m (aLoc d)) transposes_S1024x20_S20x1024_1_0 : (⟨S20x1024, .i32⟩ : BufTy).Contents (Elt F))
/-- The table. -/
abbrev Wm (d : Dev nD) : Buf (Elt F) (wLoc d) := m (wLoc d)
/-- The staged table holds the table. -/
def Wsh (d : Dev nD) (c : Fin τ.nSC) : Buf (Elt F) (shLoc d c) := (m (wLoc d) : (⟨S1000x128, .f32⟩ : BufTy).Contents (Elt F))

/-- The row a 32-bit index word names, read modulo the table's height (under the precondition the word is below 1000 and
    the reading is exact). -/
def rowIx (w : BitVec 32) : Fin 1000 := ⟨w.toNat % 1000, Nat.mod_lt _ (by decide)⟩

/-- What the kernel leaves in out: out[j, b, e] = W[xT[j, b], e]. -/
def OUT (d : Dev nD) : Buf (Elt F) (oLoc d) :=
  ((fun i => (m (wLoc d) : (⟨S1000x128, .f32⟩ : BufTy).Contents (Elt F))
      (ValueIdx.ix2 (rowIx ((XT m d : (⟨S20x1024, .i32⟩ : BufTy).Contents (Elt F)) (ValueIdx.ix2 (i 0) (i 1)))) (i 2)))
    : (⟨S20x1024x128, .f32⟩ : BufTy).Contents (Elt F))

/-! ## The pieces: rows of the staged table per subcore, blocks of out per subcore -/

/-- The rows of the table subcore s stages: 64 from 64 s, the last subcore the remaining 40. -/
def pieceRect (s : Fin 16) : Rect S1000x128 :=
  Rect.unit (s := S1000x128) ![64 * s.val, 0] ![if s.val < 15 then 64 else 40, 128] (by revert s; decide)
abbrev pieceSet (s : Fin 16) : Finset S1000x128.Idx := (pieceRect s).set

/-- Block k of the columns of out that subcore s of SparseCore c owns: index rows 2 k and 2 k + 1, columns from
    64 s + 32 c, every lane. -/
def oRect (c : Fin 2) (s : Fin 16) (k : Fin 10) : Rect S20x1024x128 :=
  Rect.unit (s := S20x1024x128) ![2 * k.val, 64 * s.val + 32 * c.val, 0] ![2, 32, 128] (by revert c s k; decide)
abbrev oSet (c : Fin 2) (s : Fin 16) (k : Fin 10) : Finset S20x1024x128.Idx := (oRect c s k).set

/-! ## The barrier cells -/

theorem nSub_eq : τ.nSub = 16 := rfl
theorem nSC_eq : τ.nSC = 2 := rfl

/-- Subcore (c, j)'s barrier semaphore of device d. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- A read share of the rows subcore n staged, at the table's contents: the share numbered by the receiving subcore j. -/
abbrev shPiecePts (d : Dev nD) (c : Fin τ.nSC) (n j : Fin 16) : sProp 𝕄 :=
  shLoc d c ↦[pieceSet n]{shareTok fullShare 16 j} Wsh m d c

/-- What the duty named n in subcore j's round hands over: subcore n's staged rows, at j's read share. -/
def bPay (g : GSem nD τ sig) (n : ℕ) : sProp 𝕄 :=
  match g with
  | ((d, .scVector c j), _) => if h : n < 16 then shPiecePts m d c ⟨n, h⟩ (Fin.cast nSub_eq j) else iprop(emp)
  | _ => iprop(emp)

/-- The barrier cells' schedule: one round on each, of one unit duty per subcore (named by its number). -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

theorem bRd_duties₀ (d : Dev nD) (c : Fin τ.nSC) (j : Fin τ.nSub) : (bRd (F := F) m).duties (bcell d c j) 0 = (Finset.univ : Finset (Fin τ.nSub)).image Fin.val := by
  simp [bRd, isBar]
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
theorem bRd_expect (d : Dev nD) (c : Fin τ.nSC) (j : Fin τ.nSub) : 0 + grid0.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What a subcore owes for the barrier: a unit on every subcore's cell of its SparseCore, at the call's index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- Subcore (c, i)'s barrier kit: every cell's invariant of its SparseCore and that each has reached round 0, its duty
    token in every subcore's round 0, its own position at the origin of round 0, and the credit for the sixteen units
    of its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) m) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What the handshakes carry -/

/-- SparseCore c's read shares of the two read-only arrays, and subcore i's of those. -/
abbrev qC (c : Fin 2) : PosShare TreeShare := shareTok fullShare 2 c
abbrev qT (c : Fin 2) (i : Fin 16) : PosShare TreeShare := shareTok (qC c) 16 i

/-- The ten blocks of out subcore (c, s) owns, at contents f. -/
abbrev oBlocks (d : Dev nD) (c : Fin 2) (s : Fin 16) (f : Buf (Elt F) (oLoc d)) : sProp 𝕄 :=
  bigSep Finset.univ fun k : Fin 10 => oLoc d ↦[oSet c s k]{fullShare} f

abbrev cC (c : Fin ((K (F := F)).nCore 0)) : Fin 2 := Fin.cast nCore_zero c
abbrev sC (i : Fin ((K (F := F)).nSub 0)) : Fin 16 := Fin.cast nSub_zero i

/-- The one call takes, per SparseCore, a read share of xT and of W and that SparseCore's columns of out; each task its
    read shares, its ten blocks of out and its rows of the staged table (at whatever they hold), and brings back the
    blocks written, its read share of the whole staged table and what it kept of its own rows, at the table's
    contents; each task's proof consumes its barrier kit; each subcore owes its arrivals. -/
def P : (K (F := F)).Pay (nD := nD) (Val := Elt F) (Name := ℕ) (U := UU) where
  st := fun q d c => match q with
    | 0 => iprop((xtLoc d ↦{qC (cC c)} XT m d) ∗ (wLoc d ↦{qC (cC c)} Wm m d)
        ∗ (bigSep Finset.univ fun s : Fin 16 => oBlocks d (cC c) s (m (oLoc d))))
  dn := fun q d c => match q with
    | 0 => iprop((xtLoc d ↦{qC (cC c)} XT m d) ∗ (wLoc d ↦{qC (cC c)} Wm m d)
        ∗ (bigSep Finset.univ fun s : Fin 16 => oBlocks d (cC c) s (OUT m d)))
  go := fun q d c i => match q with
    | 0 => iprop((xtLoc d ↦{qT (cC c) (sC i)} XT m d) ∗ (wLoc d ↦{qT (cC c) (sC i)} Wm m d)
        ∗ oBlocks d (cC c) (sC i) (m (oLoc d)) ∗ ∃ f, shLoc d (coreOf c) ↦[pieceSet (sC i)]{fullShare} f)
  td := fun q d c i => match q with
    | 0 => iprop((xtLoc d ↦{qT (cC c) (sC i)} XT m d) ∗ (wLoc d ↦{qT (cC c) (sC i)} Wm m d)
        ∗ oBlocks d (cC c) (sC i) (OUT m d)
        ∗ (shLoc d (coreOf c) ↦{shareTok fullShare 16 (sC i)} Wsh m d (coreOf c))
        ∗ (shLoc d (coreOf c) ↦[pieceSet (sC i)]{shareDrop fullShare 16} Wsh m d (coreOf c)))
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance P_storable : (P (F := F) m).IsStorable where
  st q d c := match q with | 0 => by unfold P; dsimp only; infer_instance
  dn q d c := match q with | 0 => by unfold P; dsimp only; infer_instance
  go q d c i := match q with | 0 => by unfold P; dsimp only; infer_instance
  td q d c i := match q with | 0 => by unfold P; dsimp only; infer_instance

end Cert.Lookup.Kernel

end
-- ==== Proof.ValB.lean ====
/-
  The pieces of the arrays one vector subcore touches, as the kernel slices them, and what they hold after each of its
  transfers: the rows of the table it stages hold the table's rows; the index scratch holds its block of the transposed
  indices, every word a row number below 1000.
-/
import proofs.«206460_g62371515072547_cont_9to1_m_307_33_alg».proof.Proof.ProtocolB
import Idealize.ShloMosaic.Lib.Writes
import proofs.«206460_g62371515072547_cont_9to1_m_307_33_alg».proof.Proof.HostOps

noncomputable section

namespace Cert.Lookup.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

variable (m : (ℓ : Loc nD τ sig) → Buf (Elt F) ℓ)

local notation "xtV" => (Memref.whole Cert.Kernel.main_v0_scv : Memref Cert.Kernel.sig Kind.scVector Space.hbm Cert.Kernel.S20x1024 EltTy.i32)
local notation "wV" => (Memref.whole Cert.Kernel.main_arg1_scv : Memref Cert.Kernel.sig Kind.scVector Space.hbm Cert.Kernel.S1000x128 EltTy.f32)
local notation "oV" => (Memref.whole Cert.Kernel.main_v1_scv : Memref Cert.Kernel.sig Kind.scVector Space.hbm Cert.Kernel.S20x1024x128 EltTy.f32)
local notation "ixV" => (Memref.whole Cert.Kernel.cc0_scratch0 : Memref Cert.Kernel.sig Kind.scVector Space.vmem Cert.Kernel.S20x128 EltTy.i32)
local notation "rwV" => (Memref.whole Cert.Kernel.cc0_scratch1 : Memref Cert.Kernel.sig Kind.scVector Space.vmem Cert.Kernel.S20x32x128 EltTy.f32)
local notation "shV" => (Memref.whole Cert.Kernel.cc0_scratch2 : Memref Cert.Kernel.sig Kind.scVector Space.shared Cert.Kernel.S1000x128 EltTy.f32)

variable [FloatOps F]

/-- Row j of the row scratch, as a gather's destination; rows 2 k and 2 k + 1 together, as a copy's source. -/
abbrev rowK0 : Memref sig .scVector .vmem S32x128 .f32 :=
  ((rwV).slice (Rect.unit (s := S20x32x128) ![0, 0, 0] S1x32x128.size inb_S20x32x128_S1x32x128_0_0_0) (fun _ => rfl)).squeeze S32x128 squeezes_S1x32x128_S32x128
abbrev rowK1 : Memref sig .scVector .vmem S32x128 .f32 :=
  ((rwV).slice (Rect.unit (s := S20x32x128) ![1, 0, 0] S1x32x128.size inb_S20x32x128_S1x32x128_1_0_0) (fun _ => rfl)).squeeze S32x128 squeezes_S1x32x128_S32x128
abbrev rowK2 : Memref sig .scVector .vmem S32x128 .f32 :=
  ((rwV).slice (Rect.unit (s := S20x32x128) ![2, 0, 0] S1x32x128.size inb_S20x32x128_S1x32x128_2_0_0) (fun _ => rfl)).squeeze S32x128 squeezes_S1x32x128_S32x128
abbrev rowK3 : Memref sig .scVector .vmem S32x128 .f32 :=
  ((rwV).slice (Rect.unit (s := S20x32x128) ![3, 0, 0] S1x32x128.size inb_S20x32x128_S1x32x128_3_0_0) (fun _ => rfl)).squeeze S32x128 squeezes_S1x32x128_S32x128
abbrev rowK4 : Memref sig .scVector .vmem S32x128 .f32 :=
  ((rwV).slice (Rect.unit (s := S20x32x128) ![4, 0, 0] S1x32x128.size inb_S20x32x128_S1x32x128_4_0_0) (fun _ => rfl)).squeeze S32x128 squeezes_S1x32x128_S32x128
abbrev rowK5 : Memref sig .scVector .vmem S32x128 .f32 :=
  ((rwV).slice (Rect.unit (s := S20x32x128) ![5, 0, 0] S1x32x128.size inb_S20x32x128_S1x32x128_5_0_0) (fun _ => rfl)).squeeze S32x128 squeezes_S1x32x128_S32x128
abbrev rowK6 : Memref sig .scVector .vmem S32x128 .f32 :=
  ((rwV).slice (Rect.unit (s := S20x32x128) ![6, 0, 0] S1x32x128.size inb_S20x32x128_S1x32x128_6_0_0) (fun _ => rfl)).squeeze S32x128 squeezes_S1x32x128_S32x128
abbrev rowK7 : Memref sig .scVector .vmem S32x128 .f32 :=
  ((rwV).slice (Rect.unit (s := S20x32x128) ![7, 0, 0] S1x32x128.size inb_S20x32x128_S1x32x128_7_0_0) (fun _ => rfl)).squeeze S32x128 squeezes_S1x32x128_S32x128
abbrev rowK8 : Memref sig .scVector .vmem S32x128 .f32 :=
  ((rwV).slice (Rect.unit (s := S20x32x128) ![8, 0, 0] S1x32x128.size inb_S20x32x128_S1x32x128_8_0_0) (fun _ => rfl)).squeeze S32x128 squeezes_S1x32x128_S32x128
abbrev rowK9 : Memref sig .scVector .vmem S32x128 .f32 :=
  ((rwV).slice (Rect.unit (s := S20x32x128) ![9, 0, 0] S1x32x128.size inb_S20x32x128_S1x32x128_9_0_0) (fun _ => rfl)).squeeze S32x128 squeezes_S1x32x128_S32x128
abbrev rowK10 : Memref sig .scVector .vmem S32x128 .f32 :=
  ((rwV).slice (Rect.unit (s := S20x32x128) ![10, 0, 0] S1x32x128.size inb_S20x32x128_S1x32x128_10_0_0) (fun _ => rfl)).squeeze S32x128 squeezes_S1x32x128_S32x128
abbrev rowK11 : Memref sig .scVector .vmem S32x128 .f32 :=
  ((rwV).slice (Rect.unit (s := S20x32x128) ![11, 0, 0] S1x32x128.size inb_S20x32x128_S1x32x128_11_0_0) (fun _ => rfl)).squeeze S32x128 squeezes_S1x32x128_S32x128
abbrev rowK12 : Memref sig .scVector .vmem S32x128 .f32 :=
  ((rwV).slice (Rect.unit (s := S20x32x128) ![12, 0, 0] S1x32x128.size inb_S20x32x128_S1x32x128_12_0_0) (fun _ => rfl)).squeeze S32x128 squeezes_S1x32x128_S32x128
abbrev rowK13 : Memref sig .scVector .vmem S32x128 .f32 :=
  ((rwV).slice (Rect.unit (s := S20x32x128) ![13, 0, 0] S1x32x128.size inb_S20x32x128_S1x32x128_13_0_0) (fun _ => rfl)).squeeze S32x128 squeezes_S1x32x128_S32x128
abbrev rowK14 : Memref sig .scVector .vmem S32x128 .f32 :=
  ((rwV).slice (Rect.unit (s := S20x32x128) ![14, 0, 0] S1x32x128.size inb_S20x32x128_S1x32x128_14_0_0) (fun _ => rfl)).squeeze S32x128 squeezes_S1x32x128_S32x128
abbrev rowK15 : Memref sig .scVector .vmem S32x128 .f32 :=
  ((rwV).slice (Rect.unit (s := S20x32x128) ![15, 0, 0] S1x32x128.size inb_S20x32x128_S1x32x128_15_0_0) (fun _ => rfl)).squeeze S32x128 squeezes_S1x32x128_S32x128
abbrev rowK16 : Memref sig .scVector .vmem S32x128 .f32 :=
  ((rwV).slice (Rect.unit (s := S20x32x128) ![16, 0, 0] S1x32x128.size inb_S20x32x128_S1x32x128_16_0_0) (fun _ => rfl)).squeeze S32x128 squeezes_S1x32x128_S32x128
abbrev rowK17 : Memref sig .scVector .vmem S32x128 .f32 :=
  ((rwV).slice (Rect.unit (s := S20x32x128) ![17, 0, 0] S1x32x128.size inb_S20x32x128_S1x32x128_17_0_0) (fun _ => rfl)).squeeze S32x128 squeezes_S1x32x128_S32x128
abbrev rowK18 : Memref sig .scVector .vmem S32x128 .f32 :=
  ((rwV).slice (Rect.unit (s := S20x32x128) ![18, 0, 0] S1x32x128.size inb_S20x32x128_S1x32x128_18_0_0) (fun _ => rfl)).squeeze S32x128 squeezes_S1x32x128_S32x128
abbrev rowK19 : Memref sig .scVector .vmem S32x128 .f32 :=
  ((rwV).slice (Rect.unit (s := S20x32x128) ![19, 0, 0] S1x32x128.size inb_S20x32x128_S1x32x128_19_0_0) (fun _ => rfl)).squeeze S32x128 squeezes_S1x32x128_S32x128
abbrev pairK0 : Memref sig .scVector .vmem S2x32x128 .f32 :=
  (rwV).slice (Rect.unit (s := S20x32x128) ![0, 0, 0] S2x32x128.size inb_S20x32x128_S2x32x128_0_0_0) (fun _ => rfl)
abbrev pairK1 : Memref sig .scVector .vmem S2x32x128 .f32 :=
  (rwV).slice (Rect.unit (s := S20x32x128) ![2, 0, 0] S2x32x128.size inb_S20x32x128_S2x32x128_2_0_0) (fun _ => rfl)
abbrev pairK2 : Memref sig .scVector .vmem S2x32x128 .f32 :=
  (rwV).slice (Rect.unit (s := S20x32x128) ![4, 0, 0] S2x32x128.size inb_S20x32x128_S2x32x128_4_0_0) (fun _ => rfl)
abbrev pairK3 : Memref sig .scVector .vmem S2x32x128 .f32 :=
  (rwV).slice (Rect.unit (s := S20x32x128) ![6, 0, 0] S2x32x128.size inb_S20x32x128_S2x32x128_6_0_0) (fun _ => rfl)
abbrev pairK4 : Memref sig .scVector .vmem S2x32x128 .f32 :=
  (rwV).slice (Rect.unit (s := S20x32x128) ![8, 0, 0] S2x32x128.size inb_S20x32x128_S2x32x128_8_0_0) (fun _ => rfl)
abbrev pairK5 : Memref sig .scVector .vmem S2x32x128 .f32 :=
  (rwV).slice (Rect.unit (s := S20x32x128) ![10, 0, 0] S2x32x128.size inb_S20x32x128_S2x32x128_10_0_0) (fun _ => rfl)
abbrev pairK6 : Memref sig .scVector .vmem S2x32x128 .f32 :=
  (rwV).slice (Rect.unit (s := S20x32x128) ![12, 0, 0] S2x32x128.size inb_S20x32x128_S2x32x128_12_0_0) (fun _ => rfl)
abbrev pairK7 : Memref sig .scVector .vmem S2x32x128 .f32 :=
  (rwV).slice (Rect.unit (s := S20x32x128) ![14, 0, 0] S2x32x128.size inb_S20x32x128_S2x32x128_14_0_0) (fun _ => rfl)
abbrev pairK8 : Memref sig .scVector .vmem S2x32x128 .f32 :=
  (rwV).slice (Rect.unit (s := S20x32x128) ![16, 0, 0] S2x32x128.size inb_S20x32x128_S2x32x128_16_0_0) (fun _ => rfl)
abbrev pairK9 : Memref sig .scVector .vmem S2x32x128 .f32 :=
  (rwV).slice (Rect.unit (s := S20x32x128) ![18, 0, 0] S2x32x128.size inb_S20x32x128_S2x32x128_18_0_0) (fun _ => rfl)
/-- The staged table whole, as a gather's source. -/
abbrev shSrcK : Memref sig .scVector .shared S1000x128 .f32 :=
  (shV).slice (Rect.unit (s := S1000x128) ![0, 0] S1000x128.size inb_S1000x128_S1000x128_0_0) (fun _ => rfl)

/-- The precondition, as the lookup needs it: every index word names a row of the table. -/
def PreOK : Prop := ∀ (d : Dev nD) (j : S1024x20.Idx), ((m (aLoc d) : (⟨S1024x20, .i32⟩ : BufTy).Contents (Elt F)) j).toNat < 1000

/-- Every transposed index word names a row of the table. -/
theorem XT_lt (hpre : PreOK m) (d : Dev nD) (i : S20x1024.Idx) :
    ((XT m d : (⟨S20x1024, .i32⟩ : BufTy).Contents (Elt F)) i).toNat < 1000 := by
  unfold XT
  rw [Cert.Lookup.HostOps.transpose_idx_apply']
  exact hpre d _

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev cL (L : grid0.Coords) : Fin 2 := Fin.cast bound_zero (L 0)
abbrev jL (L : grid0.Coords) : Fin 16 := Fin.cast bound_one (L 1)

/-- Column q of the subcore's 32 columns of the result: 64 s + 32 c + q. -/
def colIx (L : grid0.Coords) (q : Fin 32) : Fin 1024 :=
  ⟨64 * (L 1).val + 32 * (L 0).val + q.val, by
    have h1 : (L 1).val < 16 := (L 1).isLt
    have h0 : (L 0).val < 2 := (L 0).isLt
    have hq := q.isLt
    omega⟩

/-- What the row scratch holds once every gather has landed: entry (j, q, e) is the result's entry (j, 64 s + 32 c + q, e). -/
def ROWS (L : grid0.Coords) : Buf (Elt F) ((V d (cV L) (jV L)).loc cc0_scratch1) :=
  ((fun i => (OUT m d : (⟨S20x1024x128, .f32⟩ : BufTy).Contents (Elt F)) (ValueIdx.ix3 (i 0) (colIx L (i 1)) (i 2)))
    : (⟨S20x32x128, .f32⟩ : BufTy).Contents (Elt F))

omit [FloatOps F] in
theorem cond1_iff : ∀ L : grid0.Coords, k0_cond1 L = 1#1 ↔ (L 1).val < 15 := by decide +kernel

/-- The rows a subcore below the last stages, as the kernel slices them. -/
abbrev shPieceK (L : grid0.Coords) (h : k0_cond1 L = 1#1) : Memref sig .scVector .shared S64x128 .f32 :=
  (shV).slice (Rect.unit (s := S1000x128) (k0_off2 L) S64x128.size (k0_off2_inb L h)) (fun _ => rfl)
abbrev wPieceK (L : grid0.Coords) (h : k0_cond1 L = 1#1) : Memref sig .scVector .hbm S64x128 .f32 :=
  (wV).slice (Rect.unit (s := S1000x128) (k0_off2 L) S64x128.size (k0_off2_inb L h)) (fun _ => rfl)

omit [FloatOps F] in
theorem set_shPieceK (h : k0_cond1 L = 1#1) : (shPieceK L h).view.set = pieceSet (jL L) := by
  refine (View.set_slice_whole (cc0_scratch2 : Ref sig .scVector) _).trans ?_
  have hlt : (L 1).val < 15 := (cond1_iff L).mp h
  ext i
  unfold pieceSet pieceRect
  rw [Rect.mem_set_unit, Rect.mem_set_unit, k0_off2_eq]
  refine forall_congr' fun a => ?_
  match a with
  | 0 => simp [hlt]
  | 1 => simp

omit [FloatOps F] in
theorem pts_shPieceK (h : k0_cond1 L = 1#1) (f : Buf (Elt F) (shLoc d (cV L))) :
    ((shPieceK L h).view.loc (V d (cV L) (jV L)) ↦[(shPieceK L h).view.set]{fullShare} f : sProp 𝕄) = shLoc d (cV L) ↦[pieceSet (jL L)]{fullShare} f := by
  rw [set_shPieceK]; rfl

omit [FloatOps F] in
theorem pts_xtV (q : PosShare TreeShare) (f : Buf (Elt F) (xtLoc d)) :
    ((xtV).view.loc (V d (cV L) (jV L)) ↦{q} f : sProp 𝕄) = xtLoc d ↦{q} f := rfl
omit [FloatOps F] in
theorem pts_wV (q : PosShare TreeShare) (f : Buf (Elt F) (wLoc d)) :
    ((wV).view.loc (V d (cV L) (jV L)) ↦{q} f : sProp 𝕄) = wLoc d ↦{q} f := rfl
omit [FloatOps F] in
theorem pts_ixV (f : Buf (Elt F) ((V d (cV L) (jV L)).loc cc0_scratch0)) :
    ((ixV).view.loc (V d (cV L) (jV L)) ↦{fullShare} f : sProp 𝕄) = (V d (cV L) (jV L)).loc cc0_scratch0 ↦{fullShare} f := rfl
omit [FloatOps F] in
theorem pts_rwV (f : Buf (Elt F) ((V d (cV L) (jV L)).loc cc0_scratch1)) :
    ((rwV).view.loc (V d (cV L) (jV L)) ↦{fullShare} f : sProp 𝕄) = (V d (cV L) (jV L)).loc cc0_scratch1 ↦{fullShare} f := rfl

abbrev oB0 (L : grid0.Coords) : Memref sig .scVector .hbm S2x32x128 .f32 :=
  (oV).slice (Rect.unit (s := S20x1024x128) (k0_off23 L) S2x32x128.size (k0_off23_inb L)) (fun _ => rfl)
omit [FloatOps F] in
theorem set_oB0 : (oB0 L).view.set = oSet (cL L) (jL L) 0 := by
  refine (View.set_slice_whole (main_v1_scv : Ref sig .scVector) _).trans ?_
  ext i
  unfold oSet oRect
  rw [Rect.mem_set_unit, Rect.mem_set_unit, k0_off23_eq]
  refine forall_congr' fun a => ?_
  match a with
  | 0 => simp
  | 1 => simp
  | 2 => simp
omit [FloatOps F] in
theorem pts_oB0 (f : Buf (Elt F) (oLoc d)) :
    ((oB0 L).view.loc (V d (cV L) (jV L)) ↦[(oB0 L).view.set]{fullShare} f : sProp 𝕄) = oLoc d ↦[oSet (cL L) (jL L) 0]{fullShare} f := by
  rw [set_oB0]

abbrev oB1 (L : grid0.Coords) : Memref sig .scVector .hbm S2x32x128 .f32 :=
  (oV).slice (Rect.unit (s := S20x1024x128) (k0_off24 L) S2x32x128.size (k0_off24_inb L)) (fun _ => rfl)
omit [FloatOps F] in
theorem set_oB1 : (oB1 L).view.set = oSet (cL L) (jL L) 1 := by
  refine (View.set_slice_whole (main_v1_scv : Ref sig .scVector) _).trans ?_
  ext i
  unfold oSet oRect
  rw [Rect.mem_set_unit, Rect.mem_set_unit, k0_off24_eq]
  refine forall_congr' fun a => ?_
  match a with
  | 0 => simp
  | 1 => simp
  | 2 => simp
omit [FloatOps F] in
theorem pts_oB1 (f : Buf (Elt F) (oLoc d)) :
    ((oB1 L).view.loc (V d (cV L) (jV L)) ↦[(oB1 L).view.set]{fullShare} f : sProp 𝕄) = oLoc d ↦[oSet (cL L) (jL L) 1]{fullShare} f := by
  rw [set_oB1]

abbrev oB2 (L : grid0.Coords) : Memref sig .scVector .hbm S2x32x128 .f32 :=
  (oV).slice (Rect.unit (s := S20x1024x128) (k0_off25 L) S2x32x128.size (k0_off25_inb L)) (fun _ => rfl)
omit [FloatOps F] in
theorem set_oB2 : (oB2 L).view.set = oSet (cL L) (jL L) 2 := by
  refine (View.set_slice_whole (main_v1_scv : Ref sig .scVector) _).trans ?_
  ext i
  unfold oSet oRect
  rw [Rect.mem_set_unit, Rect.mem_set_unit, k0_off25_eq]
  refine forall_congr' fun a => ?_
  match a with
  | 0 => simp
  | 1 => simp
  | 2 => simp
omit [FloatOps F] in
theorem pts_oB2 (f : Buf (Elt F) (oLoc d)) :
    ((oB2 L).view.loc (V d (cV L) (jV L)) ↦[(oB2 L).view.set]{fullShare} f : sProp 𝕄) = oLoc d ↦[oSet (cL L) (jL L) 2]{fullShare} f := by
  rw [set_oB2]

abbrev oB3 (L : grid0.Coords) : Memref sig .scVector .hbm S2x32x128 .f32 :=
  (oV).slice (Rect.unit (s := S20x1024x128) (k0_off26 L) S2x32x128.size (k0_off26_inb L)) (fun _ => rfl)
omit [FloatOps F] in
theorem set_oB3 : (oB3 L).view.set = oSet (cL L) (jL L) 3 := by
  refine (View.set_slice_whole (main_v1_scv : Ref sig .scVector) _).trans ?_
  ext i
  unfold oSet oRect
  rw [Rect.mem_set_unit, Rect.mem_set_unit, k0_off26_eq]
  refine forall_congr' fun a => ?_
  match a with
  | 0 => simp
  | 1 => simp
  | 2 => simp
omit [FloatOps F] in
theorem pts_oB3 (f : Buf (Elt F) (oLoc d)) :
    ((oB3 L).view.loc (V d (cV L) (jV L)) ↦[(oB3 L).view.set]{fullShare} f : sProp 𝕄) = oLoc d ↦[oSet (cL L) (jL L) 3]{fullShare} f := by
  rw [set_oB3]

abbrev oB4 (L : grid0.Coords) : Memref sig .scVector .hbm S2x32x128 .f32 :=
  (oV).slice (Rect.unit (s := S20x1024x128) (k0_off27 L) S2x32x128.size (k0_off27_inb L)) (fun _ => rfl)
omit [FloatOps F] in
theorem set_oB4 : (oB4 L).view.set = oSet (cL L) (jL L) 4 := by
  refine (View.set_slice_whole (main_v1_scv : Ref sig .scVector) _).trans ?_
  ext i
  unfold oSet oRect
  rw [Rect.mem_set_unit, Rect.mem_set_unit, k0_off27_eq]
  refine forall_congr' fun a => ?_
  match a with
  | 0 => simp
  | 1 => simp
  | 2 => simp
omit [FloatOps F] in
theorem pts_oB4 (f : Buf (Elt F) (oLoc d)) :
    ((oB4 L).view.loc (V d (cV L) (jV L)) ↦[(oB4 L).view.set]{fullShare} f : sProp 𝕄) = oLoc d ↦[oSet (cL L) (jL L) 4]{fullShare} f := by
  rw [set_oB4]

abbrev oB5 (L : grid0.Coords) : Memref sig .scVector .hbm S2x32x128 .f32 :=
  (oV).slice (Rect.unit (s := S20x1024x128) (k0_off28 L) S2x32x128.size (k0_off28_inb L)) (fun _ => rfl)
omit [FloatOps F] in
theorem set_oB5 : (oB5 L).view.set = oSet (cL L) (jL L) 5 := by
  refine (View.set_slice_whole (main_v1_scv : Ref sig .scVector) _).trans ?_
  ext i
  unfold oSet oRect
  rw [Rect.mem_set_unit, Rect.mem_set_unit, k0_off28_eq]
  refine forall_congr' fun a => ?_
  match a with
  | 0 => simp
  | 1 => simp
  | 2 => simp
omit [FloatOps F] in
theorem pts_oB5 (f : Buf (Elt F) (oLoc d)) :
    ((oB5 L).view.loc (V d (cV L) (jV L)) ↦[(oB5 L).view.set]{fullShare} f : sProp 𝕄) = oLoc d ↦[oSet (cL L) (jL L) 5]{fullShare} f := by
  rw [set_oB5]

abbrev oB6 (L : grid0.Coords) : Memref sig .scVector .hbm S2x32x128 .f32 :=
  (oV).slice (Rect.unit (s := S20x1024x128) (k0_off29 L) S2x32x128.size (k0_off29_inb L)) (fun _ => rfl)
omit [FloatOps F] in
theorem set_oB6 : (oB6 L).view.set = oSet (cL L) (jL L) 6 := by
  refine (View.set_slice_whole (main_v1_scv : Ref sig .scVector) _).trans ?_
  ext i
  unfold oSet oRect
  rw [Rect.mem_set_unit, Rect.mem_set_unit, k0_off29_eq]
  refine forall_congr' fun a => ?_
  match a with
  | 0 => simp
  | 1 => simp
  | 2 => simp
omit [FloatOps F] in
theorem pts_oB6 (f : Buf (Elt F) (oLoc d)) :
    ((oB6 L).view.loc (V d (cV L) (jV L)) ↦[(oB6 L).view.set]{fullShare} f : sProp 𝕄) = oLoc d ↦[oSet (cL L) (jL L) 6]{fullShare} f := by
  rw [set_oB6]

abbrev oB7 (L : grid0.Coords) : Memref sig .scVector .hbm S2x32x128 .f32 :=
  (oV).slice (Rect.unit (s := S20x1024x128) (k0_off30 L) S2x32x128.size (k0_off30_inb L)) (fun _ => rfl)
omit [FloatOps F] in
theorem set_oB7 : (oB7 L).view.set = oSet (cL L) (jL L) 7 := by
  refine (View.set_slice_whole (main_v1_scv : Ref sig .scVector) _).trans ?_
  ext i
  unfold oSet oRect
  rw [Rect.mem_set_unit, Rect.mem_set_unit, k0_off30_eq]
  refine forall_congr' fun a => ?_
  match a with
  | 0 => simp
  | 1 => simp
  | 2 => simp
omit [FloatOps F] in
theorem pts_oB7 (f : Buf (Elt F) (oLoc d)) :
    ((oB7 L).view.loc (V d (cV L) (jV L)) ↦[(oB7 L).view.set]{fullShare} f : sProp 𝕄) = oLoc d ↦[oSet (cL L) (jL L) 7]{fullShare} f := by
  rw [set_oB7]

abbrev oB8 (L : grid0.Coords) : Memref sig .scVector .hbm S2x32x128 .f32 :=
  (oV).slice (Rect.unit (s := S20x1024x128) (k0_off31 L) S2x32x128.size (k0_off31_inb L)) (fun _ => rfl)
omit [FloatOps F] in
theorem set_oB8 : (oB8 L).view.set = oSet (cL L) (jL L) 8 := by
  refine (View.set_slice_whole (main_v1_scv : Ref sig .scVector) _).trans ?_
  ext i
  unfold oSet oRect
  rw [Rect.mem_set_unit, Rect.mem_set_unit, k0_off31_eq]
  refine forall_congr' fun a => ?_
  match a with
  | 0 => simp
  | 1 => simp
  | 2 => simp
omit [FloatOps F] in
theorem pts_oB8 (f : Buf (Elt F) (oLoc d)) :
    ((oB8 L).view.loc (V d (cV L) (jV L)) ↦[(oB8 L).view.set]{fullShare} f : sProp 𝕄) = oLoc d ↦[oSet (cL L) (jL L) 8]{fullShare} f := by
  rw [set_oB8]

abbrev oB9 (L : grid0.Coords) : Memref sig .scVector .hbm S2x32x128 .f32 :=
  (oV).slice (Rect.unit (s := S20x1024x128) (k0_off32 L) S2x32x128.size (k0_off32_inb L)) (fun _ => rfl)
omit [FloatOps F] in
theorem set_oB9 : (oB9 L).view.set = oSet (cL L) (jL L) 9 := by
  refine (View.set_slice_whole (main_v1_scv : Ref sig .scVector) _).trans ?_
  ext i
  unfold oSet oRect
  rw [Rect.mem_set_unit, Rect.mem_set_unit, k0_off32_eq]
  refine forall_congr' fun a => ?_
  match a with
  | 0 => simp
  | 1 => simp
  | 2 => simp
omit [FloatOps F] in
theorem pts_oB9 (f : Buf (Elt F) (oLoc d)) :
    ((oB9 L).view.loc (V d (cV L) (jV L)) ↦[(oB9 L).view.set]{fullShare} f : sProp 𝕄) = oLoc d ↦[oSet (cL L) (jL L) 9]{fullShare} f := by
  rw [set_oB9]

/-- The rows the last subcore stages, as the kernel slices them. -/
abbrev sh40K : Memref sig .scVector .shared S40x128 .f32 :=
  (shV).slice (Rect.unit (s := S1000x128) ![960, 0] S40x128.size inb_S1000x128_S40x128_960_0) (fun _ => rfl)
abbrev w40K : Memref sig .scVector .hbm S40x128 .f32 :=
  (wV).slice (Rect.unit (s := S1000x128) ![960, 0] S40x128.size inb_S1000x128_S40x128_960_0) (fun _ => rfl)

omit [FloatOps F] in
theorem set_sh40K (h : (L 1).val = 15) : (sh40K).view.set = pieceSet (jL L) := by
  refine (View.set_slice_whole (cc0_scratch2 : Ref sig .scVector) _).trans ?_
  have hj : jL L = 15 := Fin.ext h
  rw [hj]
  rfl

omit [FloatOps F] in
theorem pts_sh40K (h : (L 1).val = 15) (f : Buf (Elt F) (shLoc d (cV L))) :
    ((sh40K).view.loc (V d (cV L) (jV L)) ↦[(sh40K).view.set]{fullShare} f : sProp 𝕄) = shLoc d (cV L) ↦[pieceSet (jL L)]{fullShare} f := by
  rw [set_sh40K L h]; rfl

/-- The block of the transposed indices the subcore fetches: all twenty rows, 128 columns from 128 * (worker / 4). -/
abbrev xtBlockK (L : grid0.Coords) : Memref sig .scVector .hbm S20x128 .i32 :=
  (xtV).slice (Rect.unit (s := S20x1024) (k0_off1 L) S20x128.size (k0_off1_inb L)) (fun _ => rfl)

abbrev idxRowK0 (L : grid0.Coords) : Memref sig .scVector .vmem S32 .i32 :=
  ((ixV).slice (Rect.unit (s := S20x128) (k0_off3 L) S1x32.size (k0_off3_inb L)) (fun _ => rfl)).squeeze S32 squeezes_S1x32_S32
theorem idx_inb0 (hpre : PreOK m) (g : Buf (Elt F) ((V d (cV L) (jV L)).loc cc0_scratch0)) (x : S32.Idx) :
    ((idxRowK0 L).view.read (Elt F) (View.write (Elt F) (ixV).view g (ReadAs.same.apply ((xtBlockK L).view.read (Elt F) (XT m d))) Finset.univ) x).toNat
      < S1000x128.size gathers_S1000x128_S32x128.axis := by
  have e : View.write (Elt F) (ixV).view g (ReadAs.same.apply ((xtBlockK L).view.read (Elt F) (XT m d))) Finset.univ
      = ReadAs.same.apply ((xtBlockK L).view.read (Elt F) (XT m d)) := View.write_whole_univ _ _ _
  rw [e, View.read_apply, cast_eq]
  exact XT_lt m hpre d _

abbrev idxRowK1 (L : grid0.Coords) : Memref sig .scVector .vmem S32 .i32 :=
  ((ixV).slice (Rect.unit (s := S20x128) (k0_off4 L) S1x32.size (k0_off4_inb L)) (fun _ => rfl)).squeeze S32 squeezes_S1x32_S32
theorem idx_inb1 (hpre : PreOK m) (g : Buf (Elt F) ((V d (cV L) (jV L)).loc cc0_scratch0)) (x : S32.Idx) :
    ((idxRowK1 L).view.read (Elt F) (View.write (Elt F) (ixV).view g (ReadAs.same.apply ((xtBlockK L).view.read (Elt F) (XT m d))) Finset.univ) x).toNat
      < S1000x128.size gathers_S1000x128_S32x128.axis := by
  have e : View.write (Elt F) (ixV).view g (ReadAs.same.apply ((xtBlockK L).view.read (Elt F) (XT m d))) Finset.univ
      = ReadAs.same.apply ((xtBlockK L).view.read (Elt F) (XT m d)) := View.write_whole_univ _ _ _
  rw [e, View.read_apply, cast_eq]
  exact XT_lt m hpre d _

abbrev idxRowK2 (L : grid0.Coords) : Memref sig .scVector .vmem S32 .i32 :=
  ((ixV).slice (Rect.unit (s := S20x128) (k0_off5 L) S1x32.size (k0_off5_inb L)) (fun _ => rfl)).squeeze S32 squeezes_S1x32_S32
theorem idx_inb2 (hpre : PreOK m) (g : Buf (Elt F) ((V d (cV L) (jV L)).loc cc0_scratch0)) (x : S32.Idx) :
    ((idxRowK2 L).view.read (Elt F) (View.write (Elt F) (ixV).view g (ReadAs.same.apply ((xtBlockK L).view.read (Elt F) (XT m d))) Finset.univ) x).toNat
      < S1000x128.size gathers_S1000x128_S32x128.axis := by
  have e : View.write (Elt F) (ixV).view g (ReadAs.same.apply ((xtBlockK L).view.read (Elt F) (XT m d))) Finset.univ
      = ReadAs.same.apply ((xtBlockK L).view.read (Elt F) (XT m d)) := View.write_whole_univ _ _ _
  rw [e, View.read_apply, cast_eq]
  exact XT_lt m hpre d _

abbrev idxRowK3 (L : grid0.Coords) : Memref sig .scVector .vmem S32 .i32 :=
  ((ixV).slice (Rect.unit (s := S20x128) (k0_off6 L) S1x32.size (k0_off6_inb L)) (fun _ => rfl)).squeeze S32 squeezes_S1x32_S32
theorem idx_inb3 (hpre : PreOK m) (g : Buf (Elt F) ((V d (cV L) (jV L)).loc cc0_scratch0)) (x : S32.Idx) :
    ((idxRowK3 L).view.read (Elt F) (View.write (Elt F) (ixV).view g (ReadAs.same.apply ((xtBlockK L).view.read (Elt F) (XT m d))) Finset.univ) x).toNat
      < S1000x128.size gathers_S1000x128_S32x128.axis := by
  have e : View.write (Elt F) (ixV).view g (ReadAs.same.apply ((xtBlockK L).view.read (Elt F) (XT m d))) Finset.univ
      = ReadAs.same.apply ((xtBlockK L).view.read (Elt F) (XT m d)) := View.write_whole_univ _ _ _
  rw [e, View.read_apply, cast_eq]
  exact XT_lt m hpre d _

abbrev idxRowK4 (L : grid0.Coords) : Memref sig .scVector .vmem S32 .i32 :=
  ((ixV).slice (Rect.unit (s := S20x128) (k0_off7 L) S1x32.size (k0_off7_inb L)) (fun _ => rfl)).squeeze S32 squeezes_S1x32_S32
theorem idx_inb4 (hpre : PreOK m) (g : Buf (Elt F) ((V d (cV L) (jV L)).loc cc0_scratch0)) (x : S32.Idx) :
    ((idxRowK4 L).view.read (Elt F) (View.write (Elt F) (ixV).view g (ReadAs.same.apply ((xtBlockK L).view.read (Elt F) (XT m d))) Finset.univ) x).toNat
      < S1000x128.size gathers_S1000x128_S32x128.axis := by
  have e : View.write (Elt F) (ixV).view g (ReadAs.same.apply ((xtBlockK L).view.read (Elt F) (XT m d))) Finset.univ
      = ReadAs.same.apply ((xtBlockK L).view.read (Elt F) (XT m d)) := View.write_whole_univ _ _ _
  rw [e, View.read_apply, cast_eq]
  exact XT_lt m hpre d _

abbrev idxRowK5 (L : grid0.Coords) : Memref sig .scVector .vmem S32 .i32 :=
  ((ixV).slice (Rect.unit (s := S20x128) (k0_off8 L) S1x32.size (k0_off8_inb L)) (fun _ => rfl)).squeeze S32 squeezes_S1x32_S32
theorem idx_inb5 (hpre : PreOK m) (g : Buf (Elt F) ((V d (cV L) (jV L)).loc cc0_scratch0)) (x : S32.Idx) :
    ((idxRowK5 L).view.read (Elt F) (View.write (Elt F) (ixV).view g (ReadAs.same.apply ((xtBlockK L).view.read (Elt F) (XT m d))) Finset.univ) x).toNat
      < S1000x128.size gathers_S1000x128_S32x128.axis := by
  have e : View.write (Elt F) (ixV).view g (ReadAs.same.apply ((xtBlockK L).view.read (Elt F) (XT m d))) Finset.univ
      = ReadAs.same.apply ((xtBlockK L).view.read (Elt F) (XT m d)) := View.write_whole_univ _ _ _
  rw [e, View.read_apply, cast_eq]
  exact XT_lt m hpre d _

abbrev idxRowK6 (L : grid0.Coords) : Memref sig .scVector .vmem S32 .i32 :=
  ((ixV).slice (Rect.unit (s := S20x128) (k0_off9 L) S1x32.size (k0_off9_inb L)) (fun _ => rfl)).squeeze S32 squeezes_S1x32_S32
theorem idx_inb6 (hpre : PreOK m) (g : Buf (Elt F) ((V d (cV L) (jV L)).loc cc0_scratch0)) (x : S32.Idx) :
    ((idxRowK6 L).view.read (Elt F) (View.write (Elt F) (ixV).view g (ReadAs.same.apply ((xtBlockK L).view.read (Elt F) (XT m d))) Finset.univ) x).toNat
      < S1000x128.size gathers_S1000x128_S32x128.axis := by
  have e : View.write (Elt F) (ixV).view g (ReadAs.same.apply ((xtBlockK L).view.read (Elt F) (XT m d))) Finset.univ
      = ReadAs.same.apply ((xtBlockK L).view.read (Elt F) (XT m d)) := View.write_whole_univ _ _ _
  rw [e, View.read_apply, cast_eq]
  exact XT_lt m hpre d _

abbrev idxRowK7 (L : grid0.Coords) : Memref sig .scVector .vmem S32 .i32 :=
  ((ixV).slice (Rect.unit (s := S20x128) (k0_off10 L) S1x32.size (k0_off10_inb L)) (fun _ => rfl)).squeeze S32 squeezes_S1x32_S32
theorem idx_inb7 (hpre : PreOK m) (g : Buf (Elt F) ((V d (cV L) (jV L)).loc cc0_scratch0)) (x : S32.Idx) :
    ((idxRowK7 L).view.read (Elt F) (View.write (Elt F) (ixV).view g (ReadAs.same.apply ((xtBlockK L).view.read (Elt F) (XT m d))) Finset.univ) x).toNat
      < S1000x128.size gathers_S1000x128_S32x128.axis := by
  have e : View.write (Elt F) (ixV).view g (ReadAs.same.apply ((xtBlockK L).view.read (Elt F) (XT m d))) Finset.univ
      = ReadAs.same.apply ((xtBlockK L).view.read (Elt F) (XT m d)) := View.write_whole_univ _ _ _
  rw [e, View.read_apply, cast_eq]
  exact XT_lt m hpre d _

abbrev idxRowK8 (L : grid0.Coords) : Memref sig .scVector .vmem S32 .i32 :=
  ((ixV).slice (Rect.unit (s := S20x128) (k0_off11 L) S1x32.size (k0_off11_inb L)) (fun _ => rfl)).squeeze S32 squeezes_S1x32_S32
theorem idx_inb8 (hpre : PreOK m) (g : Buf (Elt F) ((V d (cV L) (jV L)).loc cc0_scratch0)) (x : S32.Idx) :
    ((idxRowK8 L).view.read (Elt F) (View.write (Elt F) (ixV).view g (ReadAs.same.apply ((xtBlockK L).view.read (Elt F) (XT m d))) Finset.univ) x).toNat
      < S1000x128.size gathers_S1000x128_S32x128.axis := by
  have e : View.write (Elt F) (ixV).view g (ReadAs.same.apply ((xtBlockK L).view.read (Elt F) (XT m d))) Finset.univ
      = ReadAs.same.apply ((xtBlockK L).view.read (Elt F) (XT m d)) := View.write_whole_univ _ _ _
  rw [e, View.read_apply, cast_eq]
  exact XT_lt m hpre d _

abbrev idxRowK9 (L : grid0.Coords) : Memref sig .scVector .vmem S32 .i32 :=
  ((ixV).slice (Rect.unit (s := S20x128) (k0_off12 L) S1x32.size (k0_off12_inb L)) (fun _ => rfl)).squeeze S32 squeezes_S1x32_S32
theorem idx_inb9 (hpre : PreOK m) (g : Buf (Elt F) ((V d (cV L) (jV L)).loc cc0_scratch0)) (x : S32.Idx) :
    ((idxRowK9 L).view.read (Elt F) (View.write (Elt F) (ixV).view g (ReadAs.same.apply ((xtBlockK L).view.read (Elt F) (XT m d))) Finset.univ) x).toNat
      < S1000x128.size gathers_S1000x128_S32x128.axis := by
  have e : View.write (Elt F) (ixV).view g (ReadAs.same.apply ((xtBlockK L).view.read (Elt F) (XT m d))) Finset.univ
      = ReadAs.same.apply ((xtBlockK L).view.read (Elt F) (XT m d)) := View.write_whole_univ _ _ _
  rw [e, View.read_apply, cast_eq]
  exact XT_lt m hpre d _

abbrev idxRowK10 (L : grid0.Coords) : Memref sig .scVector .vmem S32 .i32 :=
  ((ixV).slice (Rect.unit (s := S20x128) (k0_off13 L) S1x32.size (k0_off13_inb L)) (fun _ => rfl)).squeeze S32 squeezes_S1x32_S32
theorem idx_inb10 (hpre : PreOK m) (g : Buf (Elt F) ((V d (cV L) (jV L)).loc cc0_scratch0)) (x : S32.Idx) :
    ((idxRowK10 L).view.read (Elt F) (View.write (Elt F) (ixV).view g (ReadAs.same.apply ((xtBlockK L).view.read (Elt F) (XT m d))) Finset.univ) x).toNat
      < S1000x128.size gathers_S1000x128_S32x128.axis := by
  have e : View.write (Elt F) (ixV).view g (ReadAs.same.apply ((xtBlockK L).view.read (Elt F) (XT m d))) Finset.univ
      = ReadAs.same.apply ((xtBlockK L).view.read (Elt F) (XT m d)) := View.write_whole_univ _ _ _
  rw [e, View.read_apply, cast_eq]
  exact XT_lt m hpre d _

abbrev idxRowK11 (L : grid0.Coords) : Memref sig .scVector .vmem S32 .i32 :=
  ((ixV).slice (Rect.unit (s := S20x128) (k0_off14 L) S1x32.size (k0_off14_inb L)) (fun _ => rfl)).squeeze S32 squeezes_S1x32_S32
theorem idx_inb11 (hpre : PreOK m) (g : Buf (Elt F) ((V d (cV L) (jV L)).loc cc0_scratch0)) (x : S32.Idx) :
    ((idxRowK11 L).view.read (Elt F) (View.write (Elt F) (ixV).view g (ReadAs.same.apply ((xtBlockK L).view.read (Elt F) (XT m d))) Finset.univ) x).toNat
      < S1000x128.size gathers_S1000x128_S32x128.axis := by
  have e : View.write (Elt F) (ixV).view g (ReadAs.same.apply ((xtBlockK L).view.read (Elt F) (XT m d))) Finset.univ
      = ReadAs.same.apply ((xtBlockK L).view.read (Elt F) (XT m d)) := View.write_whole_univ _ _ _
  rw [e, View.read_apply, cast_eq]
  exact XT_lt m hpre d _

abbrev idxRowK12 (L : grid0.Coords) : Memref sig .scVector .vmem S32 .i32 :=
  ((ixV).slice (Rect.unit (s := S20x128) (k0_off15 L) S1x32.size (k0_off15_inb L)) (fun _ => rfl)).squeeze S32 squeezes_S1x32_S32
theorem idx_inb12 (hpre : PreOK m) (g : Buf (Elt F) ((V d (cV L) (jV L)).loc cc0_scratch0)) (x : S32.Idx) :
    ((idxRowK12 L).view.read (Elt F) (View.write (Elt F) (ixV).view g (ReadAs.same.apply ((xtBlockK L).view.read (Elt F) (XT m d))) Finset.univ) x).toNat
      < S1000x128.size gathers_S1000x128_S32x128.axis := by
  have e : View.write (Elt F) (ixV).view g (ReadAs.same.apply ((xtBlockK L).view.read (Elt F) (XT m d))) Finset.univ
      = ReadAs.same.apply ((xtBlockK L).view.read (Elt F) (XT m d)) := View.write_whole_univ _ _ _
  rw [e, View.read_apply, cast_eq]
  exact XT_lt m hpre d _

abbrev idxRowK13 (L : grid0.Coords) : Memref sig .scVector .vmem S32 .i32 :=
  ((ixV).slice (Rect.unit (s := S20x128) (k0_off16 L) S1x32.size (k0_off16_inb L)) (fun _ => rfl)).squeeze S32 squeezes_S1x32_S32
theorem idx_inb13 (hpre : PreOK m) (g : Buf (Elt F) ((V d (cV L) (jV L)).loc cc0_scratch0)) (x : S32.Idx) :
    ((idxRowK13 L).view.read (Elt F) (View.write (Elt F) (ixV).view g (ReadAs.same.apply ((xtBlockK L).view.read (Elt F) (XT m d))) Finset.univ) x).toNat
      < S1000x128.size gathers_S1000x128_S32x128.axis := by
  have e : View.write (Elt F) (ixV).view g (ReadAs.same.apply ((xtBlockK L).view.read (Elt F) (XT m d))) Finset.univ
      = ReadAs.same.apply ((xtBlockK L).view.read (Elt F) (XT m d)) := View.write_whole_univ _ _ _
  rw [e, View.read_apply, cast_eq]
  exact XT_lt m hpre d _

abbrev idxRowK14 (L : grid0.Coords) : Memref sig .scVector .vmem S32 .i32 :=
  ((ixV).slice (Rect.unit (s := S20x128) (k0_off17 L) S1x32.size (k0_off17_inb L)) (fun _ => rfl)).squeeze S32 squeezes_S1x32_S32
theorem idx_inb14 (hpre : PreOK m) (g : Buf (Elt F) ((V d (cV L) (jV L)).loc cc0_scratch0)) (x : S32.Idx) :
    ((idxRowK14 L).view.read (Elt F) (View.write (Elt F) (ixV).view g (ReadAs.same.apply ((xtBlockK L).view.read (Elt F) (XT m d))) Finset.univ) x).toNat
      < S1000x128.size gathers_S1000x128_S32x128.axis := by
  have e : View.write (Elt F) (ixV).view g (ReadAs.same.apply ((xtBlockK L).view.read (Elt F) (XT m d))) Finset.univ
      = ReadAs.same.apply ((xtBlockK L).view.read (Elt F) (XT m d)) := View.write_whole_univ _ _ _
  rw [e, View.read_apply, cast_eq]
  exact XT_lt m hpre d _

abbrev idxRowK15 (L : grid0.Coords) : Memref sig .scVector .vmem S32 .i32 :=
  ((ixV).slice (Rect.unit (s := S20x128) (k0_off18 L) S1x32.size (k0_off18_inb L)) (fun _ => rfl)).squeeze S32 squeezes_S1x32_S32
theorem idx_inb15 (hpre : PreOK m) (g : Buf (Elt F) ((V d (cV L) (jV L)).loc cc0_scratch0)) (x : S32.Idx) :
    ((idxRowK15 L).view.read (Elt F) (View.write (Elt F) (ixV).view g (ReadAs.same.apply ((xtBlockK L).view.read (Elt F) (XT m d))) Finset.univ) x).toNat
      < S1000x128.size gathers_S1000x128_S32x128.axis := by
  have e : View.write (Elt F) (ixV).view g (ReadAs.same.apply ((xtBlockK L).view.read (Elt F) (XT m d))) Finset.univ
      = ReadAs.same.apply ((xtBlockK L).view.read (Elt F) (XT m d)) := View.write_whole_univ _ _ _
  rw [e, View.read_apply, cast_eq]
  exact XT_lt m hpre d _

abbrev idxRowK16 (L : grid0.Coords) : Memref sig .scVector .vmem S32 .i32 :=
  ((ixV).slice (Rect.unit (s := S20x128) (k0_off19 L) S1x32.size (k0_off19_inb L)) (fun _ => rfl)).squeeze S32 squeezes_S1x32_S32
theorem idx_inb16 (hpre : PreOK m) (g : Buf (Elt F) ((V d (cV L) (jV L)).loc cc0_scratch0)) (x : S32.Idx) :
    ((idxRowK16 L).view.read (Elt F) (View.write (Elt F) (ixV).view g (ReadAs.same.apply ((xtBlockK L).view.read (Elt F) (XT m d))) Finset.univ) x).toNat
      < S1000x128.size gathers_S1000x128_S32x128.axis := by
  have e : View.write (Elt F) (ixV).view g (ReadAs.same.apply ((xtBlockK L).view.read (Elt F) (XT m d))) Finset.univ
      = ReadAs.same.apply ((xtBlockK L).view.read (Elt F) (XT m d)) := View.write_whole_univ _ _ _
  rw [e, View.read_apply, cast_eq]
  exact XT_lt m hpre d _

abbrev idxRowK17 (L : grid0.Coords) : Memref sig .scVector .vmem S32 .i32 :=
  ((ixV).slice (Rect.unit (s := S20x128) (k0_off20 L) S1x32.size (k0_off20_inb L)) (fun _ => rfl)).squeeze S32 squeezes_S1x32_S32
theorem idx_inb17 (hpre : PreOK m) (g : Buf (Elt F) ((V d (cV L) (jV L)).loc cc0_scratch0)) (x : S32.Idx) :
    ((idxRowK17 L).view.read (Elt F) (View.write (Elt F) (ixV).view g (ReadAs.same.apply ((xtBlockK L).view.read (Elt F) (XT m d))) Finset.univ) x).toNat
      < S1000x128.size gathers_S1000x128_S32x128.axis := by
  have e : View.write (Elt F) (ixV).view g (ReadAs.same.apply ((xtBlockK L).view.read (Elt F) (XT m d))) Finset.univ
      = ReadAs.same.apply ((xtBlockK L).view.read (Elt F) (XT m d)) := View.write_whole_univ _ _ _
  rw [e, View.read_apply, cast_eq]
  exact XT_lt m hpre d _

abbrev idxRowK18 (L : grid0.Coords) : Memref sig .scVector .vmem S32 .i32 :=
  ((ixV).slice (Rect.unit (s := S20x128) (k0_off21 L) S1x32.size (k0_off21_inb L)) (fun _ => rfl)).squeeze S32 squeezes_S1x32_S32
theorem idx_inb18 (hpre : PreOK m) (g : Buf (Elt F) ((V d (cV L) (jV L)).loc cc0_scratch0)) (x : S32.Idx) :
    ((idxRowK18 L).view.read (Elt F) (View.write (Elt F) (ixV).view g (ReadAs.same.apply ((xtBlockK L).view.read (Elt F) (XT m d))) Finset.univ) x).toNat
      < S1000x128.size gathers_S1000x128_S32x128.axis := by
  have e : View.write (Elt F) (ixV).view g (ReadAs.same.apply ((xtBlockK L).view.read (Elt F) (XT m d))) Finset.univ
      = ReadAs.same.apply ((xtBlockK L).view.read (Elt F) (XT m d)) := View.write_whole_univ _ _ _
  rw [e, View.read_apply, cast_eq]
  exact XT_lt m hpre d _

abbrev idxRowK19 (L : grid0.Coords) : Memref sig .scVector .vmem S32 .i32 :=
  ((ixV).slice (Rect.unit (s := S20x128) (k0_off22 L) S1x32.size (k0_off22_inb L)) (fun _ => rfl)).squeeze S32 squeezes_S1x32_S32
theorem idx_inb19 (hpre : PreOK m) (g : Buf (Elt F) ((V d (cV L) (jV L)).loc cc0_scratch0)) (x : S32.Idx) :
    ((idxRowK19 L).view.read (Elt F) (View.write (Elt F) (ixV).view g (ReadAs.same.apply ((xtBlockK L).view.read (Elt F) (XT m d))) Finset.univ) x).toNat
      < S1000x128.size gathers_S1000x128_S32x128.axis := by
  have e : View.write (Elt F) (ixV).view g (ReadAs.same.apply ((xtBlockK L).view.read (Elt F) (XT m d))) Finset.univ
      = ReadAs.same.apply ((xtBlockK L).view.read (Elt F) (XT m d)) := View.write_whole_univ _ _ _
  rw [e, View.read_apply, cast_eq]
  exact XT_lt m hpre d _

/-- The rows of the table the subcore stages hold the table's rows. -/
theorem staged_eq (h : k0_cond1 L = 1#1) (fsh : Buf (Elt F) (shLoc d (cV L))) (pay : S64x128.Idx → Elt F .f32)
    (hpay : pay = ReadAs.same.apply ((wPieceK L h).view.read (Elt F) (m (wLoc d)))) :
    ∀ i ∈ pieceSet (jL L), (shPieceK L h).view.writes (Elt F) fsh [⟨Rect.whole S64x128, pay⟩] i = Wsh m d (cV L) i := by
  subst hpay
  intro i hi
  rw [← set_shPieceK L h] at hi
  obtain ⟨x, -, rfl⟩ := Finset.mem_map.mp hi
  have e := View.read_writes_cons_emb (shPieceK L h).view fsh (Rect.whole S64x128) (ReadAs.same.apply ((wPieceK L h).view.read (Elt F) (m (wLoc d)))) [] x
  rw [Rect.emb_whole_apply, View.read_apply] at e
  rw [cast_eq] at e
  exact e.trans rfl

/-- The rows of the table the last subcore stages hold the table's rows. -/
theorem staged_eq40 (h : (L 1).val = 15) (fsh : Buf (Elt F) (shLoc d (cV L))) (pay : S40x128.Idx → Elt F .f32)
    (hpay : pay = ReadAs.same.apply ((w40K).view.read (Elt F) (m (wLoc d)))) :
    ∀ i ∈ pieceSet (jL L), (sh40K).view.writes (Elt F) fsh [⟨Rect.whole S40x128, pay⟩] i = Wsh m d (cV L) i := by
  subst hpay
  intro i hi
  rw [← set_sh40K L h] at hi
  obtain ⟨x, -, rfl⟩ := Finset.mem_map.mp hi
  have e := View.read_writes_cons_emb (sh40K).view fsh (Rect.whole S40x128) (ReadAs.same.apply ((w40K).view.read (Elt F) (m (wLoc d)))) [] x
  rw [Rect.emb_whole_apply, View.read_apply] at e
  rw [cast_eq] at e
  exact e.trans rfl

end Tile

end Cert.Lookup.Kernel

end
-- ==== Proof.GeomB.lean ====
/-
  The geometry of the lookup's hand-outs: the sixteen row ranges of the staged table (64 rows each from 64 s, the last
  one the remaining 40) are pairwise disjoint and cover the table's 1000 rows; the 2 * 16 * 10 blocks of the result
  (two index rows from 2 k, the 32 columns from 64 s + 32 c, every lane) are pairwise disjoint and cover [20, 1024, 128].
  Hence a points-to of the whole staged table is the separating conjunction of its sixteen pieces, and one of the whole
  result that of its blocks, at any share and any contents.
-/
import proofs.«206460_g62371515072547_cont_9to1_m_307_33_alg».proof.Proof.ProtocolB

noncomputable section

namespace Cert.Lookup.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

/-! ## The staged table's row ranges -/

/-- Two different subcores stage disjoint row ranges: the ranges are separated along the row axis. -/
theorem pieces_disjoint' (i j : Fin 16) (h : i ≠ j) : Disjoint (pieceSet i) (pieceSet j) := by
  have hv : i.val ≠ j.val := fun e => h (Fin.ext e)
  have hi := i.isLt
  have hj := j.isLt
  show Disjoint (pieceRect i).set (pieceRect j).set
  unfold pieceRect
  refine Rect.unit_disjoint (s := S1000x128) (0 : Fin 2) ?_
  show 64 * i.val + (if i.val < 15 then 64 else 40) ≤ 64 * j.val ∨ 64 * j.val + (if j.val < 15 then 64 else 40) ≤ 64 * i.val
  split_ifs <;> omega

/-- The same, in the form a separating conjunction over the family asks. -/
theorem pieces_disjoint : ∀ i ∈ (Finset.univ : Finset (Fin 16)), ∀ j ∈ (Finset.univ : Finset (Fin 16)), i ≠ j →
    Disjoint (pieceSet i) (pieceSet j) := fun i _ j _ h => pieces_disjoint' i j h

/-- Row r < 960 lies in range r / 64, a later row in the last range: the ranges cover the table. -/
theorem pieces_cover : (Finset.univ : Finset (Fin 16)).biUnion pieceSet = Finset.univ := by
  ext r
  simp only [Finset.mem_biUnion, Finset.mem_univ, true_and, iff_true]
  have h0 : (r 0).val < 1000 := (r 0).isLt
  have h1 : (r 1).val < 128 := (r 1).isLt
  by_cases hr : (r 0).val < 960
  · refine ⟨⟨(r 0).val / 64, by omega⟩, ?_⟩
    show r ∈ (pieceRect _).set
    unfold pieceRect
    rw [Rect.mem_set_unit]
    intro a
    match a with
    | ⟨0, _⟩ =>
      show 64 * ((r 0).val / 64) ≤ (r 0).val ∧ (r 0).val < 64 * ((r 0).val / 64) + (if (r 0).val / 64 < 15 then 64 else 40)
      rw [if_pos (by omega)]; omega
    | ⟨1, _⟩ => show 0 ≤ (r 1).val ∧ (r 1).val < 0 + 128; omega
  · refine ⟨⟨15, by decide⟩, ?_⟩
    show r ∈ (pieceRect _).set
    unfold pieceRect
    rw [Rect.mem_set_unit]
    intro a
    match a with
    | ⟨0, _⟩ =>
      show 64 * 15 ≤ (r 0).val ∧ (r 0).val < 64 * 15 + (if (15 : ℕ) < 15 then 64 else 40)
      rw [if_neg (by decide)]; omega
    | ⟨1, _⟩ => show 0 ≤ (r 1).val ∧ (r 1).val < 0 + 128; omega

/-! ## The result's blocks -/

/-- A block's name: SparseCore, subcore, block number. -/
abbrev CSK : Type := Fin 2 × Fin 16 × Fin 10
abbrev oSet₃ (t : CSK) : Finset S20x1024x128.Idx := oSet t.1 t.2.1 t.2.2

/-- Two different blocks are disjoint: different block numbers are separated along the index-row axis, and equal
    block numbers with different (SparseCore, subcore) along the column axis, the column offsets 64 s + 32 c being
    distinct multiples of 32. -/
theorem blocks_disjoint' (t t' : CSK) (h : t ≠ t') : Disjoint (oSet₃ t) (oSet₃ t') := by
  obtain ⟨c, s, k⟩ := t
  obtain ⟨c', s', k'⟩ := t'
  have hc := c.isLt
  have hc' := c'.isLt
  have hs := s.isLt
  have hs' := s'.isLt
  show Disjoint (oRect c s k).set (oRect c' s' k').set
  unfold oRect
  by_cases hk : k.val = k'.val
  · have hcs : ¬ (c.val = c'.val ∧ s.val = s'.val) := fun e =>
      h (by rw [Fin.ext e.1, Fin.ext e.2, Fin.ext hk])
    refine Rect.unit_disjoint (s := S20x1024x128) (1 : Fin 3) ?_
    show 64 * s.val + 32 * c.val + 32 ≤ 64 * s'.val + 32 * c'.val ∨ 64 * s'.val + 32 * c'.val + 32 ≤ 64 * s.val + 32 * c.val
    omega
  · refine Rect.unit_disjoint (s := S20x1024x128) (0 : Fin 3) ?_
    show 2 * k.val + 2 ≤ 2 * k'.val ∨ 2 * k'.val + 2 ≤ 2 * k.val
    omega

theorem blocks_disjoint : ∀ t ∈ (Finset.univ : Finset CSK), ∀ t' ∈ (Finset.univ : Finset CSK), t ≠ t' →
    Disjoint (oSet₃ t) (oSet₃ t') := fun t _ t' _ h => blocks_disjoint' t t' h

/-- The element (j, b, e) lies in block j / 2 of subcore b / 64 of SparseCore (b % 64) / 32: the blocks cover the result. -/
theorem blocks_cover : (Finset.univ : Finset CSK).biUnion oSet₃ = Finset.univ := by
  ext i
  simp only [Finset.mem_biUnion, Finset.mem_univ, true_and, iff_true]
  have h0 : (i 0).val < 20 := (i 0).isLt
  have h1 : (i 1).val < 1024 := (i 1).isLt
  have h2 : (i 2).val < 128 := (i 2).isLt
  refine ⟨(⟨(i 1).val % 64 / 32, by omega⟩, ⟨(i 1).val / 64, by omega⟩, ⟨(i 0).val / 2, by omega⟩), ?_⟩
  show i ∈ (oRect _ _ _).set
  unfold oRect
  rw [Rect.mem_set_unit]
  intro a
  match a with
  | ⟨0, _⟩ => show 2 * ((i 0).val / 2) ≤ (i 0).val ∧ (i 0).val < 2 * ((i 0).val / 2) + 2; omega
  | ⟨1, _⟩ =>
    show 64 * ((i 1).val / 64) + 32 * ((i 1).val % 64 / 32) ≤ (i 1).val
      ∧ (i 1).val < 64 * ((i 1).val / 64) + 32 * ((i 1).val % 64 / 32) + 32
    omega
  | ⟨2, _⟩ => show 0 ≤ (i 2).val ∧ (i 2).val < 0 + 128; omega

/-! ## The points-to splits -/

/-- The whole staged table, at any share and contents, is its sixteen row ranges. -/
theorem shPts_pieces (d : Dev nD) (c : Fin τ.nSC) (q : PosShare TreeShare) (f : Buf (Elt F) (shLoc d c)) :
    (shLoc d c ↦{q} f : sProp 𝕄) = bigSep Finset.univ fun n : Fin 16 => shLoc d c ↦[pieceSet n]{q} f := by
  rw [← pointsTo_biUnion Finset.univ (ℓ := shLoc d c) pieceSet pieces_disjoint, pieces_cover]; try rfl

/-- The whole result, at any share and contents, is its blocks, named by (SparseCore, subcore, block number). -/
theorem oPts_blocks₃ (d : Dev nD) (q : PosShare TreeShare) (f : Buf (Elt F) (oLoc d)) :
    (oLoc d ↦{q} f : sProp 𝕄) = bigSep Finset.univ fun t : CSK => oLoc d ↦[oSet₃ t]{q} f := by
  rw [← pointsTo_biUnion Finset.univ (ℓ := oLoc d) oSet₃ blocks_disjoint, blocks_cover]; try rfl

/-- The same with the three names nested: per SparseCore, per subcore, per block. -/
theorem oPts_blocks_q (d : Dev nD) (q : PosShare TreeShare) (f : Buf (Elt F) (oLoc d)) :
    (oLoc d ↦{q} f : sProp 𝕄)
      = bigSep Finset.univ fun c : Fin 2 => bigSep Finset.univ fun s : Fin 16 => bigSep Finset.univ fun k : Fin 10 =>
          oLoc d ↦[oSet c s k]{q} f := by
  rw [oPts_blocks₃, bigSep_univ_prod]
  refine bigSep_congr fun c _ => ?_
  rw [bigSep_univ_prod]

/-- The whole result owned outright is every subcore's ten blocks. -/
theorem oPts_blocks (d : Dev nD) (f : Buf (Elt F) (oLoc d)) :
    (oLoc d ↦{fullShare} f : sProp 𝕄)
      = bigSep Finset.univ fun c : Fin 2 => bigSep Finset.univ fun s : Fin 16 => oBlocks d c s f :=
  oPts_blocks_q d fullShare f

end Cert.Lookup.Kernel

end
-- ==== Proof.RowsB.lean ====
/-
  The row scratch of a vector subcore, [20, 32, 128]: written row by row (twenty gathers, destination row j) and read
  two rows at a time (ten copies, source rows 2 k and 2 k + 1). The one-row and two-row slices themselves are defined,
  as the kernel spells them, in the module imported here.

  Row j's elements are those whose first coordinate is j; the two-row slice k's are those whose first coordinate is 2 k or
  2 k + 1. So a two-row slice is the disjoint union of its two rows, and the ten two-row slices are pairwise disjoint and
  cover the scratch. Hence two rows held at one contents are the two-row slice at that contents, and the ten two-row
  slices at one contents are the whole scratch; and the whole scratch, at any share and contents, is its twenty rows.
-/
import proofs.«206460_g62371515072547_cont_9to1_m_307_33_alg».proof.Proof.ValB

noncomputable section

namespace Cert.Lookup.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

local notation "rwV" => (Memref.whole Cert.Kernel.cc0_scratch1 : Memref Cert.Kernel.sig Kind.scVector Space.vmem Cert.Kernel.S20x32x128 EltTy.f32)

/-! ## Their elements -/

/-- Row j of the scratch: the elements whose first coordinate is j. -/
def rowSet (j : Fin 20) : Finset S20x32x128.Idx :=
  (Rect.unit (s := S20x32x128) ![j.val, 0, 0] ![1, 32, 128] (by revert j; decide)).set
/-- Rows 2 k and 2 k + 1 of the scratch. -/
def pairSet (k : Fin 10) : Finset S20x32x128.Idx :=
  (Rect.unit (s := S20x32x128) ![2 * k.val, 0, 0] ![2, 32, 128] (by revert k; decide)).set

/-- A range of whole rows holds an element exactly when its first coordinate is in the range. -/
theorem mem_rows (o n : ℕ) (inb : ∀ a, (![o, 0, 0] : Fin 3 → ℕ) a + (![n, 32, 128] : Fin 3 → ℕ) a ≤ S20x32x128.size a)
    (i : S20x32x128.Idx) :
    i ∈ (Rect.unit (s := S20x32x128) ![o, 0, 0] ![n, 32, 128] inb).set ↔ o ≤ (i 0).val ∧ (i 0).val < o + n := by
  rw [Rect.mem_set_unit]
  constructor
  · intro h; exact h 0
  · intro h a
    have h1 : (i 1).val < 32 := (i 1).isLt
    have h2 : (i 2).val < 128 := (i 2).isLt
    match a with
    | ⟨0, _⟩ => exact h
    | ⟨1, _⟩ => show 0 ≤ (i 1).val ∧ (i 1).val < 0 + 32; omega
    | ⟨2, _⟩ => show 0 ≤ (i 2).val ∧ (i 2).val < 0 + 128; omega

theorem mem_rowSet (j : Fin 20) (i : S20x32x128.Idx) : i ∈ rowSet j ↔ (i 0).val = j.val := by
  unfold rowSet; rw [mem_rows]; omega
theorem mem_pairSet (k : Fin 10) (i : S20x32x128.Idx) : i ∈ pairSet k ↔ (i 0).val = 2 * k.val ∨ (i 0).val = 2 * k.val + 1 := by
  unfold pairSet; rw [mem_rows]; omega

/-- Different rows are disjoint. -/
theorem rows_disjoint' (i j : Fin 20) (h : i ≠ j) : Disjoint (rowSet i) (rowSet j) := by
  rw [Finset.disjoint_left]
  intro x hi hj
  rw [mem_rowSet] at hi hj
  exact h (Fin.ext (hi.symm.trans hj))
theorem rows_disjoint : ∀ i ∈ (Finset.univ : Finset (Fin 20)), ∀ j ∈ (Finset.univ : Finset (Fin 20)), i ≠ j →
    Disjoint (rowSet i) (rowSet j) := fun i _ j _ h => rows_disjoint' i j h

/-- A two-row slice is its two rows. -/
theorem pairSet_eq (k : Fin 10) (a b : Fin 20) (ha : a.val = 2 * k.val) (hb : b.val = 2 * k.val + 1) :
    pairSet k = rowSet a ∪ rowSet b := by
  ext i
  rw [Finset.mem_union, mem_pairSet, mem_rowSet, mem_rowSet, ha, hb]

/-- Different two-row slices are disjoint, and the ten cover the scratch. -/
theorem pairs_disjoint : ∀ k ∈ (Finset.univ : Finset (Fin 10)), ∀ k' ∈ (Finset.univ : Finset (Fin 10)), k ≠ k' →
    Disjoint (pairSet k) (pairSet k') := fun k _ k' _ h => by
  rw [Finset.disjoint_left]
  intro x hk hk'
  rw [mem_pairSet] at hk hk'
  exact h (Fin.ext (by omega))
theorem pairs_cover : (Finset.univ : Finset (Fin 10)).biUnion pairSet = Finset.univ := by
  ext i
  simp only [Finset.mem_biUnion, Finset.mem_univ, true_and, iff_true]
  have h0 : (i 0).val < 20 := (i 0).isLt
  exact ⟨⟨(i 0).val / 2, by omega⟩, (mem_pairSet _ i).mpr (by show (i 0).val = 2 * ((i 0).val / 2) ∨ (i 0).val = 2 * ((i 0).val / 2) + 1; omega)⟩

/-- A squeezed one-row slice of the scratch, as the kernel spells it, has row j's elements. -/
theorem set_row (j : ℕ) (hj : j < 20) (inb : ∀ a, (![j, 0, 0] : Fin 3 → ℕ) a + S1x32x128.size a ≤ S20x32x128.size a) :
    (((rwV).slice (Rect.unit (s := S20x32x128) ![j, 0, 0] S1x32x128.size inb) (fun _ => rfl)).squeeze S32x128 squeezes_S1x32x128_S32x128).view.set
      = rowSet ⟨j, hj⟩ := by
  show (((rwV).view.slice (Rect.unit (s := S20x32x128) ![j, 0, 0] S1x32x128.size inb)).reshape S32x128 squeezes_S1x32x128_S32x128.numel_eq).set = _
  rw [View.set_reshape]
  exact View.set_slice_whole (cc0_scratch1 : Ref sig .scVector) _
/-- A two-row slice of the scratch, as the kernel spells it, has rows 2 k and 2 k + 1's elements. -/
theorem set_pair (k : ℕ) (hk : k < 10) (inb : ∀ a, (![2 * k, 0, 0] : Fin 3 → ℕ) a + S2x32x128.size a ≤ S20x32x128.size a) :
    ((rwV).slice (Rect.unit (s := S20x32x128) ![2 * k, 0, 0] S2x32x128.size inb) (fun _ => rfl)).view.set = pairSet ⟨k, hk⟩ :=
  View.set_slice_whole (cc0_scratch1 : Ref sig .scVector) _

theorem set_rowK0 : (rowK0).view.set = rowSet 0 := set_row 0 (by decide) _
theorem set_rowK1 : (rowK1).view.set = rowSet 1 := set_row 1 (by decide) _
theorem set_rowK2 : (rowK2).view.set = rowSet 2 := set_row 2 (by decide) _
theorem set_rowK3 : (rowK3).view.set = rowSet 3 := set_row 3 (by decide) _
theorem set_rowK4 : (rowK4).view.set = rowSet 4 := set_row 4 (by decide) _
theorem set_rowK5 : (rowK5).view.set = rowSet 5 := set_row 5 (by decide) _
theorem set_rowK6 : (rowK6).view.set = rowSet 6 := set_row 6 (by decide) _
theorem set_rowK7 : (rowK7).view.set = rowSet 7 := set_row 7 (by decide) _
theorem set_rowK8 : (rowK8).view.set = rowSet 8 := set_row 8 (by decide) _
theorem set_rowK9 : (rowK9).view.set = rowSet 9 := set_row 9 (by decide) _
theorem set_rowK10 : (rowK10).view.set = rowSet 10 := set_row 10 (by decide) _
theorem set_rowK11 : (rowK11).view.set = rowSet 11 := set_row 11 (by decide) _
theorem set_rowK12 : (rowK12).view.set = rowSet 12 := set_row 12 (by decide) _
theorem set_rowK13 : (rowK13).view.set = rowSet 13 := set_row 13 (by decide) _
theorem set_rowK14 : (rowK14).view.set = rowSet 14 := set_row 14 (by decide) _
theorem set_rowK15 : (rowK15).view.set = rowSet 15 := set_row 15 (by decide) _
theorem set_rowK16 : (rowK16).view.set = rowSet 16 := set_row 16 (by decide) _
theorem set_rowK17 : (rowK17).view.set = rowSet 17 := set_row 17 (by decide) _
theorem set_rowK18 : (rowK18).view.set = rowSet 18 := set_row 18 (by decide) _
theorem set_rowK19 : (rowK19).view.set = rowSet 19 := set_row 19 (by decide) _

theorem set_pairK0 : (pairK0).view.set = pairSet 0 := set_pair 0 (by decide) _
theorem set_pairK1 : (pairK1).view.set = pairSet 1 := set_pair 1 (by decide) _
theorem set_pairK2 : (pairK2).view.set = pairSet 2 := set_pair 2 (by decide) _
theorem set_pairK3 : (pairK3).view.set = pairSet 3 := set_pair 3 (by decide) _
theorem set_pairK4 : (pairK4).view.set = pairSet 4 := set_pair 4 (by decide) _
theorem set_pairK5 : (pairK5).view.set = pairSet 5 := set_pair 5 (by decide) _
theorem set_pairK6 : (pairK6).view.set = pairSet 6 := set_pair 6 (by decide) _
theorem set_pairK7 : (pairK7).view.set = pairSet 7 := set_pair 7 (by decide) _
theorem set_pairK8 : (pairK8).view.set = pairSet 8 := set_pair 8 (by decide) _
theorem set_pairK9 : (pairK9).view.set = pairSet 9 := set_pair 9 (by decide) _

theorem row_disj0 : Disjoint (rowK0).view.set (rowK1).view.set := by
  rw [set_rowK0, set_rowK1]; exact rows_disjoint' _ _ (by decide)
theorem row_disj1 : Disjoint (rowK2).view.set (rowK3).view.set := by
  rw [set_rowK2, set_rowK3]; exact rows_disjoint' _ _ (by decide)
theorem row_disj2 : Disjoint (rowK4).view.set (rowK5).view.set := by
  rw [set_rowK4, set_rowK5]; exact rows_disjoint' _ _ (by decide)
theorem row_disj3 : Disjoint (rowK6).view.set (rowK7).view.set := by
  rw [set_rowK6, set_rowK7]; exact rows_disjoint' _ _ (by decide)
theorem row_disj4 : Disjoint (rowK8).view.set (rowK9).view.set := by
  rw [set_rowK8, set_rowK9]; exact rows_disjoint' _ _ (by decide)
theorem row_disj5 : Disjoint (rowK10).view.set (rowK11).view.set := by
  rw [set_rowK10, set_rowK11]; exact rows_disjoint' _ _ (by decide)
theorem row_disj6 : Disjoint (rowK12).view.set (rowK13).view.set := by
  rw [set_rowK12, set_rowK13]; exact rows_disjoint' _ _ (by decide)
theorem row_disj7 : Disjoint (rowK14).view.set (rowK15).view.set := by
  rw [set_rowK14, set_rowK15]; exact rows_disjoint' _ _ (by decide)
theorem row_disj8 : Disjoint (rowK16).view.set (rowK17).view.set := by
  rw [set_rowK16, set_rowK17]; exact rows_disjoint' _ _ (by decide)
theorem row_disj9 : Disjoint (rowK18).view.set (rowK19).view.set := by
  rw [set_rowK18, set_rowK19]; exact rows_disjoint' _ _ (by decide)

/-! ## The joins -/

section Tile

variable (d : Dev nD) (L : grid0.Coords)

/-- Two rows at one contents are their two-row slice at that contents (over the element sets). -/
theorem pair_join_sets (k : Fin 10) (a b : Fin 20) (ha : a.val = 2 * k.val) (hb : b.val = 2 * k.val + 1)
    (q : PosShare TreeShare) (f : Buf (Elt F) ((V d (cV L) (jV L)).loc cc0_scratch1)) :
    iprop(((V d (cV L) (jV L)).loc cc0_scratch1 ↦[rowSet a]{q} f) ∗ ((V d (cV L) (jV L)).loc cc0_scratch1 ↦[rowSet b]{q} f))
      ⊢ ((V d (cV L) (jV L)).loc cc0_scratch1 ↦[pairSet k]{q} f : sProp 𝕄) := by
  rw [pairSet_eq k a b ha hb]
  exact (pointsTo_union (rows_disjoint' a b (fun e => by rw [e] at ha; omega))).2

theorem pair_join0 (f : Buf (Elt F) ((V d (cV L) (jV L)).loc cc0_scratch1)) :
    iprop(((rowK0).view.loc (V d (cV L) (jV L)) ↦[(rowK0).view.set]{fullShare} f)
        ∗ ((rowK1).view.loc (V d (cV L) (jV L)) ↦[(rowK1).view.set]{fullShare} f))
      ⊢ ((pairK0).view.loc (V d (cV L) (jV L)) ↦[(pairK0).view.set]{fullShare} f : sProp 𝕄) := by
  rw [set_rowK0, set_rowK1, set_pairK0]
  exact pair_join_sets d L 0 0 1 (by decide) (by decide) fullShare f
theorem pair_join1 (f : Buf (Elt F) ((V d (cV L) (jV L)).loc cc0_scratch1)) :
    iprop(((rowK2).view.loc (V d (cV L) (jV L)) ↦[(rowK2).view.set]{fullShare} f)
        ∗ ((rowK3).view.loc (V d (cV L) (jV L)) ↦[(rowK3).view.set]{fullShare} f))
      ⊢ ((pairK1).view.loc (V d (cV L) (jV L)) ↦[(pairK1).view.set]{fullShare} f : sProp 𝕄) := by
  rw [set_rowK2, set_rowK3, set_pairK1]
  exact pair_join_sets d L 1 2 3 (by decide) (by decide) fullShare f
theorem pair_join2 (f : Buf (Elt F) ((V d (cV L) (jV L)).loc cc0_scratch1)) :
    iprop(((rowK4).view.loc (V d (cV L) (jV L)) ↦[(rowK4).view.set]{fullShare} f)
        ∗ ((rowK5).view.loc (V d (cV L) (jV L)) ↦[(rowK5).view.set]{fullShare} f))
      ⊢ ((pairK2).view.loc (V d (cV L) (jV L)) ↦[(pairK2).view.set]{fullShare} f : sProp 𝕄) := by
  rw [set_rowK4, set_rowK5, set_pairK2]
  exact pair_join_sets d L 2 4 5 (by decide) (by decide) fullShare f
theorem pair_join3 (f : Buf (Elt F) ((V d (cV L) (jV L)).loc cc0_scratch1)) :
    iprop(((rowK6).view.loc (V d (cV L) (jV L)) ↦[(rowK6).view.set]{fullShare} f)
        ∗ ((rowK7).view.loc (V d (cV L) (jV L)) ↦[(rowK7).view.set]{fullShare} f))
      ⊢ ((pairK3).view.loc (V d (cV L) (jV L)) ↦[(pairK3).view.set]{fullShare} f : sProp 𝕄) := by
  rw [set_rowK6, set_rowK7, set_pairK3]
  exact pair_join_sets d L 3 6 7 (by decide) (by decide) fullShare f
theorem pair_join4 (f : Buf (Elt F) ((V d (cV L) (jV L)).loc cc0_scratch1)) :
    iprop(((rowK8).view.loc (V d (cV L) (jV L)) ↦[(rowK8).view.set]{fullShare} f)
        ∗ ((rowK9).view.loc (V d (cV L) (jV L)) ↦[(rowK9).view.set]{fullShare} f))
      ⊢ ((pairK4).view.loc (V d (cV L) (jV L)) ↦[(pairK4).view.set]{fullShare} f : sProp 𝕄) := by
  rw [set_rowK8, set_rowK9, set_pairK4]
  exact pair_join_sets d L 4 8 9 (by decide) (by decide) fullShare f
theorem pair_join5 (f : Buf (Elt F) ((V d (cV L) (jV L)).loc cc0_scratch1)) :
    iprop(((rowK10).view.loc (V d (cV L) (jV L)) ↦[(rowK10).view.set]{fullShare} f)
        ∗ ((rowK11).view.loc (V d (cV L) (jV L)) ↦[(rowK11).view.set]{fullShare} f))
      ⊢ ((pairK5).view.loc (V d (cV L) (jV L)) ↦[(pairK5).view.set]{fullShare} f : sProp 𝕄) := by
  rw [set_rowK10, set_rowK11, set_pairK5]
  exact pair_join_sets d L 5 10 11 (by decide) (by decide) fullShare f
theorem pair_join6 (f : Buf (Elt F) ((V d (cV L) (jV L)).loc cc0_scratch1)) :
    iprop(((rowK12).view.loc (V d (cV L) (jV L)) ↦[(rowK12).view.set]{fullShare} f)
        ∗ ((rowK13).view.loc (V d (cV L) (jV L)) ↦[(rowK13).view.set]{fullShare} f))
      ⊢ ((pairK6).view.loc (V d (cV L) (jV L)) ↦[(pairK6).view.set]{fullShare} f : sProp 𝕄) := by
  rw [set_rowK12, set_rowK13, set_pairK6]
  exact pair_join_sets d L 6 12 13 (by decide) (by decide) fullShare f
theorem pair_join7 (f : Buf (Elt F) ((V d (cV L) (jV L)).loc cc0_scratch1)) :
    iprop(((rowK14).view.loc (V d (cV L) (jV L)) ↦[(rowK14).view.set]{fullShare} f)
        ∗ ((rowK15).view.loc (V d (cV L) (jV L)) ↦[(rowK15).view.set]{fullShare} f))
      ⊢ ((pairK7).view.loc (V d (cV L) (jV L)) ↦[(pairK7).view.set]{fullShare} f : sProp 𝕄) := by
  rw [set_rowK14, set_rowK15, set_pairK7]
  exact pair_join_sets d L 7 14 15 (by decide) (by decide) fullShare f
theorem pair_join8 (f : Buf (Elt F) ((V d (cV L) (jV L)).loc cc0_scratch1)) :
    iprop(((rowK16).view.loc (V d (cV L) (jV L)) ↦[(rowK16).view.set]{fullShare} f)
        ∗ ((rowK17).view.loc (V d (cV L) (jV L)) ↦[(rowK17).view.set]{fullShare} f))
      ⊢ ((pairK8).view.loc (V d (cV L) (jV L)) ↦[(pairK8).view.set]{fullShare} f : sProp 𝕄) := by
  rw [set_rowK16, set_rowK17, set_pairK8]
  exact pair_join_sets d L 8 16 17 (by decide) (by decide) fullShare f
theorem pair_join9 (f : Buf (Elt F) ((V d (cV L) (jV L)).loc cc0_scratch1)) :
    iprop(((rowK18).view.loc (V d (cV L) (jV L)) ↦[(rowK18).view.set]{fullShare} f)
        ∗ ((rowK19).view.loc (V d (cV L) (jV L)) ↦[(rowK19).view.set]{fullShare} f))
      ⊢ ((pairK9).view.loc (V d (cV L) (jV L)) ↦[(pairK9).view.set]{fullShare} f : sProp 𝕄) := by
  rw [set_rowK18, set_rowK19, set_pairK9]
  exact pair_join_sets d L 9 18 19 (by decide) (by decide) fullShare f

/-- The ten two-row slices at one contents are the whole scratch at that contents. -/
theorem rows_whole (f : Buf (Elt F) ((V d (cV L) (jV L)).loc cc0_scratch1)) :
    iprop(((pairK0).view.loc (V d (cV L) (jV L)) ↦[(pairK0).view.set]{fullShare} f)
        ∗ ((pairK1).view.loc (V d (cV L) (jV L)) ↦[(pairK1).view.set]{fullShare} f)
        ∗ ((pairK2).view.loc (V d (cV L) (jV L)) ↦[(pairK2).view.set]{fullShare} f)
        ∗ ((pairK3).view.loc (V d (cV L) (jV L)) ↦[(pairK3).view.set]{fullShare} f)
        ∗ ((pairK4).view.loc (V d (cV L) (jV L)) ↦[(pairK4).view.set]{fullShare} f)
        ∗ ((pairK5).view.loc (V d (cV L) (jV L)) ↦[(pairK5).view.set]{fullShare} f)
        ∗ ((pairK6).view.loc (V d (cV L) (jV L)) ↦[(pairK6).view.set]{fullShare} f)
        ∗ ((pairK7).view.loc (V d (cV L) (jV L)) ↦[(pairK7).view.set]{fullShare} f)
        ∗ ((pairK8).view.loc (V d (cV L) (jV L)) ↦[(pairK8).view.set]{fullShare} f)
        ∗ ((pairK9).view.loc (V d (cV L) (jV L)) ↦[(pairK9).view.set]{fullShare} f))
      ⊢ ((V d (cV L) (jV L)).loc cc0_scratch1 ↦{fullShare} f : sProp 𝕄) := by
  rw [set_pairK0, set_pairK1, set_pairK2, set_pairK3, set_pairK4, set_pairK5, set_pairK6, set_pairK7, set_pairK8, set_pairK9]
  refine BI.Entails.trans ?_ (Entails.of_eq (show (bigSep Finset.univ fun k : Fin 10 => ((V d (cV L) (jV L)).loc cc0_scratch1 ↦[pairSet k]{fullShare} f : sProp 𝕄))
      = ((V d (cV L) (jV L)).loc cc0_scratch1 ↦{fullShare} f) from by
    rw [← pointsTo_biUnion Finset.univ (ℓ := (V d (cV L) (jV L)).loc cc0_scratch1) pairSet pairs_disjoint, pairs_cover]; try rfl))
  rw [show (Finset.univ : Finset (Fin 10)) = {0, 1, 2, 3, 4, 5, 6, 7, 8, 9} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  exact BI.Entails.refl _

/-- The twenty rows cover the scratch. -/
theorem rows_cover : (Finset.univ : Finset (Fin 20)).biUnion rowSet = Finset.univ := by
  ext i
  simp only [Finset.mem_biUnion, Finset.mem_univ, true_and, iff_true]
  have h0 : (i 0).val < 20 := (i 0).isLt
  exact ⟨⟨(i 0).val, h0⟩, (mem_rowSet _ i).mpr rfl⟩

set_option maxHeartbeats 1000000 in
/-- A separating conjunction over twenty indices, written out. -/
theorem rows_fin20 (Φ : Fin 20 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19) := by
  rw [show (Finset.univ : Finset (Fin 20)) = {0, 1, 2, 3, 4, 5, 6, 7, 8, 9, 10, 11, 12, 13, 14, 15, 16, 17, 18, 19} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- The whole scratch, at any share and contents, is its twenty rows. -/
theorem rw_rows (q : PosShare TreeShare) (f : Buf (Elt F) ((V d (cV L) (jV L)).loc cc0_scratch1)) :
    ((V d (cV L) (jV L)).loc cc0_scratch1 ↦{q} f : sProp 𝕄)
      = bigSep Finset.univ fun j : Fin 20 => (V d (cV L) (jV L)).loc cc0_scratch1 ↦[rowSet j]{q} f := by
  rw [← pointsTo_biUnion Finset.univ (ℓ := (V d (cV L) (jV L)).loc cc0_scratch1) rowSet rows_disjoint, rows_cover]; try rfl

/-- A row's slice, as the kernel spells it, is the scratch on that row's elements. -/
theorem pts_rowK0 (q : PosShare TreeShare) (f : Buf (Elt F) ((V d (cV L) (jV L)).loc cc0_scratch1)) :
    ((rowK0).view.loc (V d (cV L) (jV L)) ↦[(rowK0).view.set]{q} f : sProp 𝕄) = ((V d (cV L) (jV L)).loc cc0_scratch1 ↦[rowSet 0]{q} f) := by
  rw [set_rowK0] <;> rfl
theorem pts_rowK1 (q : PosShare TreeShare) (f : Buf (Elt F) ((V d (cV L) (jV L)).loc cc0_scratch1)) :
    ((rowK1).view.loc (V d (cV L) (jV L)) ↦[(rowK1).view.set]{q} f : sProp 𝕄) = ((V d (cV L) (jV L)).loc cc0_scratch1 ↦[rowSet 1]{q} f) := by
  rw [set_rowK1] <;> rfl
theorem pts_rowK2 (q : PosShare TreeShare) (f : Buf (Elt F) ((V d (cV L) (jV L)).loc cc0_scratch1)) :
    ((rowK2).view.loc (V d (cV L) (jV L)) ↦[(rowK2).view.set]{q} f : sProp 𝕄) = ((V d (cV L) (jV L)).loc cc0_scratch1 ↦[rowSet 2]{q} f) := by
  rw [set_rowK2] <;> rfl
theorem pts_rowK3 (q : PosShare TreeShare) (f : Buf (Elt F) ((V d (cV L) (jV L)).loc cc0_scratch1)) :
    ((rowK3).view.loc (V d (cV L) (jV L)) ↦[(rowK3).view.set]{q} f : sProp 𝕄) = ((V d (cV L) (jV L)).loc cc0_scratch1 ↦[rowSet 3]{q} f) := by
  rw [set_rowK3] <;> rfl
theorem pts_rowK4 (q : PosShare TreeShare) (f : Buf (Elt F) ((V d (cV L) (jV L)).loc cc0_scratch1)) :
    ((rowK4).view.loc (V d (cV L) (jV L)) ↦[(rowK4).view.set]{q} f : sProp 𝕄) = ((V d (cV L) (jV L)).loc cc0_scratch1 ↦[rowSet 4]{q} f) := by
  rw [set_rowK4] <;> rfl
theorem pts_rowK5 (q : PosShare TreeShare) (f : Buf (Elt F) ((V d (cV L) (jV L)).loc cc0_scratch1)) :
    ((rowK5).view.loc (V d (cV L) (jV L)) ↦[(rowK5).view.set]{q} f : sProp 𝕄) = ((V d (cV L) (jV L)).loc cc0_scratch1 ↦[rowSet 5]{q} f) := by
  rw [set_rowK5] <;> rfl
theorem pts_rowK6 (q : PosShare TreeShare) (f : Buf (Elt F) ((V d (cV L) (jV L)).loc cc0_scratch1)) :
    ((rowK6).view.loc (V d (cV L) (jV L)) ↦[(rowK6).view.set]{q} f : sProp 𝕄) = ((V d (cV L) (jV L)).loc cc0_scratch1 ↦[rowSet 6]{q} f) := by
  rw [set_rowK6] <;> rfl
theorem pts_rowK7 (q : PosShare TreeShare) (f : Buf (Elt F) ((V d (cV L) (jV L)).loc cc0_scratch1)) :
    ((rowK7).view.loc (V d (cV L) (jV L)) ↦[(rowK7).view.set]{q} f : sProp 𝕄) = ((V d (cV L) (jV L)).loc cc0_scratch1 ↦[rowSet 7]{q} f) := by
  rw [set_rowK7] <;> rfl
theorem pts_rowK8 (q : PosShare TreeShare) (f : Buf (Elt F) ((V d (cV L) (jV L)).loc cc0_scratch1)) :
    ((rowK8).view.loc (V d (cV L) (jV L)) ↦[(rowK8).view.set]{q} f : sProp 𝕄) = ((V d (cV L) (jV L)).loc cc0_scratch1 ↦[rowSet 8]{q} f) := by
  rw [set_rowK8] <;> rfl
theorem pts_rowK9 (q : PosShare TreeShare) (f : Buf (Elt F) ((V d (cV L) (jV L)).loc cc0_scratch1)) :
    ((rowK9).view.loc (V d (cV L) (jV L)) ↦[(rowK9).view.set]{q} f : sProp 𝕄) = ((V d (cV L) (jV L)).loc cc0_scratch1 ↦[rowSet 9]{q} f) := by
  rw [set_rowK9] <;> rfl
theorem pts_rowK10 (q : PosShare TreeShare) (f : Buf (Elt F) ((V d (cV L) (jV L)).loc cc0_scratch1)) :
    ((rowK10).view.loc (V d (cV L) (jV L)) ↦[(rowK10).view.set]{q} f : sProp 𝕄) = ((V d (cV L) (jV L)).loc cc0_scratch1 ↦[rowSet 10]{q} f) := by
  rw [set_rowK10] <;> rfl
theorem pts_rowK11 (q : PosShare TreeShare) (f : Buf (Elt F) ((V d (cV L) (jV L)).loc cc0_scratch1)) :
    ((rowK11).view.loc (V d (cV L) (jV L)) ↦[(rowK11).view.set]{q} f : sProp 𝕄) = ((V d (cV L) (jV L)).loc cc0_scratch1 ↦[rowSet 11]{q} f) := by
  rw [set_rowK11] <;> rfl
theorem pts_rowK12 (q : PosShare TreeShare) (f : Buf (Elt F) ((V d (cV L) (jV L)).loc cc0_scratch1)) :
    ((rowK12).view.loc (V d (cV L) (jV L)) ↦[(rowK12).view.set]{q} f : sProp 𝕄) = ((V d (cV L) (jV L)).loc cc0_scratch1 ↦[rowSet 12]{q} f) := by
  rw [set_rowK12] <;> rfl
theorem pts_rowK13 (q : PosShare TreeShare) (f : Buf (Elt F) ((V d (cV L) (jV L)).loc cc0_scratch1)) :
    ((rowK13).view.loc (V d (cV L) (jV L)) ↦[(rowK13).view.set]{q} f : sProp 𝕄) = ((V d (cV L) (jV L)).loc cc0_scratch1 ↦[rowSet 13]{q} f) := by
  rw [set_rowK13] <;> rfl
theorem pts_rowK14 (q : PosShare TreeShare) (f : Buf (Elt F) ((V d (cV L) (jV L)).loc cc0_scratch1)) :
    ((rowK14).view.loc (V d (cV L) (jV L)) ↦[(rowK14).view.set]{q} f : sProp 𝕄) = ((V d (cV L) (jV L)).loc cc0_scratch1 ↦[rowSet 14]{q} f) := by
  rw [set_rowK14] <;> rfl
theorem pts_rowK15 (q : PosShare TreeShare) (f : Buf (Elt F) ((V d (cV L) (jV L)).loc cc0_scratch1)) :
    ((rowK15).view.loc (V d (cV L) (jV L)) ↦[(rowK15).view.set]{q} f : sProp 𝕄) = ((V d (cV L) (jV L)).loc cc0_scratch1 ↦[rowSet 15]{q} f) := by
  rw [set_rowK15] <;> rfl
theorem pts_rowK16 (q : PosShare TreeShare) (f : Buf (Elt F) ((V d (cV L) (jV L)).loc cc0_scratch1)) :
    ((rowK16).view.loc (V d (cV L) (jV L)) ↦[(rowK16).view.set]{q} f : sProp 𝕄) = ((V d (cV L) (jV L)).loc cc0_scratch1 ↦[rowSet 16]{q} f) := by
  rw [set_rowK16] <;> rfl
theorem pts_rowK17 (q : PosShare TreeShare) (f : Buf (Elt F) ((V d (cV L) (jV L)).loc cc0_scratch1)) :
    ((rowK17).view.loc (V d (cV L) (jV L)) ↦[(rowK17).view.set]{q} f : sProp 𝕄) = ((V d (cV L) (jV L)).loc cc0_scratch1 ↦[rowSet 17]{q} f) := by
  rw [set_rowK17] <;> rfl
theorem pts_rowK18 (q : PosShare TreeShare) (f : Buf (Elt F) ((V d (cV L) (jV L)).loc cc0_scratch1)) :
    ((rowK18).view.loc (V d (cV L) (jV L)) ↦[(rowK18).view.set]{q} f : sProp 𝕄) = ((V d (cV L) (jV L)).loc cc0_scratch1 ↦[rowSet 18]{q} f) := by
  rw [set_rowK18] <;> rfl
theorem pts_rowK19 (q : PosShare TreeShare) (f : Buf (Elt F) ((V d (cV L) (jV L)).loc cc0_scratch1)) :
    ((rowK19).view.loc (V d (cV L) (jV L)) ↦[(rowK19).view.set]{q} f : sProp 𝕄) = ((V d (cV L) (jV L)).loc cc0_scratch1 ↦[rowSet 19]{q} f) := by
  rw [set_rowK19] <;> rfl

end Tile

end Cert.Lookup.Kernel

end
-- ==== Proof.OffB.lean ====
/-
  Closed forms of the printed offset functions of the lookup's body, over the 32 grid points L (L 0 the SparseCore,
  L 1 the subcore; the worker number is w = 2 (L 1) + (L 0)).

  The index block a subcore copies starts at column 128 ⌊w / 4⌋ of the transposed index array; within that block its
  own 32 columns start at 32 (w mod 4), in each of the twenty index rows; together these are the columns from
  64 (L 1) + 32 (L 0). The second conditional of the body holds exactly on the last subcore.
-/
import proofs.«206460_g62371515072547_cont_9to1_m_307_33_alg».proof.Proof.Gen.Kernel

set_option Elab.async false

namespace Cert.Lookup.Kernel

open Cert.Kernel Cert.Kernel.Gen Idealize.ShloMosaic

/-- The index block: all twenty rows, 128 columns from 128 ⌊w / 4⌋. -/
theorem k0_off1_cf : ∀ L : grid0.Coords, k0_off1 L = ![0, 128 * ((2 * (L 1).val + (L 0).val) / 4)] := by decide +kernel

/-- Index row 0 of the block: 32 columns from 32 (w mod 4). -/
theorem k0_off3_cf : ∀ L : grid0.Coords, k0_off3 L = ![0, 32 * ((2 * (L 1).val + (L 0).val) % 4)] := by decide +kernel
/-- Index row 1 of the block: 32 columns from 32 (w mod 4). -/
theorem k0_off4_cf : ∀ L : grid0.Coords, k0_off4 L = ![1, 32 * ((2 * (L 1).val + (L 0).val) % 4)] := by decide +kernel
/-- Index row 2 of the block: 32 columns from 32 (w mod 4). -/
theorem k0_off5_cf : ∀ L : grid0.Coords, k0_off5 L = ![2, 32 * ((2 * (L 1).val + (L 0).val) % 4)] := by decide +kernel
/-- Index row 3 of the block: 32 columns from 32 (w mod 4). -/
theorem k0_off6_cf : ∀ L : grid0.Coords, k0_off6 L = ![3, 32 * ((2 * (L 1).val + (L 0).val) % 4)] := by decide +kernel
/-- Index row 4 of the block: 32 columns from 32 (w mod 4). -/
theorem k0_off7_cf : ∀ L : grid0.Coords, k0_off7 L = ![4, 32 * ((2 * (L 1).val + (L 0).val) % 4)] := by decide +kernel
/-- Index row 5 of the block: 32 columns from 32 (w mod 4). -/
theorem k0_off8_cf : ∀ L : grid0.Coords, k0_off8 L = ![5, 32 * ((2 * (L 1).val + (L 0).val) % 4)] := by decide +kernel
/-- Index row 6 of the block: 32 columns from 32 (w mod 4). -/
theorem k0_off9_cf : ∀ L : grid0.Coords, k0_off9 L = ![6, 32 * ((2 * (L 1).val + (L 0).val) % 4)] := by decide +kernel
/-- Index row 7 of the block: 32 columns from 32 (w mod 4). -/
theorem k0_off10_cf : ∀ L : grid0.Coords, k0_off10 L = ![7, 32 * ((2 * (L 1).val + (L 0).val) % 4)] := by decide +kernel
/-- Index row 8 of the block: 32 columns from 32 (w mod 4). -/
theorem k0_off11_cf : ∀ L : grid0.Coords, k0_off11 L = ![8, 32 * ((2 * (L 1).val + (L 0).val) % 4)] := by decide +kernel
/-- Index row 9 of the block: 32 columns from 32 (w mod 4). -/
theorem k0_off12_cf : ∀ L : grid0.Coords, k0_off12 L = ![9, 32 * ((2 * (L 1).val + (L 0).val) % 4)] := by decide +kernel
/-- Index row 10 of the block: 32 columns from 32 (w mod 4). -/
theorem k0_off13_cf : ∀ L : grid0.Coords, k0_off13 L = ![10, 32 * ((2 * (L 1).val + (L 0).val) % 4)] := by decide +kernel
/-- Index row 11 of the block: 32 columns from 32 (w mod 4). -/
theorem k0_off14_cf : ∀ L : grid0.Coords, k0_off14 L = ![11, 32 * ((2 * (L 1).val + (L 0).val) % 4)] := by decide +kernel
/-- Index row 12 of the block: 32 columns from 32 (w mod 4). -/
theorem k0_off15_cf : ∀ L : grid0.Coords, k0_off15 L = ![12, 32 * ((2 * (L 1).val + (L 0).val) % 4)] := by decide +kernel
/-- Index row 13 of the block: 32 columns from 32 (w mod 4). -/
theorem k0_off16_cf : ∀ L : grid0.Coords, k0_off16 L = ![13, 32 * ((2 * (L 1).val + (L 0).val) % 4)] := by decide +kernel
/-- Index row 14 of the block: 32 columns from 32 (w mod 4). -/
theorem k0_off17_cf : ∀ L : grid0.Coords, k0_off17 L = ![14, 32 * ((2 * (L 1).val + (L 0).val) % 4)] := by decide +kernel
/-- Index row 15 of the block: 32 columns from 32 (w mod 4). -/
theorem k0_off18_cf : ∀ L : grid0.Coords, k0_off18 L = ![15, 32 * ((2 * (L 1).val + (L 0).val) % 4)] := by decide +kernel
/-- Index row 16 of the block: 32 columns from 32 (w mod 4). -/
theorem k0_off19_cf : ∀ L : grid0.Coords, k0_off19 L = ![16, 32 * ((2 * (L 1).val + (L 0).val) % 4)] := by decide +kernel
/-- Index row 17 of the block: 32 columns from 32 (w mod 4). -/
theorem k0_off20_cf : ∀ L : grid0.Coords, k0_off20 L = ![17, 32 * ((2 * (L 1).val + (L 0).val) % 4)] := by decide +kernel
/-- Index row 18 of the block: 32 columns from 32 (w mod 4). -/
theorem k0_off21_cf : ∀ L : grid0.Coords, k0_off21 L = ![18, 32 * ((2 * (L 1).val + (L 0).val) % 4)] := by decide +kernel
/-- Index row 19 of the block: 32 columns from 32 (w mod 4). -/
theorem k0_off22_cf : ∀ L : grid0.Coords, k0_off22 L = ![19, 32 * ((2 * (L 1).val + (L 0).val) % 4)] := by decide +kernel

/-- The second conditional of the body holds exactly on subcore 15. -/
theorem cond2_iff : ∀ L : grid0.Coords,
    (Scalar.cmpi .ne (Scalar.extui (Scalar.cmpi .eq (BitVec.ofNat 32 (L 1).val) 15#32) : BitVec 32) 0#32 = 1#1) ↔ (L 1).val = 15 := by
  decide +kernel

/-- The block's first column and the offset within it give the subcore's first column of the result. -/
theorem col_eq : ∀ L : grid0.Coords,
    128 * ((2 * (L 1).val + (L 0).val) / 4) + 32 * ((2 * (L 1).val + (L 0).val) % 4) = 64 * (L 1).val + 32 * (L 0).val := by
  intro L
  omega

end Cert.Lookup.Kernel
-- ==== Proof.ValsB.lean ====
/-
  What a vector subcore's transfers leave behind, element by element.

  A gather into row j of the row scratch: entry (q, e) of the gathered block is the staged table at (r, e), where r is
  the number held by word (j, 32 (w mod 4) + q) of the index scratch (w = 2 (L 1) + (L 0) the worker number); the index
  scratch holds the block of the transposed indices from column 128 ⌊w / 4⌋, so that word is the transposed index word
  (j, 64 (L 1) + 32 (L 0) + q), below 1000 under the precondition; the staged table holds the table. Hence the row
  scratch holds, at (j, q, e), the result's entry (j, 64 (L 1) + 32 (L 0) + q, e).

  A copy of rows 2 k, 2 k + 1 of the row scratch into block k of the subcore's columns of the result: element (r, q, e)
  goes to (2 k + r, 64 (L 1) + 32 (L 0) + q, e), and holds the result's entry there.
-/
import proofs.«206460_g62371515072547_cont_9to1_m_307_33_alg».proof.Proof.ValB
import proofs.«206460_g62371515072547_cont_9to1_m_307_33_alg».proof.Proof.OffB
import Idealize.ShloMosaic.Lib.SparseCore.Stream
import Idealize.ShloMosaic.Lib.Writes

noncomputable section

namespace Cert.Lookup.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

variable (m : (ℓ : Loc nD τ sig) → Buf (Elt F) ℓ)

local notation "xtV" => (Memref.whole Cert.Kernel.main_v0_scv : Memref Cert.Kernel.sig Kind.scVector Space.hbm Cert.Kernel.S20x1024 EltTy.i32)
local notation "wV" => (Memref.whole Cert.Kernel.main_arg1_scv : Memref Cert.Kernel.sig Kind.scVector Space.hbm Cert.Kernel.S1000x128 EltTy.f32)
local notation "oV" => (Memref.whole Cert.Kernel.main_v1_scv : Memref Cert.Kernel.sig Kind.scVector Space.hbm Cert.Kernel.S20x1024x128 EltTy.f32)
local notation "ixV" => (Memref.whole Cert.Kernel.cc0_scratch0 : Memref Cert.Kernel.sig Kind.scVector Space.vmem Cert.Kernel.S20x128 EltTy.i32)
local notation "rwV" => (Memref.whole Cert.Kernel.cc0_scratch1 : Memref Cert.Kernel.sig Kind.scVector Space.vmem Cert.Kernel.S20x32x128 EltTy.f32)
local notation "shV" => (Memref.whole Cert.Kernel.cc0_scratch2 : Memref Cert.Kernel.sig Kind.scVector Space.shared Cert.Kernel.S1000x128 EltTy.f32)

variable [FloatOps F]

section Tile

variable (d : Dev nD) (L : grid0.Coords)

omit [FloatOps F] in
/-- A unit-stride rectangle places an index at its offsets plus the index. -/
theorem unit_emb_val {s : Shape} (off size : Fin s.rank → ℕ) (inb : ∀ a, off a + size a ≤ s.size a)
    (j : (Rect.unit off size inb).shape.Idx) (a : Fin s.rank) :
    ((Rect.unit off size inb).emb j a : ℕ) = off a + (j a : ℕ) := by
  rw [Rect.emb_apply]
  show off a + 1 * _ = _
  rw [Nat.one_mul]

omit [FloatOps F] in
/-- Where a row of the row scratch, squeezed to 32 × 128, places its element (q, e): at (row, q, e). -/
theorem rowK_emb (off : Fin 3 → ℕ) (hinb : ∀ a, off a + S1x32x128.size a ≤ S20x32x128.size a) (x : S32x128.Idx) :
    (((rwV).slice (Rect.unit (s := S20x32x128) off S1x32x128.size hinb) (fun _ => rfl)).squeeze S32x128 squeezes_S1x32x128_S32x128).view.emb x
      = (Rect.unit (s := S20x32x128) off S1x32x128.size hinb).emb (Fin.cons ⟨0, Nat.one_pos⟩ x) := by
  show (Rect.unit (s := S20x32x128) off S1x32x128.size hinb).emb (Shape.reshapeEquiv squeezes_S1x32x128_S32x128.numel_eq x) = _
  rw [Shape.reshapeEquiv_cons_one (n := 2) (d := ![32, 128]) squeezes_S1x32x128_S32x128.numel_eq x]

omit [FloatOps F] in
/-- Where a row of the index scratch, squeezed to 32 words, places its word q: at (row, first column + q). -/
theorem idxRowK_emb (off : Fin 2 → ℕ) (hinb : ∀ a, off a + S1x32.size a ≤ S20x128.size a) (y : S32.Idx) :
    (((ixV).slice (Rect.unit (s := S20x128) off S1x32.size hinb) (fun _ => rfl)).squeeze S32 squeezes_S1x32_S32).view.emb y
      = (Rect.unit (s := S20x128) off S1x32.size hinb).emb (Fin.cons ⟨0, Nat.one_pos⟩ y) := by
  show (Rect.unit (s := S20x128) off S1x32.size hinb).emb (Shape.reshapeEquiv squeezes_S1x32_S32.numel_eq y) = _
  rw [Shape.reshapeEquiv_cons_one (n := 1) (d := ![32]) squeezes_S1x32_S32.numel_eq y]

omit [FloatOps F] in
/-- The staged table taken whole places every index at itself. -/
theorem shSrcK_emb (I : S1000x128.Idx) : (shSrcK).view.emb I = I := by
  funext b
  apply Fin.ext
  show ((Rect.unit (s := S1000x128) ![0, 0] S1000x128.size inb_S1000x128_S1000x128_0_0).emb I b : ℕ) = _
  rw [unit_emb_val]
  match b with
  | ⟨0, _⟩ => exact Nat.zero_add _
  | ⟨1, _⟩ => exact Nat.zero_add _

omit [FloatOps F] in
/-- Word k of a list of 32 words in row-major order is the word at index k. -/
theorem rowMajor32_symm_val (k : Fin S32.numel) : ((S32.rowMajor.symm k) 0 : ℕ) = k.val := by
  have h := Shape.rowMajor_val_one (d := ![32]) (S32.rowMajor.symm k)
  rw [← h]
  exact congrArg Fin.val (S32.rowMajor.apply_symm_apply k)

/-- A gather's landing, for any index row j: the gathered rows are the subcore's rows of the result for index row j.
    Entry (q, e) of the payload is the staged table at (r, e), r the number the word (j, 32 (w mod 4) + q) of the index
    scratch holds; that word is the transposed index word (j, 64 (L 1) + 32 (L 0) + q), a row number below 1000. -/
theorem gather_val_gen (j : ℕ) (offI : Fin 2 → ℕ) (hI : ∀ a, offI a + S1x32.size a ≤ S20x128.size a)
    (hcf : offI = ![j, 32 * ((2 * (L 1).val + (L 0).val) % 4)])
    (hR : ∀ a, (![j, 0, 0] : Fin 3 → ℕ) a + S1x32x128.size a ≤ S20x32x128.size a)
    (hpre : PreOK m) (fi : Buf (Elt F) ((V d (cV L) (jV L)).loc cc0_scratch0)) (g : Buf (Elt F) ((V d (cV L) (jV L)).loc cc0_scratch1))
    (hin : ∀ (g : Buf (Elt F) ((V d (cV L) (jV L)).loc cc0_scratch0)) (x : S32.Idx),
      ((((ixV).slice (Rect.unit (s := S20x128) offI S1x32.size hI) (fun _ => rfl)).squeeze S32 squeezes_S1x32_S32).view.read (Elt F) (View.write (Elt F) (ixV).view g (ReadAs.same.apply ((xtBlockK L).view.read (Elt F) (XT m d))) Finset.univ) x).toNat < S1000x128.size gathers_S1000x128_S32x128.axis)
    (hn : S32.numel = S32x128.size gathers_S1000x128_S32x128.axis') :
    ∀ i ∈ (((rwV).slice (Rect.unit (s := S20x32x128) ![j, 0, 0] S1x32x128.size hR) (fun _ => rfl)).squeeze S32x128 squeezes_S1x32x128_S32x128).view.set, View.write (Elt F) (((rwV).slice (Rect.unit (s := S20x32x128) ![j, 0, 0] S1x32x128.size hR) (fun _ => rfl)).squeeze S32x128 squeezes_S1x32x128_S32x128).view g
        (SparseCore.gatherPayload gathers_S1000x128_S32x128 ((shSrcK).view.read (Elt F) (Wsh m d (cV L)))
          (SparseCore.rows ((((ixV).slice (Rect.unit (s := S20x128) offI S1x32.size hI) (fun _ => rfl)).squeeze S32 squeezes_S1x32_S32).view.read (Elt F) (View.write (Elt F) (ixV).view fi (ReadAs.same.apply ((xtBlockK L).view.read (Elt F) (XT m d))) Finset.univ)) hn (hin fi)))
        Finset.univ i = ROWS m d L i := by
  intro i hi
  obtain ⟨x, -, rfl⟩ := Finset.mem_map.mp hi
  rw [View.write_emb_of_mem _ _ (Finset.mem_univ x), cast_eq]
  unfold SparseCore.gatherPayload
  rw [View.read_apply, cast_eq, shSrcK_emb, rowK_emb]
  show (m (wLoc d) : (⟨S1000x128, .f32⟩ : BufTy).Contents (Elt F)) _ = (m (wLoc d) : (⟨S1000x128, .f32⟩ : BufTy).Contents (Elt F)) _
  refine congrArg _ ?_
  have e : View.write (Elt F) (ixV).view fi (ReadAs.same.apply ((xtBlockK L).view.read (Elt F) (XT m d))) Finset.univ = (ReadAs.same.apply ((xtBlockK L).view.read (Elt F) (XT m d))) := View.write_whole_univ _ _ _
  have hword : ∀ y : S32.Idx, (((ixV).slice (Rect.unit (s := S20x128) offI S1x32.size hI) (fun _ => rfl)).squeeze S32 squeezes_S1x32_S32).view.read (Elt F) (View.write (Elt F) (ixV).view fi (ReadAs.same.apply ((xtBlockK L).view.read (Elt F) (XT m d))) Finset.univ) y
      = (XT m d : (⟨S20x1024, .i32⟩ : BufTy).Contents (Elt F)) ((xtBlockK L).view.emb ((((ixV).slice (Rect.unit (s := S20x128) offI S1x32.size hI) (fun _ => rfl)).squeeze S32 squeezes_S1x32_S32).view.emb y)) := by
    intro y
    rw [e, View.read_apply, cast_eq]
    rfl
  have hI12 : (xtBlockK L).view.emb ((((ixV).slice (Rect.unit (s := S20x128) offI S1x32.size hI) (fun _ => rfl)).squeeze S32 squeezes_S1x32_S32).view.emb (S32.rowMajor.symm ((x gathers_S1000x128_S32x128.axis').cast hn.symm)))
      = ValueIdx.ix2 (((Rect.unit (s := S20x32x128) ![j, 0, 0] S1x32x128.size hR).emb (Fin.cons ⟨0, Nat.one_pos⟩ x)) 0) (colIx L (((Rect.unit (s := S20x32x128) ![j, 0, 0] S1x32x128.size hR).emb (Fin.cons ⟨0, Nat.one_pos⟩ x)) 1)) := by
    rw [idxRowK_emb]
    refine funext fun (a : Fin 2) => Fin.ext ?_
    show ((Rect.unit (s := S20x1024) (k0_off1 L) S20x128.size (k0_off1_inb L)).emb _ a : ℕ) = _
    rw [unit_emb_val, unit_emb_val, k0_off1_cf, congrFun hcf a]
    match a with
    | ⟨0, _⟩ =>
      show 0 + (j + 0) = ((((Rect.unit (s := S20x32x128) ![j, 0, 0] S1x32x128.size hR).emb (Fin.cons ⟨0, Nat.one_pos⟩ x)) 0 : Fin 20) : ℕ)
      rw [unit_emb_val]
      show 0 + (j + 0) = j + 0
      omega
    | ⟨1, _⟩ =>
      show 128 * ((2 * (L 1).val + (L 0).val) / 4) + (32 * ((2 * (L 1).val + (L 0).val) % 4) + ((S32.rowMajor.symm ((x gathers_S1000x128_S32x128.axis').cast hn.symm)) 0 : ℕ))
        = 64 * (L 1).val + 32 * (L 0).val + ((((Rect.unit (s := S20x32x128) ![j, 0, 0] S1x32x128.size hR).emb (Fin.cons ⟨0, Nat.one_pos⟩ x)) 1 : Fin 32) : ℕ)
      rw [rowMajor32_symm_val, unit_emb_val]
      have hc := col_eq L
      show _ = 64 * (L 1).val + 32 * (L 0).val + (0 + (x 0).val)
      show 128 * ((2 * (L 1).val + (L 0).val) / 4) + (32 * ((2 * (L 1).val + (L 0).val) % 4) + (x 0).val) = _
      omega
  refine funext fun (b : Fin 2) => Fin.ext ?_
  match b with
  | ⟨0, _⟩ =>
    show ((((ixV).slice (Rect.unit (s := S20x128) offI S1x32.size hI) (fun _ => rfl)).squeeze S32 squeezes_S1x32_S32).view.read (Elt F) (View.write (Elt F) (ixV).view fi (ReadAs.same.apply ((xtBlockK L).view.read (Elt F) (XT m d))) Finset.univ)
        (S32.rowMajor.symm ((x gathers_S1000x128_S32x128.axis').cast hn.symm))).toNat
      = ((XT m d : (⟨S20x1024, .i32⟩ : BufTy).Contents (Elt F)) (ValueIdx.ix2 (((Rect.unit (s := S20x32x128) ![j, 0, 0] S1x32x128.size hR).emb (Fin.cons ⟨0, Nat.one_pos⟩ x)) 0) (colIx L (((Rect.unit (s := S20x32x128) ![j, 0, 0] S1x32x128.size hR).emb (Fin.cons ⟨0, Nat.one_pos⟩ x)) 1)))).toNat % 1000
    rw [hword, hI12]
    exact (Nat.mod_eq_of_lt (XT_lt m hpre d _)).symm
  | ⟨1, _⟩ =>
    show (x 1 : ℕ) = ((((Rect.unit (s := S20x32x128) ![j, 0, 0] S1x32x128.size hR).emb (Fin.cons ⟨0, Nat.one_pos⟩ x)) 2 : Fin 128) : ℕ)
    rw [unit_emb_val]
    exact (Nat.zero_add _).symm

theorem gather_val0 (hpre : PreOK m) (fi : Buf (Elt F) ((V d (cV L) (jV L)).loc cc0_scratch0)) (g : Buf (Elt F) ((V d (cV L) (jV L)).loc cc0_scratch1))
    (hin : ∀ (g : Buf (Elt F) ((V d (cV L) (jV L)).loc cc0_scratch0)) (x : S32.Idx), ((idxRowK0 L).view.read (Elt F) (View.write (Elt F) (ixV).view g (ReadAs.same.apply ((xtBlockK L).view.read (Elt F) (XT m d))) Finset.univ) x).toNat < S1000x128.size gathers_S1000x128_S32x128.axis)
    (hn : S32.numel = S32x128.size gathers_S1000x128_S32x128.axis') :
    ∀ i ∈ (rowK0).view.set, View.write (Elt F) (rowK0).view g
        (SparseCore.gatherPayload gathers_S1000x128_S32x128 ((shSrcK).view.read (Elt F) (Wsh m d (cV L)))
          (SparseCore.rows ((idxRowK0 L).view.read (Elt F) (View.write (Elt F) (ixV).view fi (ReadAs.same.apply ((xtBlockK L).view.read (Elt F) (XT m d))) Finset.univ)) hn (hin fi)))
        Finset.univ i = ROWS m d L i :=
  gather_val_gen m d L 0 (k0_off3 L) (k0_off3_inb L) (k0_off3_cf L) inb_S20x32x128_S1x32x128_0_0_0 hpre fi g hin hn

theorem gather_val1 (hpre : PreOK m) (fi : Buf (Elt F) ((V d (cV L) (jV L)).loc cc0_scratch0)) (g : Buf (Elt F) ((V d (cV L) (jV L)).loc cc0_scratch1))
    (hin : ∀ (g : Buf (Elt F) ((V d (cV L) (jV L)).loc cc0_scratch0)) (x : S32.Idx), ((idxRowK1 L).view.read (Elt F) (View.write (Elt F) (ixV).view g (ReadAs.same.apply ((xtBlockK L).view.read (Elt F) (XT m d))) Finset.univ) x).toNat < S1000x128.size gathers_S1000x128_S32x128.axis)
    (hn : S32.numel = S32x128.size gathers_S1000x128_S32x128.axis') :
    ∀ i ∈ (rowK1).view.set, View.write (Elt F) (rowK1).view g
        (SparseCore.gatherPayload gathers_S1000x128_S32x128 ((shSrcK).view.read (Elt F) (Wsh m d (cV L)))
          (SparseCore.rows ((idxRowK1 L).view.read (Elt F) (View.write (Elt F) (ixV).view fi (ReadAs.same.apply ((xtBlockK L).view.read (Elt F) (XT m d))) Finset.univ)) hn (hin fi)))
        Finset.univ i = ROWS m d L i :=
  gather_val_gen m d L 1 (k0_off4 L) (k0_off4_inb L) (k0_off4_cf L) inb_S20x32x128_S1x32x128_1_0_0 hpre fi g hin hn

theorem gather_val2 (hpre : PreOK m) (fi : Buf (Elt F) ((V d (cV L) (jV L)).loc cc0_scratch0)) (g : Buf (Elt F) ((V d (cV L) (jV L)).loc cc0_scratch1))
    (hin : ∀ (g : Buf (Elt F) ((V d (cV L) (jV L)).loc cc0_scratch0)) (x : S32.Idx), ((idxRowK2 L).view.read (Elt F) (View.write (Elt F) (ixV).view g (ReadAs.same.apply ((xtBlockK L).view.read (Elt F) (XT m d))) Finset.univ) x).toNat < S1000x128.size gathers_S1000x128_S32x128.axis)
    (hn : S32.numel = S32x128.size gathers_S1000x128_S32x128.axis') :
    ∀ i ∈ (rowK2).view.set, View.write (Elt F) (rowK2).view g
        (SparseCore.gatherPayload gathers_S1000x128_S32x128 ((shSrcK).view.read (Elt F) (Wsh m d (cV L)))
          (SparseCore.rows ((idxRowK2 L).view.read (Elt F) (View.write (Elt F) (ixV).view fi (ReadAs.same.apply ((xtBlockK L).view.read (Elt F) (XT m d))) Finset.univ)) hn (hin fi)))
        Finset.univ i = ROWS m d L i :=
  gather_val_gen m d L 2 (k0_off5 L) (k0_off5_inb L) (k0_off5_cf L) inb_S20x32x128_S1x32x128_2_0_0 hpre fi g hin hn

theorem gather_val3 (hpre : PreOK m) (fi : Buf (Elt F) ((V d (cV L) (jV L)).loc cc0_scratch0)) (g : Buf (Elt F) ((V d (cV L) (jV L)).loc cc0_scratch1))
    (hin : ∀ (g : Buf (Elt F) ((V d (cV L) (jV L)).loc cc0_scratch0)) (x : S32.Idx), ((idxRowK3 L).view.read (Elt F) (View.write (Elt F) (ixV).view g (ReadAs.same.apply ((xtBlockK L).view.read (Elt F) (XT m d))) Finset.univ) x).toNat < S1000x128.size gathers_S1000x128_S32x128.axis)
    (hn : S32.numel = S32x128.size gathers_S1000x128_S32x128.axis') :
    ∀ i ∈ (rowK3).view.set, View.write (Elt F) (rowK3).view g
        (SparseCore.gatherPayload gathers_S1000x128_S32x128 ((shSrcK).view.read (Elt F) (Wsh m d (cV L)))
          (SparseCore.rows ((idxRowK3 L).view.read (Elt F) (View.write (Elt F) (ixV).view fi (ReadAs.same.apply ((xtBlockK L).view.read (Elt F) (XT m d))) Finset.univ)) hn (hin fi)))
        Finset.univ i = ROWS m d L i :=
  gather_val_gen m d L 3 (k0_off6 L) (k0_off6_inb L) (k0_off6_cf L) inb_S20x32x128_S1x32x128_3_0_0 hpre fi g hin hn

theorem gather_val4 (hpre : PreOK m) (fi : Buf (Elt F) ((V d (cV L) (jV L)).loc cc0_scratch0)) (g : Buf (Elt F) ((V d (cV L) (jV L)).loc cc0_scratch1))
    (hin : ∀ (g : Buf (Elt F) ((V d (cV L) (jV L)).loc cc0_scratch0)) (x : S32.Idx), ((idxRowK4 L).view.read (Elt F) (View.write (Elt F) (ixV).view g (ReadAs.same.apply ((xtBlockK L).view.read (Elt F) (XT m d))) Finset.univ) x).toNat < S1000x128.size gathers_S1000x128_S32x128.axis)
    (hn : S32.numel = S32x128.size gathers_S1000x128_S32x128.axis') :
    ∀ i ∈ (rowK4).view.set, View.write (Elt F) (rowK4).view g
        (SparseCore.gatherPayload gathers_S1000x128_S32x128 ((shSrcK).view.read (Elt F) (Wsh m d (cV L)))
          (SparseCore.rows ((idxRowK4 L).view.read (Elt F) (View.write (Elt F) (ixV).view fi (ReadAs.same.apply ((xtBlockK L).view.read (Elt F) (XT m d))) Finset.univ)) hn (hin fi)))
        Finset.univ i = ROWS m d L i :=
  gather_val_gen m d L 4 (k0_off7 L) (k0_off7_inb L) (k0_off7_cf L) inb_S20x32x128_S1x32x128_4_0_0 hpre fi g hin hn

theorem gather_val5 (hpre : PreOK m) (fi : Buf (Elt F) ((V d (cV L) (jV L)).loc cc0_scratch0)) (g : Buf (Elt F) ((V d (cV L) (jV L)).loc cc0_scratch1))
    (hin : ∀ (g : Buf (Elt F) ((V d (cV L) (jV L)).loc cc0_scratch0)) (x : S32.Idx), ((idxRowK5 L).view.read (Elt F) (View.write (Elt F) (ixV).view g (ReadAs.same.apply ((xtBlockK L).view.read (Elt F) (XT m d))) Finset.univ) x).toNat < S1000x128.size gathers_S1000x128_S32x128.axis)
    (hn : S32.numel = S32x128.size gathers_S1000x128_S32x128.axis') :
    ∀ i ∈ (rowK5).view.set, View.write (Elt F) (rowK5).view g
        (SparseCore.gatherPayload gathers_S1000x128_S32x128 ((shSrcK).view.read (Elt F) (Wsh m d (cV L)))
          (SparseCore.rows ((idxRowK5 L).view.read (Elt F) (View.write (Elt F) (ixV).view fi (ReadAs.same.apply ((xtBlockK L).view.read (Elt F) (XT m d))) Finset.univ)) hn (hin fi)))
        Finset.univ i = ROWS m d L i :=
  gather_val_gen m d L 5 (k0_off8 L) (k0_off8_inb L) (k0_off8_cf L) inb_S20x32x128_S1x32x128_5_0_0 hpre fi g hin hn

theorem gather_val6 (hpre : PreOK m) (fi : Buf (Elt F) ((V d (cV L) (jV L)).loc cc0_scratch0)) (g : Buf (Elt F) ((V d (cV L) (jV L)).loc cc0_scratch1))
    (hin : ∀ (g : Buf (Elt F) ((V d (cV L) (jV L)).loc cc0_scratch0)) (x : S32.Idx), ((idxRowK6 L).view.read (Elt F) (View.write (Elt F) (ixV).view g (ReadAs.same.apply ((xtBlockK L).view.read (Elt F) (XT m d))) Finset.univ) x).toNat < S1000x128.size gathers_S1000x128_S32x128.axis)
    (hn : S32.numel = S32x128.size gathers_S1000x128_S32x128.axis') :
    ∀ i ∈ (rowK6).view.set, View.write (Elt F) (rowK6).view g
        (SparseCore.gatherPayload gathers_S1000x128_S32x128 ((shSrcK).view.read (Elt F) (Wsh m d (cV L)))
          (SparseCore.rows ((idxRowK6 L).view.read (Elt F) (View.write (Elt F) (ixV).view fi (ReadAs.same.apply ((xtBlockK L).view.read (Elt F) (XT m d))) Finset.univ)) hn (hin fi)))
        Finset.univ i = ROWS m d L i :=
  gather_val_gen m d L 6 (k0_off9 L) (k0_off9_inb L) (k0_off9_cf L) inb_S20x32x128_S1x32x128_6_0_0 hpre fi g hin hn

theorem gather_val7 (hpre : PreOK m) (fi : Buf (Elt F) ((V d (cV L) (jV L)).loc cc0_scratch0)) (g : Buf (Elt F) ((V d (cV L) (jV L)).loc cc0_scratch1))
    (hin : ∀ (g : Buf (Elt F) ((V d (cV L) (jV L)).loc cc0_scratch0)) (x : S32.Idx), ((idxRowK7 L).view.read (Elt F) (View.write (Elt F) (ixV).view g (ReadAs.same.apply ((xtBlockK L).view.read (Elt F) (XT m d))) Finset.univ) x).toNat < S1000x128.size gathers_S1000x128_S32x128.axis)
    (hn : S32.numel = S32x128.size gathers_S1000x128_S32x128.axis') :
    ∀ i ∈ (rowK7).view.set, View.write (Elt F) (rowK7).view g
        (SparseCore.gatherPayload gathers_S1000x128_S32x128 ((shSrcK).view.read (Elt F) (Wsh m d (cV L)))
          (SparseCore.rows ((idxRowK7 L).view.read (Elt F) (View.write (Elt F) (ixV).view fi (ReadAs.same.apply ((xtBlockK L).view.read (Elt F) (XT m d))) Finset.univ)) hn (hin fi)))
        Finset.univ i = ROWS m d L i :=
  gather_val_gen m d L 7 (k0_off10 L) (k0_off10_inb L) (k0_off10_cf L) inb_S20x32x128_S1x32x128_7_0_0 hpre fi g hin hn

theorem gather_val8 (hpre : PreOK m) (fi : Buf (Elt F) ((V d (cV L) (jV L)).loc cc0_scratch0)) (g : Buf (Elt F) ((V d (cV L) (jV L)).loc cc0_scratch1))
    (hin : ∀ (g : Buf (Elt F) ((V d (cV L) (jV L)).loc cc0_scratch0)) (x : S32.Idx), ((idxRowK8 L).view.read (Elt F) (View.write (Elt F) (ixV).view g (ReadAs.same.apply ((xtBlockK L).view.read (Elt F) (XT m d))) Finset.univ) x).toNat < S1000x128.size gathers_S1000x128_S32x128.axis)
    (hn : S32.numel = S32x128.size gathers_S1000x128_S32x128.axis') :
    ∀ i ∈ (rowK8).view.set, View.write (Elt F) (rowK8).view g
        (SparseCore.gatherPayload gathers_S1000x128_S32x128 ((shSrcK).view.read (Elt F) (Wsh m d (cV L)))
          (SparseCore.rows ((idxRowK8 L).view.read (Elt F) (View.write (Elt F) (ixV).view fi (ReadAs.same.apply ((xtBlockK L).view.read (Elt F) (XT m d))) Finset.univ)) hn (hin fi)))
        Finset.univ i = ROWS m d L i :=
  gather_val_gen m d L 8 (k0_off11 L) (k0_off11_inb L) (k0_off11_cf L) inb_S20x32x128_S1x32x128_8_0_0 hpre fi g hin hn

theorem gather_val9 (hpre : PreOK m) (fi : Buf (Elt F) ((V d (cV L) (jV L)).loc cc0_scratch0)) (g : Buf (Elt F) ((V d (cV L) (jV L)).loc cc0_scratch1))
    (hin : ∀ (g : Buf (Elt F) ((V d (cV L) (jV L)).loc cc0_scratch0)) (x : S32.Idx), ((idxRowK9 L).view.read (Elt F) (View.write (Elt F) (ixV).view g (ReadAs.same.apply ((xtBlockK L).view.read (Elt F) (XT m d))) Finset.univ) x).toNat < S1000x128.size gathers_S1000x128_S32x128.axis)
    (hn : S32.numel = S32x128.size gathers_S1000x128_S32x128.axis') :
    ∀ i ∈ (rowK9).view.set, View.write (Elt F) (rowK9).view g
        (SparseCore.gatherPayload gathers_S1000x128_S32x128 ((shSrcK).view.read (Elt F) (Wsh m d (cV L)))
          (SparseCore.rows ((idxRowK9 L).view.read (Elt F) (View.write (Elt F) (ixV).view fi (ReadAs.same.apply ((xtBlockK L).view.read (Elt F) (XT m d))) Finset.univ)) hn (hin fi)))
        Finset.univ i = ROWS m d L i :=
  gather_val_gen m d L 9 (k0_off12 L) (k0_off12_inb L) (k0_off12_cf L) inb_S20x32x128_S1x32x128_9_0_0 hpre fi g hin hn

theorem gather_val10 (hpre : PreOK m) (fi : Buf (Elt F) ((V d (cV L) (jV L)).loc cc0_scratch0)) (g : Buf (Elt F) ((V d (cV L) (jV L)).loc cc0_scratch1))
    (hin : ∀ (g : Buf (Elt F) ((V d (cV L) (jV L)).loc cc0_scratch0)) (x : S32.Idx), ((idxRowK10 L).view.read (Elt F) (View.write (Elt F) (ixV).view g (ReadAs.same.apply ((xtBlockK L).view.read (Elt F) (XT m d))) Finset.univ) x).toNat < S1000x128.size gathers_S1000x128_S32x128.axis)
    (hn : S32.numel = S32x128.size gathers_S1000x128_S32x128.axis') :
    ∀ i ∈ (rowK10).view.set, View.write (Elt F) (rowK10).view g
        (SparseCore.gatherPayload gathers_S1000x128_S32x128 ((shSrcK).view.read (Elt F) (Wsh m d (cV L)))
          (SparseCore.rows ((idxRowK10 L).view.read (Elt F) (View.write (Elt F) (ixV).view fi (ReadAs.same.apply ((xtBlockK L).view.read (Elt F) (XT m d))) Finset.univ)) hn (hin fi)))
        Finset.univ i = ROWS m d L i :=
  gather_val_gen m d L 10 (k0_off13 L) (k0_off13_inb L) (k0_off13_cf L) inb_S20x32x128_S1x32x128_10_0_0 hpre fi g hin hn

theorem gather_val11 (hpre : PreOK m) (fi : Buf (Elt F) ((V d (cV L) (jV L)).loc cc0_scratch0)) (g : Buf (Elt F) ((V d (cV L) (jV L)).loc cc0_scratch1))
    (hin : ∀ (g : Buf (Elt F) ((V d (cV L) (jV L)).loc cc0_scratch0)) (x : S32.Idx), ((idxRowK11 L).view.read (Elt F) (View.write (Elt F) (ixV).view g (ReadAs.same.apply ((xtBlockK L).view.read (Elt F) (XT m d))) Finset.univ) x).toNat < S1000x128.size gathers_S1000x128_S32x128.axis)
    (hn : S32.numel = S32x128.size gathers_S1000x128_S32x128.axis') :
    ∀ i ∈ (rowK11).view.set, View.write (Elt F) (rowK11).view g
        (SparseCore.gatherPayload gathers_S1000x128_S32x128 ((shSrcK).view.read (Elt F) (Wsh m d (cV L)))
          (SparseCore.rows ((idxRowK11 L).view.read (Elt F) (View.write (Elt F) (ixV).view fi (ReadAs.same.apply ((xtBlockK L).view.read (Elt F) (XT m d))) Finset.univ)) hn (hin fi)))
        Finset.univ i = ROWS m d L i :=
  gather_val_gen m d L 11 (k0_off14 L) (k0_off14_inb L) (k0_off14_cf L) inb_S20x32x128_S1x32x128_11_0_0 hpre fi g hin hn

theorem gather_val12 (hpre : PreOK m) (fi : Buf (Elt F) ((V d (cV L) (jV L)).loc cc0_scratch0)) (g : Buf (Elt F) ((V d (cV L) (jV L)).loc cc0_scratch1))
    (hin : ∀ (g : Buf (Elt F) ((V d (cV L) (jV L)).loc cc0_scratch0)) (x : S32.Idx), ((idxRowK12 L).view.read (Elt F) (View.write (Elt F) (ixV).view g (ReadAs.same.apply ((xtBlockK L).view.read (Elt F) (XT m d))) Finset.univ) x).toNat < S1000x128.size gathers_S1000x128_S32x128.axis)
    (hn : S32.numel = S32x128.size gathers_S1000x128_S32x128.axis') :
    ∀ i ∈ (rowK12).view.set, View.write (Elt F) (rowK12).view g
        (SparseCore.gatherPayload gathers_S1000x128_S32x128 ((shSrcK).view.read (Elt F) (Wsh m d (cV L)))
          (SparseCore.rows ((idxRowK12 L).view.read (Elt F) (View.write (Elt F) (ixV).view fi (ReadAs.same.apply ((xtBlockK L).view.read (Elt F) (XT m d))) Finset.univ)) hn (hin fi)))
        Finset.univ i = ROWS m d L i :=
  gather_val_gen m d L 12 (k0_off15 L) (k0_off15_inb L) (k0_off15_cf L) inb_S20x32x128_S1x32x128_12_0_0 hpre fi g hin hn

theorem gather_val13 (hpre : PreOK m) (fi : Buf (Elt F) ((V d (cV L) (jV L)).loc cc0_scratch0)) (g : Buf (Elt F) ((V d (cV L) (jV L)).loc cc0_scratch1))
    (hin : ∀ (g : Buf (Elt F) ((V d (cV L) (jV L)).loc cc0_scratch0)) (x : S32.Idx), ((idxRowK13 L).view.read (Elt F) (View.write (Elt F) (ixV).view g (ReadAs.same.apply ((xtBlockK L).view.read (Elt F) (XT m d))) Finset.univ) x).toNat < S1000x128.size gathers_S1000x128_S32x128.axis)
    (hn : S32.numel = S32x128.size gathers_S1000x128_S32x128.axis') :
    ∀ i ∈ (rowK13).view.set, View.write (Elt F) (rowK13).view g
        (SparseCore.gatherPayload gathers_S1000x128_S32x128 ((shSrcK).view.read (Elt F) (Wsh m d (cV L)))
          (SparseCore.rows ((idxRowK13 L).view.read (Elt F) (View.write (Elt F) (ixV).view fi (ReadAs.same.apply ((xtBlockK L).view.read (Elt F) (XT m d))) Finset.univ)) hn (hin fi)))
        Finset.univ i = ROWS m d L i :=
  gather_val_gen m d L 13 (k0_off16 L) (k0_off16_inb L) (k0_off16_cf L) inb_S20x32x128_S1x32x128_13_0_0 hpre fi g hin hn

theorem gather_val14 (hpre : PreOK m) (fi : Buf (Elt F) ((V d (cV L) (jV L)).loc cc0_scratch0)) (g : Buf (Elt F) ((V d (cV L) (jV L)).loc cc0_scratch1))
    (hin : ∀ (g : Buf (Elt F) ((V d (cV L) (jV L)).loc cc0_scratch0)) (x : S32.Idx), ((idxRowK14 L).view.read (Elt F) (View.write (Elt F) (ixV).view g (ReadAs.same.apply ((xtBlockK L).view.read (Elt F) (XT m d))) Finset.univ) x).toNat < S1000x128.size gathers_S1000x128_S32x128.axis)
    (hn : S32.numel = S32x128.size gathers_S1000x128_S32x128.axis') :
    ∀ i ∈ (rowK14).view.set, View.write (Elt F) (rowK14).view g
        (SparseCore.gatherPayload gathers_S1000x128_S32x128 ((shSrcK).view.read (Elt F) (Wsh m d (cV L)))
          (SparseCore.rows ((idxRowK14 L).view.read (Elt F) (View.write (Elt F) (ixV).view fi (ReadAs.same.apply ((xtBlockK L).view.read (Elt F) (XT m d))) Finset.univ)) hn (hin fi)))
        Finset.univ i = ROWS m d L i :=
  gather_val_gen m d L 14 (k0_off17 L) (k0_off17_inb L) (k0_off17_cf L) inb_S20x32x128_S1x32x128_14_0_0 hpre fi g hin hn

theorem gather_val15 (hpre : PreOK m) (fi : Buf (Elt F) ((V d (cV L) (jV L)).loc cc0_scratch0)) (g : Buf (Elt F) ((V d (cV L) (jV L)).loc cc0_scratch1))
    (hin : ∀ (g : Buf (Elt F) ((V d (cV L) (jV L)).loc cc0_scratch0)) (x : S32.Idx), ((idxRowK15 L).view.read (Elt F) (View.write (Elt F) (ixV).view g (ReadAs.same.apply ((xtBlockK L).view.read (Elt F) (XT m d))) Finset.univ) x).toNat < S1000x128.size gathers_S1000x128_S32x128.axis)
    (hn : S32.numel = S32x128.size gathers_S1000x128_S32x128.axis') :
    ∀ i ∈ (rowK15).view.set, View.write (Elt F) (rowK15).view g
        (SparseCore.gatherPayload gathers_S1000x128_S32x128 ((shSrcK).view.read (Elt F) (Wsh m d (cV L)))
          (SparseCore.rows ((idxRowK15 L).view.read (Elt F) (View.write (Elt F) (ixV).view fi (ReadAs.same.apply ((xtBlockK L).view.read (Elt F) (XT m d))) Finset.univ)) hn (hin fi)))
        Finset.univ i = ROWS m d L i :=
  gather_val_gen m d L 15 (k0_off18 L) (k0_off18_inb L) (k0_off18_cf L) inb_S20x32x128_S1x32x128_15_0_0 hpre fi g hin hn

theorem gather_val16 (hpre : PreOK m) (fi : Buf (Elt F) ((V d (cV L) (jV L)).loc cc0_scratch0)) (g : Buf (Elt F) ((V d (cV L) (jV L)).loc cc0_scratch1))
    (hin : ∀ (g : Buf (Elt F) ((V d (cV L) (jV L)).loc cc0_scratch0)) (x : S32.Idx), ((idxRowK16 L).view.read (Elt F) (View.write (Elt F) (ixV).view g (ReadAs.same.apply ((xtBlockK L).view.read (Elt F) (XT m d))) Finset.univ) x).toNat < S1000x128.size gathers_S1000x128_S32x128.axis)
    (hn : S32.numel = S32x128.size gathers_S1000x128_S32x128.axis') :
    ∀ i ∈ (rowK16).view.set, View.write (Elt F) (rowK16).view g
        (SparseCore.gatherPayload gathers_S1000x128_S32x128 ((shSrcK).view.read (Elt F) (Wsh m d (cV L)))
          (SparseCore.rows ((idxRowK16 L).view.read (Elt F) (View.write (Elt F) (ixV).view fi (ReadAs.same.apply ((xtBlockK L).view.read (Elt F) (XT m d))) Finset.univ)) hn (hin fi)))
        Finset.univ i = ROWS m d L i :=
  gather_val_gen m d L 16 (k0_off19 L) (k0_off19_inb L) (k0_off19_cf L) inb_S20x32x128_S1x32x128_16_0_0 hpre fi g hin hn

theorem gather_val17 (hpre : PreOK m) (fi : Buf (Elt F) ((V d (cV L) (jV L)).loc cc0_scratch0)) (g : Buf (Elt F) ((V d (cV L) (jV L)).loc cc0_scratch1))
    (hin : ∀ (g : Buf (Elt F) ((V d (cV L) (jV L)).loc cc0_scratch0)) (x : S32.Idx), ((idxRowK17 L).view.read (Elt F) (View.write (Elt F) (ixV).view g (ReadAs.same.apply ((xtBlockK L).view.read (Elt F) (XT m d))) Finset.univ) x).toNat < S1000x128.size gathers_S1000x128_S32x128.axis)
    (hn : S32.numel = S32x128.size gathers_S1000x128_S32x128.axis') :
    ∀ i ∈ (rowK17).view.set, View.write (Elt F) (rowK17).view g
        (SparseCore.gatherPayload gathers_S1000x128_S32x128 ((shSrcK).view.read (Elt F) (Wsh m d (cV L)))
          (SparseCore.rows ((idxRowK17 L).view.read (Elt F) (View.write (Elt F) (ixV).view fi (ReadAs.same.apply ((xtBlockK L).view.read (Elt F) (XT m d))) Finset.univ)) hn (hin fi)))
        Finset.univ i = ROWS m d L i :=
  gather_val_gen m d L 17 (k0_off20 L) (k0_off20_inb L) (k0_off20_cf L) inb_S20x32x128_S1x32x128_17_0_0 hpre fi g hin hn

theorem gather_val18 (hpre : PreOK m) (fi : Buf (Elt F) ((V d (cV L) (jV L)).loc cc0_scratch0)) (g : Buf (Elt F) ((V d (cV L) (jV L)).loc cc0_scratch1))
    (hin : ∀ (g : Buf (Elt F) ((V d (cV L) (jV L)).loc cc0_scratch0)) (x : S32.Idx), ((idxRowK18 L).view.read (Elt F) (View.write (Elt F) (ixV).view g (ReadAs.same.apply ((xtBlockK L).view.read (Elt F) (XT m d))) Finset.univ) x).toNat < S1000x128.size gathers_S1000x128_S32x128.axis)
    (hn : S32.numel = S32x128.size gathers_S1000x128_S32x128.axis') :
    ∀ i ∈ (rowK18).view.set, View.write (Elt F) (rowK18).view g
        (SparseCore.gatherPayload gathers_S1000x128_S32x128 ((shSrcK).view.read (Elt F) (Wsh m d (cV L)))
          (SparseCore.rows ((idxRowK18 L).view.read (Elt F) (View.write (Elt F) (ixV).view fi (ReadAs.same.apply ((xtBlockK L).view.read (Elt F) (XT m d))) Finset.univ)) hn (hin fi)))
        Finset.univ i = ROWS m d L i :=
  gather_val_gen m d L 18 (k0_off21 L) (k0_off21_inb L) (k0_off21_cf L) inb_S20x32x128_S1x32x128_18_0_0 hpre fi g hin hn

theorem gather_val19 (hpre : PreOK m) (fi : Buf (Elt F) ((V d (cV L) (jV L)).loc cc0_scratch0)) (g : Buf (Elt F) ((V d (cV L) (jV L)).loc cc0_scratch1))
    (hin : ∀ (g : Buf (Elt F) ((V d (cV L) (jV L)).loc cc0_scratch0)) (x : S32.Idx), ((idxRowK19 L).view.read (Elt F) (View.write (Elt F) (ixV).view g (ReadAs.same.apply ((xtBlockK L).view.read (Elt F) (XT m d))) Finset.univ) x).toNat < S1000x128.size gathers_S1000x128_S32x128.axis)
    (hn : S32.numel = S32x128.size gathers_S1000x128_S32x128.axis') :
    ∀ i ∈ (rowK19).view.set, View.write (Elt F) (rowK19).view g
        (SparseCore.gatherPayload gathers_S1000x128_S32x128 ((shSrcK).view.read (Elt F) (Wsh m d (cV L)))
          (SparseCore.rows ((idxRowK19 L).view.read (Elt F) (View.write (Elt F) (ixV).view fi (ReadAs.same.apply ((xtBlockK L).view.read (Elt F) (XT m d))) Finset.univ)) hn (hin fi)))
        Finset.univ i = ROWS m d L i :=
  gather_val_gen m d L 19 (k0_off22 L) (k0_off22_inb L) (k0_off22_cf L) inb_S20x32x128_S1x32x128_19_0_0 hpre fi g hin hn

/-- A copy-out's landing, for any pair of index rows 2 k, 2 k + 1 (k2 = 2 k): the block of the result written from the
    pair holds the result. Element (r, q, e) of the pair is the row scratch's (k2 + r, q, e), the result's entry
    (k2 + r, 64 (L 1) + 32 (L 0) + q, e), which is where the block places its element (r, q, e). -/
theorem out_val_gen (k2 : ℕ) (offO : Fin 3 → ℕ) (hO : ∀ a, offO a + S2x32x128.size a ≤ S20x1024x128.size a)
    (hcf : offO = ![k2, 64 * (L 1).val + 32 * (L 0).val, 0])
    (hP : ∀ a, (![k2, 0, 0] : Fin 3 → ℕ) a + S2x32x128.size a ≤ S20x32x128.size a) :
    ∀ i ∈ ((oV).slice (Rect.unit (s := S20x1024x128) offO S2x32x128.size hO) (fun _ => rfl)).view.set, ((oV).slice (Rect.unit (s := S20x1024x128) offO S2x32x128.size hO) (fun _ => rfl)).view.writes (Elt F) (m (oLoc d))
        [⟨Rect.whole S2x32x128, ReadAs.same.apply (((rwV).slice (Rect.unit (s := S20x32x128) ![k2, 0, 0] S2x32x128.size hP) (fun _ => rfl)).view.read (Elt F) (ROWS m d L))⟩] i = OUT m d i := by
  intro i hi
  obtain ⟨x, -, rfl⟩ := Finset.mem_map.mp hi
  have e := View.read_writes_cons_emb ((oV).slice (Rect.unit (s := S20x1024x128) offO S2x32x128.size hO) (fun _ => rfl)).view (m (oLoc d)) (Rect.whole S2x32x128)
    (ReadAs.same.apply (((rwV).slice (Rect.unit (s := S20x32x128) ![k2, 0, 0] S2x32x128.size hP) (fun _ => rfl)).view.read (Elt F) (ROWS m d L))) [] x
  rw [Rect.emb_whole_apply S2x32x128 x, View.read_apply] at e
  rw [cast_eq] at e
  refine e.trans ?_
  show (OUT m d : (⟨S20x1024x128, .f32⟩ : BufTy).Contents (Elt F)) (ValueIdx.ix3 (((rwV).slice (Rect.unit (s := S20x32x128) ![k2, 0, 0] S2x32x128.size hP) (fun _ => rfl)).view.emb x 0) (colIx L (((rwV).slice (Rect.unit (s := S20x32x128) ![k2, 0, 0] S2x32x128.size hP) (fun _ => rfl)).view.emb x 1)) (((rwV).slice (Rect.unit (s := S20x32x128) ![k2, 0, 0] S2x32x128.size hP) (fun _ => rfl)).view.emb x 2))
    = (OUT m d : (⟨S20x1024x128, .f32⟩ : BufTy).Contents (Elt F)) (((oV).slice (Rect.unit (s := S20x1024x128) offO S2x32x128.size hO) (fun _ => rfl)).view.emb x)
  refine congrArg _ ?_
  refine funext fun (a : Fin 3) => Fin.ext ?_
  show _ = ((Rect.unit (s := S20x1024x128) offO S2x32x128.size hO).emb x a : ℕ)
  rw [unit_emb_val, congrFun hcf a]
  match a with
  | ⟨0, _⟩ =>
    show ((Rect.unit (s := S20x32x128) ![k2, 0, 0] S2x32x128.size hP).emb x 0 : ℕ) = k2 + (x 0 : ℕ)
    rw [unit_emb_val]
    rfl
  | ⟨1, _⟩ =>
    show 64 * (L 1).val + 32 * (L 0).val + ((Rect.unit (s := S20x32x128) ![k2, 0, 0] S2x32x128.size hP).emb x 1 : ℕ)
      = 64 * (L 1).val + 32 * (L 0).val + (x 1 : ℕ)
    rw [unit_emb_val]
    show _ + (0 + (x 1 : ℕ)) = _
    rw [Nat.zero_add]
  | ⟨2, _⟩ =>
    show ((Rect.unit (s := S20x32x128) ![k2, 0, 0] S2x32x128.size hP).emb x 2 : ℕ) = 0 + (x 2 : ℕ)
    rw [unit_emb_val]
    rfl

theorem out_val0 : ∀ i ∈ oSet (cL L) (jL L) 0, (oB0 L).view.writes (Elt F) (m (oLoc d)) [⟨Rect.whole S2x32x128, ReadAs.same.apply ((pairK0).view.read (Elt F) (ROWS m d L))⟩] i = OUT m d i := by
  intro i hi
  rw [← set_oB0 L] at hi
  exact out_val_gen m d L 0 (k0_off23 L) (k0_off23_inb L) (k0_off23_eq L) inb_S20x32x128_S2x32x128_0_0_0 i hi

theorem out_val1 : ∀ i ∈ oSet (cL L) (jL L) 1, (oB1 L).view.writes (Elt F) (m (oLoc d)) [⟨Rect.whole S2x32x128, ReadAs.same.apply ((pairK1).view.read (Elt F) (ROWS m d L))⟩] i = OUT m d i := by
  intro i hi
  rw [← set_oB1 L] at hi
  exact out_val_gen m d L 2 (k0_off24 L) (k0_off24_inb L) (k0_off24_eq L) inb_S20x32x128_S2x32x128_2_0_0 i hi

theorem out_val2 : ∀ i ∈ oSet (cL L) (jL L) 2, (oB2 L).view.writes (Elt F) (m (oLoc d)) [⟨Rect.whole S2x32x128, ReadAs.same.apply ((pairK2).view.read (Elt F) (ROWS m d L))⟩] i = OUT m d i := by
  intro i hi
  rw [← set_oB2 L] at hi
  exact out_val_gen m d L 4 (k0_off25 L) (k0_off25_inb L) (k0_off25_eq L) inb_S20x32x128_S2x32x128_4_0_0 i hi

theorem out_val3 : ∀ i ∈ oSet (cL L) (jL L) 3, (oB3 L).view.writes (Elt F) (m (oLoc d)) [⟨Rect.whole S2x32x128, ReadAs.same.apply ((pairK3).view.read (Elt F) (ROWS m d L))⟩] i = OUT m d i := by
  intro i hi
  rw [← set_oB3 L] at hi
  exact out_val_gen m d L 6 (k0_off26 L) (k0_off26_inb L) (k0_off26_eq L) inb_S20x32x128_S2x32x128_6_0_0 i hi

theorem out_val4 : ∀ i ∈ oSet (cL L) (jL L) 4, (oB4 L).view.writes (Elt F) (m (oLoc d)) [⟨Rect.whole S2x32x128, ReadAs.same.apply ((pairK4).view.read (Elt F) (ROWS m d L))⟩] i = OUT m d i := by
  intro i hi
  rw [← set_oB4 L] at hi
  exact out_val_gen m d L 8 (k0_off27 L) (k0_off27_inb L) (k0_off27_eq L) inb_S20x32x128_S2x32x128_8_0_0 i hi

theorem out_val5 : ∀ i ∈ oSet (cL L) (jL L) 5, (oB5 L).view.writes (Elt F) (m (oLoc d)) [⟨Rect.whole S2x32x128, ReadAs.same.apply ((pairK5).view.read (Elt F) (ROWS m d L))⟩] i = OUT m d i := by
  intro i hi
  rw [← set_oB5 L] at hi
  exact out_val_gen m d L 10 (k0_off28 L) (k0_off28_inb L) (k0_off28_eq L) inb_S20x32x128_S2x32x128_10_0_0 i hi

theorem out_val6 : ∀ i ∈ oSet (cL L) (jL L) 6, (oB6 L).view.writes (Elt F) (m (oLoc d)) [⟨Rect.whole S2x32x128, ReadAs.same.apply ((pairK6).view.read (Elt F) (ROWS m d L))⟩] i = OUT m d i := by
  intro i hi
  rw [← set_oB6 L] at hi
  exact out_val_gen m d L 12 (k0_off29 L) (k0_off29_inb L) (k0_off29_eq L) inb_S20x32x128_S2x32x128_12_0_0 i hi

theorem out_val7 : ∀ i ∈ oSet (cL L) (jL L) 7, (oB7 L).view.writes (Elt F) (m (oLoc d)) [⟨Rect.whole S2x32x128, ReadAs.same.apply ((pairK7).view.read (Elt F) (ROWS m d L))⟩] i = OUT m d i := by
  intro i hi
  rw [← set_oB7 L] at hi
  exact out_val_gen m d L 14 (k0_off30 L) (k0_off30_inb L) (k0_off30_eq L) inb_S20x32x128_S2x32x128_14_0_0 i hi

theorem out_val8 : ∀ i ∈ oSet (cL L) (jL L) 8, (oB8 L).view.writes (Elt F) (m (oLoc d)) [⟨Rect.whole S2x32x128, ReadAs.same.apply ((pairK8).view.read (Elt F) (ROWS m d L))⟩] i = OUT m d i := by
  intro i hi
  rw [← set_oB8 L] at hi
  exact out_val_gen m d L 16 (k0_off31 L) (k0_off31_inb L) (k0_off31_eq L) inb_S20x32x128_S2x32x128_16_0_0 i hi

theorem out_val9 : ∀ i ∈ oSet (cL L) (jL L) 9, (oB9 L).view.writes (Elt F) (m (oLoc d)) [⟨Rect.whole S2x32x128, ReadAs.same.apply ((pairK9).view.read (Elt F) (ROWS m d L))⟩] i = OUT m d i := by
  intro i hi
  rw [← set_oB9 L] at hi
  exact out_val_gen m d L 18 (k0_off32 L) (k0_off32_inb L) (k0_off32_eq L) inb_S20x32x128_S2x32x128_18_0_0 i hi

end Tile

end Cert.Lookup.Kernel

end
-- ==== Proof.TileB.lean ====
/-
  One vector subcore's task of the embedding lookup: it fetches its block of the transposed indices, stages its rows of
  the table into the SparseCore's shared memory, meets the other subcores at the barrier (handing each a read share of
  the rows it staged and receiving theirs), gathers the twenty index rows' table rows into its row scratch and copies
  them out, two index rows at a time, into its columns of the result.
-/
import proofs.«206460_g62371515072547_cont_9to1_m_307_33_alg».proof.Proof.ValB
import proofs.«206460_g62371515072547_cont_9to1_m_307_33_alg».proof.Proof.GeomB
import proofs.«206460_g62371515072547_cont_9to1_m_307_33_alg».proof.Proof.RowsB
import proofs.«206460_g62371515072547_cont_9to1_m_307_33_alg».proof.Proof.ValsB
import Idealize.ShloMosaic.Lib.Batch
import Idealize.ShloMosaic.Lib.Exec.Geometry

noncomputable section

namespace Cert.Lookup.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

variable (m : (ℓ : Loc nD τ sig) → Buf (Elt F) ℓ)

local notation "xtV" => (Memref.whole Cert.Kernel.main_v0_scv : Memref Cert.Kernel.sig Kind.scVector Space.hbm Cert.Kernel.S20x1024 EltTy.i32)
local notation "wV" => (Memref.whole Cert.Kernel.main_arg1_scv : Memref Cert.Kernel.sig Kind.scVector Space.hbm Cert.Kernel.S1000x128 EltTy.f32)
local notation "oV" => (Memref.whole Cert.Kernel.main_v1_scv : Memref Cert.Kernel.sig Kind.scVector Space.hbm Cert.Kernel.S20x1024x128 EltTy.f32)
local notation "ixV" => (Memref.whole Cert.Kernel.cc0_scratch0 : Memref Cert.Kernel.sig Kind.scVector Space.vmem Cert.Kernel.S20x128 EltTy.i32)
local notation "rwV" => (Memref.whole Cert.Kernel.cc0_scratch1 : Memref Cert.Kernel.sig Kind.scVector Space.vmem Cert.Kernel.S20x32x128 EltTy.f32)
local notation "shV" => (Memref.whole Cert.Kernel.cc0_scratch2 : Memref Cert.Kernel.sig Kind.scVector Space.shared Cert.Kernel.S1000x128 EltTy.f32)

variable [FloatOps F]

omit [FloatOps F] in
theorem bigSep_fin24 (Φ : Fin 24 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23) := by
  rw [show (Finset.univ : Finset (Fin 24)) = {0, 1, 2, 3, 4, 5, 6, 7, 8, 9, 10, 11, 12, 13, 14, 15, 16, 17, 18, 19, 20, 21, 22, 23} from by decide,
    bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide),
    bigSep_singleton]
  rfl

omit [FloatOps F] in
theorem bigSep_fin10 (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) := by
  rw [show (Finset.univ : Finset (Fin 10)) = {0, 1, 2, 3, 4, 5, 6, 7, 8, 9} from by decide,
    bigSep_insert (by decide), bigSep_insert (by decide), bigSep_insert (by decide), bigSep_insert (by decide), bigSep_insert (by decide), bigSep_insert (by decide), bigSep_insert (by decide), bigSep_insert (by decide), bigSep_insert (by decide),
    bigSep_singleton]
  rfl

omit [FloatOps F] in
theorem bigSep_fin20 (Φ : Fin 20 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19) := by
  rw [show (Finset.univ : Finset (Fin 20)) = {0, 1, 2, 3, 4, 5, 6, 7, 8, 9, 10, 11, 12, 13, 14, 15, 16, 17, 18, 19} from by decide,
    bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide),
    bigSep_singleton]
  rfl
section Tile

variable (d : Dev nD) (L : grid0.Coords)

/-- The subcore's DMA semaphores. -/
abbrev dcell (i : Fin 24) : GSem nD τ sig := (V d (cV L) (jV L), .dma i)

omit [FloatOps F] in
theorem ownCells_V : ownCells (V d (cV L) (jV L)) = (Finset.univ : Finset (Fin 24)).image (dcell d L) := by
  ext g
  rcases g with ⟨thr, sm⟩
  simp only [mem_ownCells, Finset.mem_image, Finset.mem_univ, true_and]
  constructor
  · rintro ⟨rfl, h⟩
    cases sm with
    | reg s =>
      have h' : (SemLoc.reg s : SemLoc sig).isScoped .scVector = true := h
      exact absurd h' (by clear h h'; revert s; decide)
    | dma s => exact ⟨s, rfl⟩
  · rintro ⟨i, hi⟩
    obtain ⟨rfl, rfl⟩ := Prod.mk.inj hi
    refine ⟨rfl, ?_⟩
    show (SemLoc.dma i : SemLoc sig).isScoped .scVector = true
    clear hi; revert i; decide

omit [FloatOps F] in
theorem ownSems0_V : (ownSems0 (V d (cV L) (jV L)) : sProp 𝕄) = bigSep Finset.univ fun i : Fin 24 => semVal (dcell d L i) 0 := by
  unfold SparseCore.Cfg.ownSems0
  rw [ownCells_V, SparseCore.bigSep_image_of_injOn (fun a _ b _ e => SemLoc.dma.inj (Prod.mk.inj e).2)]

abbrev ixRef : DevRef τ sig := (Proc.scVector (cV L) (jV L)).devRef cc0_scratch0
abbrev rwRef : DevRef τ sig := (Proc.scVector (cV L) (jV L)).devRef cc0_scratch1

omit [FloatOps F] in
/-- The subcore's own buffers are its index scratch and its row scratch. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase (ixRef L)).erase (rwRef L))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := ixRef L) rfl),
    SparseCore.bigSep_erase' (Finset.mem_erase.mpr ⟨(by intro e; cases e), SparseCore.Cfg.mem_ownRefs_of_owner (p := Proc.scVector (cV L) (jV L)) (b := rwRef L) rfl⟩)]

omit [FloatOps F] in
theorem pts_shV (q : PosShare TreeShare) (f : Buf (Elt F) (shLoc d (cV L))) :
    ((shV).view.loc (V d (cV L) (jV L)) ↦{q} f : sProp 𝕄) = shLoc d (cV L) ↦{q} f := rfl

/-- What copy-out k delivers: block k of the subcore's columns of the result written with rows 2 k, 2 k + 1 of the row
    scratch, and those rows back. -/
def deliv : Fin 10 → sProp 𝕄
  | ⟨0, _⟩ => iprop(((oB0 L).view.loc (V d (cV L) (jV L)) ↦[(oB0 L).view.set]{fullShare}
        (oB0 L).view.writes (Elt F) (m (oLoc d)) [⟨Rect.whole S2x32x128, ReadAs.same.apply ((pairK0).view.read (Elt F) (ROWS m d L))⟩])
      ∗ ((pairK0).view.loc (V d (cV L) (jV L)) ↦[(pairK0).view.set]{fullShare} ROWS m d L))
  | ⟨1, _⟩ => iprop(((oB1 L).view.loc (V d (cV L) (jV L)) ↦[(oB1 L).view.set]{fullShare}
        (oB1 L).view.writes (Elt F) (m (oLoc d)) [⟨Rect.whole S2x32x128, ReadAs.same.apply ((pairK1).view.read (Elt F) (ROWS m d L))⟩])
      ∗ ((pairK1).view.loc (V d (cV L) (jV L)) ↦[(pairK1).view.set]{fullShare} ROWS m d L))
  | ⟨2, _⟩ => iprop(((oB2 L).view.loc (V d (cV L) (jV L)) ↦[(oB2 L).view.set]{fullShare}
        (oB2 L).view.writes (Elt F) (m (oLoc d)) [⟨Rect.whole S2x32x128, ReadAs.same.apply ((pairK2).view.read (Elt F) (ROWS m d L))⟩])
      ∗ ((pairK2).view.loc (V d (cV L) (jV L)) ↦[(pairK2).view.set]{fullShare} ROWS m d L))
  | ⟨3, _⟩ => iprop(((oB3 L).view.loc (V d (cV L) (jV L)) ↦[(oB3 L).view.set]{fullShare}
        (oB3 L).view.writes (Elt F) (m (oLoc d)) [⟨Rect.whole S2x32x128, ReadAs.same.apply ((pairK3).view.read (Elt F) (ROWS m d L))⟩])
      ∗ ((pairK3).view.loc (V d (cV L) (jV L)) ↦[(pairK3).view.set]{fullShare} ROWS m d L))
  | ⟨4, _⟩ => iprop(((oB4 L).view.loc (V d (cV L) (jV L)) ↦[(oB4 L).view.set]{fullShare}
        (oB4 L).view.writes (Elt F) (m (oLoc d)) [⟨Rect.whole S2x32x128, ReadAs.same.apply ((pairK4).view.read (Elt F) (ROWS m d L))⟩])
      ∗ ((pairK4).view.loc (V d (cV L) (jV L)) ↦[(pairK4).view.set]{fullShare} ROWS m d L))
  | ⟨5, _⟩ => iprop(((oB5 L).view.loc (V d (cV L) (jV L)) ↦[(oB5 L).view.set]{fullShare}
        (oB5 L).view.writes (Elt F) (m (oLoc d)) [⟨Rect.whole S2x32x128, ReadAs.same.apply ((pairK5).view.read (Elt F) (ROWS m d L))⟩])
      ∗ ((pairK5).view.loc (V d (cV L) (jV L)) ↦[(pairK5).view.set]{fullShare} ROWS m d L))
  | ⟨6, _⟩ => iprop(((oB6 L).view.loc (V d (cV L) (jV L)) ↦[(oB6 L).view.set]{fullShare}
        (oB6 L).view.writes (Elt F) (m (oLoc d)) [⟨Rect.whole S2x32x128, ReadAs.same.apply ((pairK6).view.read (Elt F) (ROWS m d L))⟩])
      ∗ ((pairK6).view.loc (V d (cV L) (jV L)) ↦[(pairK6).view.set]{fullShare} ROWS m d L))
  | ⟨7, _⟩ => iprop(((oB7 L).view.loc (V d (cV L) (jV L)) ↦[(oB7 L).view.set]{fullShare}
        (oB7 L).view.writes (Elt F) (m (oLoc d)) [⟨Rect.whole S2x32x128, ReadAs.same.apply ((pairK7).view.read (Elt F) (ROWS m d L))⟩])
      ∗ ((pairK7).view.loc (V d (cV L) (jV L)) ↦[(pairK7).view.set]{fullShare} ROWS m d L))
  | ⟨8, _⟩ => iprop(((oB8 L).view.loc (V d (cV L) (jV L)) ↦[(oB8 L).view.set]{fullShare}
        (oB8 L).view.writes (Elt F) (m (oLoc d)) [⟨Rect.whole S2x32x128, ReadAs.same.apply ((pairK8).view.read (Elt F) (ROWS m d L))⟩])
      ∗ ((pairK8).view.loc (V d (cV L) (jV L)) ↦[(pairK8).view.set]{fullShare} ROWS m d L))
  | ⟨9, _⟩ => iprop(((oB9 L).view.loc (V d (cV L) (jV L)) ↦[(oB9 L).view.set]{fullShare}
        (oB9 L).view.writes (Elt F) (m (oLoc d)) [⟨Rect.whole S2x32x128, ReadAs.same.apply ((pairK9).view.read (Elt F) (ROWS m d L))⟩])
      ∗ ((pairK9).view.loc (V d (cV L) (jV L)) ↦[(pairK9).view.set]{fullShare} ROWS m d L))

instance deliv_storable (t : Fin 10) : BI.Storable (upEmb : UEmb _ 𝕄) (deliv m d L t) := by
  match t with
  | ⟨0, _⟩ => unfold deliv; infer_instance
  | ⟨1, _⟩ => unfold deliv; infer_instance
  | ⟨2, _⟩ => unfold deliv; infer_instance
  | ⟨3, _⟩ => unfold deliv; infer_instance
  | ⟨4, _⟩ => unfold deliv; infer_instance
  | ⟨5, _⟩ => unfold deliv; infer_instance
  | ⟨6, _⟩ => unfold deliv; infer_instance
  | ⟨7, _⟩ => unfold deliv; infer_instance
  | ⟨8, _⟩ => unfold deliv; infer_instance
  | ⟨9, _⟩ => unfold deliv; infer_instance

/-- Before the barrier: the subcore's staged rows, one read share per subcore of the SparseCore, are what its duties
    hand over. -/
theorem pays_intro :
    (bigSep Finset.univ fun j : Fin 16 => shLoc d (cV L) ↦[pieceSet (jL L)]{shareTok fullShare 16 j} Wsh m d (cV L) : sProp 𝕄)
      ⊢ bigSep Finset.univ fun j : Fin (grid0.bound 1) => (bRd (F := F) m).payload (bcell d (cV L) (j.castLE hsub0)) 0 (jV L).val := by
  refine Entails.of_eq (bigSep_congr fun j _ => ?_)
  show _ = bPay m (bcell d (cV L) (j.castLE hsub0)) (jV L).val
  unfold bPay; dsimp only
  rw [dif_pos (jV L).isLt]
  rfl

/-- After it: what its own round collected is its read share of every subcore's staged rows, that is of the whole
    staged table. -/
theorem pays_elim :
    (bigSep ((bRd (F := F) m).duties (bcell d (cV L) (jV L)) 0 \ ∅) fun n => (bRd (F := F) m).payload (bcell d (cV L) (jV L)) 0 n)
      ⊢ (shLoc d (cV L) ↦{shareTok fullShare 16 (jL L)} Wsh m d (cV L) : sProp 𝕄) := by
  rw [Finset.sdiff_empty, bRd_duties₀, SparseCore.bigSep_image_of_injOn (fun a _ b _ e => Fin.val_injective e), shPts_pieces]
  refine Entails.of_eq (bigSep_congr fun n _ => ?_)
  show bPay m (bcell d (cV L) (jV L)) n.val = _
  unfold bPay; dsimp only
  rw [dif_pos n.isLt]
  rfl

set_option maxRecDepth 100000 in
set_option maxHeartbeats 4000000 in
/-- The task on vector subcore (L 0, L 1) of device d, a subcore below the last (it stages 64 rows of the table). -/
theorem tile_bodyA (hF : (K (F := F)).Facts) (hpre : PreOK m) (hA : k0_cond1 L = 1#1)
    (hB : ¬ (Scalar.cmpi .ne (Scalar.extui (Scalar.cmpi .eq (BitVec.ofNat 32 (L 1).val) 15#32) : BitVec 32) 0#32 = 1#1))
    (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ ((xtLoc d ↦{qT (cL L) (jL L)} XT m d) ∗ (wLoc d ↦{qT (cL L) (jL L)} Wm m d)
            ∗ oBlocks d (cL L) (jL L) (m (oLoc d)) ∗ ∃ f, shLoc d (cV L) ↦[pieceSet (jL L)]{fullShare} f)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0_emb_kernel L xtV (Memref.isWhole_whole _) wV (Memref.isWhole_whole _) oV (Memref.isWhole_whole _)
            ixV (Memref.isWhole_whole _) rwV (Memref.isWhole_whole _) shV (Memref.isWhole_whole _)
            cc0_scratch3 cc0_scratch4 cc0_scratch5 cc0_scratch6 cc0_scratch7 cc0_scratch8 cc0_scratch9 cc0_scratch10 cc0_scratch11 cc0_scratch12
            cc0_scratch13 cc0_scratch14 cc0_scratch15 cc0_scratch16 cc0_scratch17 cc0_scratch18 cc0_scratch19 cc0_scratch20 cc0_scratch21 cc0_scratch22
            cc0_scratch23 cc0_scratch24 cc0_scoped0 cc0_scoped1)
          fun _ => iprop(((xtLoc d ↦{qT (cL L) (jL L)} XT m d) ∗ (wLoc d ↦{qT (cL L) (jL L)} Wm m d)
            ∗ oBlocks d (cL L) (jL L) (OUT m d)
            ∗ (shLoc d (cV L) ↦{shareTok fullShare 16 (jL L)} Wsh m d (cV L))
            ∗ (shLoc d (cV L) ↦[pieceSet (jL L)]{shareDrop fullShare 16} Wsh m d (cV L)))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  simp only [cc0_emb_kernel_eq_skeleton]; unfold cc0_emb_kernel_skel
  rw [(K (F := F)).scopedBufs_V hF d (cV L) (jV L), SparseCore.Cfg.scopedSems0_V (Val := Elt F) d (cV L) (jV L), ownSems0_V, ownBufs_V,
    bigSep_fin24]
  unfold bkit oBlocks
  rw [bigSep_fin10, bigSep_fin10]
  iintro ⟨#Hlv, ⟨⟨%κ, #Hinv⟩, Htoks, #Hrch, Hat, Hcred⟩, ⟨Hxt, Hw, ⟨Ho0, Ho1, Ho2, Ho3, Ho4, Ho5, Ho6, Ho7, Ho8, Ho9⟩, %fsh, Hsh⟩, ⟨⟨%fi, Hix⟩, ⟨%fr, Hrw⟩, Hbufs⟩,
    ⟨Hs0, Hs1, Hs2, Hs3, Hs4, Hs5, Hs6, Hs7, Hs8, Hs9, Hs10, Hs11, Hs12, Hs13, Hs14, Hs15, Hs16, Hs17, Hs18, Hs19, Hs20, Hs21, Hs22, Hs23⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := (V d (cV L) (jV L))) hO') $$ Hlv
  ihave Hxt' := (Entails.of_eq (pts_xtV (F := F) d L _ _).symm) $$ Hxt
  ihave Hw' := (Entails.of_eq (pts_wV (F := F) d L _ _).symm) $$ Hw
  ihave Hix' := (Entails.of_eq (pts_ixV (F := F) d L _).symm) $$ Hix
  ihave Hsh' := (Entails.of_eq (pts_shPieceK (F := F) d L hA _).symm) $$ Hsh
  ihave Ho0' := (Entails.of_eq (pts_oB0 (F := F) d L _).symm) $$ Ho0
  ihave Ho1' := (Entails.of_eq (pts_oB1 (F := F) d L _).symm) $$ Ho1
  ihave Ho2' := (Entails.of_eq (pts_oB2 (F := F) d L _).symm) $$ Ho2
  ihave Ho3' := (Entails.of_eq (pts_oB3 (F := F) d L _).symm) $$ Ho3
  ihave Ho4' := (Entails.of_eq (pts_oB4 (F := F) d L _).symm) $$ Ho4
  ihave Ho5' := (Entails.of_eq (pts_oB5 (F := F) d L _).symm) $$ Ho5
  ihave Ho6' := (Entails.of_eq (pts_oB6 (F := F) d L _).symm) $$ Ho6
  ihave Ho7' := (Entails.of_eq (pts_oB7 (F := F) d L _).symm) $$ Ho7
  ihave Ho8' := (Entails.of_eq (pts_oB8 (F := F) d L _).symm) $$ Ho8
  ihave Ho9' := (Entails.of_eq (pts_oB9 (F := F) d L _).symm) $$ Ho9
  -- the index block fetched; the subcore's rows of the table staged and waited for
  sl_exec
  -- the staged rows hold the table's rows; one read share of them per subcore
  ihave Hsh1 := (Entails.of_eq (pts_shPieceK (F := F) d L hA _)) $$ Hsh'
  ihave Hsh2 := (Entails.of_eq (pointsTo_congr (q := fullShare) (staged_eq m d L hA fsh _ rfl))) $$ Hsh1
  ihave Hsh3 := (Transfers.pointsTo_toks_split fullShare 16) $$ Hsh2
  icases Hsh3 with ⟨Hkeep, Hgive⟩
  ihave Hpays := (pays_intro (F := F) m d L) $$ Hgive
  ihave Hmw2 := (show levAts (K (F := F)).L (K (F := F)).lev ⊢ Transfers.MayWaits (V d (cV L) (jV L)) (default : HIx 1) O from
    (K (F := F)).mayWaits_none (thr := (V d (cV L) (jV L))) hO) $$ Hlv
  -- the barrier
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := (V d (cV L) (jV L))) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Htab := (pays_elim (F := F) m d L) $$ Hgot
  -- one read token of the staged table per gather in flight; the row scratch row by row
  ihave Htab2 := (Transfers.pointsTo_toks_split (shareTok fullShare 16 (jL L)) 20) $$ Htab
  icases Htab2 with ⟨Htrem, Htoks20⟩
  ihave Htoks20' := (Entails.of_eq (bigSep_fin20 _)) $$ Htoks20
  icases Htoks20' with ⟨Ht0, Ht1, Ht2, Ht3, Ht4, Ht5, Ht6, Ht7, Ht8, Ht9, Ht10, Ht11, Ht12, Ht13, Ht14, Ht15, Ht16, Ht17, Ht18, Ht19⟩
  ihave Ht0' := (Entails.of_eq (pts_shV (F := F) d L _ _).symm) $$ Ht0
  ihave Ht1' := (Entails.of_eq (pts_shV (F := F) d L _ _).symm) $$ Ht1
  ihave Ht2' := (Entails.of_eq (pts_shV (F := F) d L _ _).symm) $$ Ht2
  ihave Ht3' := (Entails.of_eq (pts_shV (F := F) d L _ _).symm) $$ Ht3
  ihave Ht4' := (Entails.of_eq (pts_shV (F := F) d L _ _).symm) $$ Ht4
  ihave Ht5' := (Entails.of_eq (pts_shV (F := F) d L _ _).symm) $$ Ht5
  ihave Ht6' := (Entails.of_eq (pts_shV (F := F) d L _ _).symm) $$ Ht6
  ihave Ht7' := (Entails.of_eq (pts_shV (F := F) d L _ _).symm) $$ Ht7
  ihave Ht8' := (Entails.of_eq (pts_shV (F := F) d L _ _).symm) $$ Ht8
  ihave Ht9' := (Entails.of_eq (pts_shV (F := F) d L _ _).symm) $$ Ht9
  ihave Ht10' := (Entails.of_eq (pts_shV (F := F) d L _ _).symm) $$ Ht10
  ihave Ht11' := (Entails.of_eq (pts_shV (F := F) d L _ _).symm) $$ Ht11
  ihave Ht12' := (Entails.of_eq (pts_shV (F := F) d L _ _).symm) $$ Ht12
  ihave Ht13' := (Entails.of_eq (pts_shV (F := F) d L _ _).symm) $$ Ht13
  ihave Ht14' := (Entails.of_eq (pts_shV (F := F) d L _ _).symm) $$ Ht14
  ihave Ht15' := (Entails.of_eq (pts_shV (F := F) d L _ _).symm) $$ Ht15
  ihave Ht16' := (Entails.of_eq (pts_shV (F := F) d L _ _).symm) $$ Ht16
  ihave Ht17' := (Entails.of_eq (pts_shV (F := F) d L _ _).symm) $$ Ht17
  ihave Ht18' := (Entails.of_eq (pts_shV (F := F) d L _ _).symm) $$ Ht18
  ihave Ht19' := (Entails.of_eq (pts_shV (F := F) d L _ _).symm) $$ Ht19
  ihave Hrw1 := (Entails.of_eq (rw_rows (F := F) d L fullShare fr)) $$ Hrw
  ihave Hrw2 := (Entails.of_eq (bigSep_fin20 _)) $$ Hrw1
  icases Hrw2 with ⟨Hq0, Hq1, Hq2, Hq3, Hq4, Hq5, Hq6, Hq7, Hq8, Hq9, Hq10, Hq11, Hq12, Hq13, Hq14, Hq15, Hq16, Hq17, Hq18, Hq19⟩
  ihave Hrow0 := (Entails.of_eq (pts_rowK0 (F := F) d L fullShare fr).symm) $$ Hq0
  ihave Hrow1 := (Entails.of_eq (pts_rowK1 (F := F) d L fullShare fr).symm) $$ Hq1
  ihave Hrow2 := (Entails.of_eq (pts_rowK2 (F := F) d L fullShare fr).symm) $$ Hq2
  ihave Hrow3 := (Entails.of_eq (pts_rowK3 (F := F) d L fullShare fr).symm) $$ Hq3
  ihave Hrow4 := (Entails.of_eq (pts_rowK4 (F := F) d L fullShare fr).symm) $$ Hq4
  ihave Hrow5 := (Entails.of_eq (pts_rowK5 (F := F) d L fullShare fr).symm) $$ Hq5
  ihave Hrow6 := (Entails.of_eq (pts_rowK6 (F := F) d L fullShare fr).symm) $$ Hq6
  ihave Hrow7 := (Entails.of_eq (pts_rowK7 (F := F) d L fullShare fr).symm) $$ Hq7
  ihave Hrow8 := (Entails.of_eq (pts_rowK8 (F := F) d L fullShare fr).symm) $$ Hq8
  ihave Hrow9 := (Entails.of_eq (pts_rowK9 (F := F) d L fullShare fr).symm) $$ Hq9
  ihave Hrow10 := (Entails.of_eq (pts_rowK10 (F := F) d L fullShare fr).symm) $$ Hq10
  ihave Hrow11 := (Entails.of_eq (pts_rowK11 (F := F) d L fullShare fr).symm) $$ Hq11
  ihave Hrow12 := (Entails.of_eq (pts_rowK12 (F := F) d L fullShare fr).symm) $$ Hq12
  ihave Hrow13 := (Entails.of_eq (pts_rowK13 (F := F) d L fullShare fr).symm) $$ Hq13
  ihave Hrow14 := (Entails.of_eq (pts_rowK14 (F := F) d L fullShare fr).symm) $$ Hq14
  ihave Hrow15 := (Entails.of_eq (pts_rowK15 (F := F) d L fullShare fr).symm) $$ Hq15
  ihave Hrow16 := (Entails.of_eq (pts_rowK16 (F := F) d L fullShare fr).symm) $$ Hq16
  ihave Hrow17 := (Entails.of_eq (pts_rowK17 (F := F) d L fullShare fr).symm) $$ Hq17
  ihave Hrow18 := (Entails.of_eq (pts_rowK18 (F := F) d L fullShare fr).symm) $$ Hq18
  ihave Hrow19 := (Entails.of_eq (pts_rowK19 (F := F) d L fullShare fr).symm) $$ Hq19
  have hin0 := idx_inb0 m d L hpre
  have hin1 := idx_inb1 m d L hpre
  have hin2 := idx_inb2 m d L hpre
  have hin3 := idx_inb3 m d L hpre
  have hin4 := idx_inb4 m d L hpre
  have hin5 := idx_inb5 m d L hpre
  have hin6 := idx_inb6 m d L hpre
  have hin7 := idx_inb7 m d L hpre
  have hin8 := idx_inb8 m d L hpre
  have hin9 := idx_inb9 m d L hpre
  have hin10 := idx_inb10 m d L hpre
  have hin11 := idx_inb11 m d L hpre
  have hin12 := idx_inb12 m d L hpre
  have hin13 := idx_inb13 m d L hpre
  have hin14 := idx_inb14 m d L hpre
  have hin15 := idx_inb15 m d L hpre
  have hin16 := idx_inb16 m d L hpre
  have hin17 := idx_inb17 m d L hpre
  have hin18 := idx_inb18 m d L hpre
  have hin19 := idx_inb19 m d L hpre
  ihave Hs20' := (Entails.of_eq (show (semVal (dcell d L 20) 0 : sProp 𝕄) = semVal (V d (cV L) (jV L), SemLoc.dma (SemArray.sem cc0_scratch23)) 0 from rfl)) $$ Hs20
  imod (Transfers.batch_alloc' (Lvl := ℕ) countersEmb (V d (cV L) (jV L)) (default : HIx 1) 262144 (deliv m d L) (sm := .dma cc0_scratch23.sem) (E := Set.univ)) $$ Hs20' with HB
  -- the twenty gathers issued, the first two waited for
  sl_exec
  -- rows 0, 1 hold the result's entries; together they are copy-out 0's source
  ihave Hr0 := (Entails.of_eq (pointsTo_congr (ℓ := (rowK0).view.loc (V d (cV L) (jV L))) (I := (rowK0).view.set) (q := fullShare)
      (f := (rowK0).view.writes (Elt F) fr [⟨Rect.whole S32x128, tile_bodyA.sl.gather0 m d L fi hin0⟩]) (g := ROWS m d L)
      (fun i hi => (congrFun (View.write_univ_eq_writes_whole (rowK0).view fr [] _).symm i).trans (gather_val0 m d L hpre fi fr hin0 _ i hi)))) $$ Hrow0
  ihave Hr1 := (Entails.of_eq (pointsTo_congr (ℓ := (rowK1).view.loc (V d (cV L) (jV L))) (I := (rowK1).view.set) (q := fullShare)
      (f := (rowK1).view.writes (Elt F) fr [⟨Rect.whole S32x128, tile_bodyA.sl.gather1 m d L fi hin1⟩]) (g := ROWS m d L)
      (fun i hi => (congrFun (View.write_univ_eq_writes_whole (rowK1).view fr [] _).symm i).trans (gather_val1 m d L hpre fi fr hin1 _ i hi)))) $$ Hrow1
  ihave Hp0 := (pair_join0 (F := F) d L (ROWS m d L)) $$ [Hr0 Hr1]
  · isplitl [Hr0] <;> iassumption
  sl_exec
  -- rows 2, 3 hold the result's entries; together they are copy-out 1's source
  ihave Hr2 := (Entails.of_eq (pointsTo_congr (ℓ := (rowK2).view.loc (V d (cV L) (jV L))) (I := (rowK2).view.set) (q := fullShare)
      (f := (rowK2).view.writes (Elt F) fr [⟨Rect.whole S32x128, tile_bodyA.sl.gather2 m d L fi hin2⟩]) (g := ROWS m d L)
      (fun i hi => (congrFun (View.write_univ_eq_writes_whole (rowK2).view fr [] _).symm i).trans (gather_val2 m d L hpre fi fr hin2 _ i hi)))) $$ Hrow2
  ihave Hr3 := (Entails.of_eq (pointsTo_congr (ℓ := (rowK3).view.loc (V d (cV L) (jV L))) (I := (rowK3).view.set) (q := fullShare)
      (f := (rowK3).view.writes (Elt F) fr [⟨Rect.whole S32x128, tile_bodyA.sl.gather3 m d L fi hin3⟩]) (g := ROWS m d L)
      (fun i hi => (congrFun (View.write_univ_eq_writes_whole (rowK3).view fr [] _).symm i).trans (gather_val3 m d L hpre fi fr hin3 _ i hi)))) $$ Hrow3
  ihave Hp1 := (pair_join1 (F := F) d L (ROWS m d L)) $$ [Hr2 Hr3]
  · isplitl [Hr2] <;> iassumption
  sl_exec
  -- rows 4, 5 hold the result's entries; together they are copy-out 2's source
  ihave Hr4 := (Entails.of_eq (pointsTo_congr (ℓ := (rowK4).view.loc (V d (cV L) (jV L))) (I := (rowK4).view.set) (q := fullShare)
      (f := (rowK4).view.writes (Elt F) fr [⟨Rect.whole S32x128, tile_bodyA.sl.gather4 m d L fi hin4⟩]) (g := ROWS m d L)
      (fun i hi => (congrFun (View.write_univ_eq_writes_whole (rowK4).view fr [] _).symm i).trans (gather_val4 m d L hpre fi fr hin4 _ i hi)))) $$ Hrow4
  ihave Hr5 := (Entails.of_eq (pointsTo_congr (ℓ := (rowK5).view.loc (V d (cV L) (jV L))) (I := (rowK5).view.set) (q := fullShare)
      (f := (rowK5).view.writes (Elt F) fr [⟨Rect.whole S32x128, tile_bodyA.sl.gather5 m d L fi hin5⟩]) (g := ROWS m d L)
      (fun i hi => (congrFun (View.write_univ_eq_writes_whole (rowK5).view fr [] _).symm i).trans (gather_val5 m d L hpre fi fr hin5 _ i hi)))) $$ Hrow5
  ihave Hp2 := (pair_join2 (F := F) d L (ROWS m d L)) $$ [Hr4 Hr5]
  · isplitl [Hr4] <;> iassumption
  sl_exec
  -- rows 6, 7 hold the result's entries; together they are copy-out 3's source
  ihave Hr6 := (Entails.of_eq (pointsTo_congr (ℓ := (rowK6).view.loc (V d (cV L) (jV L))) (I := (rowK6).view.set) (q := fullShare)
      (f := (rowK6).view.writes (Elt F) fr [⟨Rect.whole S32x128, tile_bodyA.sl.gather6 m d L fi hin6⟩]) (g := ROWS m d L)
      (fun i hi => (congrFun (View.write_univ_eq_writes_whole (rowK6).view fr [] _).symm i).trans (gather_val6 m d L hpre fi fr hin6 _ i hi)))) $$ Hrow6
  ihave Hr7 := (Entails.of_eq (pointsTo_congr (ℓ := (rowK7).view.loc (V d (cV L) (jV L))) (I := (rowK7).view.set) (q := fullShare)
      (f := (rowK7).view.writes (Elt F) fr [⟨Rect.whole S32x128, tile_bodyA.sl.gather7 m d L fi hin7⟩]) (g := ROWS m d L)
      (fun i hi => (congrFun (View.write_univ_eq_writes_whole (rowK7).view fr [] _).symm i).trans (gather_val7 m d L hpre fi fr hin7 _ i hi)))) $$ Hrow7
  ihave Hp3 := (pair_join3 (F := F) d L (ROWS m d L)) $$ [Hr6 Hr7]
  · isplitl [Hr6] <;> iassumption
  sl_exec
  -- rows 8, 9 hold the result's entries; together they are copy-out 4's source
  ihave Hr8 := (Entails.of_eq (pointsTo_congr (ℓ := (rowK8).view.loc (V d (cV L) (jV L))) (I := (rowK8).view.set) (q := fullShare)
      (f := (rowK8).view.writes (Elt F) fr [⟨Rect.whole S32x128, tile_bodyA.sl.gather8 m d L fi hin8⟩]) (g := ROWS m d L)
      (fun i hi => (congrFun (View.write_univ_eq_writes_whole (rowK8).view fr [] _).symm i).trans (gather_val8 m d L hpre fi fr hin8 _ i hi)))) $$ Hrow8
  ihave Hr9 := (Entails.of_eq (pointsTo_congr (ℓ := (rowK9).view.loc (V d (cV L) (jV L))) (I := (rowK9).view.set) (q := fullShare)
      (f := (rowK9).view.writes (Elt F) fr [⟨Rect.whole S32x128, tile_bodyA.sl.gather9 m d L fi hin9⟩]) (g := ROWS m d L)
      (fun i hi => (congrFun (View.write_univ_eq_writes_whole (rowK9).view fr [] _).symm i).trans (gather_val9 m d L hpre fi fr hin9 _ i hi)))) $$ Hrow9
  ihave Hp4 := (pair_join4 (F := F) d L (ROWS m d L)) $$ [Hr8 Hr9]
  · isplitl [Hr8] <;> iassumption
  sl_exec
  -- rows 10, 11 hold the result's entries; together they are copy-out 5's source
  ihave Hr10 := (Entails.of_eq (pointsTo_congr (ℓ := (rowK10).view.loc (V d (cV L) (jV L))) (I := (rowK10).view.set) (q := fullShare)
      (f := (rowK10).view.writes (Elt F) fr [⟨Rect.whole S32x128, tile_bodyA.sl.gather10 m d L fi hin10⟩]) (g := ROWS m d L)
      (fun i hi => (congrFun (View.write_univ_eq_writes_whole (rowK10).view fr [] _).symm i).trans (gather_val10 m d L hpre fi fr hin10 _ i hi)))) $$ Hrow10
  ihave Hr11 := (Entails.of_eq (pointsTo_congr (ℓ := (rowK11).view.loc (V d (cV L) (jV L))) (I := (rowK11).view.set) (q := fullShare)
      (f := (rowK11).view.writes (Elt F) fr [⟨Rect.whole S32x128, tile_bodyA.sl.gather11 m d L fi hin11⟩]) (g := ROWS m d L)
      (fun i hi => (congrFun (View.write_univ_eq_writes_whole (rowK11).view fr [] _).symm i).trans (gather_val11 m d L hpre fi fr hin11 _ i hi)))) $$ Hrow11
  ihave Hp5 := (pair_join5 (F := F) d L (ROWS m d L)) $$ [Hr10 Hr11]
  · isplitl [Hr10] <;> iassumption
  sl_exec
  -- rows 12, 13 hold the result's entries; together they are copy-out 6's source
  ihave Hr12 := (Entails.of_eq (pointsTo_congr (ℓ := (rowK12).view.loc (V d (cV L) (jV L))) (I := (rowK12).view.set) (q := fullShare)
      (f := (rowK12).view.writes (Elt F) fr [⟨Rect.whole S32x128, tile_bodyA.sl.gather12 m d L fi hin12⟩]) (g := ROWS m d L)
      (fun i hi => (congrFun (View.write_univ_eq_writes_whole (rowK12).view fr [] _).symm i).trans (gather_val12 m d L hpre fi fr hin12 _ i hi)))) $$ Hrow12
  ihave Hr13 := (Entails.of_eq (pointsTo_congr (ℓ := (rowK13).view.loc (V d (cV L) (jV L))) (I := (rowK13).view.set) (q := fullShare)
      (f := (rowK13).view.writes (Elt F) fr [⟨Rect.whole S32x128, tile_bodyA.sl.gather13 m d L fi hin13⟩]) (g := ROWS m d L)
      (fun i hi => (congrFun (View.write_univ_eq_writes_whole (rowK13).view fr [] _).symm i).trans (gather_val13 m d L hpre fi fr hin13 _ i hi)))) $$ Hrow13
  ihave Hp6 := (pair_join6 (F := F) d L (ROWS m d L)) $$ [Hr12 Hr13]
  · isplitl [Hr12] <;> iassumption
  sl_exec
  -- rows 14, 15 hold the result's entries; together they are copy-out 7's source
  ihave Hr14 := (Entails.of_eq (pointsTo_congr (ℓ := (rowK14).view.loc (V d (cV L) (jV L))) (I := (rowK14).view.set) (q := fullShare)
      (f := (rowK14).view.writes (Elt F) fr [⟨Rect.whole S32x128, tile_bodyA.sl.gather14 m d L fi hin14⟩]) (g := ROWS m d L)
      (fun i hi => (congrFun (View.write_univ_eq_writes_whole (rowK14).view fr [] _).symm i).trans (gather_val14 m d L hpre fi fr hin14 _ i hi)))) $$ Hrow14
  ihave Hr15 := (Entails.of_eq (pointsTo_congr (ℓ := (rowK15).view.loc (V d (cV L) (jV L))) (I := (rowK15).view.set) (q := fullShare)
      (f := (rowK15).view.writes (Elt F) fr [⟨Rect.whole S32x128, tile_bodyA.sl.gather15 m d L fi hin15⟩]) (g := ROWS m d L)
      (fun i hi => (congrFun (View.write_univ_eq_writes_whole (rowK15).view fr [] _).symm i).trans (gather_val15 m d L hpre fi fr hin15 _ i hi)))) $$ Hrow15
  ihave Hp7 := (pair_join7 (F := F) d L (ROWS m d L)) $$ [Hr14 Hr15]
  · isplitl [Hr14] <;> iassumption
  sl_exec
  -- rows 16, 17 hold the result's entries; together they are copy-out 8's source
  ihave Hr16 := (Entails.of_eq (pointsTo_congr (ℓ := (rowK16).view.loc (V d (cV L) (jV L))) (I := (rowK16).view.set) (q := fullShare)
      (f := (rowK16).view.writes (Elt F) fr [⟨Rect.whole S32x128, tile_bodyA.sl.gather16 m d L fi hin16⟩]) (g := ROWS m d L)
      (fun i hi => (congrFun (View.write_univ_eq_writes_whole (rowK16).view fr [] _).symm i).trans (gather_val16 m d L hpre fi fr hin16 _ i hi)))) $$ Hrow16
  ihave Hr17 := (Entails.of_eq (pointsTo_congr (ℓ := (rowK17).view.loc (V d (cV L) (jV L))) (I := (rowK17).view.set) (q := fullShare)
      (f := (rowK17).view.writes (Elt F) fr [⟨Rect.whole S32x128, tile_bodyA.sl.gather17 m d L fi hin17⟩]) (g := ROWS m d L)
      (fun i hi => (congrFun (View.write_univ_eq_writes_whole (rowK17).view fr [] _).symm i).trans (gather_val17 m d L hpre fi fr hin17 _ i hi)))) $$ Hrow17
  ihave Hp8 := (pair_join8 (F := F) d L (ROWS m d L)) $$ [Hr16 Hr17]
  · isplitl [Hr16] <;> iassumption
  sl_exec
  -- rows 18, 19 hold the result's entries; together they are copy-out 9's source
  ihave Hr18 := (Entails.of_eq (pointsTo_congr (ℓ := (rowK18).view.loc (V d (cV L) (jV L))) (I := (rowK18).view.set) (q := fullShare)
      (f := (rowK18).view.writes (Elt F) fr [⟨Rect.whole S32x128, tile_bodyA.sl.gather18 m d L fi hin18⟩]) (g := ROWS m d L)
      (fun i hi => (congrFun (View.write_univ_eq_writes_whole (rowK18).view fr [] _).symm i).trans (gather_val18 m d L hpre fi fr hin18 _ i hi)))) $$ Hrow18
  ihave Hr19 := (Entails.of_eq (pointsTo_congr (ℓ := (rowK19).view.loc (V d (cV L) (jV L))) (I := (rowK19).view.set) (q := fullShare)
      (f := (rowK19).view.writes (Elt F) fr [⟨Rect.whole S32x128, tile_bodyA.sl.gather19 m d L fi hin19⟩]) (g := ROWS m d L)
      (fun i hi => (congrFun (View.write_univ_eq_writes_whole (rowK19).view fr [] _).symm i).trans (gather_val19 m d L hpre fi fr hin19 _ i hi)))) $$ Hrow19
  ihave Hp9 := (pair_join9 (F := F) d L (ROWS m d L)) $$ [Hr18 Hr19]
  · isplitl [Hr18] <;> iassumption
  sl_exec
  sl_step
  -- the blocks of the result hold the result
  ihave Hd0 := (Entails.of_eq (pts_oB0 (F := F) d L _)) $$ HB_dst0
  ihave Hf0 := (Entails.of_eq (pointsTo_congr (q := fullShare) (out_val0 m d L))) $$ Hd0
  ihave Hd1 := (Entails.of_eq (pts_oB1 (F := F) d L _)) $$ HB_dst1
  ihave Hf1 := (Entails.of_eq (pointsTo_congr (q := fullShare) (out_val1 m d L))) $$ Hd1
  ihave Hd2 := (Entails.of_eq (pts_oB2 (F := F) d L _)) $$ HB_dst2
  ihave Hf2 := (Entails.of_eq (pointsTo_congr (q := fullShare) (out_val2 m d L))) $$ Hd2
  ihave Hd3 := (Entails.of_eq (pts_oB3 (F := F) d L _)) $$ HB_dst3
  ihave Hf3 := (Entails.of_eq (pointsTo_congr (q := fullShare) (out_val3 m d L))) $$ Hd3
  ihave Hd4 := (Entails.of_eq (pts_oB4 (F := F) d L _)) $$ HB_dst4
  ihave Hf4 := (Entails.of_eq (pointsTo_congr (q := fullShare) (out_val4 m d L))) $$ Hd4
  ihave Hd5 := (Entails.of_eq (pts_oB5 (F := F) d L _)) $$ HB_dst5
  ihave Hf5 := (Entails.of_eq (pointsTo_congr (q := fullShare) (out_val5 m d L))) $$ Hd5
  ihave Hd6 := (Entails.of_eq (pts_oB6 (F := F) d L _)) $$ HB_dst6
  ihave Hf6 := (Entails.of_eq (pointsTo_congr (q := fullShare) (out_val6 m d L))) $$ Hd6
  ihave Hd7 := (Entails.of_eq (pts_oB7 (F := F) d L _)) $$ HB_dst7
  ihave Hf7 := (Entails.of_eq (pointsTo_congr (q := fullShare) (out_val7 m d L))) $$ Hd7
  ihave Hd8 := (Entails.of_eq (pts_oB8 (F := F) d L _)) $$ HB_dst8
  ihave Hf8 := (Entails.of_eq (pointsTo_congr (q := fullShare) (out_val8 m d L))) $$ Hd8
  ihave Hd9 := (Entails.of_eq (pts_oB9 (F := F) d L _)) $$ HB_dst9
  ihave Hf9 := (Entails.of_eq (pointsTo_congr (q := fullShare) (out_val9 m d L))) $$ Hd9
  isplitl [Hxt' Hw' Hf0 Hf1 Hf2 Hf3 Hf4 Hf5 Hf6 Hf7 Hf8 Hf9 Ht0' Ht1' Ht2' Ht3' Ht4' Ht5' Ht6' Ht7' Ht8' Ht9' Ht10' Ht11' Ht12' Ht13' Ht14' Ht15' Ht16' Ht17' Ht18' Ht19' Htrem Hkeep]
  · isplitl [Hxt']; · iapply (Entails.of_eq (pts_xtV (F := F) d L _ _)); iexact Hxt'
    isplitl [Hw']; · iapply (Entails.of_eq (pts_wV (F := F) d L _ _)); iexact Hw'
    isplitl [Hf0 Hf1 Hf2 Hf3 Hf4 Hf5 Hf6 Hf7 Hf8 Hf9]
    · isplitl [Hf0]; · iexact Hf0
      isplitl [Hf1]; · iexact Hf1
      isplitl [Hf2]; · iexact Hf2
      isplitl [Hf3]; · iexact Hf3
      isplitl [Hf4]; · iexact Hf4
      isplitl [Hf5]; · iexact Hf5
      isplitl [Hf6]; · iexact Hf6
      isplitl [Hf7]; · iexact Hf7
      isplitl [Hf8]; · iexact Hf8
      iexact Hf9
    isplitl [Ht0' Ht1' Ht2' Ht3' Ht4' Ht5' Ht6' Ht7' Ht8' Ht9' Ht10' Ht11' Ht12' Ht13' Ht14' Ht15' Ht16' Ht17' Ht18' Ht19' Htrem]
    · iapply (Transfers.pointsTo_toks_join (shareTok fullShare 16 (jL L)) 20)
      isplitl [Htrem]; · iexact Htrem
      iapply (Entails.of_eq (bigSep_fin20 _).symm)
      isplitl [Ht0']; · iapply (Entails.of_eq (pts_shV (F := F) d L _ _)); iexact Ht0'
      isplitl [Ht1']; · iapply (Entails.of_eq (pts_shV (F := F) d L _ _)); iexact Ht1'
      isplitl [Ht2']; · iapply (Entails.of_eq (pts_shV (F := F) d L _ _)); iexact Ht2'
      isplitl [Ht3']; · iapply (Entails.of_eq (pts_shV (F := F) d L _ _)); iexact Ht3'
      isplitl [Ht4']; · iapply (Entails.of_eq (pts_shV (F := F) d L _ _)); iexact Ht4'
      isplitl [Ht5']; · iapply (Entails.of_eq (pts_shV (F := F) d L _ _)); iexact Ht5'
      isplitl [Ht6']; · iapply (Entails.of_eq (pts_shV (F := F) d L _ _)); iexact Ht6'
      isplitl [Ht7']; · iapply (Entails.of_eq (pts_shV (F := F) d L _ _)); iexact Ht7'
      isplitl [Ht8']; · iapply (Entails.of_eq (pts_shV (F := F) d L _ _)); iexact Ht8'
      isplitl [Ht9']; · iapply (Entails.of_eq (pts_shV (F := F) d L _ _)); iexact Ht9'
      isplitl [Ht10']; · iapply (Entails.of_eq (pts_shV (F := F) d L _ _)); iexact Ht10'
      isplitl [Ht11']; · iapply (Entails.of_eq (pts_shV (F := F) d L _ _)); iexact Ht11'
      isplitl [Ht12']; · iapply (Entails.of_eq (pts_shV (F := F) d L _ _)); iexact Ht12'
      isplitl [Ht13']; · iapply (Entails.of_eq (pts_shV (F := F) d L _ _)); iexact Ht13'
      isplitl [Ht14']; · iapply (Entails.of_eq (pts_shV (F := F) d L _ _)); iexact Ht14'
      isplitl [Ht15']; · iapply (Entails.of_eq (pts_shV (F := F) d L _ _)); iexact Ht15'
      isplitl [Ht16']; · iapply (Entails.of_eq (pts_shV (F := F) d L _ _)); iexact Ht16'
      isplitl [Ht17']; · iapply (Entails.of_eq (pts_shV (F := F) d L _ _)); iexact Ht17'
      isplitl [Ht18']; · iapply (Entails.of_eq (pts_shV (F := F) d L _ _)); iexact Ht18'
      iapply (Entails.of_eq (pts_shV (F := F) d L _ _)); iexact Ht19'
    iexact Hkeep
  isplitl [Hix' HB_src0 HB_src1 HB_src2 HB_src3 HB_src4 HB_src5 HB_src6 HB_src7 HB_src8 HB_src9 Hbufs]
  · isplitl [Hix']; · iexists _; iapply (Entails.of_eq (pts_ixV (F := F) d L _)); iexact Hix'
    isplitl [HB_src0 HB_src1 HB_src2 HB_src3 HB_src4 HB_src5 HB_src6 HB_src7 HB_src8 HB_src9]
    · iexists (ROWS m d L)
      iapply (rows_whole (F := F) d L (ROWS m d L))
      isplitl [HB_src0]; · iexact HB_src0
      isplitl [HB_src1]; · iexact HB_src1
      isplitl [HB_src2]; · iexact HB_src2
      isplitl [HB_src3]; · iexact HB_src3
      isplitl [HB_src4]; · iexact HB_src4
      isplitl [HB_src5]; · iexact HB_src5
      isplitl [HB_src6]; · iexact HB_src6
      isplitl [HB_src7]; · iexact HB_src7
      isplitl [HB_src8]; · iexact HB_src8
      iexact HB_src9
    iexact Hbufs
  isplitl [Hs0 Hs1 Hs2 Hs3 Hs4 Hs5 Hs6 Hs7 Hs8 Hs9 Hs10 Hs11 Hs12 Hs13 Hs14 Hs15 Hs16 Hs17 Hs18 Hs19 HB Hs21 Hs22 Hs23]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    isplitl [Hs15]; · iexact Hs15
    isplitl [Hs16]; · iexact Hs16
    isplitl [Hs17]; · iexact Hs17
    isplitl [Hs18]; · iexact Hs18
    isplitl [Hs19]; · iexact Hs19
    isplitl [HB]; · iexact HB
    isplitl [Hs21]; · iexact Hs21
    isplitl [Hs22]; · iexact Hs22
    iexact Hs23
  iexists _; isplitr
  swap; · iexact HO
  ipureintro; intro p hp
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  exact .inl hp

set_option maxRecDepth 100000 in
set_option maxHeartbeats 4000000 in
/-- The task on vector subcore (L 0, L 1) of device d, the last subcore (it stages the table's last 40 rows). -/
theorem tile_bodyB (hF : (K (F := F)).Facts) (hpre : PreOK m) (hA : ¬ k0_cond1 L = 1#1)
    (hB : Scalar.cmpi .ne (Scalar.extui (Scalar.cmpi .eq (BitVec.ofNat 32 (L 1).val) 15#32) : BitVec 32) 0#32 = 1#1) (hL : (L 1).val = 15)
    (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ ((xtLoc d ↦{qT (cL L) (jL L)} XT m d) ∗ (wLoc d ↦{qT (cL L) (jL L)} Wm m d)
            ∗ oBlocks d (cL L) (jL L) (m (oLoc d)) ∗ ∃ f, shLoc d (cV L) ↦[pieceSet (jL L)]{fullShare} f)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0_emb_kernel L xtV (Memref.isWhole_whole _) wV (Memref.isWhole_whole _) oV (Memref.isWhole_whole _)
            ixV (Memref.isWhole_whole _) rwV (Memref.isWhole_whole _) shV (Memref.isWhole_whole _)
            cc0_scratch3 cc0_scratch4 cc0_scratch5 cc0_scratch6 cc0_scratch7 cc0_scratch8 cc0_scratch9 cc0_scratch10 cc0_scratch11 cc0_scratch12
            cc0_scratch13 cc0_scratch14 cc0_scratch15 cc0_scratch16 cc0_scratch17 cc0_scratch18 cc0_scratch19 cc0_scratch20 cc0_scratch21 cc0_scratch22
            cc0_scratch23 cc0_scratch24 cc0_scoped0 cc0_scoped1)
          fun _ => iprop(((xtLoc d ↦{qT (cL L) (jL L)} XT m d) ∗ (wLoc d ↦{qT (cL L) (jL L)} Wm m d)
            ∗ oBlocks d (cL L) (jL L) (OUT m d)
            ∗ (shLoc d (cV L) ↦{shareTok fullShare 16 (jL L)} Wsh m d (cV L))
            ∗ (shLoc d (cV L) ↦[pieceSet (jL L)]{shareDrop fullShare 16} Wsh m d (cV L)))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  simp only [cc0_emb_kernel_eq_skeleton]; unfold cc0_emb_kernel_skel
  rw [(K (F := F)).scopedBufs_V hF d (cV L) (jV L), SparseCore.Cfg.scopedSems0_V (Val := Elt F) d (cV L) (jV L), ownSems0_V, ownBufs_V,
    bigSep_fin24]
  unfold bkit oBlocks
  rw [bigSep_fin10, bigSep_fin10]
  iintro ⟨#Hlv, ⟨⟨%κ, #Hinv⟩, Htoks, #Hrch, Hat, Hcred⟩, ⟨Hxt, Hw, ⟨Ho0, Ho1, Ho2, Ho3, Ho4, Ho5, Ho6, Ho7, Ho8, Ho9⟩, %fsh, Hsh⟩, ⟨⟨%fi, Hix⟩, ⟨%fr, Hrw⟩, Hbufs⟩,
    ⟨Hs0, Hs1, Hs2, Hs3, Hs4, Hs5, Hs6, Hs7, Hs8, Hs9, Hs10, Hs11, Hs12, Hs13, Hs14, Hs15, Hs16, Hs17, Hs18, Hs19, Hs20, Hs21, Hs22, Hs23⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := (V d (cV L) (jV L))) hO') $$ Hlv
  ihave Hxt' := (Entails.of_eq (pts_xtV (F := F) d L _ _).symm) $$ Hxt
  ihave Hw' := (Entails.of_eq (pts_wV (F := F) d L _ _).symm) $$ Hw
  ihave Hix' := (Entails.of_eq (pts_ixV (F := F) d L _).symm) $$ Hix
  ihave Hsh' := (Entails.of_eq (pts_sh40K (F := F) d L hL _).symm) $$ Hsh
  ihave Ho0' := (Entails.of_eq (pts_oB0 (F := F) d L _).symm) $$ Ho0
  ihave Ho1' := (Entails.of_eq (pts_oB1 (F := F) d L _).symm) $$ Ho1
  ihave Ho2' := (Entails.of_eq (pts_oB2 (F := F) d L _).symm) $$ Ho2
  ihave Ho3' := (Entails.of_eq (pts_oB3 (F := F) d L _).symm) $$ Ho3
  ihave Ho4' := (Entails.of_eq (pts_oB4 (F := F) d L _).symm) $$ Ho4
  ihave Ho5' := (Entails.of_eq (pts_oB5 (F := F) d L _).symm) $$ Ho5
  ihave Ho6' := (Entails.of_eq (pts_oB6 (F := F) d L _).symm) $$ Ho6
  ihave Ho7' := (Entails.of_eq (pts_oB7 (F := F) d L _).symm) $$ Ho7
  ihave Ho8' := (Entails.of_eq (pts_oB8 (F := F) d L _).symm) $$ Ho8
  ihave Ho9' := (Entails.of_eq (pts_oB9 (F := F) d L _).symm) $$ Ho9
  -- the index block fetched; the subcore's rows of the table staged and waited for
  sl_exec
  -- the staged rows hold the table's rows; one read share of them per subcore
  ihave Hsh1 := (Entails.of_eq (pts_sh40K (F := F) d L hL _)) $$ Hsh'
  ihave Hsh2 := (Entails.of_eq (pointsTo_congr (q := fullShare) (staged_eq40 m d L hL fsh _ rfl))) $$ Hsh1
  ihave Hsh3 := (Transfers.pointsTo_toks_split fullShare 16) $$ Hsh2
  icases Hsh3 with ⟨Hkeep, Hgive⟩
  ihave Hpays := (pays_intro (F := F) m d L) $$ Hgive
  ihave Hmw2 := (show levAts (K (F := F)).L (K (F := F)).lev ⊢ Transfers.MayWaits (V d (cV L) (jV L)) (default : HIx 1) O from
    (K (F := F)).mayWaits_none (thr := (V d (cV L) (jV L))) hO) $$ Hlv
  -- the barrier
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := (V d (cV L) (jV L))) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Htab := (pays_elim (F := F) m d L) $$ Hgot
  -- one read token of the staged table per gather in flight; the row scratch row by row
  ihave Htab2 := (Transfers.pointsTo_toks_split (shareTok fullShare 16 (jL L)) 20) $$ Htab
  icases Htab2 with ⟨Htrem, Htoks20⟩
  ihave Htoks20' := (Entails.of_eq (bigSep_fin20 _)) $$ Htoks20
  icases Htoks20' with ⟨Ht0, Ht1, Ht2, Ht3, Ht4, Ht5, Ht6, Ht7, Ht8, Ht9, Ht10, Ht11, Ht12, Ht13, Ht14, Ht15, Ht16, Ht17, Ht18, Ht19⟩
  ihave Ht0' := (Entails.of_eq (pts_shV (F := F) d L _ _).symm) $$ Ht0
  ihave Ht1' := (Entails.of_eq (pts_shV (F := F) d L _ _).symm) $$ Ht1
  ihave Ht2' := (Entails.of_eq (pts_shV (F := F) d L _ _).symm) $$ Ht2
  ihave Ht3' := (Entails.of_eq (pts_shV (F := F) d L _ _).symm) $$ Ht3
  ihave Ht4' := (Entails.of_eq (pts_shV (F := F) d L _ _).symm) $$ Ht4
  ihave Ht5' := (Entails.of_eq (pts_shV (F := F) d L _ _).symm) $$ Ht5
  ihave Ht6' := (Entails.of_eq (pts_shV (F := F) d L _ _).symm) $$ Ht6
  ihave Ht7' := (Entails.of_eq (pts_shV (F := F) d L _ _).symm) $$ Ht7
  ihave Ht8' := (Entails.of_eq (pts_shV (F := F) d L _ _).symm) $$ Ht8
  ihave Ht9' := (Entails.of_eq (pts_shV (F := F) d L _ _).symm) $$ Ht9
  ihave Ht10' := (Entails.of_eq (pts_shV (F := F) d L _ _).symm) $$ Ht10
  ihave Ht11' := (Entails.of_eq (pts_shV (F := F) d L _ _).symm) $$ Ht11
  ihave Ht12' := (Entails.of_eq (pts_shV (F := F) d L _ _).symm) $$ Ht12
  ihave Ht13' := (Entails.of_eq (pts_shV (F := F) d L _ _).symm) $$ Ht13
  ihave Ht14' := (Entails.of_eq (pts_shV (F := F) d L _ _).symm) $$ Ht14
  ihave Ht15' := (Entails.of_eq (pts_shV (F := F) d L _ _).symm) $$ Ht15
  ihave Ht16' := (Entails.of_eq (pts_shV (F := F) d L _ _).symm) $$ Ht16
  ihave Ht17' := (Entails.of_eq (pts_shV (F := F) d L _ _).symm) $$ Ht17
  ihave Ht18' := (Entails.of_eq (pts_shV (F := F) d L _ _).symm) $$ Ht18
  ihave Ht19' := (Entails.of_eq (pts_shV (F := F) d L _ _).symm) $$ Ht19
  ihave Hrw1 := (Entails.of_eq (rw_rows (F := F) d L fullShare fr)) $$ Hrw
  ihave Hrw2 := (Entails.of_eq (bigSep_fin20 _)) $$ Hrw1
  icases Hrw2 with ⟨Hq0, Hq1, Hq2, Hq3, Hq4, Hq5, Hq6, Hq7, Hq8, Hq9, Hq10, Hq11, Hq12, Hq13, Hq14, Hq15, Hq16, Hq17, Hq18, Hq19⟩
  ihave Hrow0 := (Entails.of_eq (pts_rowK0 (F := F) d L fullShare fr).symm) $$ Hq0
  ihave Hrow1 := (Entails.of_eq (pts_rowK1 (F := F) d L fullShare fr).symm) $$ Hq1
  ihave Hrow2 := (Entails.of_eq (pts_rowK2 (F := F) d L fullShare fr).symm) $$ Hq2
  ihave Hrow3 := (Entails.of_eq (pts_rowK3 (F := F) d L fullShare fr).symm) $$ Hq3
  ihave Hrow4 := (Entails.of_eq (pts_rowK4 (F := F) d L fullShare fr).symm) $$ Hq4
  ihave Hrow5 := (Entails.of_eq (pts_rowK5 (F := F) d L fullShare fr).symm) $$ Hq5
  ihave Hrow6 := (Entails.of_eq (pts_rowK6 (F := F) d L fullShare fr).symm) $$ Hq6
  ihave Hrow7 := (Entails.of_eq (pts_rowK7 (F := F) d L fullShare fr).symm) $$ Hq7
  ihave Hrow8 := (Entails.of_eq (pts_rowK8 (F := F) d L fullShare fr).symm) $$ Hq8
  ihave Hrow9 := (Entails.of_eq (pts_rowK9 (F := F) d L fullShare fr).symm) $$ Hq9
  ihave Hrow10 := (Entails.of_eq (pts_rowK10 (F := F) d L fullShare fr).symm) $$ Hq10
  ihave Hrow11 := (Entails.of_eq (pts_rowK11 (F := F) d L fullShare fr).symm) $$ Hq11
  ihave Hrow12 := (Entails.of_eq (pts_rowK12 (F := F) d L fullShare fr).symm) $$ Hq12
  ihave Hrow13 := (Entails.of_eq (pts_rowK13 (F := F) d L fullShare fr).symm) $$ Hq13
  ihave Hrow14 := (Entails.of_eq (pts_rowK14 (F := F) d L fullShare fr).symm) $$ Hq14
  ihave Hrow15 := (Entails.of_eq (pts_rowK15 (F := F) d L fullShare fr).symm) $$ Hq15
  ihave Hrow16 := (Entails.of_eq (pts_rowK16 (F := F) d L fullShare fr).symm) $$ Hq16
  ihave Hrow17 := (Entails.of_eq (pts_rowK17 (F := F) d L fullShare fr).symm) $$ Hq17
  ihave Hrow18 := (Entails.of_eq (pts_rowK18 (F := F) d L fullShare fr).symm) $$ Hq18
  ihave Hrow19 := (Entails.of_eq (pts_rowK19 (F := F) d L fullShare fr).symm) $$ Hq19
  have hin0 := idx_inb0 m d L hpre
  have hin1 := idx_inb1 m d L hpre
  have hin2 := idx_inb2 m d L hpre
  have hin3 := idx_inb3 m d L hpre
  have hin4 := idx_inb4 m d L hpre
  have hin5 := idx_inb5 m d L hpre
  have hin6 := idx_inb6 m d L hpre
  have hin7 := idx_inb7 m d L hpre
  have hin8 := idx_inb8 m d L hpre
  have hin9 := idx_inb9 m d L hpre
  have hin10 := idx_inb10 m d L hpre
  have hin11 := idx_inb11 m d L hpre
  have hin12 := idx_inb12 m d L hpre
  have hin13 := idx_inb13 m d L hpre
  have hin14 := idx_inb14 m d L hpre
  have hin15 := idx_inb15 m d L hpre
  have hin16 := idx_inb16 m d L hpre
  have hin17 := idx_inb17 m d L hpre
  have hin18 := idx_inb18 m d L hpre
  have hin19 := idx_inb19 m d L hpre
  ihave Hs20' := (Entails.of_eq (show (semVal (dcell d L 20) 0 : sProp 𝕄) = semVal (V d (cV L) (jV L), SemLoc.dma (SemArray.sem cc0_scratch23)) 0 from rfl)) $$ Hs20
  imod (Transfers.batch_alloc' (Lvl := ℕ) countersEmb (V d (cV L) (jV L)) (default : HIx 1) 262144 (deliv m d L) (sm := .dma cc0_scratch23.sem) (E := Set.univ)) $$ Hs20' with HB
  -- the twenty gathers issued, the first two waited for
  sl_exec
  -- rows 0, 1 hold the result's entries; together they are copy-out 0's source
  ihave Hr0 := (Entails.of_eq (pointsTo_congr (ℓ := (rowK0).view.loc (V d (cV L) (jV L))) (I := (rowK0).view.set) (q := fullShare)
      (f := (rowK0).view.writes (Elt F) fr [⟨Rect.whole S32x128, tile_bodyB.sl.gather0 m d L fi hin0⟩]) (g := ROWS m d L)
      (fun i hi => (congrFun (View.write_univ_eq_writes_whole (rowK0).view fr [] _).symm i).trans (gather_val0 m d L hpre fi fr hin0 _ i hi)))) $$ Hrow0
  ihave Hr1 := (Entails.of_eq (pointsTo_congr (ℓ := (rowK1).view.loc (V d (cV L) (jV L))) (I := (rowK1).view.set) (q := fullShare)
      (f := (rowK1).view.writes (Elt F) fr [⟨Rect.whole S32x128, tile_bodyB.sl.gather1 m d L fi hin1⟩]) (g := ROWS m d L)
      (fun i hi => (congrFun (View.write_univ_eq_writes_whole (rowK1).view fr [] _).symm i).trans (gather_val1 m d L hpre fi fr hin1 _ i hi)))) $$ Hrow1
  ihave Hp0 := (pair_join0 (F := F) d L (ROWS m d L)) $$ [Hr0 Hr1]
  · isplitl [Hr0] <;> iassumption
  sl_exec
  -- rows 2, 3 hold the result's entries; together they are copy-out 1's source
  ihave Hr2 := (Entails.of_eq (pointsTo_congr (ℓ := (rowK2).view.loc (V d (cV L) (jV L))) (I := (rowK2).view.set) (q := fullShare)
      (f := (rowK2).view.writes (Elt F) fr [⟨Rect.whole S32x128, tile_bodyB.sl.gather2 m d L fi hin2⟩]) (g := ROWS m d L)
      (fun i hi => (congrFun (View.write_univ_eq_writes_whole (rowK2).view fr [] _).symm i).trans (gather_val2 m d L hpre fi fr hin2 _ i hi)))) $$ Hrow2
  ihave Hr3 := (Entails.of_eq (pointsTo_congr (ℓ := (rowK3).view.loc (V d (cV L) (jV L))) (I := (rowK3).view.set) (q := fullShare)
      (f := (rowK3).view.writes (Elt F) fr [⟨Rect.whole S32x128, tile_bodyB.sl.gather3 m d L fi hin3⟩]) (g := ROWS m d L)
      (fun i hi => (congrFun (View.write_univ_eq_writes_whole (rowK3).view fr [] _).symm i).trans (gather_val3 m d L hpre fi fr hin3 _ i hi)))) $$ Hrow3
  ihave Hp1 := (pair_join1 (F := F) d L (ROWS m d L)) $$ [Hr2 Hr3]
  · isplitl [Hr2] <;> iassumption
  sl_exec
  -- rows 4, 5 hold the result's entries; together they are copy-out 2's source
  ihave Hr4 := (Entails.of_eq (pointsTo_congr (ℓ := (rowK4).view.loc (V d (cV L) (jV L))) (I := (rowK4).view.set) (q := fullShare)
      (f := (rowK4).view.writes (Elt F) fr [⟨Rect.whole S32x128, tile_bodyB.sl.gather4 m d L fi hin4⟩]) (g := ROWS m d L)
      (fun i hi => (congrFun (View.write_univ_eq_writes_whole (rowK4).view fr [] _).symm i).trans (gather_val4 m d L hpre fi fr hin4 _ i hi)))) $$ Hrow4
  ihave Hr5 := (Entails.of_eq (pointsTo_congr (ℓ := (rowK5).view.loc (V d (cV L) (jV L))) (I := (rowK5).view.set) (q := fullShare)
      (f := (rowK5).view.writes (Elt F) fr [⟨Rect.whole S32x128, tile_bodyB.sl.gather5 m d L fi hin5⟩]) (g := ROWS m d L)
      (fun i hi => (congrFun (View.write_univ_eq_writes_whole (rowK5).view fr [] _).symm i).trans (gather_val5 m d L hpre fi fr hin5 _ i hi)))) $$ Hrow5
  ihave Hp2 := (pair_join2 (F := F) d L (ROWS m d L)) $$ [Hr4 Hr5]
  · isplitl [Hr4] <;> iassumption
  sl_exec
  -- rows 6, 7 hold the result's entries; together they are copy-out 3's source
  ihave Hr6 := (Entails.of_eq (pointsTo_congr (ℓ := (rowK6).view.loc (V d (cV L) (jV L))) (I := (rowK6).view.set) (q := fullShare)
      (f := (rowK6).view.writes (Elt F) fr [⟨Rect.whole S32x128, tile_bodyB.sl.gather6 m d L fi hin6⟩]) (g := ROWS m d L)
      (fun i hi => (congrFun (View.write_univ_eq_writes_whole (rowK6).view fr [] _).symm i).trans (gather_val6 m d L hpre fi fr hin6 _ i hi)))) $$ Hrow6
  ihave Hr7 := (Entails.of_eq (pointsTo_congr (ℓ := (rowK7).view.loc (V d (cV L) (jV L))) (I := (rowK7).view.set) (q := fullShare)
      (f := (rowK7).view.writes (Elt F) fr [⟨Rect.whole S32x128, tile_bodyB.sl.gather7 m d L fi hin7⟩]) (g := ROWS m d L)
      (fun i hi => (congrFun (View.write_univ_eq_writes_whole (rowK7).view fr [] _).symm i).trans (gather_val7 m d L hpre fi fr hin7 _ i hi)))) $$ Hrow7
  ihave Hp3 := (pair_join3 (F := F) d L (ROWS m d L)) $$ [Hr6 Hr7]
  · isplitl [Hr6] <;> iassumption
  sl_exec
  -- rows 8, 9 hold the result's entries; together they are copy-out 4's source
  ihave Hr8 := (Entails.of_eq (pointsTo_congr (ℓ := (rowK8).view.loc (V d (cV L) (jV L))) (I := (rowK8).view.set) (q := fullShare)
      (f := (rowK8).view.writes (Elt F) fr [⟨Rect.whole S32x128, tile_bodyB.sl.gather8 m d L fi hin8⟩]) (g := ROWS m d L)
      (fun i hi => (congrFun (View.write_univ_eq_writes_whole (rowK8).view fr [] _).symm i).trans (gather_val8 m d L hpre fi fr hin8 _ i hi)))) $$ Hrow8
  ihave Hr9 := (Entails.of_eq (pointsTo_congr (ℓ := (rowK9).view.loc (V d (cV L) (jV L))) (I := (rowK9).view.set) (q := fullShare)
      (f := (rowK9).view.writes (Elt F) fr [⟨Rect.whole S32x128, tile_bodyB.sl.gather9 m d L fi hin9⟩]) (g := ROWS m d L)
      (fun i hi => (congrFun (View.write_univ_eq_writes_whole (rowK9).view fr [] _).symm i).trans (gather_val9 m d L hpre fi fr hin9 _ i hi)))) $$ Hrow9
  ihave Hp4 := (pair_join4 (F := F) d L (ROWS m d L)) $$ [Hr8 Hr9]
  · isplitl [Hr8] <;> iassumption
  sl_exec
  -- rows 10, 11 hold the result's entries; together they are copy-out 5's source
  ihave Hr10 := (Entails.of_eq (pointsTo_congr (ℓ := (rowK10).view.loc (V d (cV L) (jV L))) (I := (rowK10).view.set) (q := fullShare)
      (f := (rowK10).view.writes (Elt F) fr [⟨Rect.whole S32x128, tile_bodyB.sl.gather10 m d L fi hin10⟩]) (g := ROWS m d L)
      (fun i hi => (congrFun (View.write_univ_eq_writes_whole (rowK10).view fr [] _).symm i).trans (gather_val10 m d L hpre fi fr hin10 _ i hi)))) $$ Hrow10
  ihave Hr11 := (Entails.of_eq (pointsTo_congr (ℓ := (rowK11).view.loc (V d (cV L) (jV L))) (I := (rowK11).view.set) (q := fullShare)
      (f := (rowK11).view.writes (Elt F) fr [⟨Rect.whole S32x128, tile_bodyB.sl.gather11 m d L fi hin11⟩]) (g := ROWS m d L)
      (fun i hi => (congrFun (View.write_univ_eq_writes_whole (rowK11).view fr [] _).symm i).trans (gather_val11 m d L hpre fi fr hin11 _ i hi)))) $$ Hrow11
  ihave Hp5 := (pair_join5 (F := F) d L (ROWS m d L)) $$ [Hr10 Hr11]
  · isplitl [Hr10] <;> iassumption
  sl_exec
  -- rows 12, 13 hold the result's entries; together they are copy-out 6's source
  ihave Hr12 := (Entails.of_eq (pointsTo_congr (ℓ := (rowK12).view.loc (V d (cV L) (jV L))) (I := (rowK12).view.set) (q := fullShare)
      (f := (rowK12).view.writes (Elt F) fr [⟨Rect.whole S32x128, tile_bodyB.sl.gather12 m d L fi hin12⟩]) (g := ROWS m d L)
      (fun i hi => (congrFun (View.write_univ_eq_writes_whole (rowK12).view fr [] _).symm i).trans (gather_val12 m d L hpre fi fr hin12 _ i hi)))) $$ Hrow12
  ihave Hr13 := (Entails.of_eq (pointsTo_congr (ℓ := (rowK13).view.loc (V d (cV L) (jV L))) (I := (rowK13).view.set) (q := fullShare)
      (f := (rowK13).view.writes (Elt F) fr [⟨Rect.whole S32x128, tile_bodyB.sl.gather13 m d L fi hin13⟩]) (g := ROWS m d L)
      (fun i hi => (congrFun (View.write_univ_eq_writes_whole (rowK13).view fr [] _).symm i).trans (gather_val13 m d L hpre fi fr hin13 _ i hi)))) $$ Hrow13
  ihave Hp6 := (pair_join6 (F := F) d L (ROWS m d L)) $$ [Hr12 Hr13]
  · isplitl [Hr12] <;> iassumption
  sl_exec
  -- rows 14, 15 hold the result's entries; together they are copy-out 7's source
  ihave Hr14 := (Entails.of_eq (pointsTo_congr (ℓ := (rowK14).view.loc (V d (cV L) (jV L))) (I := (rowK14).view.set) (q := fullShare)
      (f := (rowK14).view.writes (Elt F) fr [⟨Rect.whole S32x128, tile_bodyB.sl.gather14 m d L fi hin14⟩]) (g := ROWS m d L)
      (fun i hi => (congrFun (View.write_univ_eq_writes_whole (rowK14).view fr [] _).symm i).trans (gather_val14 m d L hpre fi fr hin14 _ i hi)))) $$ Hrow14
  ihave Hr15 := (Entails.of_eq (pointsTo_congr (ℓ := (rowK15).view.loc (V d (cV L) (jV L))) (I := (rowK15).view.set) (q := fullShare)
      (f := (rowK15).view.writes (Elt F) fr [⟨Rect.whole S32x128, tile_bodyB.sl.gather15 m d L fi hin15⟩]) (g := ROWS m d L)
      (fun i hi => (congrFun (View.write_univ_eq_writes_whole (rowK15).view fr [] _).symm i).trans (gather_val15 m d L hpre fi fr hin15 _ i hi)))) $$ Hrow15
  ihave Hp7 := (pair_join7 (F := F) d L (ROWS m d L)) $$ [Hr14 Hr15]
  · isplitl [Hr14] <;> iassumption
  sl_exec
  -- rows 16, 17 hold the result's entries; together they are copy-out 8's source
  ihave Hr16 := (Entails.of_eq (pointsTo_congr (ℓ := (rowK16).view.loc (V d (cV L) (jV L))) (I := (rowK16).view.set) (q := fullShare)
      (f := (rowK16).view.writes (Elt F) fr [⟨Rect.whole S32x128, tile_bodyB.sl.gather16 m d L fi hin16⟩]) (g := ROWS m d L)
      (fun i hi => (congrFun (View.write_univ_eq_writes_whole (rowK16).view fr [] _).symm i).trans (gather_val16 m d L hpre fi fr hin16 _ i hi)))) $$ Hrow16
  ihave Hr17 := (Entails.of_eq (pointsTo_congr (ℓ := (rowK17).view.loc (V d (cV L) (jV L))) (I := (rowK17).view.set) (q := fullShare)
      (f := (rowK17).view.writes (Elt F) fr [⟨Rect.whole S32x128, tile_bodyB.sl.gather17 m d L fi hin17⟩]) (g := ROWS m d L)
      (fun i hi => (congrFun (View.write_univ_eq_writes_whole (rowK17).view fr [] _).symm i).trans (gather_val17 m d L hpre fi fr hin17 _ i hi)))) $$ Hrow17
  ihave Hp8 := (pair_join8 (F := F) d L (ROWS m d L)) $$ [Hr16 Hr17]
  · isplitl [Hr16] <;> iassumption
  sl_exec
  -- rows 18, 19 hold the result's entries; together they are copy-out 9's source
  ihave Hr18 := (Entails.of_eq (pointsTo_congr (ℓ := (rowK18).view.loc (V d (cV L) (jV L))) (I := (rowK18).view.set) (q := fullShare)
      (f := (rowK18).view.writes (Elt F) fr [⟨Rect.whole S32x128, tile_bodyB.sl.gather18 m d L fi hin18⟩]) (g := ROWS m d L)
      (fun i hi => (congrFun (View.write_univ_eq_writes_whole (rowK18).view fr [] _).symm i).trans (gather_val18 m d L hpre fi fr hin18 _ i hi)))) $$ Hrow18
  ihave Hr19 := (Entails.of_eq (pointsTo_congr (ℓ := (rowK19).view.loc (V d (cV L) (jV L))) (I := (rowK19).view.set) (q := fullShare)
      (f := (rowK19).view.writes (Elt F) fr [⟨Rect.whole S32x128, tile_bodyB.sl.gather19 m d L fi hin19⟩]) (g := ROWS m d L)
      (fun i hi => (congrFun (View.write_univ_eq_writes_whole (rowK19).view fr [] _).symm i).trans (gather_val19 m d L hpre fi fr hin19 _ i hi)))) $$ Hrow19
  ihave Hp9 := (pair_join9 (F := F) d L (ROWS m d L)) $$ [Hr18 Hr19]
  · isplitl [Hr18] <;> iassumption
  sl_exec
  sl_step
  -- the blocks of the result hold the result
  ihave Hd0 := (Entails.of_eq (pts_oB0 (F := F) d L _)) $$ HB_dst0
  ihave Hf0 := (Entails.of_eq (pointsTo_congr (q := fullShare) (out_val0 m d L))) $$ Hd0
  ihave Hd1 := (Entails.of_eq (pts_oB1 (F := F) d L _)) $$ HB_dst1
  ihave Hf1 := (Entails.of_eq (pointsTo_congr (q := fullShare) (out_val1 m d L))) $$ Hd1
  ihave Hd2 := (Entails.of_eq (pts_oB2 (F := F) d L _)) $$ HB_dst2
  ihave Hf2 := (Entails.of_eq (pointsTo_congr (q := fullShare) (out_val2 m d L))) $$ Hd2
  ihave Hd3 := (Entails.of_eq (pts_oB3 (F := F) d L _)) $$ HB_dst3
  ihave Hf3 := (Entails.of_eq (pointsTo_congr (q := fullShare) (out_val3 m d L))) $$ Hd3
  ihave Hd4 := (Entails.of_eq (pts_oB4 (F := F) d L _)) $$ HB_dst4
  ihave Hf4 := (Entails.of_eq (pointsTo_congr (q := fullShare) (out_val4 m d L))) $$ Hd4
  ihave Hd5 := (Entails.of_eq (pts_oB5 (F := F) d L _)) $$ HB_dst5
  ihave Hf5 := (Entails.of_eq (pointsTo_congr (q := fullShare) (out_val5 m d L))) $$ Hd5
  ihave Hd6 := (Entails.of_eq (pts_oB6 (F := F) d L _)) $$ HB_dst6
  ihave Hf6 := (Entails.of_eq (pointsTo_congr (q := fullShare) (out_val6 m d L))) $$ Hd6
  ihave Hd7 := (Entails.of_eq (pts_oB7 (F := F) d L _)) $$ HB_dst7
  ihave Hf7 := (Entails.of_eq (pointsTo_congr (q := fullShare) (out_val7 m d L))) $$ Hd7
  ihave Hd8 := (Entails.of_eq (pts_oB8 (F := F) d L _)) $$ HB_dst8
  ihave Hf8 := (Entails.of_eq (pointsTo_congr (q := fullShare) (out_val8 m d L))) $$ Hd8
  ihave Hd9 := (Entails.of_eq (pts_oB9 (F := F) d L _)) $$ HB_dst9
  ihave Hf9 := (Entails.of_eq (pointsTo_congr (q := fullShare) (out_val9 m d L))) $$ Hd9
  isplitl [Hxt' Hw' Hf0 Hf1 Hf2 Hf3 Hf4 Hf5 Hf6 Hf7 Hf8 Hf9 Ht0' Ht1' Ht2' Ht3' Ht4' Ht5' Ht6' Ht7' Ht8' Ht9' Ht10' Ht11' Ht12' Ht13' Ht14' Ht15' Ht16' Ht17' Ht18' Ht19' Htrem Hkeep]
  · isplitl [Hxt']; · iapply (Entails.of_eq (pts_xtV (F := F) d L _ _)); iexact Hxt'
    isplitl [Hw']; · iapply (Entails.of_eq (pts_wV (F := F) d L _ _)); iexact Hw'
    isplitl [Hf0 Hf1 Hf2 Hf3 Hf4 Hf5 Hf6 Hf7 Hf8 Hf9]
    · isplitl [Hf0]; · iexact Hf0
      isplitl [Hf1]; · iexact Hf1
      isplitl [Hf2]; · iexact Hf2
      isplitl [Hf3]; · iexact Hf3
      isplitl [Hf4]; · iexact Hf4
      isplitl [Hf5]; · iexact Hf5
      isplitl [Hf6]; · iexact Hf6
      isplitl [Hf7]; · iexact Hf7
      isplitl [Hf8]; · iexact Hf8
      iexact Hf9
    isplitl [Ht0' Ht1' Ht2' Ht3' Ht4' Ht5' Ht6' Ht7' Ht8' Ht9' Ht10' Ht11' Ht12' Ht13' Ht14' Ht15' Ht16' Ht17' Ht18' Ht19' Htrem]
    · iapply (Transfers.pointsTo_toks_join (shareTok fullShare 16 (jL L)) 20)
      isplitl [Htrem]; · iexact Htrem
      iapply (Entails.of_eq (bigSep_fin20 _).symm)
      isplitl [Ht0']; · iapply (Entails.of_eq (pts_shV (F := F) d L _ _)); iexact Ht0'
      isplitl [Ht1']; · iapply (Entails.of_eq (pts_shV (F := F) d L _ _)); iexact Ht1'
      isplitl [Ht2']; · iapply (Entails.of_eq (pts_shV (F := F) d L _ _)); iexact Ht2'
      isplitl [Ht3']; · iapply (Entails.of_eq (pts_shV (F := F) d L _ _)); iexact Ht3'
      isplitl [Ht4']; · iapply (Entails.of_eq (pts_shV (F := F) d L _ _)); iexact Ht4'
      isplitl [Ht5']; · iapply (Entails.of_eq (pts_shV (F := F) d L _ _)); iexact Ht5'
      isplitl [Ht6']; · iapply (Entails.of_eq (pts_shV (F := F) d L _ _)); iexact Ht6'
      isplitl [Ht7']; · iapply (Entails.of_eq (pts_shV (F := F) d L _ _)); iexact Ht7'
      isplitl [Ht8']; · iapply (Entails.of_eq (pts_shV (F := F) d L _ _)); iexact Ht8'
      isplitl [Ht9']; · iapply (Entails.of_eq (pts_shV (F := F) d L _ _)); iexact Ht9'
      isplitl [Ht10']; · iapply (Entails.of_eq (pts_shV (F := F) d L _ _)); iexact Ht10'
      isplitl [Ht11']; · iapply (Entails.of_eq (pts_shV (F := F) d L _ _)); iexact Ht11'
      isplitl [Ht12']; · iapply (Entails.of_eq (pts_shV (F := F) d L _ _)); iexact Ht12'
      isplitl [Ht13']; · iapply (Entails.of_eq (pts_shV (F := F) d L _ _)); iexact Ht13'
      isplitl [Ht14']; · iapply (Entails.of_eq (pts_shV (F := F) d L _ _)); iexact Ht14'
      isplitl [Ht15']; · iapply (Entails.of_eq (pts_shV (F := F) d L _ _)); iexact Ht15'
      isplitl [Ht16']; · iapply (Entails.of_eq (pts_shV (F := F) d L _ _)); iexact Ht16'
      isplitl [Ht17']; · iapply (Entails.of_eq (pts_shV (F := F) d L _ _)); iexact Ht17'
      isplitl [Ht18']; · iapply (Entails.of_eq (pts_shV (F := F) d L _ _)); iexact Ht18'
      iapply (Entails.of_eq (pts_shV (F := F) d L _ _)); iexact Ht19'
    iexact Hkeep
  isplitl [Hix' HB_src0 HB_src1 HB_src2 HB_src3 HB_src4 HB_src5 HB_src6 HB_src7 HB_src8 HB_src9 Hbufs]
  · isplitl [Hix']; · iexists _; iapply (Entails.of_eq (pts_ixV (F := F) d L _)); iexact Hix'
    isplitl [HB_src0 HB_src1 HB_src2 HB_src3 HB_src4 HB_src5 HB_src6 HB_src7 HB_src8 HB_src9]
    · iexists (ROWS m d L)
      iapply (rows_whole (F := F) d L (ROWS m d L))
      isplitl [HB_src0]; · iexact HB_src0
      isplitl [HB_src1]; · iexact HB_src1
      isplitl [HB_src2]; · iexact HB_src2
      isplitl [HB_src3]; · iexact HB_src3
      isplitl [HB_src4]; · iexact HB_src4
      isplitl [HB_src5]; · iexact HB_src5
      isplitl [HB_src6]; · iexact HB_src6
      isplitl [HB_src7]; · iexact HB_src7
      isplitl [HB_src8]; · iexact HB_src8
      iexact HB_src9
    iexact Hbufs
  isplitl [Hs0 Hs1 Hs2 Hs3 Hs4 Hs5 Hs6 Hs7 Hs8 Hs9 Hs10 Hs11 Hs12 Hs13 Hs14 Hs15 Hs16 Hs17 Hs18 Hs19 HB Hs21 Hs22 Hs23]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    isplitl [Hs15]; · iexact Hs15
    isplitl [Hs16]; · iexact Hs16
    isplitl [Hs17]; · iexact Hs17
    isplitl [Hs18]; · iexact Hs18
    isplitl [Hs19]; · iexact Hs19
    isplitl [HB]; · iexact HB
    isplitl [Hs21]; · iexact Hs21
    isplitl [Hs22]; · iexact Hs22
    iexact Hs23
  iexists _; isplitr
  swap; · iexact HO
  ipureintro; intro p hp
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  try (rcases Finset.mem_insert.mp hp with h | hp; · first | exact .inr (.inl (h ▸ rfl)) | exact .inr (.inr (h ▸ rfl)))
  exact .inl hp

/-- The task on any vector subcore: the subcores below the last and the last differ only in the rows of the table they stage. -/
theorem tile_body (hF : (K (F := F)).Facts) (hpre : PreOK m)
    (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ ((xtLoc d ↦{qT (cL L) (jL L)} XT m d) ∗ (wLoc d ↦{qT (cL L) (jL L)} Wm m d)
            ∗ oBlocks d (cL L) (jL L) (m (oLoc d)) ∗ ∃ f, shLoc d (cV L) ↦[pieceSet (jL L)]{fullShare} f)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0_emb_kernel L xtV (Memref.isWhole_whole _) wV (Memref.isWhole_whole _) oV (Memref.isWhole_whole _)
            ixV (Memref.isWhole_whole _) rwV (Memref.isWhole_whole _) shV (Memref.isWhole_whole _)
            cc0_scratch3 cc0_scratch4 cc0_scratch5 cc0_scratch6 cc0_scratch7 cc0_scratch8 cc0_scratch9 cc0_scratch10 cc0_scratch11 cc0_scratch12
            cc0_scratch13 cc0_scratch14 cc0_scratch15 cc0_scratch16 cc0_scratch17 cc0_scratch18 cc0_scratch19 cc0_scratch20 cc0_scratch21 cc0_scratch22
            cc0_scratch23 cc0_scratch24 cc0_scoped0 cc0_scoped1)
          fun _ => iprop(((xtLoc d ↦{qT (cL L) (jL L)} XT m d) ∗ (wLoc d ↦{qT (cL L) (jL L)} Wm m d)
            ∗ oBlocks d (cL L) (jL L) (OUT m d)
            ∗ (shLoc d (cV L) ↦{shareTok fullShare 16 (jL L)} Wsh m d (cV L))
            ∗ (shLoc d (cV L) ↦[pieceSet (jL L)]{shareDrop fullShare 16} Wsh m d (cV L)))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  by_cases hA : k0_cond1 L = 1#1
  · have hlt : (L 1).val < 15 := (cond1_iff L).mp hA
    have hB : ¬ (Scalar.cmpi .ne (Scalar.extui (Scalar.cmpi .eq (BitVec.ofNat 32 (L 1).val) 15#32) : BitVec 32) 0#32 = 1#1) :=
      fun h => by have := (cond2_iff L).mp h; omega
    exact tile_bodyA m d L hF hpre hA hB O W hO hOlev
  · have h16 : (L 1).val < 16 := (L 1).isLt
    have hL : (L 1).val = 15 := by
      have := mt (cond1_iff L).mpr hA
      omega
    exact tile_bodyB m d L hF hpre hA ((cond2_iff L).mpr hL) hL O W hO hOlev

end Tile

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_emb_kernel (coordsV c s) xtV (Memref.isWhole_whole _) wV (Memref.isWhole_whole _) oV (Memref.isWhole_whole _)
            ixV (Memref.isWhole_whole _) rwV (Memref.isWhole_whole _) shV (Memref.isWhole_whole _)
            cc0_scratch3 cc0_scratch4 cc0_scratch5 cc0_scratch6 cc0_scratch7 cc0_scratch8 cc0_scratch9 cc0_scratch10 cc0_scratch11 cc0_scratch12
            cc0_scratch13 cc0_scratch14 cc0_scratch15 cc0_scratch16 cc0_scratch17 cc0_scratch18 cc0_scratch19 cc0_scratch20 cc0_scratch21 cc0_scratch22
            cc0_scratch23 cc0_scratch24 cc0_scoped0 cc0_scoped1) ⟨⟩ c s := rfl

set_option maxRecDepth 16384 in
/-- The obligation for the one call: each vector subcore of the grid runs the task. -/
theorem tileObl (hpre : PreOK m) : (K (F := F)).TileObl (D (F := F)) 𝒱 (P m) v₀ 0 := by
  intro d c i O W hO hOlev _
  have hci : ((K (F := F)).core 0 c).val < grid0.bound 0 ∧ ((K (F := F)).sub 0 i).val < grid0.bound 1 := ⟨c.isLt, i.isLt⟩
  rw [show (P m).ox 0 (V d ((K (F := F)).core 0 c) ((K (F := F)).sub 0 i)) = oxV d ((K (F := F)).core 0 c) from rfl,
    show (P m).x 0 (V d ((K (F := F)).core 0 c) ((K (F := F)).sub 0 i)) = bkit m d ((K (F := F)).core 0 c) ((K (F := F)).sub 0 i) from rfl]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) facts hpre O W hO hOlev

end Cert.Lookup.Kernel

end
-- ==== Proof.PreFacts.lean ====
import proofs.«206460_g62371515072547_cont_9to1_m_307_33_alg».proof.Pre_input_domain
import Idealize.ShloMosaic.Lib.ReduceAll
import Idealize.ShloMosaic.Lib.ValueIdx

/-!
# From the precondition to the index range

The precondition `input_domain` is the conjunction of two `all`s: every table entry has a finite absolute value, and every
index `v` satisfies `0 ≤ v` and `v ≤ 999` as signed 32-bit integers. When the printed function evaluates to the
one-bit word `1`, both conjuncts are `1`; an `and`-reduction over all axes that is `1` had a `1` at every element; and
the two signed comparisons at an element say `0 ≤ v.toInt ≤ 999`. A 32-bit word whose signed value is non-negative has
the same unsigned value, so `v.toNat < 1000`. Nothing here depends on the float instance: only the integer half of
the precondition is read.
-/

namespace Cert.Lookup.PreFacts

open Idealize.ShloMosaic Cert.Pre_input_domain

/-- The scalar shape has one index. -/
instance subsingleton_scalar_idx : Subsingleton S_.Idx := ⟨fun a b => funext fun d => d.elim0⟩

/-- A 32-bit word between `0` and `999` as a signed integer is below `1000` as an unsigned one. -/
theorem toNat_lt_of_toInt (v : BitVec 32) (h0 : (0#32 : BitVec 32).toInt ≤ v.toInt)
    (h1 : v.toInt ≤ (999#32 : BitVec 32).toInt) : v.toNat < 1000 := by
  have e0 : (0#32 : BitVec 32).toInt = 0 := by decide
  have e1 : (999#32 : BitVec 32).toInt = 999 := by decide
  rw [e0] at h0
  rw [e1] at h1
  have hv := BitVec.toInt_eq_toNat_cond v
  have hlt := v.isLt
  split at hv <;> omega

/-- Under the precondition every index of the index array, read unsigned, is below the table's 1000 rows. -/
theorem idx_lt_of_pre [Cert.Pre_input_domain.Facts] {F : FTy → Type} [FloatOps F]
    (a0 : IVec S1024x20 32) (a1 : FVec F S1000x128 .f32)
    (h : Cert.Pre_input_domain.fn (F := F) a0 a1 = (fun _ => 1#1)) :
    ∀ j : S1024x20.Idx, (a0 j).toNat < 1000 := by
  intro j
  have h0 := congrFun h ValueIdx.ix0
  dsimp only [Cert.Pre_input_domain.fn] at h0
  obtain ⟨_, h9⟩ := IntOp.andi_eq_one.1 h0
  have hj := Host.reduce_andi_all _ _ _ _ _ h9 j
  obtain ⟨h5, h7⟩ := IntOp.andi_eq_one.1 hj
  exact toNat_lt_of_toInt (a0 j) (IntOp.cmpi_sge.1 h5) (IntOp.cmpi_sle.1 h7)

end Cert.Lookup.PreFacts
-- ==== Proof.ElemB.lean ====
/-
  The launch element of the lookup's ghost state, and what the launch deals out of it.

  The barrier of a SparseCore is sixteen cells, one per vector subcore (its barrier semaphore), each with the single
  round 0 of sixteen unit duties, one per subcore of the same SparseCore. The mesh has one such cell per vector
  subcore (device, SparseCore, subcore) and one duty token per ordered pair of subcores of one SparseCore. From the
  element that holds all of them beside the handshakes' we obtain: every cell's round state, that each has reached
  round 0, each owner's position at the origin, every token; the cells' semaphores read zero, so all the invariants
  are allocated together; the credit for the units the subcores owe, sixteen debts of one unit on each of the sixteen
  cells per SparseCore, is sixteen units per cell; and every vector subcore of BOTH SparseCores receives its kit.
-/
import proofs.«206460_g62371515072547_cont_9to1_m_307_33_alg».proof.Proof.ProtocolB

noncomputable section

namespace Cert.Lookup.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

/-! ## The cells and the tokens of the whole mesh -/

/-- A vector subcore of the mesh: its device, its SparseCore, its number. -/
abbrev Sub3 : Type := Dev nD × Fin τ.nSC × Fin τ.nSub

/-- A vector subcore's barrier cell; two subcores never share one. -/
def cellOf : Sub3 ↪ GSem nD τ sig where
  toFun x := bcell x.1 x.2.1 x.2.2
  inj' := by
    rintro ⟨d, c, i⟩ ⟨d', c', i'⟩ e
    have e1 : (V d c i : Thread nD τ) = V d' c' i' := congrArg Prod.fst e
    have e2 : d = d' := congrArg Prod.fst e1
    have e3 : (Proc.scVector c i : Proc τ) = Proc.scVector c' i' := congrArg Prod.snd e1
    injection e3 with hc hi
    subst e2 hc hi
    rfl

/-- The token of subcore x for its unit on the cell of subcore j of the same SparseCore: round 0, named by x's number. -/
def tokOf : Sub3 × Fin (grid0.bound 1) ↪ GSem nD τ sig × ℕ × ℕ where
  toFun y := (bcell y.1.1 y.1.2.1 (y.2.castLE hsub0), 0, y.1.2.2.val)
  inj' := by
    rintro ⟨⟨d, c, i⟩, j⟩ ⟨⟨d', c', i'⟩, j'⟩ e
    have eg : cellOf (d, c, j.castLE hsub0) = cellOf (d', c', j'.castLE hsub0) := congrArg Prod.fst e
    have ei : i.val = i'.val := congrArg (fun t => t.2.2) e
    have ex := cellOf.injective eg
    have ed : d = d' := congrArg Prod.fst ex
    have ec : c = c' := congrArg (fun t => t.2.1) ex
    have ej : j.val = j'.val := congrArg (fun t => t.2.2.val) ex
    obtain rfl := ed; obtain rfl := ec; obtain rfl := Fin.ext ei; obtain rfl := Fin.ext ej
    rfl

def bCells : Finset (GSem nD τ sig) := Finset.univ.map cellOf
def bToks : Finset (GSem nD τ sig × ℕ × ℕ) := Finset.univ.map tokOf

/-- The launch element: the handshakes' cells and tokens, the barrier cells and tokens, nothing on the counters. -/
def u₀ : UU := (initOf (K (F := F)).hsCells (K (F := F)).hsToks, (initOf bCells bToks, 1))

theorem mem_bCells (d : Dev nD) (c : Fin τ.nSC) (j : Fin τ.nSub) : bcell d c j ∈ bCells :=
  Finset.mem_map.mpr ⟨(d, c, j), Finset.mem_univ _, rfl⟩

/-! ## Step by step -/

/-- The element splits into the handshakes' part and the barrier cells' part (the counters' part is the unit). -/
theorem own_u₀ : (ownU (u₀ (F := F)) : sProp 𝕄)
    ⊢ iprop(BI.own (EH (initOf (K (F := F)).hsCells (K (F := F)).hsToks)) ∗ BI.own (EB (initOf bCells bToks))) := by
  unfold u₀
  have hR := own_pair_emb (embR : Emb (UB × Counters) 𝕄) (initOf bCells bToks) (1 : Counters)
  exact (ownU_pair (nD := nD) (τ := τ) (sig := sig) (Ix := HIx 1) (Val := Elt F) (Name := ℕ) (Lvl := ℕ)
    (initOf (K (F := F)).hsCells (K (F := F)).hsToks) ((initOf bCells bToks, (1 : Counters)) : UB × Counters)).trans
      (sep_mono_r (hR.trans sep_elim_left))

/-- Every barrier semaphore reads zero: it is one of its subcore's free semaphores, a regular one that is not go. -/
theorem bar_sems : ((K (F := F)).freeSems0 : sProp 𝕄) ⊢ bigSep bCells fun g => semVal g 0 := by
  unfold bCells SparseCore.Cfg.freeSems0
  rw [bigSep_map]
  refine sep_elim_right.trans (bigSep_mono fun x _ => ?_)
  unfold SparseCore.Cfg.vcSems0
  refine bigSep_elim (Φ := fun sm : SemLoc sig => (semVal (V x.1 x.2.1 x.2.2, sm) 0 : sProp 𝕄)) (i := SemLoc.reg sc_bar0) ?_
  rw [Finset.mem_erase, Finset.mem_filter]
  exact ⟨fun h => sc_bar0_ne_go (SemLoc.reg.inj h), Finset.mem_univ _, by decide⟩

variable (m : (ℓ : Loc nD τ sig) → Buf (Elt F) ℓ) [FloatOps F]

/-- Counters at zero and round states at zero are the cells' bodies; their invariants are allocated together. -/
theorem bar_invs : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ?_
  refine (inv_alloc_family bCells (Rounds.body EB (bRd (F := F) m)) ∅ (E := Set.univ)).trans (fupd_mono ?_)
  iintro ⟨%κ, _, Hinv⟩
  iexists κ
  iexact Hinv

/-! ### The credit -/

omit [FloatOps F] in
/-- n single units on a cell are n units on it. -/
theorem nsmul_tallyAt_one (g : GSem nD τ sig) (ι : HIx 1) (n : ℕ) :
    n • (tallyAt g ι 1 : CellTallies nD τ sig (HIx 1)) = tallyAt g ι n := by
  induction n with
  | zero => rw [zero_nsmul, tallyAt_zero]
  | succ n ih => rw [succ_nsmul, ih, tallyAt_add]

omit [FloatOps F] in
/-- What the sixteen subcores of one SparseCore owe together: sixteen units on each of its sixteen cells. -/
theorem sum_oxV (d : Dev nD) (c : Fin τ.nSC) :
    ∑ _i : Fin τ.nSub, oxV d c = ∑ j : Fin (grid0.bound 1), tallyAt (bcell d c (j.castLE hsub0)) (some 0) (grid0.bound 1) := by
  rw [Finset.sum_const, Finset.card_univ, Fintype.card_fin]
  unfold oxV
  rw [Finset.smul_sum]
  refine Finset.sum_congr rfl fun j _ => ?_
  rw [nsmul_tallyAt_one]
  rfl

omit [FloatOps F] in
/-- A family over the first n numbers read through the inclusion into the first k, n = k, is the family. -/
theorem bigSep_fin_castLE {n k : ℕ} (e : n = k) (h : n ≤ k) (Φ : Fin k → sProp 𝕄) :
    (bigSep Finset.univ fun j : Fin n => Φ (j.castLE h)) = bigSep Finset.univ Φ := by
  subst e
  rfl

theorem oxFrom_V (d : Dev nD) (c : Fin τ.nSC) (i : Fin τ.nSub) : (P (F := F) m).oxFrom 0 (V d c i) = oxV d c := by
  unfold SparseCore.Cfg.Pay.oxFrom
  rw [Fin.sum_univ_one]
  rfl

/-- The credit for the subcores' debts, per cell: each cell's owner the sixteen units of its round. -/
theorem bar_creds : ((P (F := F) m).oxCred : sProp 𝕄)
    ⊢ bigSep Finset.univ fun x : Sub3 => cred (tallyAt (cellOf x) (some 0) (grid0.bound 1)) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  simp only [oxFrom_V]
  rw [bigSep_univ_prod, bigSep_univ_prod (fun x : Sub3 => (cred (tallyAt (cellOf x) (some 0) (grid0.bound 1)) : sProp 𝕄))]
  refine bigSep_mono fun d _ => ?_
  rw [bigSep_univ_prod, bigSep_univ_prod (fun ci : Fin τ.nSC × Fin τ.nSub => (cred (tallyAt (cellOf (d, ci)) (some 0) (grid0.bound 1)) : sProp 𝕄))]
  refine bigSep_mono fun c _ => ?_
  dsimp only
  rw [← SparseCore.Cfg.cred_finsum, sum_oxV, SparseCore.Cfg.cred_finsum]
  exact Entails.of_eq (bigSep_fin_castLE (F := F) (show grid0.bound 1 = τ.nSub from rfl) hsub0
    fun i : Fin τ.nSub => cred (tallyAt (cellOf (d, c, i)) (some 0) (grid0.bound 1)))

/-! ### The deal -/

theorem Px_tc (q : Fin 1) (d : Dev nD) : (P (F := F) m).x q (T d) = iprop(emp) := rfl
theorem Px_sc (q : Fin 1) (d : Dev nD) (c : Fin τ.nSC) : (P (F := F) m).x q (S d c) = iprop(emp) := rfl
theorem Px_vc (q : Fin 1) (d : Dev nD) (c : Fin τ.nSC) (i : Fin τ.nSub) : (P (F := F) m).x q (V d c i) = bkit m d c i := rfl

/-- What all subcores share: the cells' invariants and that each cell has reached round 0. -/
abbrev common : sProp 𝕄 :=
  iprop((∃ κ : GSem nD τ sig → ℕ, bigSep bCells fun g => cellInv EB (bRd (F := F) m) (κ g) g) ∗ bigSep bCells fun g => reached EB g 0)

/-- What is a subcore's alone: its position, its sixteen tokens, the credit of its cell. -/
abbrev own1 (x : Sub3) : sProp 𝕄 :=
  iprop(atPos EB (cellOf x) 0 ∅ 0
    ∗ (bigSep Finset.univ fun j : Fin (grid0.bound 1) => dutyTok EB (bcell x.1 x.2.1 (j.castLE hsub0)) 0 x.2.2.val)
    ∗ cred (tallyAt (cellOf x) (some 0) (grid0.bound 1)))

/-- A subcore's kit: the shared facts restricted to the sixteen cells of its SparseCore, beside what is its alone.
    Nothing depends on which SparseCore it is. -/
theorem kit_of (x : Sub3) : iprop(common (F := F) m ∗ own1 (F := F) x) ⊢ bkit m x.1 x.2.1 x.2.2 := by
  obtain ⟨d, c, i⟩ := x
  unfold bkit
  iintro ⟨⟨⟨%κ, #Hinv⟩, #Hr⟩, Hat, Htok, Hcr⟩
  isplitr
  · iexists κ
    iapply (SparseCore.ent (bigSep_intro_persistent (S := (Finset.univ : Finset (Fin (grid0.bound 1))))
      (R := bigSep bCells fun g => cellInv EB (bRd (F := F) m) (κ g) g)
      (Φ := fun j => cellInv EB (bRd (F := F) m) (κ (bcell d c (j.castLE hsub0))) (bcell d c (j.castLE hsub0)))
      fun j _ => bigSep_elim (Φ := fun g => (cellInv EB (bRd (F := F) m) (κ g) g : sProp 𝕄)) (mem_bCells d c (j.castLE hsub0))))
    iexact Hinv
  isplitl [Htok]; · iexact Htok
  isplitr
  · iapply (SparseCore.ent (bigSep_intro_persistent (S := (Finset.univ : Finset (Fin (grid0.bound 1))))
      (R := bigSep bCells fun g => (reached EB g 0 : sProp 𝕄))
      (Φ := fun j => reached EB (bcell d c (j.castLE hsub0)) 0)
      fun j _ => bigSep_elim (Φ := fun g => (reached EB g 0 : sProp 𝕄)) (mem_bCells d c (j.castLE hsub0))))
    iexact Hr
  isplitl [Hat]; · iexact Hat
  iexact Hcr

/-- Every thread's start: nothing for the TensorCores and the sequencers, its kit for every vector subcore. -/
theorem bar_deal :
    iprop(((∃ κ : GSem nD τ sig → ℕ, bigSep bCells fun g => cellInv EB (bRd (F := F) m) (κ g) g) ∗ bigSep bCells fun g => reached EB g 0)
      ∗ ((bigSep bCells fun g => atPos EB g 0 ∅ 0) ∗ (bigSep bToks fun y => dutyTok EB y.1 y.2.1 y.2.2)
        ∗ bigSep Finset.univ fun x : Sub3 => cred (tallyAt (cellOf x) (some 0) (grid0.bound 1))))
    ⊢ (bigSep Finset.univ fun thr : Thread nD τ => bigSep Finset.univ fun q : Fin 1 => (P (F := F) m).x q thr : sProp 𝕄) := by
  have hA : (bigSep bCells fun g => (atPos EB g 0 ∅ 0 : sProp 𝕄)) = bigSep Finset.univ fun x : Sub3 => atPos EB (cellOf x) 0 ∅ 0 :=
    bigSep_map cellOf
  have hT : (bigSep bToks fun y => (dutyTok EB y.1 y.2.1 y.2.2 : sProp 𝕄))
      = bigSep Finset.univ fun x : Sub3 => bigSep Finset.univ fun j : Fin (grid0.bound 1) =>
          dutyTok EB (bcell x.1 x.2.1 (j.castLE hsub0)) 0 x.2.2.val :=
    (bigSep_map tokOf).trans (bigSep_univ_prod _)
  have hq : ∀ Φ : Fin 1 → sProp 𝕄, bigSep Finset.univ Φ = Φ 0 := fun Φ => bigSep_univ_of_subsingleton 0
  rw [SparseCore.Cfg.bigSep_threads (fun thr : Thread nD τ => bigSep Finset.univ fun q : Fin 1 => (P (F := F) m).x q thr),
    hA, hT, ← bigSep_sep', ← bigSep_sep']
  simp only [hq, Px_tc, Px_sc, Px_vc, bigSep_emp']
  iintro H
  isplitr; · iempintro
  isplitr; · iempintro
  iapply (SparseCore.ent (bigSep_with_persistent (R := common (F := F) m) (Φ := own1 (F := F)) fun x _ => kit_of m x))
  iexact H

/-! ## The launch element -/

theorem hu₀ : iprop(ownU (u₀ (F := F)) ∗ (P (F := F) m).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P m).x q thr) : sProp 𝕄) := by
  refine BIBase.Entails.trans ?_ (SparseCore.Cfg.launch_elem (Fr := iprop(emp))
    (Inv := fun κ : GSem nD τ sig → ℕ => bigSep bCells fun g => cellInv EB (bRd (F := F) m) (κ g) g)
    (own_u₀ (F := F)) (Rounds.fund EB (bRd (F := F) m) bCells bToks) (bar_sems (F := F)) (bar_invs m) (bar_creds m) (bar_deal m))
  iintro ⟨Hu, Hcr, Hfree⟩
  isplitl [Hu]; · iexact Hu
  isplitl [Hcr]; · iexact Hcr
  isplitr; · iempintro
  iexact Hfree

end Cert.Lookup.Kernel

end
-- ==== Proof.SplitB.lean ====
/-
  How one SparseCore's operands split among its sixteen subcores' tasks, and how the results gather.

  The SparseCore's read share of the transposed indices and of the table is cut into sixteen read tokens, one per
  subcore, the remainder kept aside until the tasks return; its columns of the result are already held block by
  block, so they only regroup; the staged table, which the sequencer owns whole at whatever it holds, is cut into the
  sixteen row ranges. Coming back, every task returns its tokens, its blocks written, a read token of the WHOLE staged
  table at the table's contents and what it kept of its own row range: the sixteen kept parts join (they are the
  row ranges, at one share) into the whole table at the share that remains after sixteen tokens, and with the sixteen
  tokens that is the staged table owned outright again, at the table's contents.
-/
import proofs.«206460_g62371515072547_cont_9to1_m_307_33_alg».proof.Proof.GeomB

noncomputable section

namespace Cert.Lookup.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

variable (m : (ℓ : Loc nD τ sig) → Buf (Elt F) ℓ)
variable [FloatOps F]

/-! ## What the handshakes carry, as equations -/

theorem P_st (d : Dev nD) (c : Fin ((K (F := F)).nCore 0)) :
    (P m).st 0 d c = iprop((xtLoc d ↦{qC (cC c)} XT m d) ∗ (wLoc d ↦{qC (cC c)} Wm m d)
        ∗ (bigSep Finset.univ fun s : Fin 16 => oBlocks d (cC c) s (m (oLoc d)))) := rfl
theorem P_dn (d : Dev nD) (c : Fin ((K (F := F)).nCore 0)) :
    (P m).dn 0 d c = iprop((xtLoc d ↦{qC (cC c)} XT m d) ∗ (wLoc d ↦{qC (cC c)} Wm m d)
        ∗ (bigSep Finset.univ fun s : Fin 16 => oBlocks d (cC c) s (OUT m d))) := rfl
theorem P_go (d : Dev nD) (c : Fin ((K (F := F)).nCore 0)) (i : Fin ((K (F := F)).nSub 0)) :
    (P m).go 0 d c i = iprop((xtLoc d ↦{qT (cC c) (sC i)} XT m d) ∗ (wLoc d ↦{qT (cC c) (sC i)} Wm m d)
        ∗ oBlocks d (cC c) (sC i) (m (oLoc d)) ∗ ∃ f, shLoc d (coreOf c) ↦[pieceSet (sC i)]{fullShare} f) := rfl
theorem P_td (d : Dev nD) (c : Fin ((K (F := F)).nCore 0)) (i : Fin ((K (F := F)).nSub 0)) :
    (P m).td 0 d c i = iprop((xtLoc d ↦{qT (cC c) (sC i)} XT m d) ∗ (wLoc d ↦{qT (cC c) (sC i)} Wm m d)
        ∗ oBlocks d (cC c) (sC i) (OUT m d)
        ∗ (shLoc d (coreOf c) ↦{shareTok fullShare 16 (sC i)} Wsh m d (coreOf c))
        ∗ (shLoc d (coreOf c) ↦[pieceSet (sC i)]{shareDrop fullShare 16} Wsh m d (coreOf c))) := rfl

/-- All sixteen tasks' operands, regrouped per resource. -/
theorem go_all (d : Dev nD) (c : Fin ((K (F := F)).nCore 0)) :
    (bigSep Finset.univ fun i : Fin ((K (F := F)).nSub 0) => (P m).go 0 d c i)
      = iprop((bigSep Finset.univ fun i : Fin 16 => xtLoc d ↦{qT (cC c) i} XT m d)
          ∗ (bigSep Finset.univ fun i : Fin 16 => wLoc d ↦{qT (cC c) i} Wm m d)
          ∗ (bigSep Finset.univ fun i : Fin 16 => oBlocks d (cC c) i (m (oLoc d)))
          ∗ bigSep Finset.univ fun i : Fin 16 => iprop(∃ f, shLoc d (coreOf c) ↦[pieceSet i]{fullShare} f)) := by
  rw [← bigSep_sep', ← bigSep_sep', ← bigSep_sep']
  exact bigSep_congr fun i _ => rfl

/-- All sixteen tasks' results, regrouped per resource. -/
theorem td_all (d : Dev nD) (c : Fin ((K (F := F)).nCore 0)) :
    (bigSep Finset.univ fun i : Fin ((K (F := F)).nSub 0) => (P m).td 0 d c i)
      = iprop((bigSep Finset.univ fun i : Fin 16 => xtLoc d ↦{qT (cC c) i} XT m d)
          ∗ (bigSep Finset.univ fun i : Fin 16 => wLoc d ↦{qT (cC c) i} Wm m d)
          ∗ (bigSep Finset.univ fun i : Fin 16 => oBlocks d (cC c) i (OUT m d))
          ∗ (bigSep Finset.univ fun i : Fin 16 => shLoc d (coreOf c) ↦{shareTok fullShare 16 i} Wsh m d (coreOf c))
          ∗ bigSep Finset.univ fun i : Fin 16 => shLoc d (coreOf c) ↦[pieceSet i]{shareDrop fullShare 16} Wsh m d (coreOf c)) := by
  rw [← bigSep_sep', ← bigSep_sep', ← bigSep_sep', ← bigSep_sep']
  exact bigSep_congr fun i _ => rfl

/-! ## The staged table among the sequencer's own buffers -/

omit [FloatOps F] in
/-- The staged table is one of the sequencer's own buffers: those are it, whole at some contents, and the others. -/
theorem ownBufs_S (d : Dev nD) (c : Fin τ.nSC) :
    (ownBufs (S d c) : sProp 𝕄)
      = iprop((∃ f, shLoc d c ↦{fullShare} f)
          ∗ bigSep ((ownRefs (τ := τ) (.scScalar c)).erase (shRef c)) fun b => iprop(∃ f, ((d, b) : Loc nD τ sig) ↦{fullShare} f)) := by
  unfold SparseCore.Cfg.ownBufs
  exact SparseCore.bigSep_erase' ((mem_ownRefs (p := Proc.scScalar c) (b := shRef c)).mpr rfl)

omit [FloatOps F] in
/-- The staged table whole at some contents is each row range at some contents. -/
theorem sh_pieces_some (d : Dev nD) (c : Fin τ.nSC) (f : Buf (Elt F) (shLoc d c)) :
    (shLoc d c ↦{fullShare} f : sProp 𝕄) ⊢ bigSep Finset.univ fun i : Fin 16 => iprop(∃ g, shLoc d c ↦[pieceSet i]{fullShare} g) := by
  rw [shPts_pieces d c fullShare f]
  exact bigSep_mono fun i _ => BI.BIClass.exists_intro (Φ := fun g => (shLoc d c ↦[pieceSet i]{fullShare} g : sProp 𝕄)) f

omit [FloatOps F] in
/-- Sixteen read tokens of the whole staged table and the sixteen row ranges at the share that remains, all at one
    contents, are the staged table owned outright at that contents. -/
theorem sh_join (d : Dev nD) (c : Fin τ.nSC) (f : Buf (Elt F) (shLoc d c)) :
    iprop((bigSep Finset.univ fun i : Fin 16 => shLoc d c ↦{shareTok fullShare 16 i} f)
        ∗ bigSep Finset.univ fun i : Fin 16 => shLoc d c ↦[pieceSet i]{shareDrop fullShare 16} f)
      ⊢ (shLoc d c ↦{fullShare} f : sProp 𝕄) := by
  rw [← shPts_pieces d c (shareDrop fullShare 16) f]
  iintro ⟨Ht, Hr⟩
  iapply (Transfers.pointsTo_toks_join fullShare 16)
  isplitl [Hr]; · iexact Hr
  iexact Ht

/-! ## The split -/

theorem vecSplit : (K (F := F)).VecSplit (P m) 0 := by
  intro d c
  rw [go_all, td_all, P_st, P_dn, ownBufs_S]
  iintro ⟨⟨Hx, Hw, Ho⟩, ⟨%fsh, Hsh⟩, Hrest⟩
  ihave Hx' := (Transfers.pointsTo_toks_split (qC (cC c)) 16) $$ Hx
  icases Hx' with ⟨Hxr, Hxt⟩
  ihave Hw' := (Transfers.pointsTo_toks_split (qC (cC c)) 16) $$ Hw
  icases Hw' with ⟨Hwr, Hwt⟩
  ihave Hsh' := (sh_pieces_some d (coreOf c) fsh) $$ Hsh
  imodintro
  isplitl [Hxt Hwt Ho Hsh']
  · isplitl [Hxt]; · iexact Hxt
    isplitl [Hwt]; · iexact Hwt
    isplitl [Ho]; · iexact Ho
    iexact Hsh'
  iintro ⟨Hxt, Hwt, Ho, Hst, Hsr⟩
  isplitl [Hxr Hxt Hwr Hwt Ho]
  · isplitl [Hxr Hxt]
    · iapply (Transfers.pointsTo_toks_join (qC (cC c)) 16)
      isplitl [Hxr]; · iexact Hxr
      iexact Hxt
    isplitl [Hwr Hwt]
    · iapply (Transfers.pointsTo_toks_join (qC (cC c)) 16)
      isplitl [Hwr]; · iexact Hwr
      iexact Hwt
    iexact Ho
  isplitl [Hst Hsr]
  · iexists (Wsh m d (coreOf c))
    iapply (sh_join d (coreOf c) (Wsh m d (coreOf c)))
    isplitl [Hst]; · iexact Hst
    iexact Hsr
  iexact Hrest

end Cert.Lookup.Kernel

end
-- ==== Proof.MainB.lean ====
/-
  @main on the TensorCore, and the program's run.

  @main transposes the index array x : [1024, 20] to xT : [20, 1024], starts the two SparseCores on the lookup and waits
  for them, and transposes what they wrote, out : [20, 1024, 128], to the result [1024, 20, 128]. For the call it hands
  each SparseCore a read share of xT and of the table (keeping the remainder of each) and that SparseCore's columns of
  out, block by block; it gets the same back with the blocks at the gathered rows, rejoins the shares and the blocks,
  and the second transpose turns out[j, b, :] = W[xT[j, b], :] into result[b, j, :] = out[j, b, :]. The index array and
  the table are never written: they end as they started.
-/
import proofs.«206460_g62371515072547_cont_9to1_m_307_33_alg».proof.Proof.SplitB

noncomputable section

namespace Cert.Lookup.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

open Idealize.ShloMosaic.StableHlo (held held_split held_sdiff_result wp_hlo_within)

variable (m : (ℓ : Loc nD τ sig) → Buf (Elt F) ℓ) (ρ : Dev nD → PrngReg)
variable [FloatOps F]

/-! ## The result, and the two transposes as operations -/

/-- The program's result: result[b, j, e] = out[j, b, e]. -/
def RES (d : Dev nD) : Buf (Elt F) (rLoc d) :=
  (transpose S1024x20x128 [1, 0, 2] (OUT m d : (⟨S20x1024x128, .f32⟩ : BufTy).Contents (Elt F)) transposes_S20x1024x128_S1024x20x128_1_0_2
    : (⟨S1024x20x128, .f32⟩ : BufTy).Contents (Elt F))

abbrev a' : DevRef τ sig := Proc.devRef .tc (main_arg0 : Ref sig .tc)
abbrev w' : DevRef τ sig := Proc.devRef .tc (main_arg1 : Ref sig .tc)
abbrev xt' : DevRef τ sig := Proc.devRef .tc (main_v0 : Ref sig .tc)
abbrev o' : DevRef τ sig := Proc.devRef .tc (main_v1 : Ref sig .tc)
abbrev r' : DevRef τ sig := Proc.devRef .tc (main_v2 : Ref sig .tc)

abbrev opT1 : HloOp τ sig (Elt F) :=
  StableHlo.unary main_arg0 main_v0 ((transpose S20x1024 [1, 0] · transposes_S1024x20_S20x1024_1_0)
    : (⟨S1024x20, .i32⟩ : BufTy).Contents (Elt F) → (⟨S20x1024, .i32⟩ : BufTy).Contents (Elt F))
abbrev opT2 : HloOp τ sig (Elt F) :=
  StableHlo.unary main_v1 main_v2 ((transpose S1024x20x128 [1, 0, 2] · transposes_S20x1024x128_S1024x20x128_1_0_2)
    : (⟨S20x1024x128, .f32⟩ : BufTy).Contents (Elt F) → (⟨S1024x20x128, .f32⟩ : BufTy).Contents (Elt F))

/-- The TensorCore's arrays, all unscoped: x, W, xT, out, result. -/
abbrev S5 : Finset (DevRef τ sig) := {a', w', xt', o', r'}

omit [FloatOps F] in
theorem held_S5 (d : Dev nD) (W : Valuation τ sig (Elt F)) :
    (held (T d) S5 W : sProp 𝕄) = iprop((aLoc d ↦{fullShare} W a') ∗ (wLoc d ↦{fullShare} W w') ∗ (xtLoc d ↦{fullShare} W xt')
        ∗ (oLoc d ↦{fullShare} W o') ∗ rLoc d ↦{fullShare} W r') := by
  unfold held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (wLoc d ↦{fullShare} W main_arg1) ∗ (xtLoc d ↦{fullShare} W main_v0)
        ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The launch valuation; after the first transpose xT holds the transposed indices; after the call out holds the rows. -/
def V0 (d : Dev nD) : Valuation τ sig (Elt F) := fun b => m (d, b)
def V2 (d : Dev nD) : Valuation τ sig (Elt F) := Function.update (Function.update (V0 m d) xt' (XT m d)) o' (OUT m d)

theorem unscoped_held (d : Dev nD) : (unscopedBufs d (fun b => m ((SparseCore.T d).loc b)) : sProp 𝕄) = held (T d) S5 (V0 m d) := by
  rw [unscopedBufs_eq, held_S5]; rfl

theorem V2_a (d : Dev nD) : V2 m d a' = m (aLoc d) := by
  unfold V2; rw [Function.update_of_ne (show a' ≠ o' by decide), Function.update_of_ne (show a' ≠ xt' by decide)]; rfl
theorem V2_w (d : Dev nD) : V2 m d w' = m (wLoc d) := by
  unfold V2; rw [Function.update_of_ne (show w' ≠ o' by decide), Function.update_of_ne (show w' ≠ xt' by decide)]; rfl
theorem V2_xt (d : Dev nD) : V2 m d xt' = XT m d := by
  unfold V2; rw [Function.update_of_ne (show xt' ≠ o' by decide), Function.update_self]
theorem V2_o (d : Dev nD) : V2 m d o' = OUT m d := by
  unfold V2; rw [Function.update_self]
theorem V2_r (d : Dev nD) : V2 m d r' = m (rLoc d) := by
  unfold V2; rw [Function.update_of_ne (show r' ≠ o' by decide), Function.update_of_ne (show r' ≠ xt' by decide)]; rfl

theorem hT1 : (opT1 (F := F)).bufs ⊆ S5 := show ({a', xt'} : Finset (DevRef τ sig)) ⊆ S5 by decide
theorem hT2 : (opT2 (F := F)).bufs ⊆ S5 := show ({o', r'} : Finset (DevRef τ sig)) ⊆ S5 by decide

/-- After the first transpose: xT holds the transposed indices, the other four what they held. -/
theorem held_T1 (d : Dev nD) :
    (held (T d) S5 ((opT1 (F := F)).result (V0 m d)) : sProp 𝕄)
      = iprop((aLoc d ↦{fullShare} m (aLoc d)) ∗ (wLoc d ↦{fullShare} m (wLoc d)) ∗ (xtLoc d ↦{fullShare} XT m d)
          ∗ (oLoc d ↦{fullShare} m (oLoc d)) ∗ rLoc d ↦{fullShare} m (rLoc d)) := by
  rw [held_S5,
    StableHlo.unary_result_ne _ _ _ _ _ (V0 m d) (show (main_arg0 : Ref sig .tc) ≠ main_v0 by decide),
    StableHlo.unary_result_ne _ _ _ _ _ (V0 m d) (show (main_arg1 : Ref sig .tc) ≠ main_v0 by decide),
    StableHlo.unary_result_ne _ _ _ _ _ (V0 m d) (show (main_v1 : Ref sig .tc) ≠ main_v0 by decide),
    StableHlo.unary_result_ne _ _ _ _ _ (V0 m d) (show (main_v2 : Ref sig .tc) ≠ main_v0 by decide),
    StableHlo.unary_result]
  rfl

theorem held_V2 (d : Dev nD) :
    (held (T d) S5 (V2 m d) : sProp 𝕄)
      = iprop((aLoc d ↦{fullShare} m (aLoc d)) ∗ (wLoc d ↦{fullShare} m (wLoc d)) ∗ (xtLoc d ↦{fullShare} XT m d)
          ∗ (oLoc d ↦{fullShare} OUT m d) ∗ rLoc d ↦{fullShare} m (rLoc d)) := by
  rw [held_S5, V2_a, V2_w, V2_xt, V2_o, V2_r]

/-- After the second transpose: the result holds out transposed, the other four what they held. -/
theorem held_T2 (d : Dev nD) :
    (held (T d) S5 ((opT2 (F := F)).result (V2 m d)) : sProp 𝕄)
      = iprop((aLoc d ↦{fullShare} m (aLoc d)) ∗ (wLoc d ↦{fullShare} m (wLoc d)) ∗ (xtLoc d ↦{fullShare} XT m d)
          ∗ (oLoc d ↦{fullShare} OUT m d) ∗ rLoc d ↦{fullShare} RES m d) := by
  rw [held_S5,
    StableHlo.unary_result_ne _ _ _ _ _ (V2 m d) (show (main_arg0 : Ref sig .tc) ≠ main_v2 by decide),
    StableHlo.unary_result_ne _ _ _ _ _ (V2 m d) (show (main_arg1 : Ref sig .tc) ≠ main_v2 by decide),
    StableHlo.unary_result_ne _ _ _ _ _ (V2 m d) (show (main_v0 : Ref sig .tc) ≠ main_v2 by decide),
    StableHlo.unary_result_ne _ _ _ _ _ (V2 m d) (show (main_v1 : Ref sig .tc) ≠ main_v2 by decide),
    StableHlo.unary_result, V2_a, V2_w, V2_xt]
  rw [show V2 m d (Proc.devRef .tc (main_v1 : Ref sig .tc)) = OUT m d from V2_o m d]
  rfl

/-! ## What the call takes for the two SparseCores, and what it hands back -/

theorem st_all (d : Dev nD) :
    (bigSep Finset.univ fun c : Fin ((K (F := F)).nCore 0) => (P m).st 0 d c)
      = iprop((bigSep Finset.univ fun c : Fin 2 => xtLoc d ↦{qC c} XT m d)
          ∗ (bigSep Finset.univ fun c : Fin 2 => wLoc d ↦{qC c} Wm m d)
          ∗ bigSep Finset.univ fun c : Fin 2 => bigSep Finset.univ fun s : Fin 16 => oBlocks d c s (m (oLoc d))) := by
  rw [← bigSep_sep', ← bigSep_sep']
  exact bigSep_congr fun c _ => rfl
theorem dn_all (d : Dev nD) :
    (bigSep Finset.univ fun c : Fin ((K (F := F)).nCore 0) => (P m).dn 0 d c)
      = iprop((bigSep Finset.univ fun c : Fin 2 => xtLoc d ↦{qC c} XT m d)
          ∗ (bigSep Finset.univ fun c : Fin 2 => wLoc d ↦{qC c} Wm m d)
          ∗ bigSep Finset.univ fun c : Fin 2 => bigSep Finset.univ fun s : Fin 16 => oBlocks d c s (OUT m d)) := by
  rw [← bigSep_sep', ← bigSep_sep']
  exact bigSep_congr fun c _ => rfl

/-! ## @main -/

/-- What @main leaves the claim: the index array and the table at their launch contents, the result at `RES`. -/
abbrev FIN (d : Dev nD) : sProp 𝕄 :=
  iprop((aLoc d ↦{fullShare} m (aLoc d)) ∗ (wLoc d ↦{fullShare} m (wLoc d)) ∗ rLoc d ↦{fullShare} RES m d)

/-- @main on device d's TensorCore: the first transpose; the call, from read shares of xT and the table and the blocks
    of out; the second transpose, of out at the gathered rows. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the first transpose
  iapply (wp_hlo_within 𝒱 (SparseCore.T d) none Set.univ (op := opT1) (S := S5) hT1 (V := V0 m d)) $$ [Hb Hheld]
  · isplitl [Hb]; · iexact Hb
    iexact Hheld
  iintro ⟨Hb, Hheld⟩
  ihave Hh := (Entails.of_eq (held_T1 m d)) $$ Hheld
  icases Hh with ⟨Ha, Hw, Hxt, Ho, Hr⟩
  rw [wp_ret]; imodintro
  -- the read shares and the blocks
  ihave Hxt' := (Transfers.pointsTo_toks_split fullShare 2) $$ Hxt
  icases Hxt' with ⟨Hxtr, Hxtt⟩
  ihave Hw' := (Transfers.pointsTo_toks_split fullShare 2) $$ Hw
  icases Hw' with ⟨Hwr, Hwt⟩
  ihave Ho' := (Entails.of_eq (oPts_blocks d (m (oLoc d)))) $$ Ho
  -- the call
  iapply ((K (F := F)).wp_run (D (F := F)) 𝒱 (EH := EH) (P := P m) κ d 0) $$ [Hst Hxtt Hwt Ho' Hb Ha Hr Hxtr Hwr]
  isplitr; · iexact Hctx
  isplitl [Hst]; · iexact Hst
  isplitl [Hxtt Hwt Ho']
  · rw [st_all]
    isplitl [Hxtt]; · iexact Hxtt
    isplitl [Hwt]; · iexact Hwt
    iexact Ho'
  iintro ⟨Hst, Hdn⟩
  ihave Hdn' := (Entails.of_eq (dn_all m d)) $$ Hdn
  icases Hdn' with ⟨Hxtt, Hwt, Ho'⟩
  ihave Hxt := (Transfers.pointsTo_toks_join fullShare 2) $$ [Hxtr Hxtt]
  · isplitl [Hxtr]; · iexact Hxtr
    iexact Hxtt
  ihave Hw := (Transfers.pointsTo_toks_join fullShare 2) $$ [Hwr Hwt]
  · isplitl [Hwr]; · iexact Hwr
    iexact Hwt
  ihave Ho := (Entails.of_eq (oPts_blocks d (OUT m d)).symm) $$ Ho'
  -- the second transpose
  iapply (wp_hlo_within 𝒱 (SparseCore.T d) none Set.univ (op := opT2) (S := S5) hT2 (V := V2 m d)) $$ [Hb Ha Hw Hxt Ho Hr]
  · isplitl [Hb]; · iexact Hb
    rw [held_V2]
    isplitl [Ha]; · iexact Ha
    isplitl [Hw]; · iexact Hw
    isplitl [Hxt]; · iexact Hxt
    isplitl [Ho]; · iexact Ho
    iexact Hr
  iintro ⟨Hb, Hheld⟩
  ihave Hh := (Entails.of_eq (held_T2 m d)) $$ Hheld
  icases Hh with ⟨Ha, Hw, -, -, Hr⟩
  rw [wp_ret]; imodintro; imodintro
  isplitl [Hst]; · iexact Hst
  isplitl [Ha]; · iexact Ha
  isplitl [Hw]; · iexact Hw
  iexact Hr

/-! ## The final memory reads the claim -/

def fq (d : Dev nD) (s' : Phys nD τ sig (Elt F)) : Prop :=
  s'.mem.mem (aLoc d) = m (aLoc d) ∧ s'.mem.mem (wLoc d) = m (wLoc d) ∧ s'.mem.mem (rLoc d) = RES m d

theorem hfin (d : Dev nD) (s' : Phys nD τ sig (Elt F)) : iprop(FIN m d ∗ SI s') ⊢ (⌜fq m d s'⌝ : sProp 𝕄) := by
  iintro ⟨⟨Ha, Hw, Hr⟩, HSI⟩
  icombine HSI Ha gives %ha
  icombine HSI Hw gives %hw
  icombine HSI Hr gives %hr
  ipureintro
  exact ⟨funext fun i => ha i (Finset.mem_univ i), funext fun i => hw i (Finset.mem_univ i), funext fun i => hr i (Finset.mem_univ i)⟩

/-! ## The program's run -/

/-- The run's post: on every device the index array and the table unchanged, the result the transposed gathered rows. -/
def QC : PUnit × MemSt nD τ sig (Elt F) → Prop := fun r =>
  ∀ c : Dev nD, r.2.mem (aLoc c) = m (aLoc c) ∧ r.2.mem (wLoc c) = m (wLoc c) ∧ r.2.mem (rLoc c) = RES m c

/-- The program's run, from a vector subcore's task (`htile`) and the launch element (`hu`) of a ghost state `u₀`. -/
theorem run_main [∀ e, Nonempty (Elt F e)] (u₀ : UU)
    (htile : (K (F := F)).TileObl (D (F := F)) 𝒱 (P m) v₀ 0)
    (hu : iprop(ownU u₀ ∗ (P (F := F) m).oxCred ∗ (K (F := F)).freeSems0)
      ⊢ |={Set.univ}=> iprop(BI.own (EH (initOf (K (F := F)).hsCells (K (F := F)).hsToks)) ∗ (bigSep Finset.univ fun _ : Dev nD => iprop(emp))
          ∗ (bigSep Finset.univ fun thr : Thread nD τ => bigSep Finset.univ fun q : Fin 1 => (P m).x q thr) : sProp 𝕄)) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => vecSplit m)
    m ρ main (fun _ => iprop(emp)) (FIN m) u₀ hu (hmain m ρ) (fq m) (hfin m) (QC m) (fun _ h => h)

end Cert.Lookup.Kernel

end
-- ==== Proof.FrameB.lean ====
/-
  The kernel program's frame: under the precondition every weakly fair execution of the device's threads terminates,
  nothing faulting, and the index array and the table end as they started.

  The precondition says that every index, read as a signed 32-bit integer, lies in [0, 999]; such a word read unsigned is
  below 1000, which is what every subcore's indexed copy needs of the indices it reads. The frame is then the
  program's run, which names all three arrays at the end, with the result dropped.
-/
import proofs.«206460_g62371515072547_cont_9to1_m_307_33_alg».proof.Defs
import proofs.«206460_g62371515072547_cont_9to1_m_307_33_alg».proof.Proof.Gen.Pre_input_domain
import proofs.«206460_g62371515072547_cont_9to1_m_307_33_alg».proof.Proof.PreFacts
import proofs.«206460_g62371515072547_cont_9to1_m_307_33_alg».proof.Proof.ValB
import proofs.«206460_g62371515072547_cont_9to1_m_307_33_alg».proof.Proof.ElemB
import proofs.«206460_g62371515072547_cont_9to1_m_307_33_alg».proof.Proof.MainB

noncomputable section

namespace Cert.Lookup.Kernel

open Cert.Kernel Cert.Kernel.Gen

open Idealize.ShloMosaic
open Idealize.ShloMosaic.SparseCore (S V T)
open Idealize.ShloMosaic.SparseCore.Cfg (HIx Pay)
open Idealize.SL Idealize.SL.Sem

/-- The float instance this program is claimed at. -/
abbrev FI : FTy → Type := Bits

/-- The precondition gives the index range: every index word names a row of the table. -/
theorem ok_of_pre (m : (ℓ : Loc nD τ sig) → Buf (Elt FI) ℓ) (hpre : Cert.Pre_Kernel m) : PreOK m :=
  fun d j => Cert.Lookup.PreFacts.idx_lt_of_pre _ _ (hpre d) j

/-- The frame, from a vector subcore's task proved under the index range. -/
theorem frame
    (htile : ∀ m : (ℓ : Loc nD τ sig) → Buf (Elt FI) ℓ, PreOK m → (K (F := FI)).TileObl (D (F := FI)) 𝒱 (P m) v₀ 0) :
    Cert.frame_Kernel :=
  fun m ρ hpre => (θ_run Cert.Kernel.defs _ _).mono (fun _ h c => ⟨(h c).1, (h c).2.1⟩)
    (run_main (F := FI) m ρ (u₀ (F := FI)) (htile m (ok_of_pre m hpre)) (hu₀ m))

end Cert.Lookup.Kernel

end
-- ==== Proof.ElemI.lean ====
/-
  The launch element of the lookup's ghost state, and what the launch deals out of it.

  The barrier of a SparseCore is sixteen cells, one per vector subcore (its barrier semaphore), each with the single
  round 0 of sixteen unit duties, one per subcore of the same SparseCore. The mesh has one such cell per vector
  subcore (device, SparseCore, subcore) and one duty token per ordered pair of subcores of one SparseCore. From the
  element that holds all of them beside the handshakes' we obtain: every cell's round state, that each has reached
  round 0, each owner's position at the origin, every token; the cells' semaphores read zero, so all the invariants
  are allocated together; the credit for the units the subcores owe, sixteen debts of one unit on each of the sixteen
  cells per SparseCore, is sixteen units per cell; and every vector subcore of BOTH SparseCores receives its kit.
-/
import proofs.«206460_g62371515072547_cont_9to1_m_307_33_alg».proof.Proof.ProtocolI

noncomputable section

namespace Cert.Lookup.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

/-! ## The cells and the tokens of the whole mesh -/

/-- A vector subcore of the mesh: its device, its SparseCore, its number. -/
abbrev Sub3 : Type := Dev nD × Fin τ.nSC × Fin τ.nSub

/-- A vector subcore's barrier cell; two subcores never share one. -/
def cellOf : Sub3 ↪ GSem nD τ sig where
  toFun x := bcell x.1 x.2.1 x.2.2
  inj' := by
    rintro ⟨d, c, i⟩ ⟨d', c', i'⟩ e
    have e1 : (V d c i : Thread nD τ) = V d' c' i' := congrArg Prod.fst e
    have e2 : d = d' := congrArg Prod.fst e1
    have e3 : (Proc.scVector c i : Proc τ) = Proc.scVector c' i' := congrArg Prod.snd e1
    injection e3 with hc hi
    subst e2 hc hi
    rfl

/-- The token of subcore x for its unit on the cell of subcore j of the same SparseCore: round 0, named by x's number. -/
def tokOf : Sub3 × Fin (grid0.bound 1) ↪ GSem nD τ sig × ℕ × ℕ where
  toFun y := (bcell y.1.1 y.1.2.1 (y.2.castLE hsub0), 0, y.1.2.2.val)
  inj' := by
    rintro ⟨⟨d, c, i⟩, j⟩ ⟨⟨d', c', i'⟩, j'⟩ e
    have eg : cellOf (d, c, j.castLE hsub0) = cellOf (d', c', j'.castLE hsub0) := congrArg Prod.fst e
    have ei : i.val = i'.val := congrArg (fun t => t.2.2) e
    have ex := cellOf.injective eg
    have ed : d = d' := congrArg Prod.fst ex
    have ec : c = c' := congrArg (fun t => t.2.1) ex
    have ej : j.val = j'.val := congrArg (fun t => t.2.2.val) ex
    obtain rfl := ed; obtain rfl := ec; obtain rfl := Fin.ext ei; obtain rfl := Fin.ext ej
    rfl

def bCells : Finset (GSem nD τ sig) := Finset.univ.map cellOf
def bToks : Finset (GSem nD τ sig × ℕ × ℕ) := Finset.univ.map tokOf

/-- The launch element: the handshakes' cells and tokens, the barrier cells and tokens, nothing on the counters. -/
def u₀ : UU := (initOf (K (F := F)).hsCells (K (F := F)).hsToks, (initOf bCells bToks, 1))

theorem mem_bCells (d : Dev nD) (c : Fin τ.nSC) (j : Fin τ.nSub) : bcell d c j ∈ bCells :=
  Finset.mem_map.mpr ⟨(d, c, j), Finset.mem_univ _, rfl⟩

/-! ## Step by step -/

/-- The element splits into the handshakes' part and the barrier cells' part (the counters' part is the unit). -/
theorem own_u₀ : (ownU (u₀ (F := F)) : sProp 𝕄)
    ⊢ iprop(BI.own (EH (initOf (K (F := F)).hsCells (K (F := F)).hsToks)) ∗ BI.own (EB (initOf bCells bToks))) := by
  unfold u₀
  have hR := own_pair_emb (embR : Emb (UB × Counters) 𝕄) (initOf bCells bToks) (1 : Counters)
  exact (ownU_pair (nD := nD) (τ := τ) (sig := sig) (Ix := HIx 1) (Val := Elt F) (Name := ℕ) (Lvl := ℕ)
    (initOf (K (F := F)).hsCells (K (F := F)).hsToks) ((initOf bCells bToks, (1 : Counters)) : UB × Counters)).trans
      (sep_mono_r (hR.trans sep_elim_left))

/-- Every barrier semaphore reads zero: it is one of its subcore's free semaphores, a regular one that is not go. -/
theorem bar_sems : ((K (F := F)).freeSems0 : sProp 𝕄) ⊢ bigSep bCells fun g => semVal g 0 := by
  unfold bCells SparseCore.Cfg.freeSems0
  rw [bigSep_map]
  refine sep_elim_right.trans (bigSep_mono fun x _ => ?_)
  unfold SparseCore.Cfg.vcSems0
  refine bigSep_elim (Φ := fun sm : SemLoc sig => (semVal (V x.1 x.2.1 x.2.2, sm) 0 : sProp 𝕄)) (i := SemLoc.reg sc_bar0) ?_
  rw [Finset.mem_erase, Finset.mem_filter]
  exact ⟨fun h => sc_bar0_ne_go (SemLoc.reg.inj h), Finset.mem_univ _, by decide⟩

variable (m : (ℓ : Loc nD τ sig) → Buf (Elt F) ℓ) [FloatOps F]

/-- Counters at zero and round states at zero are the cells' bodies; their invariants are allocated together. -/
theorem bar_invs : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ?_
  refine (inv_alloc_family bCells (Rounds.body EB (bRd (F := F) m)) ∅ (E := Set.univ)).trans (fupd_mono ?_)
  iintro ⟨%κ, _, Hinv⟩
  iexists κ
  iexact Hinv

/-! ### The credit -/

omit [FloatOps F] in
/-- n single units on a cell are n units on it. -/
theorem nsmul_tallyAt_one (g : GSem nD τ sig) (ι : HIx 1) (n : ℕ) :
    n • (tallyAt g ι 1 : CellTallies nD τ sig (HIx 1)) = tallyAt g ι n := by
  induction n with
  | zero => rw [zero_nsmul, tallyAt_zero]
  | succ n ih => rw [succ_nsmul, ih, tallyAt_add]

omit [FloatOps F] in
/-- What the sixteen subcores of one SparseCore owe together: sixteen units on each of its sixteen cells. -/
theorem sum_oxV (d : Dev nD) (c : Fin τ.nSC) :
    ∑ _i : Fin τ.nSub, oxV d c = ∑ j : Fin (grid0.bound 1), tallyAt (bcell d c (j.castLE hsub0)) (some 0) (grid0.bound 1) := by
  rw [Finset.sum_const, Finset.card_univ, Fintype.card_fin]
  unfold oxV
  rw [Finset.smul_sum]
  refine Finset.sum_congr rfl fun j _ => ?_
  rw [nsmul_tallyAt_one]
  rfl

omit [FloatOps F] in
/-- A family over the first n numbers read through the inclusion into the first k, n = k, is the family. -/
theorem bigSep_fin_castLE {n k : ℕ} (e : n = k) (h : n ≤ k) (Φ : Fin k → sProp 𝕄) :
    (bigSep Finset.univ fun j : Fin n => Φ (j.castLE h)) = bigSep Finset.univ Φ := by
  subst e
  rfl

theorem oxFrom_V (d : Dev nD) (c : Fin τ.nSC) (i : Fin τ.nSub) : (P (F := F) m).oxFrom 0 (V d c i) = oxV d c := by
  unfold SparseCore.Cfg.Pay.oxFrom
  rw [Fin.sum_univ_one]
  rfl

/-- The credit for the subcores' debts, per cell: each cell's owner the sixteen units of its round. -/
theorem bar_creds : ((P (F := F) m).oxCred : sProp 𝕄)
    ⊢ bigSep Finset.univ fun x : Sub3 => cred (tallyAt (cellOf x) (some 0) (grid0.bound 1)) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  simp only [oxFrom_V]
  rw [bigSep_univ_prod, bigSep_univ_prod (fun x : Sub3 => (cred (tallyAt (cellOf x) (some 0) (grid0.bound 1)) : sProp 𝕄))]
  refine bigSep_mono fun d _ => ?_
  rw [bigSep_univ_prod, bigSep_univ_prod (fun ci : Fin τ.nSC × Fin τ.nSub => (cred (tallyAt (cellOf (d, ci)) (some 0) (grid0.bound 1)) : sProp 𝕄))]
  refine bigSep_mono fun c _ => ?_
  dsimp only
  rw [← SparseCore.Cfg.cred_finsum, sum_oxV, SparseCore.Cfg.cred_finsum]
  exact Entails.of_eq (bigSep_fin_castLE (F := F) (show grid0.bound 1 = τ.nSub from rfl) hsub0
    fun i : Fin τ.nSub => cred (tallyAt (cellOf (d, c, i)) (some 0) (grid0.bound 1)))

/-! ### The deal -/

theorem Px_tc (q : Fin 1) (d : Dev nD) : (P (F := F) m).x q (T d) = iprop(emp) := rfl
theorem Px_sc (q : Fin 1) (d : Dev nD) (c : Fin τ.nSC) : (P (F := F) m).x q (S d c) = iprop(emp) := rfl
theorem Px_vc (q : Fin 1) (d : Dev nD) (c : Fin τ.nSC) (i : Fin τ.nSub) : (P (F := F) m).x q (V d c i) = bkit m d c i := rfl

/-- What all subcores share: the cells' invariants and that each cell has reached round 0. -/
abbrev common : sProp 𝕄 :=
  iprop((∃ κ : GSem nD τ sig → ℕ, bigSep bCells fun g => cellInv EB (bRd (F := F) m) (κ g) g) ∗ bigSep bCells fun g => reached EB g 0)

/-- What is a subcore's alone: its position, its sixteen tokens, the credit of its cell. -/
abbrev own1 (x : Sub3) : sProp 𝕄 :=
  iprop(atPos EB (cellOf x) 0 ∅ 0
    ∗ (bigSep Finset.univ fun j : Fin (grid0.bound 1) => dutyTok EB (bcell x.1 x.2.1 (j.castLE hsub0)) 0 x.2.2.val)
    ∗ cred (tallyAt (cellOf x) (some 0) (grid0.bound 1)))

/-- A subcore's kit: the shared facts restricted to the sixteen cells of its SparseCore, beside what is its alone.
    Nothing depends on which SparseCore it is. -/
theorem kit_of (x : Sub3) : iprop(common (F := F) m ∗ own1 (F := F) x) ⊢ bkit m x.1 x.2.1 x.2.2 := by
  obtain ⟨d, c, i⟩ := x
  unfold bkit
  iintro ⟨⟨⟨%κ, #Hinv⟩, #Hr⟩, Hat, Htok, Hcr⟩
  isplitr
  · iexists κ
    iapply (SparseCore.ent (bigSep_intro_persistent (S := (Finset.univ : Finset (Fin (grid0.bound 1))))
      (R := bigSep bCells fun g => cellInv EB (bRd (F := F) m) (κ g) g)
      (Φ := fun j => cellInv EB (bRd (F := F) m) (κ (bcell d c (j.castLE hsub0))) (bcell d c (j.castLE hsub0)))
      fun j _ => bigSep_elim (Φ := fun g => (cellInv EB (bRd (F := F) m) (κ g) g : sProp 𝕄)) (mem_bCells d c (j.castLE hsub0))))
    iexact Hinv
  isplitl [Htok]; · iexact Htok
  isplitr
  · iapply (SparseCore.ent (bigSep_intro_persistent (S := (Finset.univ : Finset (Fin (grid0.bound 1))))
      (R := bigSep bCells fun g => (reached EB g 0 : sProp 𝕄))
      (Φ := fun j => reached EB (bcell d c (j.castLE hsub0)) 0)
      fun j _ => bigSep_elim (Φ := fun g => (reached EB g 0 : sProp 𝕄)) (mem_bCells d c (j.castLE hsub0))))
    iexact Hr
  isplitl [Hat]; · iexact Hat
  iexact Hcr

/-- Every thread's start: nothing for the TensorCores and the sequencers, its kit for every vector subcore. -/
theorem bar_deal :
    iprop(((∃ κ : GSem nD τ sig → ℕ, bigSep bCells fun g => cellInv EB (bRd (F := F) m) (κ g) g) ∗ bigSep bCells fun g => reached EB g 0)
      ∗ ((bigSep bCells fun g => atPos EB g 0 ∅ 0) ∗ (bigSep bToks fun y => dutyTok EB y.1 y.2.1 y.2.2)
        ∗ bigSep Finset.univ fun x : Sub3 => cred (tallyAt (cellOf x) (some 0) (grid0.bound 1))))
    ⊢ (bigSep Finset.univ fun thr : Thread nD τ => bigSep Finset.univ fun q : Fin 1 => (P (F := F) m).x q thr : sProp 𝕄) := by
  have hA : (bigSep bCells fun g => (atPos EB g 0 ∅ 0 : sProp 𝕄)) = bigSep Finset.univ fun x : Sub3 => atPos EB (cellOf x) 0 ∅ 0 :=
    bigSep_map cellOf
  have hT : (bigSep bToks fun y => (dutyTok EB y.1 y.2.1 y.2.2 : sProp 𝕄))
      = bigSep Finset.univ fun x : Sub3 => bigSep Finset.univ fun j : Fin (grid0.bound 1) =>
          dutyTok EB (bcell x.1 x.2.1 (j.castLE hsub0)) 0 x.2.2.val :=
    (bigSep_map tokOf).trans (bigSep_univ_prod _)
  have hq : ∀ Φ : Fin 1 → sProp 𝕄, bigSep Finset.univ Φ = Φ 0 := fun Φ => bigSep_univ_of_subsingleton 0
  rw [SparseCore.Cfg.bigSep_threads (fun thr : Thread nD τ => bigSep Finset.univ fun q : Fin 1 => (P (F := F) m).x q thr),
    hA, hT, ← bigSep_sep', ← bigSep_sep']
  simp only [hq, Px_tc, Px_sc, Px_vc, bigSep_emp']
  iintro H
  isplitr; · iempintro
  isplitr; · iempintro
  iapply (SparseCore.ent (bigSep_with_persistent (R := common (F := F) m) (Φ := own1 (F := F)) fun x _ => kit_of m x))
  iexact H

/-! ## The launch element -/

theorem hu₀ : iprop(ownU (u₀ (F := F)) ∗ (P (F := F) m).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P m).x q thr) : sProp 𝕄) := by
  refine BIBase.Entails.trans ?_ (SparseCore.Cfg.launch_elem (Fr := iprop(emp))
    (Inv := fun κ : GSem nD τ sig → ℕ => bigSep bCells fun g => cellInv EB (bRd (F := F) m) (κ g) g)
    (own_u₀ (F := F)) (Rounds.fund EB (bRd (F := F) m) bCells bToks) (bar_sems (F := F)) (bar_invs m) (bar_creds m) (bar_deal m))
  iintro ⟨Hu, Hcr, Hfree⟩
  isplitl [Hu]; · iexact Hu
  isplitl [Hcr]; · iexact Hcr
  isplitr; · iempintro
  iexact Hfree

end Cert.Lookup.KernelIdeal

end
-- ==== Proof.SplitI.lean ====
/-
  How one SparseCore's operands split among its sixteen subcores' tasks, and how the results gather.

  The SparseCore's read share of the transposed indices and of the table is cut into sixteen read tokens, one per
  subcore, the remainder kept aside until the tasks return; its columns of the result are already held block by
  block, so they only regroup; the staged table, which the sequencer owns whole at whatever it holds, is cut into the
  sixteen row ranges. Coming back, every task returns its tokens, its blocks written, a read token of the WHOLE staged
  table at the table's contents and what it kept of its own row range: the sixteen kept parts join (they are the
  row ranges, at one share) into the whole table at the share that remains after sixteen tokens, and with the sixteen
  tokens that is the staged table owned outright again, at the table's contents.
-/
import proofs.«206460_g62371515072547_cont_9to1_m_307_33_alg».proof.Proof.GeomI

noncomputable section

namespace Cert.Lookup.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

variable (m : (ℓ : Loc nD τ sig) → Buf (Elt F) ℓ)
variable [FloatOps F]

/-! ## What the handshakes carry, as equations -/

theorem P_st (d : Dev nD) (c : Fin ((K (F := F)).nCore 0)) :
    (P m).st 0 d c = iprop((xtLoc d ↦{qC (cC c)} XT m d) ∗ (wLoc d ↦{qC (cC c)} Wm m d)
        ∗ (bigSep Finset.univ fun s : Fin 16 => oBlocks d (cC c) s (m (oLoc d)))) := rfl
theorem P_dn (d : Dev nD) (c : Fin ((K (F := F)).nCore 0)) :
    (P m).dn 0 d c = iprop((xtLoc d ↦{qC (cC c)} XT m d) ∗ (wLoc d ↦{qC (cC c)} Wm m d)
        ∗ (bigSep Finset.univ fun s : Fin 16 => oBlocks d (cC c) s (OUT m d))) := rfl
theorem P_go (d : Dev nD) (c : Fin ((K (F := F)).nCore 0)) (i : Fin ((K (F := F)).nSub 0)) :
    (P m).go 0 d c i = iprop((xtLoc d ↦{qT (cC c) (sC i)} XT m d) ∗ (wLoc d ↦{qT (cC c) (sC i)} Wm m d)
        ∗ oBlocks d (cC c) (sC i) (m (oLoc d)) ∗ ∃ f, shLoc d (coreOf c) ↦[pieceSet (sC i)]{fullShare} f) := rfl
theorem P_td (d : Dev nD) (c : Fin ((K (F := F)).nCore 0)) (i : Fin ((K (F := F)).nSub 0)) :
    (P m).td 0 d c i = iprop((xtLoc d ↦{qT (cC c) (sC i)} XT m d) ∗ (wLoc d ↦{qT (cC c) (sC i)} Wm m d)
        ∗ oBlocks d (cC c) (sC i) (OUT m d)
        ∗ (shLoc d (coreOf c) ↦{shareTok fullShare 16 (sC i)} Wsh m d (coreOf c))
        ∗ (shLoc d (coreOf c) ↦[pieceSet (sC i)]{shareDrop fullShare 16} Wsh m d (coreOf c))) := rfl

/-- All sixteen tasks' operands, regrouped per resource. -/
theorem go_all (d : Dev nD) (c : Fin ((K (F := F)).nCore 0)) :
    (bigSep Finset.univ fun i : Fin ((K (F := F)).nSub 0) => (P m).go 0 d c i)
      = iprop((bigSep Finset.univ fun i : Fin 16 => xtLoc d ↦{qT (cC c) i} XT m d)
          ∗ (bigSep Finset.univ fun i : Fin 16 => wLoc d ↦{qT (cC c) i} Wm m d)
          ∗ (bigSep Finset.univ fun i : Fin 16 => oBlocks d (cC c) i (m (oLoc d)))
          ∗ bigSep Finset.univ fun i : Fin 16 => iprop(∃ f, shLoc d (coreOf c) ↦[pieceSet i]{fullShare} f)) := by
  rw [← bigSep_sep', ← bigSep_sep', ← bigSep_sep']
  exact bigSep_congr fun i _ => rfl

/-- All sixteen tasks' results, regrouped per resource. -/
theorem td_all (d : Dev nD) (c : Fin ((K (F := F)).nCore 0)) :
    (bigSep Finset.univ fun i : Fin ((K (F := F)).nSub 0) => (P m).td 0 d c i)
      = iprop((bigSep Finset.univ fun i : Fin 16 => xtLoc d ↦{qT (cC c) i} XT m d)
          ∗ (bigSep Finset.univ fun i : Fin 16 => wLoc d ↦{qT (cC c) i} Wm m d)
          ∗ (bigSep Finset.univ fun i : Fin 16 => oBlocks d (cC c) i (OUT m d))
          ∗ (bigSep Finset.univ fun i : Fin 16 => shLoc d (coreOf c) ↦{shareTok fullShare 16 i} Wsh m d (coreOf c))
          ∗ bigSep Finset.univ fun i : Fin 16 => shLoc d (coreOf c) ↦[pieceSet i]{shareDrop fullShare 16} Wsh m d (coreOf c)) := by
  rw [← bigSep_sep', ← bigSep_sep', ← bigSep_sep', ← bigSep_sep']
  exact bigSep_congr fun i _ => rfl

/-! ## The staged table among the sequencer's own buffers -/

omit [FloatOps F] in
/-- The staged table is one of the sequencer's own buffers: those are it, whole at some contents, and the others. -/
theorem ownBufs_S (d : Dev nD) (c : Fin τ.nSC) :
    (ownBufs (S d c) : sProp 𝕄)
      = iprop((∃ f, shLoc d c ↦{fullShare} f)
          ∗ bigSep ((ownRefs (τ := τ) (.scScalar c)).erase (shRef c)) fun b => iprop(∃ f, ((d, b) : Loc nD τ sig) ↦{fullShare} f)) := by
  unfold SparseCore.Cfg.ownBufs
  exact SparseCore.bigSep_erase' ((mem_ownRefs (p := Proc.scScalar c) (b := shRef c)).mpr rfl)

omit [FloatOps F] in
/-- The staged table whole at some contents is each row range at some contents. -/
theorem sh_pieces_some (d : Dev nD) (c : Fin τ.nSC) (f : Buf (Elt F) (shLoc d c)) :
    (shLoc d c ↦{fullShare} f : sProp 𝕄) ⊢ bigSep Finset.univ fun i : Fin 16 => iprop(∃ g, shLoc d c ↦[pieceSet i]{fullShare} g) := by
  rw [shPts_pieces d c fullShare f]
  exact bigSep_mono fun i _ => BI.BIClass.exists_intro (Φ := fun g => (shLoc d c ↦[pieceSet i]{fullShare} g : sProp 𝕄)) f

omit [FloatOps F] in
/-- Sixteen read tokens of the whole staged table and the sixteen row ranges at the share that remains, all at one
    contents, are the staged table owned outright at that contents. -/
theorem sh_join (d : Dev nD) (c : Fin τ.nSC) (f : Buf (Elt F) (shLoc d c)) :
    iprop((bigSep Finset.univ fun i : Fin 16 => shLoc d c ↦{shareTok fullShare 16 i} f)
        ∗ bigSep Finset.univ fun i : Fin 16 => shLoc d c ↦[pieceSet i]{shareDrop fullShare 16} f)
      ⊢ (shLoc d c ↦{fullShare} f : sProp 𝕄) := by
  rw [← shPts_pieces d c (shareDrop fullShare 16) f]
  iintro ⟨Ht, Hr⟩
  iapply (Transfers.pointsTo_toks_join fullShare 16)
  isplitl [Hr]; · iexact Hr
  iexact Ht

/-! ## The split -/

theorem vecSplit : (K (F := F)).VecSplit (P m) 0 := by
  intro d c
  rw [go_all, td_all, P_st, P_dn, ownBufs_S]
  iintro ⟨⟨Hx, Hw, Ho⟩, ⟨%fsh, Hsh⟩, Hrest⟩
  ihave Hx' := (Transfers.pointsTo_toks_split (qC (cC c)) 16) $$ Hx
  icases Hx' with ⟨Hxr, Hxt⟩
  ihave Hw' := (Transfers.pointsTo_toks_split (qC (cC c)) 16) $$ Hw
  icases Hw' with ⟨Hwr, Hwt⟩
  ihave Hsh' := (sh_pieces_some d (coreOf c) fsh) $$ Hsh
  imodintro
  isplitl [Hxt Hwt Ho Hsh']
  · isplitl [Hxt]; · iexact Hxt
    isplitl [Hwt]; · iexact Hwt
    isplitl [Ho]; · iexact Ho
    iexact Hsh'
  iintro ⟨Hxt, Hwt, Ho, Hst, Hsr⟩
  isplitl [Hxr Hxt Hwr Hwt Ho]
  · isplitl [Hxr Hxt]
    · iapply (Transfers.pointsTo_toks_join (qC (cC c)) 16)
      isplitl [Hxr]; · iexact Hxr
      iexact Hxt
    isplitl [Hwr Hwt]
    · iapply (Transfers.pointsTo_toks_join (qC (cC c)) 16)
      isplitl [Hwr]; · iexact Hwr
      iexact Hwt
    iexact Ho
  isplitl [Hst Hsr]
  · iexists (Wsh m d (coreOf c))
    iapply (sh_join d (coreOf c) (Wsh m d (coreOf c)))
    isplitl [Hst]; · iexact Hst
    iexact Hsr
  iexact Hrest

end Cert.Lookup.KernelIdeal

end
-- ==== Proof.MainI.lean ====
/-
  @main on the TensorCore, and the program's run.

  @main transposes the index array x : [1024, 20] to xT : [20, 1024], starts the two SparseCores on the lookup and waits
  for them, and transposes what they wrote, out : [20, 1024, 128], to the result [1024, 20, 128]. For the call it hands
  each SparseCore a read share of xT and of the table (keeping the remainder of each) and that SparseCore's columns of
  out, block by block; it gets the same back with the blocks at the gathered rows, rejoins the shares and the blocks,
  and the second transpose turns out[j, b, :] = W[xT[j, b], :] into result[b, j, :] = out[j, b, :]. The index array and
  the table are never written: they end as they started.
-/
import proofs.«206460_g62371515072547_cont_9to1_m_307_33_alg».proof.Proof.SplitI

noncomputable section

namespace Cert.Lookup.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

open Idealize.ShloMosaic.StableHlo (held held_split held_sdiff_result wp_hlo_within)

variable (m : (ℓ : Loc nD τ sig) → Buf (Elt F) ℓ) (ρ : Dev nD → PrngReg)
variable [FloatOps F]

/-! ## The result, and the two transposes as operations -/

/-- The program's result: result[b, j, e] = out[j, b, e]. -/
def RES (d : Dev nD) : Buf (Elt F) (rLoc d) :=
  (transpose S1024x20x128 [1, 0, 2] (OUT m d : (⟨S20x1024x128, .f32⟩ : BufTy).Contents (Elt F)) transposes_S20x1024x128_S1024x20x128_1_0_2
    : (⟨S1024x20x128, .f32⟩ : BufTy).Contents (Elt F))

abbrev a' : DevRef τ sig := Proc.devRef .tc (main_arg0 : Ref sig .tc)
abbrev w' : DevRef τ sig := Proc.devRef .tc (main_arg1 : Ref sig .tc)
abbrev xt' : DevRef τ sig := Proc.devRef .tc (main_v0 : Ref sig .tc)
abbrev o' : DevRef τ sig := Proc.devRef .tc (main_v1 : Ref sig .tc)
abbrev r' : DevRef τ sig := Proc.devRef .tc (main_v2 : Ref sig .tc)

abbrev opT1 : HloOp τ sig (Elt F) :=
  StableHlo.unary main_arg0 main_v0 ((transpose S20x1024 [1, 0] · transposes_S1024x20_S20x1024_1_0)
    : (⟨S1024x20, .i32⟩ : BufTy).Contents (Elt F) → (⟨S20x1024, .i32⟩ : BufTy).Contents (Elt F))
abbrev opT2 : HloOp τ sig (Elt F) :=
  StableHlo.unary main_v1 main_v2 ((transpose S1024x20x128 [1, 0, 2] · transposes_S20x1024x128_S1024x20x128_1_0_2)
    : (⟨S20x1024x128, .f32⟩ : BufTy).Contents (Elt F) → (⟨S1024x20x128, .f32⟩ : BufTy).Contents (Elt F))

/-- The TensorCore's arrays, all unscoped: x, W, xT, out, result. -/
abbrev S5 : Finset (DevRef τ sig) := {a', w', xt', o', r'}

omit [FloatOps F] in
theorem held_S5 (d : Dev nD) (W : Valuation τ sig (Elt F)) :
    (held (T d) S5 W : sProp 𝕄) = iprop((aLoc d ↦{fullShare} W a') ∗ (wLoc d ↦{fullShare} W w') ∗ (xtLoc d ↦{fullShare} W xt')
        ∗ (oLoc d ↦{fullShare} W o') ∗ rLoc d ↦{fullShare} W r') := by
  unfold held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (wLoc d ↦{fullShare} W main_arg1) ∗ (xtLoc d ↦{fullShare} W main_v0)
        ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The launch valuation; after the first transpose xT holds the transposed indices; after the call out holds the rows. -/
def V0 (d : Dev nD) : Valuation τ sig (Elt F) := fun b => m (d, b)
def V2 (d : Dev nD) : Valuation τ sig (Elt F) := Function.update (Function.update (V0 m d) xt' (XT m d)) o' (OUT m d)

theorem unscoped_held (d : Dev nD) : (unscopedBufs d (fun b => m ((SparseCore.T d).loc b)) : sProp 𝕄) = held (T d) S5 (V0 m d) := by
  rw [unscopedBufs_eq, held_S5]; rfl

theorem V2_a (d : Dev nD) : V2 m d a' = m (aLoc d) := by
  unfold V2; rw [Function.update_of_ne (show a' ≠ o' by decide), Function.update_of_ne (show a' ≠ xt' by decide)]; rfl
theorem V2_w (d : Dev nD) : V2 m d w' = m (wLoc d) := by
  unfold V2; rw [Function.update_of_ne (show w' ≠ o' by decide), Function.update_of_ne (show w' ≠ xt' by decide)]; rfl
theorem V2_xt (d : Dev nD) : V2 m d xt' = XT m d := by
  unfold V2; rw [Function.update_of_ne (show xt' ≠ o' by decide), Function.update_self]
theorem V2_o (d : Dev nD) : V2 m d o' = OUT m d := by
  unfold V2; rw [Function.update_self]
theorem V2_r (d : Dev nD) : V2 m d r' = m (rLoc d) := by
  unfold V2; rw [Function.update_of_ne (show r' ≠ o' by decide), Function.update_of_ne (show r' ≠ xt' by decide)]; rfl

theorem hT1 : (opT1 (F := F)).bufs ⊆ S5 := show ({a', xt'} : Finset (DevRef τ sig)) ⊆ S5 by decide
theorem hT2 : (opT2 (F := F)).bufs ⊆ S5 := show ({o', r'} : Finset (DevRef τ sig)) ⊆ S5 by decide

/-- After the first transpose: xT holds the transposed indices, the other four what they held. -/
theorem held_T1 (d : Dev nD) :
    (held (T d) S5 ((opT1 (F := F)).result (V0 m d)) : sProp 𝕄)
      = iprop((aLoc d ↦{fullShare} m (aLoc d)) ∗ (wLoc d ↦{fullShare} m (wLoc d)) ∗ (xtLoc d ↦{fullShare} XT m d)
          ∗ (oLoc d ↦{fullShare} m (oLoc d)) ∗ rLoc d ↦{fullShare} m (rLoc d)) := by
  rw [held_S5,
    StableHlo.unary_result_ne _ _ _ _ _ (V0 m d) (show (main_arg0 : Ref sig .tc) ≠ main_v0 by decide),
    StableHlo.unary_result_ne _ _ _ _ _ (V0 m d) (show (main_arg1 : Ref sig .tc) ≠ main_v0 by decide),
    StableHlo.unary_result_ne _ _ _ _ _ (V0 m d) (show (main_v1 : Ref sig .tc) ≠ main_v0 by decide),
    StableHlo.unary_result_ne _ _ _ _ _ (V0 m d) (show (main_v2 : Ref sig .tc) ≠ main_v0 by decide),
    StableHlo.unary_result]
  rfl

theorem held_V2 (d : Dev nD) :
    (held (T d) S5 (V2 m d) : sProp 𝕄)
      = iprop((aLoc d ↦{fullShare} m (aLoc d)) ∗ (wLoc d ↦{fullShare} m (wLoc d)) ∗ (xtLoc d ↦{fullShare} XT m d)
          ∗ (oLoc d ↦{fullShare} OUT m d) ∗ rLoc d ↦{fullShare} m (rLoc d)) := by
  rw [held_S5, V2_a, V2_w, V2_xt, V2_o, V2_r]

/-- After the second transpose: the result holds out transposed, the other four what they held. -/
theorem held_T2 (d : Dev nD) :
    (held (T d) S5 ((opT2 (F := F)).result (V2 m d)) : sProp 𝕄)
      = iprop((aLoc d ↦{fullShare} m (aLoc d)) ∗ (wLoc d ↦{fullShare} m (wLoc d)) ∗ (xtLoc d ↦{fullShare} XT m d)
          ∗ (oLoc d ↦{fullShare} OUT m d) ∗ rLoc d ↦{fullShare} RES m d) := by
  rw [held_S5,
    StableHlo.unary_result_ne _ _ _ _ _ (V2 m d) (show (main_arg0 : Ref sig .tc) ≠ main_v2 by decide),
    StableHlo.unary_result_ne _ _ _ _ _ (V2 m d) (show (main_arg1 : Ref sig .tc) ≠ main_v2 by decide),
    StableHlo.unary_result_ne _ _ _ _ _ (V2 m d) (show (main_v0 : Ref sig .tc) ≠ main_v2 by decide),
    StableHlo.unary_result_ne _ _ _ _ _ (V2 m d) (show (main_v1 : Ref sig .tc) ≠ main_v2 by decide),
    StableHlo.unary_result, V2_a, V2_w, V2_xt]
  rw [show V2 m d (Proc.devRef .tc (main_v1 : Ref sig .tc)) = OUT m d from V2_o m d]
  rfl

/-! ## What the call takes for the two SparseCores, and what it hands back -/

theorem st_all (d : Dev nD) :
    (bigSep Finset.univ fun c : Fin ((K (F := F)).nCore 0) => (P m).st 0 d c)
      = iprop((bigSep Finset.univ fun c : Fin 2 => xtLoc d ↦{qC c} XT m d)
          ∗ (bigSep Finset.univ fun c : Fin 2 => wLoc d ↦{qC c} Wm m d)
          ∗ bigSep Finset.univ fun c : Fin 2 => bigSep Finset.univ fun s : Fin 16 => oBlocks d c s (m (oLoc d))) := by
  rw [← bigSep_sep', ← bigSep_sep']
  exact bigSep_congr fun c _ => rfl
theorem dn_all (d : Dev nD) :
    (bigSep Finset.univ fun c : Fin ((K (F := F)).nCore 0) => (P m).dn 0 d c)
      = iprop((bigSep Finset.univ fun c : Fin 2 => xtLoc d ↦{qC c} XT m d)
          ∗ (bigSep Finset.univ fun c : Fin 2 => wLoc d ↦{qC c} Wm m d)
          ∗ bigSep Finset.univ fun c : Fin 2 => bigSep Finset.univ fun s : Fin 16 => oBlocks d c s (OUT m d)) := by
  rw [← bigSep_sep', ← bigSep_sep']
  exact bigSep_congr fun c _ => rfl

/-! ## @main -/

/-- What @main leaves the claim: the index array and the table at their launch contents, the result at `RES`. -/
abbrev FIN (d : Dev nD) : sProp 𝕄 :=
  iprop((aLoc d ↦{fullShare} m (aLoc d)) ∗ (wLoc d ↦{fullShare} m (wLoc d)) ∗ rLoc d ↦{fullShare} RES m d)

/-- @main on device d's TensorCore: the first transpose; the call, from read shares of xT and the table and the blocks
    of out; the second transpose, of out at the gathered rows. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the first transpose
  iapply (wp_hlo_within 𝒱 (SparseCore.T d) none Set.univ (op := opT1) (S := S5) hT1 (V := V0 m d)) $$ [Hb Hheld]
  · isplitl [Hb]; · iexact Hb
    iexact Hheld
  iintro ⟨Hb, Hheld⟩
  ihave Hh := (Entails.of_eq (held_T1 m d)) $$ Hheld
  icases Hh with ⟨Ha, Hw, Hxt, Ho, Hr⟩
  rw [wp_ret]; imodintro
  -- the read shares and the blocks
  ihave Hxt' := (Transfers.pointsTo_toks_split fullShare 2) $$ Hxt
  icases Hxt' with ⟨Hxtr, Hxtt⟩
  ihave Hw' := (Transfers.pointsTo_toks_split fullShare 2) $$ Hw
  icases Hw' with ⟨Hwr, Hwt⟩
  ihave Ho' := (Entails.of_eq (oPts_blocks d (m (oLoc d)))) $$ Ho
  -- the call
  iapply ((K (F := F)).wp_run (D (F := F)) 𝒱 (EH := EH) (P := P m) κ d 0) $$ [Hst Hxtt Hwt Ho' Hb Ha Hr Hxtr Hwr]
  isplitr; · iexact Hctx
  isplitl [Hst]; · iexact Hst
  isplitl [Hxtt Hwt Ho']
  · rw [st_all]
    isplitl [Hxtt]; · iexact Hxtt
    isplitl [Hwt]; · iexact Hwt
    iexact Ho'
  iintro ⟨Hst, Hdn⟩
  ihave Hdn' := (Entails.of_eq (dn_all m d)) $$ Hdn
  icases Hdn' with ⟨Hxtt, Hwt, Ho'⟩
  ihave Hxt := (Transfers.pointsTo_toks_join fullShare 2) $$ [Hxtr Hxtt]
  · isplitl [Hxtr]; · iexact Hxtr
    iexact Hxtt
  ihave Hw := (Transfers.pointsTo_toks_join fullShare 2) $$ [Hwr Hwt]
  · isplitl [Hwr]; · iexact Hwr
    iexact Hwt
  ihave Ho := (Entails.of_eq (oPts_blocks d (OUT m d)).symm) $$ Ho'
  -- the second transpose
  iapply (wp_hlo_within 𝒱 (SparseCore.T d) none Set.univ (op := opT2) (S := S5) hT2 (V := V2 m d)) $$ [Hb Ha Hw Hxt Ho Hr]
  · isplitl [Hb]; · iexact Hb
    rw [held_V2]
    isplitl [Ha]; · iexact Ha
    isplitl [Hw]; · iexact Hw
    isplitl [Hxt]; · iexact Hxt
    isplitl [Ho]; · iexact Ho
    iexact Hr
  iintro ⟨Hb, Hheld⟩
  ihave Hh := (Entails.of_eq (held_T2 m d)) $$ Hheld
  icases Hh with ⟨Ha, Hw, -, -, Hr⟩
  rw [wp_ret]; imodintro; imodintro
  isplitl [Hst]; · iexact Hst
  isplitl [Ha]; · iexact Ha
  isplitl [Hw]; · iexact Hw
  iexact Hr

/-! ## The final memory reads the claim -/

def fq (d : Dev nD) (s' : Phys nD τ sig (Elt F)) : Prop :=
  s'.mem.mem (aLoc d) = m (aLoc d) ∧ s'.mem.mem (wLoc d) = m (wLoc d) ∧ s'.mem.mem (rLoc d) = RES m d

theorem hfin (d : Dev nD) (s' : Phys nD τ sig (Elt F)) : iprop(FIN m d ∗ SI s') ⊢ (⌜fq m d s'⌝ : sProp 𝕄) := by
  iintro ⟨⟨Ha, Hw, Hr⟩, HSI⟩
  icombine HSI Ha gives %ha
  icombine HSI Hw gives %hw
  icombine HSI Hr gives %hr
  ipureintro
  exact ⟨funext fun i => ha i (Finset.mem_univ i), funext fun i => hw i (Finset.mem_univ i), funext fun i => hr i (Finset.mem_univ i)⟩

/-! ## The program's run -/

/-- The run's post: on every device the index array and the table unchanged, the result the transposed gathered rows. -/
def QC : PUnit × MemSt nD τ sig (Elt F) → Prop := fun r =>
  ∀ c : Dev nD, r.2.mem (aLoc c) = m (aLoc c) ∧ r.2.mem (wLoc c) = m (wLoc c) ∧ r.2.mem (rLoc c) = RES m c

/-- The program's run, from a vector subcore's task (`htile`) and the launch element (`hu`) of a ghost state `u₀`. -/
theorem run_main [∀ e, Nonempty (Elt F e)] (u₀ : UU)
    (htile : (K (F := F)).TileObl (D (F := F)) 𝒱 (P m) v₀ 0)
    (hu : iprop(ownU u₀ ∗ (P (F := F) m).oxCred ∗ (K (F := F)).freeSems0)
      ⊢ |={Set.univ}=> iprop(BI.own (EH (initOf (K (F := F)).hsCells (K (F := F)).hsToks)) ∗ (bigSep Finset.univ fun _ : Dev nD => iprop(emp))
          ∗ (bigSep Finset.univ fun thr : Thread nD τ => bigSep Finset.univ fun q : Fin 1 => (P m).x q thr) : sProp 𝕄)) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => vecSplit m)
    m ρ main (fun _ => iprop(emp)) (FIN m) u₀ hu (hmain m ρ) (fq m) (hfin m) (QC m) (fun _ h => h)

end Cert.Lookup.KernelIdeal

end
-- ==== Proof.FrameI.lean ====
/-
  The kernel program's frame: under the precondition every weakly fair execution of the device's threads terminates,
  nothing faulting, and the index array and the table end as they started.

  The precondition says that every index, read as a signed 32-bit integer, lies in [0, 999]; such a word read unsigned is
  below 1000, which is what every subcore's indexed copy needs of the indices it reads. The frame is then the
  program's run, which names all three arrays at the end, with the result dropped.
-/
import proofs.«206460_g62371515072547_cont_9to1_m_307_33_alg».proof.Defs
import proofs.«206460_g62371515072547_cont_9to1_m_307_33_alg».proof.Proof.Gen.Pre_input_domain
import proofs.«206460_g62371515072547_cont_9to1_m_307_33_alg».proof.Proof.PreFacts
import proofs.«206460_g62371515072547_cont_9to1_m_307_33_alg».proof.Proof.ValI
import proofs.«206460_g62371515072547_cont_9to1_m_307_33_alg».proof.Proof.ElemI
import proofs.«206460_g62371515072547_cont_9to1_m_307_33_alg».proof.Proof.MainI

noncomputable section

namespace Cert.Lookup.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.Sem

/-- The float instance this program is claimed at. -/
abbrev FI : FTy → Type := Ideal

/-- The precondition gives the index range: every index word names a row of the table. -/
theorem ok_of_pre (m : (ℓ : Loc nD τ sig) → Buf (Elt FI) ℓ) (hpre : Cert.Pre_KernelIdeal m) : PreOK m :=
  fun d j => Cert.Lookup.PreFacts.idx_lt_of_pre _ _ (hpre d) j

/-- The frame, from a vector subcore's task proved under the index range. -/
theorem frame
    (htile : ∀ m : (ℓ : Loc nD τ sig) → Buf (Elt FI) ℓ, PreOK m → (K (F := FI)).TileObl (D (F := FI)) 𝒱 (P m) v₀ 0) :
    Cert.frame_KernelIdeal :=
  fun m ρ hpre => (θ_run Cert.KernelIdeal.defs _ _).mono (fun _ h c => ⟨(h c).1, (h c).2.1⟩)
    (run_main (F := FI) m ρ (u₀ (F := FI)) (htile m (ok_of_pre m hpre)) (hu₀ m))

end Cert.Lookup.KernelIdeal

end
-- ==== Proof.RefValue.lean ====
import proofs.«206460_g62371515072547_cont_9to1_m_307_33_alg».proof.Defs
import proofs.«206460_g62371515072547_cont_9to1_m_307_33_alg».proof.Proof.Gen.ReferenceIdeal.Run
import proofs.«206460_g62371515072547_cont_9to1_m_307_33_alg».proof.Proof.Gen.ReferenceIdeal.Read
import Idealize.ShloMosaic.Lib.ValueIdx
import Idealize.ShloMosaic.Lib.Affine

/-!
# The reference's value: a table lookup

The reference multiplies the one-hot encoding of the index array by the table:
`out[b, p, e] = ∑ k < 1000, onehot(x[b, p])[k] * W[k, e]`, where `onehot(v)[k]` is the conversion to a
float of the one-bit word `v == k`. At the ideal instance that conversion is exactly `1` or `0`, so the sum has
at most one nonzero term: it is `W[x[b, p], e]` when the index read unsigned is below 1000, and `0` otherwise
(no `k < 1000` matches). No finiteness of `W` is needed: `0 * w = 0` and `1 * w = w` hold for every extended real.
-/

noncomputable section

namespace Cert.Lookup.RefValue

open Cert.ReferenceIdeal Cert.ReferenceIdeal.Read Idealize.ShloMosaic Idealize.ShloMosaic.ValueIdx

/-- The one-bit word the reference's comparison produces at `(b, p, k)`: the index `x[b, p]` compared for
    equality with the 32-bit word of `k`. -/
theorem onehot_word (x0 : (⟨S1024x20, .i32⟩ : BufTy).Contents (Elt Ideal)) (i : S1024x20x1000.Idx) :
    val_main_call0_v4 (F := Ideal) x0 i
      = IntOp.cmpi .eq (x0 (ix2 (i 0) (i 1))) (BitVec.ofNat 32 (i 2).val) := by
  have e : idx_main_call0_v0 (idx_main_call0_v2 i) = ix2 (i 0) (i 1) := by
    funext a; match a with | ⟨0, _⟩ => rfl | ⟨1, _⟩ => rfl
  rw [val_main_call0_v4_apply, val_main_call0_v2_apply, val_main_call0_v0_apply, val_main_call0_v3_apply,
    val_main_call0_v1_apply, e]
  rfl

/-- The one-hot entry at `(b, p, k)` is `1` when `x[b, p]` is the word of `k` and `0` otherwise. -/
theorem onehot_apply (x0 : (⟨S1024x20, .i32⟩ : BufTy).Contents (Elt Ideal)) (i : S1024x20x1000.Idx) :
    val_main_v0 (F := Ideal) x0 i
      = if x0 (ix2 (i 0) (i 1)) = BitVec.ofNat 32 (i 2).val then (1 : EReal) else 0 := by
  rw [val_main_v0_apply, onehot_word]
  by_cases h : x0 (ix2 (i 0) (i 1)) = BitVec.ofNat 32 (i 2).val
  · rw [if_pos h, IntOp.cmpi_eq.2 h]
    show (((1#1 : BitVec 1).toNat : ℝ) : EReal) = 1
    norm_num
  · rw [if_neg h]
    have h0 : IntOp.cmpi .eq (x0 (ix2 (i 0) (i 1))) (BitVec.ofNat 32 (i 2).val) = 0#1 := by
      have hne : IntOp.cmpi .eq (x0 (ix2 (i 0) (i 1))) (BitVec.ofNat 32 (i 2).val) ≠ 1#1 :=
        fun hh => h (IntOp.cmpi_eq.1 hh)
      revert hne
      generalize IntOp.cmpi .eq (x0 (ix2 (i 0) (i 1))) (BitVec.ofNat 32 (i 2).val) = c
      revert c; decide
    rw [h0]
    show (((0#1 : BitVec 1).toNat : ℝ) : EReal) = 0
    norm_num

/-- The table row the reference selects: `W[x[b, p], e]` when the index, read unsigned, is below 1000, and `0`
    otherwise. -/
def Gref (x0 : (⟨S1024x20, .i32⟩ : BufTy).Contents (Elt Ideal)) (x1 : (⟨S1000x128, .f32⟩ : BufTy).Contents (Elt Ideal)) :
    (⟨S1024x20x128, .f32⟩ : BufTy).Contents (Elt Ideal) := fun i =>
  if h : (x0 (ix2 (i 0) (i 1))).toNat < 1000 then x1 (ix2 ⟨(x0 (ix2 (i 0) (i 1))).toNat, h⟩ (i 2)) else 0

/-- A 32-bit word equals the word of `k < 1000` exactly when its unsigned value is `k`. -/
theorem eq_ofNat_iff (v : BitVec 32) (k : Fin 1000) : v = BitVec.ofNat 32 k.val ↔ v.toNat = k.val := by
  constructor
  · intro h; rw [h, BitVec.toNat_ofNat]; have := k.isLt; omega
  · intro h; rw [← h, BitVec.ofNat_toNat, BitVec.setWidth_eq]

/-- The reference's result at an index: the selected table row's entry. -/
theorem ref_apply (x0 : (⟨S1024x20, .i32⟩ : BufTy).Contents (Elt Ideal)) (x1 : (⟨S1000x128, .f32⟩ : BufTy).Contents (Elt Ideal))
    (i : S1024x20x128.Idx) :
    val_main_v1 (F := Ideal) x0 x1 i
      = if h : (x0 (ix2 (i 0) (i 1))).toNat < 1000 then x1 (ix2 ⟨(x0 (ix2 (i 0) (i 1))).toNat, h⟩ (i 2)) else 0 := by
  rw [val_main_v1_apply]
  have er : ∀ k : Fin 1000, ridx_main_v1 i k = ix2 k (i 2) := fun k => by
    funext a; match a with | ⟨0, _⟩ => rfl | ⟨1, _⟩ => rfl
  have term : ∀ k : Fin 1000, val_main_v0 (F := Ideal) x0 (lidx_main_v1 i k) * x1 (ridx_main_v1 i k)
      = if (x0 (ix2 (i 0) (i 1))).toNat = k.val then x1 (ix2 k (i 2)) else 0 := fun k => by
    rw [onehot_apply, er]
    show (if x0 (ix2 (i 0) (i 1)) = BitVec.ofNat 32 k.val then (1 : EReal) else 0) * x1 (ix2 k (i 2)) = _
    by_cases hk : (x0 (ix2 (i 0) (i 1))).toNat = k.val
    · rw [if_pos ((eq_ofNat_iff _ k).2 hk), if_pos hk, one_mul]
    · rw [if_neg (fun hh => hk ((eq_ofNat_iff _ k).1 hh)), if_neg hk, zero_mul]
  simp only [term]
  by_cases h : (x0 (ix2 (i 0) (i 1))).toNat < 1000
  · rw [dif_pos h, Finset.sum_eq_single (⟨(x0 (ix2 (i 0) (i 1))).toNat, h⟩ : Fin 1000)]
    · rw [if_pos rfl]
    · intro k _ hk
      rw [if_neg (fun hh => hk (Fin.ext hh.symm))]
    · intro hn; exact absurd (Finset.mem_univ _) hn
  · rw [dif_neg h]
    refine Finset.sum_eq_zero fun k _ => ?_
    rw [if_neg (fun hh => h (by rw [hh]; exact k.isLt))]

/-- The reference's whole result array is the lookup `Gref`. -/
theorem ref_eq (x0 : (⟨S1024x20, .i32⟩ : BufTy).Contents (Elt Ideal)) (x1 : (⟨S1000x128, .f32⟩ : BufTy).Contents (Elt Ideal)) :
    val_main_v1 (F := Ideal) x0 x1 = Gref x0 x1 := funext fun i => ref_apply x0 x1 i

end Cert.Lookup.RefValue

end
-- ==== Proof.ValueI.lean ====
/-
  The value: what the kernel program leaves in its result is the reference's value.

  The program's result is out transposed, result[b, j, e] = out[j, b, e]; out holds the gathered rows,
  out[j, b, e] = W[xT[j, b] mod 1000, e]; and xT is the index array transposed, xT[j, b] = x[b, j]. So
  result[b, j, e] = W[x[b, j] mod 1000, e]. When every index, read unsigned, is below 1000 the reduction is exact, and
  this is the reference's value at (b, j, e): the row of the table the index names.
-/
import proofs.«206460_g62371515072547_cont_9to1_m_307_33_alg».proof.Proof.MainI
import proofs.«206460_g62371515072547_cont_9to1_m_307_33_alg».proof.Proof.RefValue
import proofs.«206460_g62371515072547_cont_9to1_m_307_33_alg».proof.Proof.HostOps

noncomputable section

namespace Cert.Lookup.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

open Idealize.ShloMosaic.ValueIdx

/-- A word below 1000 names the row of its unsigned value. -/
theorem rowIx_val (w : BitVec 32) (h : w.toNat < 1000) : rowIx w = ⟨w.toNat, h⟩ := Fin.ext (Nat.mod_eq_of_lt h)

section Generic

variable (m : (ℓ : Loc nD τ sig) → Buf (Elt F) ℓ)
variable [FloatOps F]

/-- The transposed indices at (j, b) are the index array at (b, j). -/
theorem XT_apply (d : Dev nD) (j : Fin 20) (b : Fin 1024) :
    (XT m d : (⟨S20x1024, .i32⟩ : BufTy).Contents (Elt F)) (ix2 j b)
      = (m (aLoc d) : (⟨S1024x20, .i32⟩ : BufTy).Contents (Elt F)) (ix2 b j) := by
  unfold XT
  exact Cert.Lookup.HostOps.transpose_idx_apply _ _ j b

/-- The program's result at (b, j, e): the table's row named by x[b, j] (modulo the table's height), at lane e. -/
theorem RES_apply (d : Dev nD) (i : S1024x20x128.Idx) :
    (RES m d : (⟨S1024x20x128, .f32⟩ : BufTy).Contents (Elt F)) i
      = (m (wLoc d) : (⟨S1000x128, .f32⟩ : BufTy).Contents (Elt F))
          (ix2 (rowIx ((m (aLoc d) : (⟨S1024x20, .i32⟩ : BufTy).Contents (Elt F)) (ix2 (n0 := 1024) (n1 := 20) (i 0) (i 1)))) (i 2)) := by
  have h1 : (RES m d : (⟨S1024x20x128, .f32⟩ : BufTy).Contents (Elt F)) i
      = (OUT m d : (⟨S20x1024x128, .f32⟩ : BufTy).Contents (Elt F)) (ix3 (n0 := 20) (n1 := 1024) (n2 := 128) (i 1) (i 0) (i 2)) := by
    unfold RES
    exact Cert.Lookup.HostOps.transpose_rows_apply' _ _ i
  have h2 := XT_apply m d (i 1) (i 0)
  rw [h1]
  unfold OUT
  show (m (wLoc d) : (⟨S1000x128, .f32⟩ : BufTy).Contents (Elt F))
      (ix2 (rowIx ((XT m d : (⟨S20x1024, .i32⟩ : BufTy).Contents (Elt F)) (ix2 (n0 := 20) (n1 := 1024) (i 1) (i 0)))) (i 2)) = _
  rw [h2]

end Generic

/-! ## At the ideal instance, against the reference -/

variable (m : (ℓ : Loc nD τ sig) → Buf (Elt Ideal) ℓ)

/-- Under the index range, the program's result is the reference's lookup. -/
theorem RES_eq_Gref (d : Dev nD)
    (hx : ∀ j : S1024x20.Idx, ((m (aLoc d) : (⟨S1024x20, .i32⟩ : BufTy).Contents (Elt Ideal)) j).toNat < 1000) :
    (RES m d : (⟨S1024x20x128, .f32⟩ : BufTy).Contents (Elt Ideal))
      = Cert.Lookup.RefValue.Gref (m (aLoc d) : (⟨S1024x20, .i32⟩ : BufTy).Contents (Elt Ideal))
          (m (wLoc d) : (⟨S1000x128, .f32⟩ : BufTy).Contents (Elt Ideal)) := by
  funext i
  refine (RES_apply m d i).trans ?_
  unfold Cert.Lookup.RefValue.Gref
  dsimp only
  rw [dif_pos (hx _), rowIx_val _ (hx _)]

/-- Under the index range, the program's result is the value the reference program computes. -/
theorem RES_eq_ref (d : Dev nD)
    (hx : ∀ j : S1024x20.Idx, ((m (aLoc d) : (⟨S1024x20, .i32⟩ : BufTy).Contents (Elt Ideal)) j).toNat < 1000) :
    (RES m d : (⟨S1024x20x128, .f32⟩ : BufTy).Contents (Elt Ideal))
      = Cert.ReferenceIdeal.Read.val_main_v1 (F := Ideal) (m (aLoc d) : (⟨S1024x20, .i32⟩ : BufTy).Contents (Elt Ideal))
          (m (wLoc d) : (⟨S1000x128, .f32⟩ : BufTy).Contents (Elt Ideal)) :=
  (RES_eq_Gref m d hx).trans (Cert.Lookup.RefValue.ref_eq _ _).symm

end Cert.Lookup.KernelIdeal

end
-- ==== Proof.AssembleI.lean ====
/-
  The reference's frame, and the algebraic claim: at the ideal instance the kernel program and the reference, run from
  memories that agree on the index array and the table, end with equal results.

  The reference's run ends with its result at the one-hot encoding of the indices contracted with the table, its
  arguments unchanged; that term is, under the index range the precondition gives, the table's row each index names.
  The kernel program's run ends with its result at the gathered rows transposed, which is the same array. So both
  runs' results are stated at one witness, the kernel's.
-/
import proofs.«206460_g62371515072547_cont_9to1_m_307_33_alg».proof.Proof.FrameI
import proofs.«206460_g62371515072547_cont_9to1_m_307_33_alg».proof.Proof.ValueI

noncomputable section

namespace Cert.Lookup.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.Sem

/-- The reference's frame: its run with the result dropped. -/
theorem frame_RI : Cert.frame_ReferenceIdeal :=
  fun m ρ _ => (θ_run Cert.ReferenceIdeal.defs _ _).mono (fun _ h c => (h c).2) (Cert.ReferenceIdeal.Value.run (F := Ideal) m ρ)

/-- The kernel program and the reference end with equal results, from a vector subcore's task proved under the
    index range. -/
theorem algebraic
    (htile : ∀ m : (ℓ : Loc nD τ sig) → Buf (Elt Ideal) ℓ, PreOK m → (K (F := Ideal)).TileObl (D (F := Ideal)) 𝒱 (P m) v₀ 0) :
    Cert.algebraic_KernelIdeal_ReferenceIdeal :=
  fun m ρ m' ρ' hpre hagree =>
    ⟨fun c => RES m c,
      (θ_run Cert.KernelIdeal.defs _ _).mono (fun _ h c => ⟨(h c).2.2, (h c).1, (h c).2.1⟩)
        (run_main (F := Ideal) m ρ (u₀ (F := Ideal)) (htile m (ok_of_pre m hpre)) (hu₀ m)),
      (θ_run Cert.ReferenceIdeal.defs _ _).mono
        (fun _ h c => ⟨(h c).1.trans (by
            rw [(hagree c).1, (hagree c).2]
            exact (RES_eq_ref m c (ok_of_pre m hpre c)).symm), (h c).2⟩)
        (Cert.ReferenceIdeal.Value.run (F := Ideal) m' ρ')⟩

end Cert.Lookup.KernelIdeal

end
-- ==== Proof.lean ====
/-
  The proof of `Cert.Claim`: the three frames, the idealization's preservation, and the algebraic equality.

  The kernel program is an embedding lookup on the two SparseCores: out[b, p, :] = W[x[b, p], :] for an index array
  x : [1024, 20] and a table W : [1000, 128]. @main transposes the indices, has the thirty-two vector subcores gather the
  rows (each SparseCore first stages the table in its shared memory, sixteen row ranges copied by its sixteen subcores
  and exchanged at the subcore barrier), and transposes the gathered rows back. The reference multiplies the one-hot
  encoding of the indices by the table.

  Under the precondition every index, read as a signed integer, lies in [0, 999], so read unsigned it names a row of the
  table. Then every indexed copy of every subcore is in range and the program's run ends, on every device, with the
  index array and the table unchanged and the result at the table's rows the indices name: the frames of the program as
  printed and of its idealization are that run with the result dropped. The reference's frame is its run with the
  result dropped. At the ideal instance the one-hot sum has at most one nonzero term, the named row's entry, so the
  reference's result is the same array and the two runs are stated at one witness. The idealization rewrote no
  operation, so its preservation claim is trivial.
-/
import proofs.«206460_g62371515072547_cont_9to1_m_307_33_alg».proof.Defs
import proofs.«206460_g62371515072547_cont_9to1_m_307_33_alg».proof.Proof.Gen.Kernel
import proofs.«206460_g62371515072547_cont_9to1_m_307_33_alg».proof.Proof.Gen.Kernel.Skeleton
import proofs.«206460_g62371515072547_cont_9to1_m_307_33_alg».proof.Proof.Gen.KernelIdeal
import proofs.«206460_g62371515072547_cont_9to1_m_307_33_alg».proof.Proof.Gen.KernelIdeal.Skeleton
import proofs.«206460_g62371515072547_cont_9to1_m_307_33_alg».proof.Proof.Gen.ReferenceIdeal
import proofs.«206460_g62371515072547_cont_9to1_m_307_33_alg».proof.Proof.Gen.Pre_input_domain
import Idealize.ShloMosaic.Adequacy
import Idealize.ShloMosaic.Init
import proofs.«206460_g62371515072547_cont_9to1_m_307_33_alg».proof.Proof.TileI
import proofs.«206460_g62371515072547_cont_9to1_m_307_33_alg».proof.Proof.TileB
import proofs.«206460_g62371515072547_cont_9to1_m_307_33_alg».proof.Proof.FrameB
import proofs.«206460_g62371515072547_cont_9to1_m_307_33_alg».proof.Proof.AssembleI

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_input_domain.Gen.facts,
    Cert.Lookup.Kernel.frame (fun m h => Cert.Lookup.Kernel.tileObl m h),
    Cert.Lookup.KernelIdeal.frame (fun m h => Cert.Lookup.KernelIdeal.tileObl m h),
    Cert.Lookup.KernelIdeal.frame_RI,
    trivial,
    Cert.Lookup.KernelIdeal.algebraic (fun m h => Cert.Lookup.KernelIdeal.tileObl m h)⟩

end Cert.Proof

end
